-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000 : Shape := ⟨1, ![100000]⟩
abbrev S3x128 : Shape := ⟨2, ![3, 128]⟩
abbrev S_ : Shape := ⟨0, ![]⟩

class Facts : Prop where
  bcast_S_S3x128 : S_.BroadcastsInDim S3x128 (![] : Fin 0 → Fin S3x128.rank)
  reducesTo_S3x128_S_d0_1 : S3x128.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S100000 32) (main_arg1 : FVec F S3x128 .f32) : IVec S_ 1 :=
  let main_v0 : FVec F S3x128 .f32 := Host.absf main_arg1
  let main_cst : FVec F S_ .f32 := constant S_ .f32 0x7F800000#32
  let main_v1 : FVec F S3x128 .f32 := broadcastInDim S3x128 ![] bcast_S_S3x128 main_cst
  let main_v2 : IVec S3x128 1 := cmpf .olt main_v0 main_v1
  let main_c : IVec S_ 1 := constantI S_ 1 1#1
  let main_v3 : IVec S_ 1 := (fun x v => Host.reduce IntOp.andi x v reducesTo_S3x128_S_d0_1 h_S_) main_v2 main_c
  let main_c_0 : IVec S_ 32 := constantI S_ 32 0#32
  let main_v4 : IVec S100000 32 := broadcastInDim S100000 ![] bcast_S_S100000 main_c_0
  let main_v5 : IVec S100000 1 := cmpi .sge main_arg0 main_v4
  let main_c_1 : IVec S_ 32 := constantI S_ 32 2#32
  let main_v6 : IVec S100000 32 := broadcastInDim S100000 ![] bcast_S_S100000 main_c_1
  let main_v7 : IVec S100000 1 := cmpi .sle main_arg0 main_v6
  let main_v8 : IVec S100000 1 := andi main_v5 main_v7
  let main_c_2 : IVec S_ 1 := constantI S_ 1 1#1
  let main_v9 : IVec S_ 1 := (fun x v => Host.reduce IntOp.andi x v reducesTo_S100000_S_d0 h_S_) main_v8 main_c_2
  let main_v10 : IVec S_ 1 := andi main_v3 main_v9
  main_v10
-- ==== Kernel.lean ====
abbrev S100000 : Shape := ⟨1, ![100000]⟩
abbrev S3x128 : Shape := ⟨2, ![3, 128]⟩
abbrev S250x1x400 : Shape := ⟨3, ![250, 1, 400]⟩
abbrev S100000x128 : Shape := ⟨2, ![100000, 128]⟩
abbrev S_ : Shape := ⟨0, ![]⟩
abbrev S2x1x1x400 : Shape := ⟨4, ![2, 1, 1, 400]⟩
abbrev S2 : Shape := ⟨1, ![2]⟩
abbrev S2x400x128 : Shape := ⟨3, ![2, 400, 128]⟩
abbrev S1x1x1x400 : Shape := ⟨4, ![1, 1, 1, 400]⟩
abbrev S1x1x400 : Shape := ⟨3, ![1, 1, 400]⟩
abbrev S1 : Shape := ⟨1, ![1]⟩
abbrev S1x400x128 : Shape := ⟨3, ![1, 400, 128]⟩
abbrev S400x128 : Shape := ⟨2, ![400, 128]⟩
abbrev S400 : Shape := ⟨1, ![400]⟩

abbrev nBuf : Table → Nat
  | .hbm => 4
  | .shared => 1
  | .local .scVector .vmem => 2
  | _ => 0

abbrev bufTy : (tb : Table) → Fin (nBuf tb) → BufTy
  | .hbm, ⟨0, _⟩ => ⟨S100000, .i32⟩
  | .hbm, ⟨1, _⟩ => ⟨S3x128, .f32⟩
  | .hbm, ⟨2, _⟩ => ⟨S250x1x400, .i32⟩
  | .hbm, ⟨3, _⟩ => ⟨S100000x128, .f32⟩
  | .shared, ⟨0, _⟩ => ⟨S3x128, .f32⟩
  | .local .scVector .vmem, ⟨0, _⟩ => ⟨S2x1x1x400, .i32⟩
  | .local .scVector .vmem, ⟨1, _⟩ => ⟨S2x400x128, .f32⟩
  | _, _ => ⟨S100000, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 5 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.shared, 0, rfl⟩
abbrev cc0_scoped1 : Ref sig .scVector := ⟨.vmem, 0, rfl⟩
abbrev cc0_scoped3 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v14 : BitVec 32 := Scalar.muli c1_i32_5 v8
  let c0_i32_7_r1 : BitVec 32 := 0#32
  let v17_r1 : BitVec 1 := Scalar.cmpi .sgt v14 c0_i32_7_r1
  let v18_r1 : BitVec 32 := Scalar.extui v17_r1
  let c0_i32_8_r1 : BitVec 32 := 0#32
  let v19_r1 : BitVec 1 := Scalar.cmpi .ne v18_r1 c0_i32_8_r1
  v19_r1

def k0_off1 : Fin 4 → Nat :=
  let c0_i32_23_r1 : BitVec 32 := 0#32
  let c2_i32_r1 : BitVec 32 := 2#32
  let v38_r1 : BitVec 32 := Scalar.remui c0_i32_23_r1 c2_i32_r1
  let c0_i32_25_r1 : BitVec 32 := 0#32
  let c0_i32_26_r1 : BitVec 32 := 0#32
  let c0_i32_27_r1 : BitVec 32 := 0#32
  ![v38_r1.toNat, 0, 0, 0]
def k0_off2 (i : grid0.Coords) : Fin 3 → Nat :=
  let c1_i32_24_r1 : BitVec 32 := 1#32
  let c0_i32_12_r1 : BitVec 32 := 0#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v23_r1 : BitVec 32 := Scalar.addi c0_i32_12_r1 v13
  let v39_r1 : BitVec 32 := Scalar.muli c1_i32_24_r1 v23_r1
  let c0_i32_28_r1 : BitVec 32 := 0#32
  let c0_i32_29_r1 : BitVec 32 := 0#32
  ![v39_r1.toNat, 0, 0]
def k0_off3 : Fin 1 → Nat :=
  let c0_i32_23_r1 : BitVec 32 := 0#32
  let c2_i32_r1 : BitVec 32 := 2#32
  let v38_r1 : BitVec 32 := Scalar.remui c0_i32_23_r1 c2_i32_r1
  ![v38_r1.toNat]
@[reducible] def k0_t1_loop (i : grid0.Coords) : Scf.Loop 32 :=
  let c0_i32_37_r1 : BitVec 32 := 0#32
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v14 : BitVec 32 := Scalar.muli c1_i32_5 v8
  let v49_r1 : BitVec 32 := Scalar.subi v14 c0_i32_37_r1
  let c1_i32_42_r1 : BitVec 32 := 1#32
  let v51_r1 : BitVec 32 := Scalar.divsi v49_r1 c1_i32_42_r1
  let v52_r1 : BitVec 32 := Scalar.muli v51_r1 c1_i32_42_r1
  let v53_r1 : BitVec 32 := Scalar.addi c0_i32_37_r1 v52_r1
  let c1_i32_43_r1 : BitVec 32 := 1#32
  ⟨c0_i32_37_r1, v53_r1, c1_i32_43_r1⟩
def k0_off4 (arg7_r1 : BitVec 32) : Fin 4 → Nat :=
  let c2_i32_112_r1 : BitVec 32 := 2#32
  let v175_r1 : BitVec 32 := Scalar.remui arg7_r1 c2_i32_112_r1
  let c0_i32_114_r1 : BitVec 32 := 0#32
  let c0_i32_115_r1 : BitVec 32 := 0#32
  let c0_i32_116_r1 : BitVec 32 := 0#32
  ![v175_r1.toNat, 0, 0, 0]
def k0_cond3 (i : grid0.Coords) (k0_t1 : Fin (k0_t1_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_73_r1 : BitVec 1 := 1#1
  let c1_i32_72_r1 : BitVec 32 := 1#32
  let v98_r1 : BitVec 32 := Scalar.addi arg11_r1 c1_i32_72_r1
  let v99_r1 : BitVec 32 := Scalar.select true_73_r1 v98_r1 arg11_r1
  let v100_r1 : BitVec 1 := Scalar.cmpi .eq v99_r1 v8
  let c0_i32_74_r1 : BitVec 32 := 0#32
  let v101_r1 : BitVec 32 := Scalar.select v100_r1 c0_i32_74_r1 v99_r1
  let v102_r1 : BitVec 32 := Scalar.addi v101_r1 v13
  let v108_r1 : BitVec 1 := Scalar.cmpi .ne v91_r1 v102_r1
  let c0_i32_37_r1 : BitVec 32 := 0#32
  let c1_i32_43_r1 : BitVec 32 := 1#32
  let arg6_r1 : BitVec 32 := Scf.iv c0_i32_37_r1 c1_i32_43_r1 k0_t1
  let c1_i32_65_r1 : BitVec 32 := 1#32
  let v87_r1 : BitVec 32 := Scalar.muli c1_i32_65_r1 v8
  let c2_i32_78_r1 : BitVec 32 := 2#32
  let v109_r1 : BitVec 32 := Scalar.subi v87_r1 c2_i32_78_r1
  let c1_i32_79_r1 : BitVec 32 := 1#32
  let v110_r1 : BitVec 32 := Scalar.addi v109_r1 c1_i32_79_r1
  let v111_r1 : BitVec 1 := Scalar.cmpi .sge arg6_r1 v110_r1
  let true_80_r1 : BitVec 1 := 1#1
  let v112_r1 : BitVec 1 := Scalar.xori v111_r1 true_80_r1
  let v113_r1 : BitVec 1 := Scalar.andi v108_r1 v112_r1
  let v114_r1 : BitVec 32 := Scalar.extui v113_r1
  let c0_i32_81_r1 : BitVec 32 := 0#32
  let v115_r1 : BitVec 1 := Scalar.cmpi .ne v114_r1 c0_i32_81_r1
  v115_r1

def k0_off5 (i : grid0.Coords) (arg11_r1 : BitVec 32) : Fin 3 → Nat :=
  let c1_i32_113_r1 : BitVec 32 := 1#32
  let true_73_r1 : BitVec 1 := 1#1
  let c1_i32_72_r1 : BitVec 32 := 1#32
  let v98_r1 : BitVec 32 := Scalar.addi arg11_r1 c1_i32_72_r1
  let v99_r1 : BitVec 32 := Scalar.select true_73_r1 v98_r1 arg11_r1
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v100_r1 : BitVec 1 := Scalar.cmpi .eq v99_r1 v8
  let c0_i32_74_r1 : BitVec 32 := 0#32
  let v101_r1 : BitVec 32 := Scalar.select v100_r1 c0_i32_74_r1 v99_r1
  let c26_i32_2 : BitVec 32 := 26#32
  let v9 : BitVec 1 := Scalar.cmpi .slt v6 c26_i32_2
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v102_r1 : BitVec 32 := Scalar.addi v101_r1 v13
  let v176_r1 : BitVec 32 := Scalar.muli c1_i32_113_r1 v102_r1
  let c0_i32_117_r1 : BitVec 32 := 0#32
  let c0_i32_118_r1 : BitVec 32 := 0#32
  ![v176_r1.toNat, 0, 0]
def k0_off6 (arg7_r1 : BitVec 32) : Fin 1 → Nat :=
  let c2_i32_112_r1 : BitVec 32 := 2#32
  let v175_r1 : BitVec 32 := Scalar.remui arg7_r1 c2_i32_112_r1
  ![v175_r1.toNat]
def k0_off7 (arg8_r1 : BitVec 32) : Fin 4 → Nat :=
  let c2_i32_113_r1 : BitVec 32 := 2#32
  let v176_r1 : BitVec 32 := Scalar.remui arg8_r1 c2_i32_113_r1
  let c0_i32_114_r1 : BitVec 32 := 0#32
  let c0_i32_115_r1 : BitVec 32 := 0#32
  let c0_i32_116_r1 : BitVec 32 := 0#32
  ![v176_r1.toNat, 0, 0, 0]
def k0_cond4 (i : grid0.Coords) (k0_t1 : Fin (k0_t1_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_69_r1 : BitVec 1 := 1#1
  let c1_i32_68_r1 : BitVec 32 := 1#32
  let v92_r1 : BitVec 32 := Scalar.subi arg11_r1 c1_i32_68_r1
  let v93_r1 : BitVec 32 := Scalar.select true_69_r1 v92_r1 arg11_r1
  let c_m1_i32_70_r1 : BitVec 32 := 4294967295#32
  let v94_r1 : BitVec 1 := Scalar.cmpi .eq v93_r1 c_m1_i32_70_r1
  let c1_i32_71_r1 : BitVec 32 := 1#32
  let v95_r1 : BitVec 32 := Scalar.subi v8 c1_i32_71_r1
  let v96_r1 : BitVec 32 := Scalar.select v94_r1 v95_r1 v93_r1
  let v97_r1 : BitVec 32 := Scalar.addi v96_r1 v13
  let v125_r1 : BitVec 1 := Scalar.cmpi .ne v91_r1 v97_r1
  let c0_i32_37_r1 : BitVec 32 := 0#32
  let c1_i32_43_r1 : BitVec 32 := 1#32
  let arg6_r1 : BitVec 32 := Scf.iv c0_i32_37_r1 c1_i32_43_r1 k0_t1
  let c0_i32_66_r1 : BitVec 32 := 0#32
  let v88_r1 : BitVec 1 := Scalar.cmpi .eq arg6_r1 c0_i32_66_r1
  let v126_r1 : BitVec 1 := Scalar.ori v125_r1 v88_r1
  let c0_i32_87_r1 : BitVec 32 := 0#32
  let v127_r1 : BitVec 1 := Scalar.cmpi .slt arg6_r1 c0_i32_87_r1
  let true_88_r1 : BitVec 1 := 1#1
  let v128_r1 : BitVec 1 := Scalar.xori v127_r1 true_88_r1
  let v129_r1 : BitVec 1 := Scalar.andi v126_r1 v128_r1
  let v130_r1 : BitVec 32 := Scalar.extui v129_r1
  let c0_i32_89_r1 : BitVec 32 := 0#32
  let v131_r1 : BitVec 1 := Scalar.cmpi .ne v130_r1 c0_i32_89_r1
  v131_r1

def k0_off8 (i : grid0.Coords) (arg11_r1 : BitVec 32) : Fin 3 → Nat :=
  let c1_i32_112_r1 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let v175_r1 : BitVec 32 := Scalar.muli c1_i32_112_r1 v91_r1
  let c0_i32_117_r1 : BitVec 32 := 0#32
  let c0_i32_118_r1 : BitVec 32 := 0#32
  ![v175_r1.toNat, 0, 0]
def k0_off9 (arg8_r1 : BitVec 32) : Fin 1 → Nat :=
  let c2_i32_113_r1 : BitVec 32 := 2#32
  let v176_r1 : BitVec 32 := Scalar.remui arg8_r1 c2_i32_113_r1
  ![v176_r1.toNat]
def k0_off10 (arg9_r1 : BitVec 32) : Fin 3 → Nat :=
  let c2_i32_94_r1 : BitVec 32 := 2#32
  let v140_r1 : BitVec 32 := Scalar.remui arg9_r1 c2_i32_94_r1
  let c0_i32_112_r2 : BitVec 32 := 0#32
  let c0_i32_113_r2 : BitVec 32 := 0#32
  ![v140_r1.toNat, 0, 0]

def k0_chk2 (i : grid0.Coords) (arg9_r1 : BitVec 32) : Prop :=
  (∀ (k0_h2 : k0_cond2 i = 1#1), ∀ a, (k0_off10 arg9_r1) a + S1x400x128.size a ≤ S2x400x128.size a)
instance k0_chk2.dec : ∀ (i : grid0.Coords) (arg9_r1 : BitVec 32), Decidable (k0_chk2 i arg9_r1) := fun i arg9_r1 => decidable_of_iff' _ (Iff.of_eq (k0_chk2.eq_1 i arg9_r1))
theorem k0_off10_inb : ∀ (i : grid0.Coords) (arg9_r1 : BitVec 32) (k0_hw2 : k0_chk2 i arg9_r1), ∀ (k0_h2 : k0_cond2 i = 1#1), ∀ a, (k0_off10 arg9_r1) a + S1x400x128.size a ≤ S2x400x128.size a := fun i arg9_r1 k0_hw2 k0_h2 => k0_hw2 k0_h2

def k0_off11 (arg8_r1 : BitVec 32) : Fin 4 → Nat :=
  let c2_i32_93_r1 : BitVec 32 := 2#32
  let v139_r1 : BitVec 32 := Scalar.remui arg8_r1 c2_i32_93_r1
  let c0_i32_114_r2 : BitVec 32 := 0#32
  let c0_i32_115_r2 : BitVec 32 := 0#32
  let c0_i32_116_r2 : BitVec 32 := 0#32
  ![v139_r1.toNat, 0, 0, 0]

def k0_chk3 (i : grid0.Coords) (arg8_r1 : BitVec 32) : Prop :=
  (∀ (k0_h2 : k0_cond2 i = 1#1), ∀ a, (k0_off11 arg8_r1) a + S1x1x1x400.size a ≤ S2x1x1x400.size a)
instance k0_chk3.dec : ∀ (i : grid0.Coords) (arg8_r1 : BitVec 32), Decidable (k0_chk3 i arg8_r1) := fun i arg8_r1 => decidable_of_iff' _ (Iff.of_eq (k0_chk3.eq_1 i arg8_r1))
theorem k0_off11_inb : ∀ (i : grid0.Coords) (arg8_r1 : BitVec 32) (k0_hw3 : k0_chk3 i arg8_r1), ∀ (k0_h2 : k0_cond2 i = 1#1), ∀ a, (k0_off11 arg8_r1) a + S1x1x1x400.size a ≤ S2x1x1x400.size a := fun i arg8_r1 k0_hw3 k0_h2 => k0_hw3 k0_h2

def k0_off12 (arg9_r1 : BitVec 32) : Fin 3 → Nat :=
  let c2_i32_112_r1 : BitVec 32 := 2#32
  let v175_r1 : BitVec 32 := Scalar.remui arg9_r1 c2_i32_112_r1
  let c0_i32_113_r1 : BitVec 32 := 0#32
  let c0_i32_114_r1 : BitVec 32 := 0#32
  ![v175_r1.toNat, 0, 0]
def k0_cond7 (i : grid0.Coords) (k0_t1 : Fin (k0_t1_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_73_r1 : BitVec 1 := 1#1
  let c1_i32_72_r1 : BitVec 32 := 1#32
  let v98_r1 : BitVec 32 := Scalar.addi arg11_r1 c1_i32_72_r1
  let v99_r1 : BitVec 32 := Scalar.select true_73_r1 v98_r1 arg11_r1
  let v100_r1 : BitVec 1 := Scalar.cmpi .eq v99_r1 v8
  let c0_i32_74_r1 : BitVec 32 := 0#32
  let v101_r1 : BitVec 32 := Scalar.select v100_r1 c0_i32_74_r1 v99_r1
  let v102_r1 : BitVec 32 := Scalar.addi v101_r1 v13
  let v146_r1 : BitVec 1 := Scalar.cmpi .ne v91_r1 v102_r1
  let c0_i32_37_r1 : BitVec 32 := 0#32
  let c1_i32_43_r1 : BitVec 32 := 1#32
  let arg6_r1 : BitVec 32 := Scf.iv c0_i32_37_r1 c1_i32_43_r1 k0_t1
  let c1_i32_65_r1 : BitVec 32 := 1#32
  let v87_r1 : BitVec 32 := Scalar.muli c1_i32_65_r1 v8
  let c1_i32_67_r1 : BitVec 32 := 1#32
  let v89_r1 : BitVec 32 := Scalar.subi v87_r1 c1_i32_67_r1
  let v90_r1 : BitVec 1 := Scalar.cmpi .eq arg6_r1 v89_r1
  let v147_r1 : BitVec 1 := Scalar.ori v146_r1 v90_r1
  let v148_r1 : BitVec 32 := Scalar.extui v147_r1
  let c0_i32_98_r1 : BitVec 32 := 0#32
  let v149_r1 : BitVec 1 := Scalar.cmpi .ne v148_r1 c0_i32_98_r1
  v149_r1

def k0_off13 (i : grid0.Coords) (arg11_r1 : BitVec 32) : Fin 2 → Nat :=
  let c400_i32_r1 : BitVec 32 := 400#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let v176_r1 : BitVec 32 := Scalar.muli c400_i32_r1 v91_r1
  let c0_i32_115_r1 : BitVec 32 := 0#32
  ![v176_r1.toNat, 0]
def k0_off14 (arg9_r1 : BitVec 32) : Fin 1 → Nat :=
  let c2_i32_112_r1 : BitVec 32 := 2#32
  let v175_r1 : BitVec 32 := Scalar.remui arg9_r1 c2_i32_112_r1
  ![v175_r1.toNat]
def k0_off15 (arg10_r1 : BitVec 32) : Fin 3 → Nat :=
  let c2_i32_112_r1 : BitVec 32 := 2#32
  let v175_r1 : BitVec 32 := Scalar.remui arg10_r1 c2_i32_112_r1
  let c0_i32_113_r1 : BitVec 32 := 0#32
  let c0_i32_114_r1 : BitVec 32 := 0#32
  ![v175_r1.toNat, 0, 0]
def k0_cond9 (i : grid0.Coords) (k0_t1 : Fin (k0_t1_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_69_r1 : BitVec 1 := 1#1
  let c1_i32_68_r1 : BitVec 32 := 1#32
  let v92_r1 : BitVec 32 := Scalar.subi arg11_r1 c1_i32_68_r1
  let v93_r1 : BitVec 32 := Scalar.select true_69_r1 v92_r1 arg11_r1
  let c_m1_i32_70_r1 : BitVec 32 := 4294967295#32
  let v94_r1 : BitVec 1 := Scalar.cmpi .eq v93_r1 c_m1_i32_70_r1
  let c1_i32_71_r1 : BitVec 32 := 1#32
  let v95_r1 : BitVec 32 := Scalar.subi v8 c1_i32_71_r1
  let v96_r1 : BitVec 32 := Scalar.select v94_r1 v95_r1 v93_r1
  let v97_r1 : BitVec 32 := Scalar.addi v96_r1 v13
  let v159_r1 : BitVec 1 := Scalar.cmpi .ne v91_r1 v97_r1
  let c0_i32_37_r1 : BitVec 32 := 0#32
  let c1_i32_43_r1 : BitVec 32 := 1#32
  let arg6_r1 : BitVec 32 := Scf.iv c0_i32_37_r1 c1_i32_43_r1 k0_t1
  let c0_i32_66_r1 : BitVec 32 := 0#32
  let v88_r1 : BitVec 1 := Scalar.cmpi .eq arg6_r1 c0_i32_66_r1
  let true_104_r1 : BitVec 1 := 1#1
  let v160_r1 : BitVec 1 := Scalar.xori v88_r1 true_104_r1
  let v161_r1 : BitVec 1 := Scalar.andi v159_r1 v160_r1
  let v162_r1 : BitVec 32 := Scalar.extui v161_r1
  let c0_i32_105_r1 : BitVec 32 := 0#32
  let v163_r1 : BitVec 1 := Scalar.cmpi .ne v162_r1 c0_i32_105_r1
  v163_r1

def k0_off16 (i : grid0.Coords) (arg11_r1 : BitVec 32) : Fin 2 → Nat :=
  let c400_i32_r1 : BitVec 32 := 400#32
  let true_69_r1 : BitVec 1 := 1#1
  let c1_i32_68_r1 : BitVec 32 := 1#32
  let v92_r1 : BitVec 32 := Scalar.subi arg11_r1 c1_i32_68_r1
  let v93_r1 : BitVec 32 := Scalar.select true_69_r1 v92_r1 arg11_r1
  let c_m1_i32_70_r1 : BitVec 32 := 4294967295#32
  let v94_r1 : BitVec 1 := Scalar.cmpi .eq v93_r1 c_m1_i32_70_r1
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let c1_i32_71_r1 : BitVec 32 := 1#32
  let v95_r1 : BitVec 32 := Scalar.subi v8 c1_i32_71_r1
  let v96_r1 : BitVec 32 := Scalar.select v94_r1 v95_r1 v93_r1
  let c26_i32_2 : BitVec 32 := 26#32
  let v9 : BitVec 1 := Scalar.cmpi .slt v6 c26_i32_2
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v97_r1 : BitVec 32 := Scalar.addi v96_r1 v13
  let v176_r1 : BitVec 32 := Scalar.muli c400_i32_r1 v97_r1
  let c0_i32_115_r1 : BitVec 32 := 0#32
  ![v176_r1.toNat, 0]
def k0_off17 (arg10_r1 : BitVec 32) : Fin 1 → Nat :=
  let c2_i32_112_r1 : BitVec 32 := 2#32
  let v175_r1 : BitVec 32 := Scalar.remui arg10_r1 c2_i32_112_r1
  ![v175_r1.toNat]

def k0_chk1 (i : grid0.Coords) (k0_t1 : Fin (k0_t1_loop i).trips) (arg7_r1 : BitVec 32) (arg8_r1 : BitVec 32) (arg9_r1 : BitVec 32) (arg10_r1 : BitVec 32) (arg11_r1 : BitVec 32) : Prop :=
  (∀ (k0_h2 : k0_cond2 i = 1#1), ∀ (k0_h3 : k0_cond3 i k0_t1 arg11_r1 = 1#1), ∀ a, (k0_off4 arg7_r1) a + S1x1x1x400.size a ≤ S2x1x1x400.size a) ∧
  (∀ (k0_h2 : k0_cond2 i = 1#1), ∀ (k0_h3 : k0_cond3 i k0_t1 arg11_r1 = 1#1), ∀ a, (k0_off5 i arg11_r1) a + S1x1x400.size a ≤ S250x1x400.size a) ∧
  (∀ (k0_h2 : k0_cond2 i = 1#1), ∀ (k0_h3 : k0_cond3 i k0_t1 arg11_r1 = 1#1), ∀ a, (k0_off6 arg7_r1) a + S1.size a ≤ S2.size a) ∧
  (∀ (k0_h2 : k0_cond2 i = 1#1), ∀ (k0_h4 : k0_cond4 i k0_t1 arg11_r1 = 1#1), ∀ a, (k0_off7 arg8_r1) a + S1x1x1x400.size a ≤ S2x1x1x400.size a) ∧
  (∀ (k0_h2 : k0_cond2 i = 1#1), ∀ (k0_h4 : k0_cond4 i k0_t1 arg11_r1 = 1#1), ∀ a, (k0_off8 i arg11_r1) a + S1x1x400.size a ≤ S250x1x400.size a) ∧
  (∀ (k0_h2 : k0_cond2 i = 1#1), ∀ (k0_h4 : k0_cond4 i k0_t1 arg11_r1 = 1#1), ∀ a, (k0_off9 arg8_r1) a + S1.size a ≤ S2.size a) ∧
  (∀ (k0_h2 : k0_cond2 i = 1#1), ∀ (k0_h7 : k0_cond7 i k0_t1 arg11_r1 = 1#1), ∀ a, (k0_off12 arg9_r1) a + S1x400x128.size a ≤ S2x400x128.size a) ∧
  (∀ (k0_h2 : k0_cond2 i = 1#1), ∀ (k0_h7 : k0_cond7 i k0_t1 arg11_r1 = 1#1), ∀ a, (k0_off13 i arg11_r1) a + S400x128.size a ≤ S100000x128.size a) ∧
  (∀ (k0_h2 : k0_cond2 i = 1#1), ∀ (k0_h7 : k0_cond7 i k0_t1 arg11_r1 = 1#1), ∀ a, (k0_off14 arg9_r1) a + S1.size a ≤ S2.size a) ∧
  (∀ (k0_h2 : k0_cond2 i = 1#1), ∀ (k0_h9 : k0_cond9 i k0_t1 arg11_r1 = 1#1), ∀ a, (k0_off15 arg10_r1) a + S1x400x128.size a ≤ S2x400x128.size a) ∧
  (∀ (k0_h2 : k0_cond2 i = 1#1), ∀ (k0_h9 : k0_cond9 i k0_t1 arg11_r1 = 1#1), ∀ a, (k0_off16 i arg11_r1) a + S400x128.size a ≤ S100000x128.size a) ∧
  (∀ (k0_h2 : k0_cond2 i = 1#1), ∀ (k0_h9 : k0_cond9 i k0_t1 arg11_r1 = 1#1), ∀ a, (k0_off17 arg10_r1) a + S1.size a ≤ S2.size a)
instance k0_chk1.dec : ∀ (i : grid0.Coords) (k0_t1 : Fin (k0_t1_loop i).trips) (arg7_r1 : BitVec 32) (arg8_r1 : BitVec 32) (arg9_r1 : BitVec 32) (arg10_r1 : BitVec 32) (arg11_r1 : BitVec 32), Decidable (k0_chk1 i k0_t1 arg7_r1 arg8_r1 arg9_r1 arg10_r1 arg11_r1) := fun i k0_t1 arg7_r1 arg8_r1 arg9_r1 arg10_r1 arg11_r1 => decidable_of_iff' _ (Iff.of_eq (k0_chk1.eq_1 i k0_t1 arg7_r1 arg8_r1 arg9_r1 arg10_r1 arg11_r1))
theorem k0_off4_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h3 : k0_cond3 i k0_t1 arg11_r1 = 1#1), ∀ a, (k0_off4 arg7_r1) a + S1x1x1x400.size a ≤ S2x1x1x400.size a := fun i k0_t1 arg7_r1 arg8_r1 arg9_r1 arg10_r1 arg11_r1 k0_hw1 k0_h2 k0_h3 => k0_hw1.1 k0_h2 k0_h3
theorem k0_off5_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h3 : k0_cond3 i k0_t1 arg11_r1 = 1#1), ∀ a, (k0_off5 i arg11_r1) a + S1x1x400.size a ≤ S250x1x400.size a := fun i k0_t1 arg7_r1 arg8_r1 arg9_r1 arg10_r1 arg11_r1 k0_hw1 k0_h2 k0_h3 => k0_hw1.2.1 k0_h2 k0_h3
theorem k0_off6_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h3 : k0_cond3 i k0_t1 arg11_r1 = 1#1), ∀ a, (k0_off6 arg7_r1) a + S1.size a ≤ S2.size a := fun i k0_t1 arg7_r1 arg8_r1 arg9_r1 arg10_r1 arg11_r1 k0_hw1 k0_h2 k0_h3 => k0_hw1.2.2.1 k0_h2 k0_h3
theorem k0_off7_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h4 : k0_cond4 i k0_t1 arg11_r1 = 1#1), ∀ a, (k0_off7 arg8_r1) a + S1x1x1x400.size a ≤ S2x1x1x400.size a := fun i k0_t1 arg7_r1 arg8_r1 arg9_r1 arg10_r1 arg11_r1 k0_hw1 k0_h2 k0_h4 => k0_hw1.2.2.2.1 k0_h2 k0_h4
theorem k0_off8_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h4 : k0_cond4 i k0_t1 arg11_r1 = 1#1), ∀ a, (k0_off8 i arg11_r1) a + S1x1x400.size a ≤ S250x1x400.size a := fun i k0_t1 arg7_r1 arg8_r1 arg9_r1 arg10_r1 arg11_r1 k0_hw1 k0_h2 k0_h4 => k0_hw1.2.2.2.2.1 k0_h2 k0_h4
theorem k0_off9_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h4 : k0_cond4 i k0_t1 arg11_r1 = 1#1), ∀ a, (k0_off9 arg8_r1) a + S1.size a ≤ S2.size a := fun i k0_t1 arg7_r1 arg8_r1 arg9_r1 arg10_r1 arg11_r1 k0_hw1 k0_h2 k0_h4 => k0_hw1.2.2.2.2.2.1 k0_h2 k0_h4
theorem k0_off12_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h7 : k0_cond7 i k0_t1 arg11_r1 = 1#1), ∀ a, (k0_off12 arg9_r1) a + S1x400x128.size a ≤ S2x400x128.size a := fun i k0_t1 arg7_r1 arg8_r1 arg9_r1 arg10_r1 arg11_r1 k0_hw1 k0_h2 k0_h7 => k0_hw1.2.2.2.2.2.2.1 k0_h2 k0_h7
theorem k0_off13_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h7 : k0_cond7 i k0_t1 arg11_r1 = 1#1), ∀ a, (k0_off13 i arg11_r1) a + S400x128.size a ≤ S100000x128.size a := fun i k0_t1 arg7_r1 arg8_r1 arg9_r1 arg10_r1 arg11_r1 k0_hw1 k0_h2 k0_h7 => k0_hw1.2.2.2.2.2.2.2.1 k0_h2 k0_h7
theorem k0_off14_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h7 : k0_cond7 i k0_t1 arg11_r1 = 1#1), ∀ a, (k0_off14 arg9_r1) a + S1.size a ≤ S2.size a := fun i k0_t1 arg7_r1 arg8_r1 arg9_r1 arg10_r1 arg11_r1 k0_hw1 k0_h2 k0_h7 => k0_hw1.2.2.2.2.2.2.2.2.1 k0_h2 k0_h7
theorem k0_off15_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h9 : k0_cond9 i k0_t1 arg11_r1 = 1#1), ∀ a, (k0_off15 arg10_r1) a + S1x400x128.size a ≤ S2x400x128.size a := fun i k0_t1 arg7_r1 arg8_r1 arg9_r1 arg10_r1 arg11_r1 k0_hw1 k0_h2 k0_h9 => k0_hw1.2.2.2.2.2.2.2.2.2.1 k0_h2 k0_h9
theorem k0_off16_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h9 : k0_cond9 i k0_t1 arg11_r1 = 1#1), ∀ a, (k0_off16 i arg11_r1) a + S400x128.size a ≤ S100000x128.size a := fun i k0_t1 arg7_r1 arg8_r1 arg9_r1 arg10_r1 arg11_r1 k0_hw1 k0_h2 k0_h9 => k0_hw1.2.2.2.2.2.2.2.2.2.2.1 k0_h2 k0_h9
theorem k0_off17_inb : ∀ (i : grid0.Coords) (k0_t1 : Fin (k0_t1_loop i).trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i = 1#1), ∀ (k0_h9 : k0_cond9 i k0_t1 arg11_r1 = 1#1), ∀ a, (k0_off17 arg10_r1) a + S1.size a ≤ S2.size a := fun i k0_t1 arg7_r1 arg8_r1 arg9_r1 arg10_r1 arg11_r1 k0_hw1 k0_h2 k0_h9 => k0_hw1.2.2.2.2.2.2.2.2.2.2.2 k0_h2 k0_h9

@[reducible] def k0_t2_loop (i : grid0.Coords) : Scf.Loop 32 :=
  let c0_i32_37_r1 : BitVec 32 := 0#32
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v14 : BitVec 32 := Scalar.muli c1_i32_5 v8
  let v49_r1 : BitVec 32 := Scalar.subi v14 c0_i32_37_r1
  let c1_i32_42_r1 : BitVec 32 := 1#32
  let v51_r1 : BitVec 32 := Scalar.divsi v49_r1 c1_i32_42_r1
  let v52_r1 : BitVec 32 := Scalar.muli v51_r1 c1_i32_42_r1
  let v53_r1 : BitVec 32 := Scalar.addi c0_i32_37_r1 v52_r1
  let v50_r1 : BitVec 32 := Scalar.addi c0_i32_37_r1 v49_r1
  let c1_i32_44_r1 : BitVec 32 := 1#32
  ⟨v53_r1, v50_r1, c1_i32_44_r1⟩
def k0_off18 (arg7_r1 : BitVec 32) : Fin 4 → Nat :=
  let c2_i32_112_r1 : BitVec 32 := 2#32
  let v175_r1 : BitVec 32 := Scalar.remui arg7_r1 c2_i32_112_r1
  let c0_i32_114_r1 : BitVec 32 := 0#32
  let c0_i32_115_r1 : BitVec 32 := 0#32
  let c0_i32_116_r1 : BitVec 32 := 0#32
  ![v175_r1.toNat, 0, 0, 0]
def k0_cond10 (i : grid0.Coords) (k0_t2 : Fin (k0_t2_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_73_r1 : BitVec 1 := 1#1
  let c1_i32_72_r1 : BitVec 32 := 1#32
  let v98_r1 : BitVec 32 := Scalar.addi arg11_r1 c1_i32_72_r1
  let v99_r1 : BitVec 32 := Scalar.select true_73_r1 v98_r1 arg11_r1
  let v100_r1 : BitVec 1 := Scalar.cmpi .eq v99_r1 v8
  let c0_i32_74_r1 : BitVec 32 := 0#32
  let v101_r1 : BitVec 32 := Scalar.select v100_r1 c0_i32_74_r1 v99_r1
  let v102_r1 : BitVec 32 := Scalar.addi v101_r1 v13
  let v108_r1 : BitVec 1 := Scalar.cmpi .ne v91_r1 v102_r1
  let c0_i32_37_r1 : BitVec 32 := 0#32
  let c1_i32_5 : BitVec 32 := 1#32
  let v14 : BitVec 32 := Scalar.muli c1_i32_5 v8
  let v49_r1 : BitVec 32 := Scalar.subi v14 c0_i32_37_r1
  let c1_i32_42_r1 : BitVec 32 := 1#32
  let v51_r1 : BitVec 32 := Scalar.divsi v49_r1 c1_i32_42_r1
  let v52_r1 : BitVec 32 := Scalar.muli v51_r1 c1_i32_42_r1
  let v53_r1 : BitVec 32 := Scalar.addi c0_i32_37_r1 v52_r1
  let c1_i32_44_r1 : BitVec 32 := 1#32
  let arg6_r1 : BitVec 32 := Scf.iv v53_r1 c1_i32_44_r1 k0_t2
  let c1_i32_65_r1 : BitVec 32 := 1#32
  let v87_r1 : BitVec 32 := Scalar.muli c1_i32_65_r1 v8
  let c2_i32_78_r1 : BitVec 32 := 2#32
  let v109_r1 : BitVec 32 := Scalar.subi v87_r1 c2_i32_78_r1
  let c1_i32_79_r1 : BitVec 32 := 1#32
  let v110_r1 : BitVec 32 := Scalar.addi v109_r1 c1_i32_79_r1
  let v111_r1 : BitVec 1 := Scalar.cmpi .sge arg6_r1 v110_r1
  let true_80_r1 : BitVec 1 := 1#1
  let v112_r1 : BitVec 1 := Scalar.xori v111_r1 true_80_r1
  let v113_r1 : BitVec 1 := Scalar.andi v108_r1 v112_r1
  let v114_r1 : BitVec 32 := Scalar.extui v113_r1
  let c0_i32_81_r1 : BitVec 32 := 0#32
  let v115_r1 : BitVec 1 := Scalar.cmpi .ne v114_r1 c0_i32_81_r1
  v115_r1

def k0_off19 (i : grid0.Coords) (arg11_r1 : BitVec 32) : Fin 3 → Nat :=
  let c1_i32_113_r1 : BitVec 32 := 1#32
  let true_73_r1 : BitVec 1 := 1#1
  let c1_i32_72_r1 : BitVec 32 := 1#32
  let v98_r1 : BitVec 32 := Scalar.addi arg11_r1 c1_i32_72_r1
  let v99_r1 : BitVec 32 := Scalar.select true_73_r1 v98_r1 arg11_r1
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v100_r1 : BitVec 1 := Scalar.cmpi .eq v99_r1 v8
  let c0_i32_74_r1 : BitVec 32 := 0#32
  let v101_r1 : BitVec 32 := Scalar.select v100_r1 c0_i32_74_r1 v99_r1
  let c26_i32_2 : BitVec 32 := 26#32
  let v9 : BitVec 1 := Scalar.cmpi .slt v6 c26_i32_2
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v102_r1 : BitVec 32 := Scalar.addi v101_r1 v13
  let v176_r1 : BitVec 32 := Scalar.muli c1_i32_113_r1 v102_r1
  let c0_i32_117_r1 : BitVec 32 := 0#32
  let c0_i32_118_r1 : BitVec 32 := 0#32
  ![v176_r1.toNat, 0, 0]
def k0_off20 (arg7_r1 : BitVec 32) : Fin 1 → Nat :=
  let c2_i32_112_r1 : BitVec 32 := 2#32
  let v175_r1 : BitVec 32 := Scalar.remui arg7_r1 c2_i32_112_r1
  ![v175_r1.toNat]
def k0_off21 (arg8_r1 : BitVec 32) : Fin 4 → Nat :=
  let c2_i32_113_r1 : BitVec 32 := 2#32
  let v176_r1 : BitVec 32 := Scalar.remui arg8_r1 c2_i32_113_r1
  let c0_i32_114_r1 : BitVec 32 := 0#32
  let c0_i32_115_r1 : BitVec 32 := 0#32
  let c0_i32_116_r1 : BitVec 32 := 0#32
  ![v176_r1.toNat, 0, 0, 0]
def k0_cond11 (i : grid0.Coords) (k0_t2 : Fin (k0_t2_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_69_r1 : BitVec 1 := 1#1
  let c1_i32_68_r1 : BitVec 32 := 1#32
  let v92_r1 : BitVec 32 := Scalar.subi arg11_r1 c1_i32_68_r1
  let v93_r1 : BitVec 32 := Scalar.select true_69_r1 v92_r1 arg11_r1
  let c_m1_i32_70_r1 : BitVec 32 := 4294967295#32
  let v94_r1 : BitVec 1 := Scalar.cmpi .eq v93_r1 c_m1_i32_70_r1
  let c1_i32_71_r1 : BitVec 32 := 1#32
  let v95_r1 : BitVec 32 := Scalar.subi v8 c1_i32_71_r1
  let v96_r1 : BitVec 32 := Scalar.select v94_r1 v95_r1 v93_r1
  let v97_r1 : BitVec 32 := Scalar.addi v96_r1 v13
  let v125_r1 : BitVec 1 := Scalar.cmpi .ne v91_r1 v97_r1
  let c0_i32_37_r1 : BitVec 32 := 0#32
  let c1_i32_5 : BitVec 32 := 1#32
  let v14 : BitVec 32 := Scalar.muli c1_i32_5 v8
  let v49_r1 : BitVec 32 := Scalar.subi v14 c0_i32_37_r1
  let c1_i32_42_r1 : BitVec 32 := 1#32
  let v51_r1 : BitVec 32 := Scalar.divsi v49_r1 c1_i32_42_r1
  let v52_r1 : BitVec 32 := Scalar.muli v51_r1 c1_i32_42_r1
  let v53_r1 : BitVec 32 := Scalar.addi c0_i32_37_r1 v52_r1
  let c1_i32_44_r1 : BitVec 32 := 1#32
  let arg6_r1 : BitVec 32 := Scf.iv v53_r1 c1_i32_44_r1 k0_t2
  let c0_i32_66_r1 : BitVec 32 := 0#32
  let v88_r1 : BitVec 1 := Scalar.cmpi .eq arg6_r1 c0_i32_66_r1
  let v126_r1 : BitVec 1 := Scalar.ori v125_r1 v88_r1
  let c0_i32_87_r1 : BitVec 32 := 0#32
  let v127_r1 : BitVec 1 := Scalar.cmpi .slt arg6_r1 c0_i32_87_r1
  let true_88_r1 : BitVec 1 := 1#1
  let v128_r1 : BitVec 1 := Scalar.xori v127_r1 true_88_r1
  let v129_r1 : BitVec 1 := Scalar.andi v126_r1 v128_r1
  let v130_r1 : BitVec 32 := Scalar.extui v129_r1
  let c0_i32_89_r1 : BitVec 32 := 0#32
  let v131_r1 : BitVec 1 := Scalar.cmpi .ne v130_r1 c0_i32_89_r1
  v131_r1

def k0_off22 (i : grid0.Coords) (arg11_r1 : BitVec 32) : Fin 3 → Nat :=
  let c1_i32_112_r1 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let v175_r1 : BitVec 32 := Scalar.muli c1_i32_112_r1 v91_r1
  let c0_i32_117_r1 : BitVec 32 := 0#32
  let c0_i32_118_r1 : BitVec 32 := 0#32
  ![v175_r1.toNat, 0, 0]
def k0_off23 (arg8_r1 : BitVec 32) : Fin 1 → Nat :=
  let c2_i32_113_r1 : BitVec 32 := 2#32
  let v176_r1 : BitVec 32 := Scalar.remui arg8_r1 c2_i32_113_r1
  ![v176_r1.toNat]
def k0_off24 (arg9_r1 : BitVec 32) : Fin 3 → Nat :=
  let c2_i32_94_r1 : BitVec 32 := 2#32
  let v140_r1 : BitVec 32 := Scalar.remui arg9_r1 c2_i32_94_r1
  let c0_i32_112_r3 : BitVec 32 := 0#32
  let c0_i32_113_r3 : BitVec 32 := 0#32
  ![v140_r1.toNat, 0, 0]

def k0_chk5 (i : grid0.Coords) (arg9_r1 : BitVec 32) : Prop :=
  (∀ (k0_h2 : k0_cond2 i = 1#1), ∀ a, (k0_off24 arg9_r1) a + S1x400x128.size a ≤ S2x400x128.size a)
instance k0_chk5.dec : ∀ (i : grid0.Coords) (arg9_r1 : BitVec 32), Decidable (k0_chk5 i arg9_r1) := fun i arg9_r1 => decidable_of_iff' _ (Iff.of_eq (k0_chk5.eq_1 i arg9_r1))
theorem k0_off24_inb : ∀ (i : grid0.Coords) (arg9_r1 : BitVec 32) (k0_hw5 : k0_chk5 i arg9_r1), ∀ (k0_h2 : k0_cond2 i = 1#1), ∀ a, (k0_off24 arg9_r1) a + S1x400x128.size a ≤ S2x400x128.size a := fun i arg9_r1 k0_hw5 k0_h2 => k0_hw5 k0_h2

def k0_off25 (arg8_r1 : BitVec 32) : Fin 4 → Nat :=
  let c2_i32_93_r1 : BitVec 32 := 2#32
  let v139_r1 : BitVec 32 := Scalar.remui arg8_r1 c2_i32_93_r1
  let c0_i32_114_r3 : BitVec 32 := 0#32
  let c0_i32_115_r3 : BitVec 32 := 0#32
  let c0_i32_116_r3 : BitVec 32 := 0#32
  ![v139_r1.toNat, 0, 0, 0]

def k0_chk6 (i : grid0.Coords) (arg8_r1 : BitVec 32) : Prop :=
  (∀ (k0_h2 : k0_cond2 i = 1#1), ∀ a, (k0_off25 arg8_r1) a + S1x1x1x400.size a ≤ S2x1x1x400.size a)
instance k0_chk6.dec : ∀ (i : grid0.Coords) (arg8_r1 : BitVec 32), Decidable (k0_chk6 i arg8_r1) := fun i arg8_r1 => decidable_of_iff' _ (Iff.of_eq (k0_chk6.eq_1 i arg8_r1))
theorem k0_off25_inb : ∀ (i : grid0.Coords) (arg8_r1 : BitVec 32) (k0_hw6 : k0_chk6 i arg8_r1), ∀ (k0_h2 : k0_cond2 i = 1#1), ∀ a, (k0_off25 arg8_r1) a + S1x1x1x400.size a ≤ S2x1x1x400.size a := fun i arg8_r1 k0_hw6 k0_h2 => k0_hw6 k0_h2

def k0_off26 (arg9_r1 : BitVec 32) : Fin 3 → Nat :=
  let c2_i32_112_r1 : BitVec 32 := 2#32
  let v175_r1 : BitVec 32 := Scalar.remui arg9_r1 c2_i32_112_r1
  let c0_i32_113_r1 : BitVec 32 := 0#32
  let c0_i32_114_r1 : BitVec 32 := 0#32
  ![v175_r1.toNat, 0, 0]
def k0_cond14 (i : grid0.Coords) (k0_t2 : Fin (k0_t2_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_73_r1 : BitVec 1 := 1#1
  let c1_i32_72_r1 : BitVec 32 := 1#32
  let v98_r1 : BitVec 32 := Scalar.addi arg11_r1 c1_i32_72_r1
  let v99_r1 : BitVec 32 := Scalar.select true_73_r1 v98_r1 arg11_r1
  let v100_r1 : BitVec 1 := Scalar.cmpi .eq v99_r1 v8
  let c0_i32_74_r1 : BitVec 32 := 0#32
  let v101_r1 : BitVec 32 := Scalar.select v100_r1 c0_i32_74_r1 v99_r1
  let v102_r1 : BitVec 32 := Scalar.addi v101_r1 v13
  let v146_r1 : BitVec 1 := Scalar.cmpi .ne v91_r1 v102_r1
  let c0_i32_37_r1 : BitVec 32 := 0#32
  let c1_i32_5 : BitVec 32 := 1#32
  let v14 : BitVec 32 := Scalar.muli c1_i32_5 v8
  let v49_r1 : BitVec 32 := Scalar.subi v14 c0_i32_37_r1
  let c1_i32_42_r1 : BitVec 32 := 1#32
  let v51_r1 : BitVec 32 := Scalar.divsi v49_r1 c1_i32_42_r1
  let v52_r1 : BitVec 32 := Scalar.muli v51_r1 c1_i32_42_r1
  let v53_r1 : BitVec 32 := Scalar.addi c0_i32_37_r1 v52_r1
  let c1_i32_44_r1 : BitVec 32 := 1#32
  let arg6_r1 : BitVec 32 := Scf.iv v53_r1 c1_i32_44_r1 k0_t2
  let c1_i32_65_r1 : BitVec 32 := 1#32
  let v87_r1 : BitVec 32 := Scalar.muli c1_i32_65_r1 v8
  let c1_i32_67_r1 : BitVec 32 := 1#32
  let v89_r1 : BitVec 32 := Scalar.subi v87_r1 c1_i32_67_r1
  let v90_r1 : BitVec 1 := Scalar.cmpi .eq arg6_r1 v89_r1
  let v147_r1 : BitVec 1 := Scalar.ori v146_r1 v90_r1
  let v148_r1 : BitVec 32 := Scalar.extui v147_r1
  let c0_i32_98_r1 : BitVec 32 := 0#32
  let v149_r1 : BitVec 1 := Scalar.cmpi .ne v148_r1 c0_i32_98_r1
  v149_r1

def k0_off27 (i : grid0.Coords) (arg11_r1 : BitVec 32) : Fin 2 → Nat :=
  let c400_i32_r1 : BitVec 32 := 400#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let v176_r1 : BitVec 32 := Scalar.muli c400_i32_r1 v91_r1
  let c0_i32_115_r1 : BitVec 32 := 0#32
  ![v176_r1.toNat, 0]
def k0_off28 (arg9_r1 : BitVec 32) : Fin 1 → Nat :=
  let c2_i32_112_r1 : BitVec 32 := 2#32
  let v175_r1 : BitVec 32 := Scalar.remui arg9_r1 c2_i32_112_r1
  ![v175_r1.toNat]
def k0_off29 (arg10_r1 : BitVec 32) : Fin 3 → Nat :=
  let c2_i32_112_r1 : BitVec 32 := 2#32
  let v175_r1 : BitVec 32 := Scalar.remui arg10_r1 c2_i32_112_r1
  let c0_i32_113_r1 : BitVec 32 := 0#32
  let c0_i32_114_r1 : BitVec 32 := 0#32
  ![v175_r1.toNat, 0, 0]
def k0_cond16 (i : grid0.Coords) (k0_t2 : Fin (k0_t2_loop i).trips) (arg11_r1 : BitVec 32) : BitVec 1 :=
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32_2 : BitVec 32 := 26#32
  let v9 : BitVec 1 := Scalar.cmpi .slt v6 c26_i32_2
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v91_r1 : BitVec 32 := Scalar.addi arg11_r1 v13
  let true_69_r1 : BitVec 1 := 1#1
  let c1_i32_68_r1 : BitVec 32 := 1#32
  let v92_r1 : BitVec 32 := Scalar.subi arg11_r1 c1_i32_68_r1
  let v93_r1 : BitVec 32 := Scalar.select true_69_r1 v92_r1 arg11_r1
  let c_m1_i32_70_r1 : BitVec 32 := 4294967295#32
  let v94_r1 : BitVec 1 := Scalar.cmpi .eq v93_r1 c_m1_i32_70_r1
  let c1_i32_71_r1 : BitVec 32 := 1#32
  let v95_r1 : BitVec 32 := Scalar.subi v8 c1_i32_71_r1
  let v96_r1 : BitVec 32 := Scalar.select v94_r1 v95_r1 v93_r1
  let v97_r1 : BitVec 32 := Scalar.addi v96_r1 v13
  let v159_r1 : BitVec 1 := Scalar.cmpi .ne v91_r1 v97_r1
  let c0_i32_37_r1 : BitVec 32 := 0#32
  let c1_i32_5 : BitVec 32 := 1#32
  let v14 : BitVec 32 := Scalar.muli c1_i32_5 v8
  let v49_r1 : BitVec 32 := Scalar.subi v14 c0_i32_37_r1
  let c1_i32_42_r1 : BitVec 32 := 1#32
  let v51_r1 : BitVec 32 := Scalar.divsi v49_r1 c1_i32_42_r1
  let v52_r1 : BitVec 32 := Scalar.muli v51_r1 c1_i32_42_r1
  let v53_r1 : BitVec 32 := Scalar.addi c0_i32_37_r1 v52_r1
  let c1_i32_44_r1 : BitVec 32 := 1#32
  let arg6_r1 : BitVec 32 := Scf.iv v53_r1 c1_i32_44_r1 k0_t2
  let c0_i32_66_r1 : BitVec 32 := 0#32
  let v88_r1 : BitVec 1 := Scalar.cmpi .eq arg6_r1 c0_i32_66_r1
  let true_104_r1 : BitVec 1 := 1#1
  let v160_r1 : BitVec 1 := Scalar.xori v88_r1 true_104_r1
  let v161_r1 : BitVec 1 := Scalar.andi v159_r1 v160_r1
  let v162_r1 : BitVec 32 := Scalar.extui v161_r1
  let c0_i32_105_r1 : BitVec 32 := 0#32
  let v163_r1 : BitVec 1 := Scalar.cmpi .ne v162_r1 c0_i32_105_r1
  v163_r1

def k0_off30 (i : grid0.Coords) (arg11_r1 : BitVec 32) : Fin 2 → Nat :=
  let c400_i32_r1 : BitVec 32 := 400#32
  let true_69_r1 : BitVec 1 := 1#1
  let c1_i32_68_r1 : BitVec 32 := 1#32
  let v92_r1 : BitVec 32 := Scalar.subi arg11_r1 c1_i32_68_r1
  let v93_r1 : BitVec 32 := Scalar.select true_69_r1 v92_r1 arg11_r1
  let c_m1_i32_70_r1 : BitVec 32 := 4294967295#32
  let v94_r1 : BitVec 1 := Scalar.cmpi .eq v93_r1 c_m1_i32_70_r1
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let c1_i32_71_r1 : BitVec 32 := 1#32
  let v95_r1 : BitVec 32 := Scalar.subi v8 c1_i32_71_r1
  let v96_r1 : BitVec 32 := Scalar.select v94_r1 v95_r1 v93_r1
  let c26_i32_2 : BitVec 32 := 26#32
  let v9 : BitVec 1 := Scalar.cmpi .slt v6 c26_i32_2
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v97_r1 : BitVec 32 := Scalar.addi v96_r1 v13
  let v176_r1 : BitVec 32 := Scalar.muli c400_i32_r1 v97_r1
  let c0_i32_115_r1 : BitVec 32 := 0#32
  ![v176_r1.toNat, 0]
def k0_off31 (arg10_r1 : BitVec 32) : Fin 1 → Nat :=
  let c2_i32_112_r1 : BitVec 32 := 2#32
  let v175_r1 : BitVec 32 := Scalar.remui arg10_r1 c2_i32_112_r1
  ![v175_r1.toNat]

def k0_chk4 (i : grid0.Coords) (k0_t2 : Fin (k0_t2_loop i).trips) (arg7_r1 : BitVec 32) (arg8_r1 : BitVec 32) (arg9_r1 : BitVec 32) (arg10_r1 : BitVec 32) (arg11_r1 : BitVec 32) : Prop :=
  (∀ (k0_h2 : k0_cond2 i = 1#1), ∀ (k0_h10 : k0_cond10 i k0_t2 arg11_r1 = 1#1), ∀ a, (k0_off18 arg7_r1) a + S1x1x1x400.size a ≤ S2x1x1x400.size a) ∧
  (∀ (k0_h2 : k0_cond2 i = 1#1), ∀ (k0_h10 : k0_cond10 i k0_t2 arg11_r1 = 1#1), ∀ a, (k0_off19 i arg11_r1) a + S1x1x400.size a ≤ S250x1x400.size a) ∧
  (∀ (k0_h2 : k0_cond2 i = 1#1), ∀ (k0_h10 : k0_cond10 i k0_t2 arg11_r1 = 1#1), ∀ a, (k0_off20 arg7_r1) a + S1.size a ≤ S2.size a) ∧
  (∀ (k0_h2 : k0_cond2 i = 1#1), ∀ (k0_h11 : k0_cond11 i k0_t2 arg11_r1 = 1#1), ∀ a, (k0_off21 arg8_r1) a + S1x1x1x400.size a ≤ S2x1x1x400.size a) ∧
  (∀ (k0_h2 : k0_cond2 i = 1#1), ∀ (k0_h11 : k0_cond11 i k0_t2 arg11_r1 = 1#1), ∀ a, (k0_off22 i arg11_r1) a + S1x1x400.size a ≤ S250x1x400.size a) ∧
  (∀ (k0_h2 : k0_cond2 i = 1#1), ∀ (k0_h11 : k0_cond11 i k0_t2 arg11_r1 = 1#1), ∀ a, (k0_off23 arg8_r1) a + S1.size a ≤ S2.size a) ∧
  (∀ (k0_h2 : k0_cond2 i = 1#1), ∀ (k0_h14 : k0_cond14 i k0_t2 arg11_r1 = 1#1), ∀ a, (k0_off26 arg9_r1) a + S1x400x128.size a ≤ S2x400x128.size a) ∧
  (∀ (k0_h2 : k0_cond2 i = 1#1), ∀ (k0_h14 : k0_cond14 i k0_t2 arg11_r1 = 1#1), ∀ a, (k0_off27 i arg11_r1) a + S400x128.size a ≤ S100000x128.size a) ∧
  (∀ (k0_h2 : k0_cond2 i = 1#1), ∀ (k0_h14 : k0_cond14 i k0_t2 arg11_r1 = 1#1), ∀ a, (k0_off28 arg9_r1) a + S1.size a ≤ S2.size a) ∧
  (∀ (k0_h2 : k0_cond2 i = 1#1), ∀ (k0_h16 : k0_cond16 i k0_t2 arg11_r1 = 1#1), ∀ a, (k0_off29 arg10_r1) a + S1x400x128.size a ≤ S2x400x128.size a) ∧
  (∀ (k0_h2 : k0_cond2 i = 1#1), ∀ (k0_h16 : k0_cond16 i k0_t2 arg11_r1 = 1#1), ∀ a, (k0_off30 i arg11_r1) a + S400x128.size a ≤ S100000x128.size a) ∧
  (∀ (k0_h2 : k0_cond2 i = 1#1), ∀ (k0_h16 : k0_cond16 i k0_t2 arg11_r1 = 1#1), ∀ a, (k0_off31 arg10_r1) a + S1.size a ≤ S2.size a)
instance k0_chk4.dec : ∀ (i : grid0.Coords) (k0_t2 : Fin (k0_t2_loop i).trips) (arg7_r1 : BitVec 32) (arg8_r1 : BitVec 32) (arg9_r1 : BitVec 32) (arg10_r1 : BitVec 32) (arg11_r1 : BitVec 32), Decidable (k0_chk4 i k0_t2 arg7_r1 arg8_r1 arg9_r1 arg10_r1 arg11_r1) := fun i k0_t2 arg7_r1 arg8_r1 arg9_r1 arg10_r1 arg11_r1 => decidable_of_iff' _ (Iff.of_eq (k0_chk4.eq_1 i k0_t2 arg7_r1 arg8_r1 arg9_r1 arg10_r1 arg11_r1))
theorem k0_off18_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h10 : k0_cond10 i k0_t2 arg11_r1 = 1#1), ∀ a, (k0_off18 arg7_r1) a + S1x1x1x400.size a ≤ S2x1x1x400.size a := fun i k0_t2 arg7_r1 arg8_r1 arg9_r1 arg10_r1 arg11_r1 k0_hw4 k0_h2 k0_h10 => k0_hw4.1 k0_h2 k0_h10
theorem k0_off19_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h10 : k0_cond10 i k0_t2 arg11_r1 = 1#1), ∀ a, (k0_off19 i arg11_r1) a + S1x1x400.size a ≤ S250x1x400.size a := fun i k0_t2 arg7_r1 arg8_r1 arg9_r1 arg10_r1 arg11_r1 k0_hw4 k0_h2 k0_h10 => k0_hw4.2.1 k0_h2 k0_h10
theorem k0_off20_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h10 : k0_cond10 i k0_t2 arg11_r1 = 1#1), ∀ a, (k0_off20 arg7_r1) a + S1.size a ≤ S2.size a := fun i k0_t2 arg7_r1 arg8_r1 arg9_r1 arg10_r1 arg11_r1 k0_hw4 k0_h2 k0_h10 => k0_hw4.2.2.1 k0_h2 k0_h10
theorem k0_off21_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h11 : k0_cond11 i k0_t2 arg11_r1 = 1#1), ∀ a, (k0_off21 arg8_r1) a + S1x1x1x400.size a ≤ S2x1x1x400.size a := fun i k0_t2 arg7_r1 arg8_r1 arg9_r1 arg10_r1 arg11_r1 k0_hw4 k0_h2 k0_h11 => k0_hw4.2.2.2.1 k0_h2 k0_h11
theorem k0_off22_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h11 : k0_cond11 i k0_t2 arg11_r1 = 1#1), ∀ a, (k0_off22 i arg11_r1) a + S1x1x400.size a ≤ S250x1x400.size a := fun i k0_t2 arg7_r1 arg8_r1 arg9_r1 arg10_r1 arg11_r1 k0_hw4 k0_h2 k0_h11 => k0_hw4.2.2.2.2.1 k0_h2 k0_h11
theorem k0_off23_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h11 : k0_cond11 i k0_t2 arg11_r1 = 1#1), ∀ a, (k0_off23 arg8_r1) a + S1.size a ≤ S2.size a := fun i k0_t2 arg7_r1 arg8_r1 arg9_r1 arg10_r1 arg11_r1 k0_hw4 k0_h2 k0_h11 => k0_hw4.2.2.2.2.2.1 k0_h2 k0_h11
theorem k0_off26_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h14 : k0_cond14 i k0_t2 arg11_r1 = 1#1), ∀ a, (k0_off26 arg9_r1) a + S1x400x128.size a ≤ S2x400x128.size a := fun i k0_t2 arg7_r1 arg8_r1 arg9_r1 arg10_r1 arg11_r1 k0_hw4 k0_h2 k0_h14 => k0_hw4.2.2.2.2.2.2.1 k0_h2 k0_h14
theorem k0_off27_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h14 : k0_cond14 i k0_t2 arg11_r1 = 1#1), ∀ a, (k0_off27 i arg11_r1) a + S400x128.size a ≤ S100000x128.size a := fun i k0_t2 arg7_r1 arg8_r1 arg9_r1 arg10_r1 arg11_r1 k0_hw4 k0_h2 k0_h14 => k0_hw4.2.2.2.2.2.2.2.1 k0_h2 k0_h14
theorem k0_off28_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h14 : k0_cond14 i k0_t2 arg11_r1 = 1#1), ∀ a, (k0_off28 arg9_r1) a + S1.size a ≤ S2.size a := fun i k0_t2 arg7_r1 arg8_r1 arg9_r1 arg10_r1 arg11_r1 k0_hw4 k0_h2 k0_h14 => k0_hw4.2.2.2.2.2.2.2.2.1 k0_h2 k0_h14
theorem k0_off29_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h16 : k0_cond16 i k0_t2 arg11_r1 = 1#1), ∀ a, (k0_off29 arg10_r1) a + S1x400x128.size a ≤ S2x400x128.size a := fun i k0_t2 arg7_r1 arg8_r1 arg9_r1 arg10_r1 arg11_r1 k0_hw4 k0_h2 k0_h16 => k0_hw4.2.2.2.2.2.2.2.2.2.1 k0_h2 k0_h16
theorem k0_off30_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h16 : k0_cond16 i k0_t2 arg11_r1 = 1#1), ∀ a, (k0_off30 i arg11_r1) a + S400x128.size a ≤ S100000x128.size a := fun i k0_t2 arg7_r1 arg8_r1 arg9_r1 arg10_r1 arg11_r1 k0_hw4 k0_h2 k0_h16 => k0_hw4.2.2.2.2.2.2.2.2.2.2.1 k0_h2 k0_h16
theorem k0_off31_inb : ∀ (i : grid0.Coords) (k0_t2 : Fin (k0_t2_loop i).trips) (arg7_r1 : BitVec 32) (arg8_r1 : BitVec 32) (arg9_r1 : BitVec 32) (arg10_r1 : BitVec 32) (arg11_r1 : BitVec 32) (k0_hw4 : k0_chk4 i k0_t2 arg7_r1 arg8_r1 arg9_r1 arg10_r1 arg11_r1), ∀ (k0_h2 : k0_cond2 i = 1#1), ∀ (k0_h16 : k0_cond16 i k0_t2 arg11_r1 = 1#1), ∀ a, (k0_off31 arg10_r1) a + S1.size a ≤ S2.size a := fun i k0_t2 arg7_r1 arg8_r1 arg9_r1 arg10_r1 arg11_r1 k0_hw4 k0_h2 k0_h16 => k0_hw4.2.2.2.2.2.2.2.2.2.2.2 k0_h2 k0_h16

def k0_cond18 (i : grid0.Coords) : BitVec 1 :=
  let c1_i32_5 : BitVec 32 := 1#32
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let v14 : BitVec 32 := Scalar.muli c1_i32_5 v8
  let c1_i32_49_r1 : BitVec 32 := 1#32
  let v61_r1 : BitVec 32 := Scalar.subi v14 c1_i32_49_r1
  let c1_i32_50_r1 : BitVec 32 := 1#32
  let v62_r1 : BitVec 32 := Scalar.muli c1_i32_50_r1 v8
  let c1_i32_52_r1 : BitVec 32 := 1#32
  let v64_r1 : BitVec 32 := Scalar.subi v62_r1 c1_i32_52_r1
  let v65_r1 : BitVec 1 := Scalar.cmpi .eq v61_r1 v64_r1
  let v85_r1 : BitVec 32 := Scalar.extui v65_r1
  let c0_i32_64_r1 : BitVec 32 := 0#32
  let v86_r1 : BitVec 1 := Scalar.cmpi .ne v85_r1 c0_i32_64_r1
  v86_r1

def k0_off32 (v55_3_r1 : BitVec 32) : Fin 3 → Nat :=
  let c2_i32_65_r1 : BitVec 32 := 2#32
  let v87_r1 : BitVec 32 := Scalar.remui v55_3_r1 c2_i32_65_r1
  let c0_i32_66_r1 : BitVec 32 := 0#32
  let c0_i32_67_r1 : BitVec 32 := 0#32
  ![v87_r1.toNat, 0, 0]

def k0_off33 (i : grid0.Coords) (v55_4_r1 : BitVec 32) : Fin 2 → Nat :=
  let c400_i32_r1 : BitVec 32 := 400#32
  let true_46_r1 : BitVec 1 := 1#1
  let c1_i32_45_r1 : BitVec 32 := 1#32
  let v56_r1 : BitVec 32 := Scalar.subi v55_4_r1 c1_i32_45_r1
  let v57_r1 : BitVec 32 := Scalar.select true_46_r1 v56_r1 v55_4_r1
  let c_m1_i32_47_r1 : BitVec 32 := 4294967295#32
  let v58_r1 : BitVec 1 := Scalar.cmpi .eq v57_r1 c_m1_i32_47_r1
  let c0_i32_1 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_1 v3
  let arg0 : BitVec 32 := BitVec.ofNat 32 (i 0).val
  let c16_i32 : BitVec 32 := 16#32
  let v5 : BitVec 32 := Scalar.muli arg0 c16_i32
  let v6 : BitVec 32 := Scalar.addi v4 v5
  let c26_i32 : BitVec 32 := 26#32
  let v7 : BitVec 1 := Scalar.cmpi .slt v6 c26_i32
  let c8_i32 : BitVec 32 := 8#32
  let c7_i32 : BitVec 32 := 7#32
  let v8 : BitVec 32 := Scalar.select v7 c8_i32 c7_i32
  let c1_i32_48_r1 : BitVec 32 := 1#32
  let v59_r1 : BitVec 32 := Scalar.subi v8 c1_i32_48_r1
  let v60_r1 : BitVec 32 := Scalar.select v58_r1 v59_r1 v57_r1
  let c26_i32_2 : BitVec 32 := 26#32
  let v9 : BitVec 1 := Scalar.cmpi .slt v6 c26_i32_2
  let v10 : BitVec 32 := Scalar.muli v6 v8
  let c7_i32_3 : BitVec 32 := 7#32
  let v11 : BitVec 32 := Scalar.muli v6 c7_i32_3
  let c26_i32_4 : BitVec 32 := 26#32
  let v12 : BitVec 32 := Scalar.addi v11 c26_i32_4
  let v13 : BitVec 32 := Scalar.select v9 v10 v12
  let v66_r1 : BitVec 32 := Scalar.addi v60_r1 v13
  let v88_r1 : BitVec 32 := Scalar.muli c400_i32_r1 v66_r1
  let c0_i32_68_r1 : BitVec 32 := 0#32
  ![v88_r1.toNat, 0]

def k0_chk8 (i : grid0.Coords) (v55_4_r1 : BitVec 32) : Prop :=
  (∀ (k0_h2 : k0_cond2 i = 1#1), ∀ (k0_h18 : k0_cond18 i = 1#1), ∀ a, (k0_off33 i v55_4_r1) a + S400x128.size a ≤ S100000x128.size a)
instance k0_chk8.dec : ∀ (i : grid0.Coords) (v55_4_r1 : BitVec 32), Decidable (k0_chk8 i v55_4_r1) := fun i v55_4_r1 => decidable_of_iff' _ (Iff.of_eq (k0_chk8.eq_1 i v55_4_r1))
theorem k0_off33_inb : ∀ (i : grid0.Coords) (v55_4_r1 : BitVec 32) (k0_hw8 : k0_chk8 i v55_4_r1), ∀ (k0_h2 : k0_cond2 i = 1#1), ∀ (k0_h18 : k0_cond18 i = 1#1), ∀ a, (k0_off33 i v55_4_r1) a + S400x128.size a ≤ S100000x128.size a := fun i v55_4_r1 k0_hw8 k0_h2 k0_h18 => k0_hw8 k0_h2 k0_h18

def k0_off34 (v55_3_r1 : BitVec 32) : Fin 1 → Nat :=
  let c2_i32_65_r1 : BitVec 32 := 2#32
  let v87_r1 : BitVec 32 := Scalar.remui v55_3_r1 c2_i32_65_r1
  ![v87_r1.toNat]
def k0_off35 (v55_3_r1 : BitVec 32) : Fin 3 → Nat :=
  let c2_i32_65_r1 : BitVec 32 := 2#32
  let v87_r1 : BitVec 32 := Scalar.remui v55_3_r1 c2_i32_65_r1
  let c0_i32_70_r1 : BitVec 32 := 0#32
  let c0_i32_71_r1 : BitVec 32 := 0#32
  ![v87_r1.toNat, 0, 0]

def k0_chk7 (i : grid0.Coords) (v55_3_r1 : BitVec 32) : Prop :=
  (∀ (k0_h2 : k0_cond2 i = 1#1), ∀ (k0_h18 : k0_cond18 i = 1#1), ∀ a, (k0_off32 v55_3_r1) a + S1x400x128.size a ≤ S2x400x128.size a) ∧
  (∀ (k0_h2 : k0_cond2 i = 1#1), ∀ (k0_h18 : k0_cond18 i = 1#1), ∀ a, (k0_off34 v55_3_r1) a + S1.size a ≤ S2.size a) ∧
  (∀ (k0_h2 : k0_cond2 i = 1#1), ∀ (k0_h18 : k0_cond18 i = 1#1), ∀ a, (k0_off35 v55_3_r1) a + S1x400x128.size a ≤ S2x400x128.size a)
instance k0_chk7.dec : ∀ (i : grid0.Coords) (v55_3_r1 : BitVec 32), Decidable (k0_chk7 i v55_3_r1) := fun i v55_3_r1 => decidable_of_iff' _ (Iff.of_eq (k0_chk7.eq_1 i v55_3_r1))
theorem k0_off32_inb : ∀ (i : grid0.Coords) (v55_3_r1 : BitVec 32) (k0_hw7 : k0_chk7 i v55_3_r1), ∀ (k0_h2 : k0_cond2 i = 1#1), ∀ (k0_h18 : k0_cond18 i = 1#1), ∀ a, (k0_off32 v55_3_r1) a + S1x400x128.size a ≤ S2x400x128.size a := fun i v55_3_r1 k0_hw7 k0_h2 k0_h18 => k0_hw7.1 k0_h2 k0_h18
theorem k0_off34_inb : ∀ (i : grid0.Coords) (v55_3_r1 : BitVec 32) (k0_hw7 : k0_chk7 i v55_3_r1), ∀ (k0_h2 : k0_cond2 i = 1#1), ∀ (k0_h18 : k0_cond18 i = 1#1), ∀ a, (k0_off34 v55_3_r1) a + S1.size a ≤ S2.size a := fun i v55_3_r1 k0_hw7 k0_h2 k0_h18 => k0_hw7.2.1 k0_h2 k0_h18
theorem k0_off35_inb : ∀ (i : grid0.Coords) (v55_3_r1 : BitVec 32) (k0_hw7 : k0_chk7 i v55_3_r1), ∀ (k0_h2 : k0_cond2 i = 1#1), ∀ (k0_h18 : k0_cond18 i = 1#1), ∀ a, (k0_off35 v55_3_r1) a + S1x400x128.size a ≤ S2x400x128.size a := fun i v55_3_r1 k0_hw7 k0_h2 k0_h18 => k0_hw7.2.2 k0_h2 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S100000_S250x1x400 : S100000.ShapeCasts S250x1x400
  squeezes_S1x1x1x400_S1x1x400 : S1x1x1x400.Squeezes S1x1x400
  squeezes_S1_S_ : S1.Squeezes S_
  squeezes_S1x400x128_S400x128 : S1x400x128.Squeezes S400x128
  inb_S1x1x400_S1x1x400_0_0_0 : ∀ a, (![0, 0, 0] : Fin 3 → Nat) a + S1x1x400.size a ≤ S1x1x400.size a
  squeezes_S1x1x400_S400 : S1x1x400.Squeezes S400
  inb_S3x128_S3x128_0_0 : ∀ a, (![0, 0] : Fin 2 → Nat) a + S3x128.size a ≤ S3x128.size a
  gathers_S3x128_S400x128 : S3x128.Gathers 0 S400x128
  hcc0_scoped0 : 0 + S_.numel ≤ 7
  hcc0_scoped2 : 1 + S2.numel ≤ 7
  hcc0_scoped4 : 3 + S2.numel ≤ 7
  hcc0_scoped5 : 5 + S_.numel ≤ 7
  hcc0_scoped6 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h2 : k0_cond2 i = 1#1), ∀ a, k0_off1 a + S1x1x1x400.size a ≤ S2x1x1x400.size a
  k0_off2_inb : ∀ i : grid0.Coords, ∀ (k0_h2 : k0_cond2 i = 1#1), ∀ a, (k0_off2 i) a + S1x1x400.size a ≤ S250x1x400.size a
  k0_off3_inb : ∀ i : grid0.Coords, ∀ (k0_h2 : k0_cond2 i = 1#1), ∀ a, k0_off3 a + S1.size a ≤ S2.size a
  k0_t1_ok : ∀ i : grid0.Coords, ∀ (k0_h2 : k0_cond2 i = 1#1), (k0_t1_loop i).OK
  k0_t2_ok : ∀ i : grid0.Coords, ∀ (k0_h2 : k0_cond2 i = 1#1), (k0_t2_loop i).OK

variable [Facts₀]

abbrev cc0_scoped0 : DmaSems sig S_ := SemArray.consecutive 0 S_ hcc0_scoped0
abbrev cc0_scoped2 : DmaSems sig S2 := SemArray.consecutive 1 S2 hcc0_scoped2
abbrev cc0_scoped4 : DmaSems sig S2 := SemArray.consecutive 3 S2 hcc0_scoped4
abbrev cc0_scoped5 : DmaSems sig S_ := SemArray.consecutive 5 S_ hcc0_scoped5
abbrev cc0_scoped6 : DmaSems sig S_ := SemArray.consecutive 6 S_ hcc0_scoped6

class Facts : Prop extends Facts₀ where

variable [Facts]
-- ==== ReferenceIdeal.lean ====
abbrev S100000 : Shape := ⟨1, ![100000]⟩
abbrev S3x128 : Shape := ⟨2, ![3, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000, .i32⟩
  | .hbm, ⟨1, _⟩ => ⟨S3x128, .f32⟩
  | .hbm, ⟨2, _⟩ => ⟨S_, .i32⟩
  | .hbm, ⟨3, _⟩ => ⟨S100000, .i32⟩
  | .hbm, ⟨4, _⟩ => ⟨S100000, .i1⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S100000x1, .i32⟩
  | .hbm, ⟨10, _⟩ => ⟨S1, .i32⟩
  | .hbm, ⟨11, _⟩ => ⟨S_, .i32⟩
  | .hbm, ⟨12, _⟩ => ⟨S100000x1, .i32⟩
  | .hbm, ⟨13, _⟩ => ⟨S100000x1, .i1⟩
  | .hbm, ⟨14, _⟩ => ⟨S1x1, .i32⟩
  | .hbm, ⟨15, _⟩ => ⟨S100000x1, .i32⟩
  | .hbm, ⟨16, _⟩ => ⟨S100000x1, .i1⟩
  | .hbm, ⟨17, _⟩ => ⟨S100000x1, .i1⟩
  | .hbm, ⟨18, _⟩ => ⟨S_, .i1⟩
  | .hbm, ⟨19, _⟩ => ⟨S100000, .i1⟩
  | .hbm, ⟨20, _⟩ => ⟨S100000x128, .f32⟩
  | .hbm, ⟨21, _⟩ => ⟨S100000x128, .i1⟩
  | .hbm, ⟨22, _⟩ => ⟨S_, .f32⟩
  | .hbm, ⟨23, _⟩ => ⟨S100000x128, .f32⟩
  | .hbm, ⟨24, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  gather_S3x128_S100000x1_S100000x128_1_0_n_n_0_1_1128_wf : GatherDims.WF S3x128 S100000x1 S100000x128 [1] [0] [] [0] [] 1 ![1, 128]

variable [Facts₀]

def gather_S3x128_S100000x1_S100000x128_1_0_n_n_0_1_1128 : GatherDims S3x128 S100000x1 S100000x128 where
  offsetDims := [1]
  collapsedSliceDims := [0]
  operandBatchingDims := []
  startIndicesBatchingDims := []
  startIndexMap := [0]
  indexVectorDim := 1
  sliceSizes := ![1, 128]
  wf := gather_S3x128_S100000x1_S100000x128_1_0_n_n_0_1_1128_wf

class Facts : Prop extends Facts₀ where

variable [Facts]
-- ==== Proof.RefRun.lean ====
/- The reference program's run and value. @main calls @_take, which calls @_where; the three bodies unfolded are one
   straight line of 23 host operations, whose composed pure term is `refVal`: every weakly fair execution ends with the
   result buffer at `refVal` of the two arguments (`run`). Under the precondition (every index in [0, 2]) entry (r, q)
   of `refVal chi tab` is the table's row `chi r` at column q (`refVal_apply`). -/
import proofs.«207302_g55387898250011_cont_9to1_m_42_19_alg».proof.Defs
import proofs.«207302_g55387898250011_cont_9to1_m_42_19_alg».proof.Proof.Gen.ReferenceIdeal
import proofs.«207302_g55387898250011_cont_9to1_m_42_19_alg».proof.Proof.Gen.Pre_input_domain
import Idealize.ShloMosaic.Lib.StableHlo.Run
import Idealize.ShloMosaic.Lib.ReduceAll
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The reference's value, operation by operation -/

/-- The index normalised: `chi + 3` where `chi < 0`, else `chi`. -/
def normIdx (chi : IVec S100000 32) : IVec S100000 32 :=
  select (cmpi .slt chi (broadcastInDim S100000 ![] bcast_S_S100000 (constantI S_ 32 0#32)))
    (addi chi (broadcastInDim S100000 ![] bcast_S_S100000 (constantI S_ 32 3#32))) chi

/-- The normalised index as a column `100000 × 1`: the gather's start indices. -/
def idxCol (chi : IVec S100000 32) : IVec S100000x1 32 :=
  broadcastInDim S100000x1 ![0] bcast_S100000_S100000x1_0 (normIdx chi)

/-- Row by row: is the normalised index in `[0, 2]` — the conjunction over the unit axis of `0 ≤ idx` and `idx ≤ 2`. -/
def inRange (chi : IVec S100000 32) : IVec S100000 1 :=
  Host.reduce IntOp.andi
    (andi (cmpi .sge (idxCol chi) (broadcastInDim S100000x1 ![] bcast_S_S100000x1 (constantI S_ 32 0#32)))
      (cmpi .sle (idxCol chi)
        (broadcastInDim S100000x1 ![0, 1] bcast_S1x1_S100000x1_0_1
          (broadcastInDim S1x1 ![1] bcast_S1_S1x1_1 (constantI S1 32 2#32)))))
    (constantI S_ 1 1#1) reducesTo_S100000x1_S100000_d1 h_S_

/-- The rows of the table gathered at the normalised indices. -/
def gathered (chi : IVec S100000 32) (tab : FVec F S3x128 .f32) : FVec F S100000x128 .f32 :=
  Host.gather gather_S3x128_S100000x1_S100000x128_1_0_n_n_0_1_1128 tab (idxCol chi)

/-- The reference's result as a function of its two arguments' contents: the gathered row where the index is in
    range, the constant `0x7FC00000` elsewhere. -/
def refVal (chi : IVec S100000 32) (tab : FVec F S3x128 .f32) : FVec F S100000x128 .f32 :=
  select (broadcastInDim S100000x128 ![0] bcast_S100000_S100000x128_0 (inRange chi))
    (gathered chi tab)
    (broadcastInDim S100000x128 ![] bcast_S_S100000x128 (constant S_ .f32 0x7FC00000#32))

/-! ## The run -/

/-- @main's 23 operations in order, the two calls unfolded: @_take's 22 with @_where's one select in the place of
    its call. -/
abbrev ops : List (HloOp τ sig (Elt F)) :=
  [ TRef.nullary main_call0.c (constantI S_ 32 0#32),
    TRef.unary main_call0.c main_call0.v0 (broadcastInDim S100000 ![] bcast_S_S100000),
    TRef.binary (.of main_arg0) main_call0.v0 main_call0.v1 (cmpi .slt),
    TRef.nullary main_call0.c_0 (constantI S_ 32 3#32),
    TRef.unary main_call0.c_0 main_call0.v2 (broadcastInDim S100000 ![] bcast_S_S100000),
    TRef.binary (.of main_arg0) main_call0.v2 main_call0.v3 addi,
    TRef.ternary main_call0.v1 main_call0.v3 (.of main_arg0) main_call0.call0.v0 select,
    TRef.unary main_call0.call0.v0 main_call0.v5 (broadcastInDim S100000x1 ![0] bcast_S100000_S100000x1_0),
    TRef.nullary main_call0.c_1 (constantI S1 32 2#32),
    TRef.nullary main_call0.c_2 (constantI S_ 32 0#32),
    TRef.unary main_call0.c_2 main_call0.v6 (broadcastInDim S100000x1 ![] bcast_S_S100000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S100000x1 ![0, 1] bcast_S1x1_S100000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x1_S100000_d1 h_S_),
    TRef.binary (.of main_arg1) main_call0.v5 main_call0.v13 (fun x i => Host.gather gather_S3x128_S100000x1_S100000x128_1_0_n_n_0_1_1128 x i),
    TRef.unary main_call0.v12 main_call0.v14 (broadcastInDim S100000x128 ![0] bcast_S100000_S100000x128_0),
    TRef.nullary main_call0.cst (constant S_ .f32 0x7FC00000#32),
    TRef.unary main_call0.cst main_call0.v15 (broadcastInDim S100000x128 ![] bcast_S_S100000x128),
    TRef.ternary main_call0.v14 main_call0.v13 main_call0.v15 main_call0.v16 select ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The fold of the 23 operations at the result buffer is `refVal` of the launch contents of the two arguments: each
    operation's result read at its own buffer, every other buffer as it was. -/
theorem out_eq (V : Valuation τ sig (Elt F)) :
    after ops V (main_v0 : DevRef τ sig) = refVal (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of @main
    terminates with the result buffer at `refVal` of the two arguments' launch contents, the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread Cert.ReferenceIdeal.nD Cert.ReferenceIdeal.τ).loc Cert.ReferenceIdeal.main_v0)
        = refVal (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

/-! ## The precondition read back: every index is 0, 1 or 2 -/

section Pre

open Idealize.ShloMosaic.ValueIdx

local instance : Subsingleton Cert.Pre_input_domain.S_.Idx := ⟨fun a b => funext fun d => d.elim0⟩

/-- Under the precondition every entry of `chi`, read signed, lies in `[0, 2]`: the precondition's second conjunct
    is the conjunction over all entries of `chi ≥ 0` and `chi ≤ 2` (signed compares against broadcast constants). -/
theorem chi_lt {F : FTy → Type} [FloatOps F] [Cert.Pre_input_domain.Facts]
    (chi : IVec Cert.Pre_input_domain.S100000 32) (tab : FVec F Cert.Pre_input_domain.S3x128 .f32)
    (h : Cert.Pre_input_domain.fn (F := F) chi tab = fun _ => 1#1) :
    ∀ i, 0 ≤ (chi i).toInt ∧ (chi i).toInt ≤ 2 := by
  intro i
  have h0 := congrFun h ix0
  dsimp only [Cert.Pre_input_domain.fn] at h0
  obtain ⟨-, h9⟩ := IntOp.andi_eq_one.1 h0
  obtain ⟨h5, h7⟩ := IntOp.andi_eq_one.1 (Host.reduce_andi_all _ _ _ _ _ h9 i)
  have a := IntOp.cmpi_sge.1 h5
  have b := IntOp.cmpi_sle.1 h7
  rw [broadcastInDim_scalar_apply] at a b
  exact ⟨a, b⟩

/-- Under the precondition every entry of `chi`, read unsigned, is below 3. -/
theorem chi_toNat_lt {F : FTy → Type} [FloatOps F] [Cert.Pre_input_domain.Facts]
    (chi : IVec Cert.Pre_input_domain.S100000 32) (tab : FVec F Cert.Pre_input_domain.S3x128 .f32)
    (h : Cert.Pre_input_domain.fn (F := F) chi tab = fun _ => 1#1) (i : Cert.Pre_input_domain.S100000.Idx) :
    (chi i).toNat < 3 := by
  obtain ⟨h0, h2⟩ := chi_lt chi tab h i
  have hc := BitVec.toInt_eq_toNat_cond (chi i)
  have hl := (chi i).isLt
  split at hc <;> omega

end Pre

/-! ## The reference's value under the precondition -/

section Apply

open Idealize.ShloMosaic.ValueIdx

variable {F : FTy → Type} [FloatOps F]

local notation "gd" => gather_S3x128_S100000x1_S100000x128_1_0_n_n_0_1_1128

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A nonnegative index is kept by the normalising select. -/
theorem normIdx_apply (chi : IVec S100000 32) (k : S100000.Idx) (hk : 0 ≤ (chi k).toInt) : normIdx chi k = chi k := by
  unfold normIdx
  rw [select_apply]
  have hc : cmpi .slt chi (broadcastInDim S100000 ![] bcast_S_S100000 (constantI S_ 32 0#32)) k = 0#1 := by
    refine eq_zero_of_ne_one fun hc => ?_
    have := IntOp.cmpi_slt.1 hc
    rw [broadcastInDim_scalar_apply] at this
    have h0 : (constantI S_ 32 0#32 ix0).toInt = 0 := rfl
    omega
  rw [hc, select_zero]

/-- The start-index column at `(r, 0)` is `chi r`, when that is nonnegative. -/
theorem idxCol_apply (chi : IVec S100000 32) (i : S100000x1.Idx) (hk : 0 ≤ (chi (ix1 (i 0 : Fin 100000))).toInt) :
    idxCol chi i = chi (ix1 (i 0 : Fin 100000)) := by
  unfold idxCol
  rw [broadcastInDim_apply ![0] bcast_S100000_S100000x1_0 (normIdx chi) i (ix1 (i 0 : Fin 100000))
    (fun a => match a with | ⟨0, _⟩ => rfl)]
  exact normIdx_apply chi _ hk

/-- With every index in `[0, 2]` the in-range mask is 1 at every row. -/
theorem inRange_eq_one (chi : IVec S100000 32) (h : ∀ k, 0 ≤ (chi k).toInt ∧ (chi k).toInt ≤ 2) (j : S100000.Idx) :
    inRange chi j = 1#1 := by
  unfold inRange
  rw [Host.reduce_eq_foldl]
  refine foldl_andi_one _ _ fun i _ => ?_
  show IntOp.andi (IntOp.cmpi .sge (idxCol chi i) _) (IntOp.cmpi .sle (idxCol chi i) _) = 1#1
  rw [idxCol_apply chi i (h _).1]
  refine IntOp.andi_eq_one.2 ⟨IntOp.cmpi_sge.2 ?_, IntOp.cmpi_sle.2 ?_⟩
  · rw [broadcastInDim_scalar_apply]; exact (h _).1
  · exact (h _).2

/-- The gather at `(r, q)`, for an index `chi r` in `[0, 2]`: the table's row `chi r` at column `q` (the clamp of the
    start index into `[0, 3 − 1]` is the identity, the collapsed axis has no offset, the offset axis reads `q`). -/
theorem gathered_apply (chi : IVec S100000 32) (tab : FVec F S3x128 .f32) (r : Fin 100000) (q : Fin 128)
    (h0 : 0 ≤ (chi (ix1 r)).toInt) (h2 : (chi (ix1 r)).toInt ≤ 2) (hlt : (chi (ix1 r)).toNat < 3) :
    gathered chi tab (ix2 r q) = tab (ix2 ⟨(chi (ix1 r)).toNat, hlt⟩ q) := by
  unfold gathered Host.gather
  refine congrArg tab (funext fun a => Fin.ext ?_)
  match a with
  | ⟨0, _⟩ =>
    show (gd).start (ix2 r q) (idxCol chi) 0 + (gd).batchCoord (ix2 r q) 0 + (gd).offCoord (ix2 r q) 0 = (chi (ix1 r)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl)]
    have hsi : (gd).siIdx (ix2 r q) ⟨List.idxOf (0 : Fin 2) (gd).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, idxCol_apply chi _ h0]
    show min (chi (ix1 r)).toInt.toNat (3 - 1) = (chi (ix1 r)).toNat
    have hc := BitVec.toInt_eq_toNat_cond (chi (ix1 r))
    have hl := (chi (ix1 r)).isLt
    split at hc <;> omega
  | ⟨1, _⟩ =>
    show (gd).start (ix2 r q) (idxCol chi) 1 + (gd).batchCoord (ix2 r q) 1 + (gd).offCoord (ix2 r q) 1 = q.val
    have hs : (gd).start (ix2 r q) (idxCol chi) 1 = 0 := by
      unfold GatherDims.start
      rw [dif_neg (by decide)]
    rw [hs, GatherDims.batchCoord_eq_zero _ _ _ List.not_mem_nil]
    unfold GatherDims.offCoord
    rw [dif_pos ((GatherDims.mem_sKept _ _).2 ⟨by decide, List.not_mem_nil⟩)]
    simp only [Nat.zero_add]
    rfl

/-- With every index in `[0, 2]`, entry `(r, q)` of the reference's result is row `chi r` of the table at column
    `q`: the mask is 1, the normalising select keeps the index, the gather's clamp is the identity. -/
theorem refVal_apply_of_range (chi : IVec S100000 32) (tab : FVec F S3x128 .f32)
    (hr : ∀ k, 0 ≤ (chi k).toInt ∧ (chi k).toInt ≤ 2) (r : Fin 100000) (q : Fin 128) (hlt : (chi (ix1 r)).toNat < 3) :
    refVal chi tab (ix2 r q) = tab (ix2 ⟨(chi (ix1 r)).toNat, hlt⟩ q) := by
  unfold refVal
  rw [select_apply, broadcastInDim_apply ![0] bcast_S100000_S100000x128_0 (inRange chi) (ix2 r q) (ix1 r)
    (fun a => match a with | ⟨0, _⟩ => rfl), inRange_eq_one chi hr, select_one]
  exact gathered_apply chi tab r q (hr _).1 (hr _).2 hlt

/-- Under the precondition, entry `(r, q)` of the reference's result is row `chi r` of the table at column `q`. -/
theorem refVal_apply [Cert.Pre_input_domain.Facts] (chi : IVec S100000 32) (tab : FVec F S3x128 .f32)
    (h : Cert.Pre_input_domain.fn (F := F) chi tab = fun _ => 1#1) (r : Fin 100000) (q : Fin 128) :
    refVal chi tab (ix2 r q) = tab (ix2 ⟨(chi (ix1 r)).toNat, chi_toNat_lt chi tab h (ix1 r)⟩ q) :=
  refVal_apply_of_range chi tab (chi_lt chi tab h) r q _

end Apply

end Cert.ReferenceIdeal.RefValue

end
-- ==== Proof.Common.lean ====
/-
  The launch side of the lookup kernel's run, part one: the vocabulary shared by the tile's task and the launch.
  @main reshapes the index vector (100000 words) to 250 windows of 400 and starts one vector-subcore kernel on
  SparseCores [0, 2) x tiles [0, 16). Tile 0 of each SparseCore fills the SparseCore's shared scratch with the table
  (3 rows of 128) and all sixteen meet at the subcore barrier; worker w = s + 16 c then serves nwin w consecutive
  windows from window w0 w on: rows [400 j, 400 j + 400) of the output are the table's rows at window j's indices.
  Here: the configuration and ghost state, the arrays' locations, the workers' windows and the elements of the output
  they cover (pairwise disjoint, together everything), the contents the arrays end at as pure terms of the launch
  memory, the barrier cells' schedule (tile 0's duty in every tile's round hands over a read share of the filled
  scratch), what the handshakes carry, and the statement of one tile's task.
-/
import proofs.«207302_g55387898250011_cont_9to1_m_42_19_alg».proof.KernelIdeal
import proofs.«207302_g55387898250011_cont_9to1_m_42_19_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.ValueIdx
import Idealize.ShloMosaic.Lib.Tactic

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the arrays -/

variable (m : (ℓ : Loc nD τ sig) → Buf (Elt F) ℓ) (ρ : Dev nD → PrngReg)

/-- The index vector, the table, the index vector in windows, the output. -/
abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1

theorem nSub_eq : τ.nSub = 16 := rfl
theorem nSC_eq : τ.nSC = 2 := rfl

/-- SparseCore c's shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## The workers and their windows -/

/-- Tile s of SparseCore c is worker s + 16 c; -/
def wid (c s : ℕ) : ℕ := s + 16 * c
/-- the first 26 workers serve eight windows each, the last six seven: 26 * 8 + 6 * 7 = 250; -/
def nwin (w : ℕ) : ℕ := if w < 26 then 8 else 7
/-- worker w's first window. -/
def w0 (w : ℕ) : ℕ := if w < 26 then 8 * w else 7 * w + 26

theorem wid_lt {c s : ℕ} (hc : c < 2) (hs : s < 16) : wid c s < 32 := by unfold wid; omega

theorem hdivW : 250 ∣ S100000x128.size 0 := ⟨400, rfl⟩
/-- Window j of the output: rows [400 j, 400 j + 400), all 128 columns. -/
abbrev win (j : Fin 250) : Rect S100000x128 := Rect.part (s := S100000x128) (a₀ := 0) hdivW j
abbrev winSet (j : Fin 250) : Finset S100000x128.Idx := (win j).set

/-- The windows worker w serves, -/
def wins (w : ℕ) : Finset (Fin 250) := Finset.univ.filter fun j => w0 w ≤ j.val ∧ j.val < w0 w + nwin w
/-- and the elements of the output they cover: rows [400 (w0 w), 400 (w0 w + nwin w)). -/
def outSet (w : ℕ) : Finset S100000x128.Idx := (wins w).biUnion winSet

theorem mem_wins {w : ℕ} {j : Fin 250} : j ∈ wins w ↔ w0 w ≤ j.val ∧ j.val < w0 w + nwin w := by
  unfold wins; simp

/-- A window's elements, as the slice of the whole output at that rectangle has them. -/
theorem winSet_eq_slice (j : Fin 250) : ((View.whole (main_v1_scv : Ref sig .scVector)).slice (win j)).set = winSet j := by
  rw [View.set_slice]; exact Finset.map_refl

theorem winSet_disjoint {j j' : Fin 250} (h : j ≠ j') : Disjoint (winSet j) (winSet j') := Rect.part_disjoint hdivW h

theorem wins_disjoint {w w' : ℕ} (hw : w < 32) (hw' : w' < 32) (h : w ≠ w') : Disjoint (wins w) (wins w') := by
  rw [Finset.disjoint_left]
  intro j h1 h2
  rw [mem_wins] at h1 h2
  unfold w0 nwin at h1 h2
  split_ifs at h1 h2 <;> omega

/-- Different workers' elements are disjoint, -/
theorem outSet_disjoint {w w' : ℕ} (hw : w < 32) (hw' : w' < 32) (h : w ≠ w') : Disjoint (outSet w) (outSet w') := by
  unfold outSet
  rw [Finset.disjoint_biUnion_left]
  intro j hj
  rw [Finset.disjoint_biUnion_right]
  intro j' hj'
  refine winSet_disjoint fun e => ?_
  subst e
  exact Finset.disjoint_left.mp (wins_disjoint hw hw' h) hj hj'

theorem wins_cover : (Finset.univ : Finset (Fin 32)).biUnion (fun w => wins w.val) = Finset.univ := by
  ext j
  simp only [Finset.mem_biUnion, Finset.mem_univ, true_and, iff_true]
  have hj := j.isLt
  by_cases h : j.val < 208
  · refine ⟨⟨j.val / 8, by omega⟩, mem_wins.mpr ?_⟩
    unfold w0 nwin
    have : j.val / 8 < 26 := by omega
    simp only [this, ↓reduceIte]
    omega
  · refine ⟨⟨(j.val - 26) / 7, by omega⟩, mem_wins.mpr ?_⟩
    unfold w0 nwin
    have : ¬ (j.val - 26) / 7 < 26 := by omega
    simp only [this, ↓reduceIte]
    omega

/-- and the 32 workers' elements are the whole output. -/
theorem outSet_cover : (Finset.univ : Finset (Fin 32)).biUnion (fun w => outSet w.val) = Finset.univ := by
  unfold outSet
  rw [← Finset.biUnion_biUnion, wins_cover]
  exact Rect.biUnion_part hdivW

/-! ## The contents: pure terms of the launch memory -/

/-- The index vector in windows: what the reshape leaves in main_v0. -/
def idxV (d : Dev nD) : Buf (Elt F) (v0Loc d) :=
  fun i => shapeCast S250x1x400 (m (a0Loc d)) shapeCasts_S100000_S250x1x400 i

/-- Every entry of the windows is an entry of the index vector: a bound on all of those is one on all of these. -/
theorem idxV_lt (d : Dev nD) (h : ∀ i, (m (a0Loc d) i).toNat < 3) : ∀ x, (idxV m d x).toNat < 3 := by
  intro x; unfold idxV shapeCast; exact h _

/-- The table row an index word names (the word read unsigned; below 3 under the precondition). -/
def rowOf (b : BitVec 32) : Fin 3 := ⟨b.toNat % 3, Nat.mod_lt _ (by decide)⟩

theorem rowOf_val {b : BitVec 32} (h : b.toNat < 3) : (rowOf b).val = b.toNat := Nat.mod_eq_of_lt h

/-- The output's final contents: entry (r, q) is the table at (the row index word r names, q). -/
def gOut (d : Dev nD) : Buf (Elt F) (v1Loc d) :=
  fun i => m (a1Loc d) (ix2 (rowOf (m (a0Loc d) (ix1 (i 0 : Fin 100000)))) (i 1 : Fin 128))

theorem gOut_apply (d : Dev nD) (i : S100000x128.Idx) :
    gOut m d i = m (a1Loc d) (ix2 (rowOf (m (a0Loc d) (ix1 (i 0 : Fin 100000)))) (i 1 : Fin 128)) := rfl

/-- The table's contents, as contents of SparseCore c's shared scratch (the two arrays have one type). -/
def tblSh (d : Dev nD) (c : Fin τ.nSC) : Buf (Elt F) (shLoc d c) := m (a1Loc d)

theorem tblSh_apply (d : Dev nD) (c : Fin τ.nSC) (i : S3x128.Idx) : tblSh m d c i = m (a1Loc d) i := rfl

variable [FloatOps F]

/-! ## The barrier cells -/

/-- Tile (c, j)'s barrier semaphore of device d. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- Read token j of the shared scratch at the table's contents, and what is left of the full share after sixteen. -/
abbrev shTok (d : Dev nD) (c : Fin τ.nSC) (j : ℕ) : sProp 𝕄 := shLoc d c ↦{shareTokN fullShare j} tblSh m d c
abbrev shKeep (d : Dev nD) (c : Fin τ.nSC) : sProp 𝕄 := shLoc d c ↦{shareDrop fullShare 16} tblSh m d c

/-- What a duty in tile j's round hands over: tile 0's, read token j of the filled scratch; the others', nothing. -/
def bPay (g : GSem nD τ sig) (n : ℕ) : sProp 𝕄 :=
  match g with
  | ((d, .scVector c j), _) => if n = 0 then shTok m d c j.val else iprop(emp)
  | _ => iprop(emp)

/-- The barrier cells' schedule: one round on each, of one unit duty per tile of the SparseCore (named by its number),
    tile 0's handing over a read share of the scratch it filled. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile (c, i) owe for the barrier: a unit on every tile's cell of its SparseCore, at the call's
    index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile (c, i)'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Read token c of the table (one per SparseCore), read token w of the windowed indices (one per worker), worker w's
    elements of the output at contents f. -/
abbrev a1Tok (d : Dev nD) (c : ℕ) : sProp 𝕄 := a1Loc d ↦{shareTokN fullShare c} m (a1Loc d)
abbrev idxTok (d : Dev nD) (w : ℕ) : sProp 𝕄 := v0Loc d ↦{shareTokN fullShare w} idxV m d
abbrev outPts (d : Dev nD) (w : ℕ) (f : Buf (Elt F) (v1Loc d)) : sProp 𝕄 := v1Loc d ↦[outSet w]{fullShare} f

/-- What tile (c, s) is handed with its task: its read token of the indices, its elements of the output at the launch
    contents, and, tile 0, the SparseCore's read token of the table and the shared scratch whole. -/
def goPay (d : Dev nD) (c : Fin τ.nSC) (s : Fin τ.nSub) : sProp 𝕄 :=
  iprop(idxTok m d (wid c.val s.val) ∗ outPts d (wid c.val s.val) (m (v1Loc d))
    ∗ if s.val = 0 then iprop(a1Tok m d c.val ∗ ∃ f, shLoc d c ↦{fullShare} f) else iprop(emp))

/-- What it hands back: the token, its elements of the output at the final contents, the read token of the filled
    scratch it received at the barrier, and, tile 0, the table's token and what it kept of the scratch. -/
def tdPay (d : Dev nD) (c : Fin τ.nSC) (s : Fin τ.nSub) : sProp 𝕄 :=
  iprop(idxTok m d (wid c.val s.val) ∗ outPts d (wid c.val s.val) (gOut m d) ∗ shTok m d c s.val
    ∗ if s.val = 0 then iprop(a1Tok m d c.val ∗ shKeep m d c) else iprop(emp))

/-- What the TensorCore hands SparseCore c's sequencer, and (at f the final contents) gets back: the SparseCore's read
    token of the table, its sixteen workers' tokens of the indices and elements of the output. -/
def stPay (d : Dev nD) (c : Fin τ.nSC) (f : Buf (Elt F) (v1Loc d)) : sProp 𝕄 :=
  iprop(a1Tok m d c.val ∗ (bigSep Finset.univ fun s : Fin τ.nSub => idxTok m d (wid c.val s.val))
    ∗ bigSep Finset.univ fun s : Fin τ.nSub => outPts d (wid c.val s.val) f)

instance goPay_storable (d : Dev nD) (c : Fin τ.nSC) (s : Fin τ.nSub) : BI.Storable (upEmb : UEmb _ 𝕄) (goPay m d c s) := by
  unfold goPay; split <;> infer_instance
instance tdPay_storable (d : Dev nD) (c : Fin τ.nSC) (s : Fin τ.nSub) : BI.Storable (upEmb : UEmb _ 𝕄) (tdPay m d c s) := by
  unfold tdPay; split <;> infer_instance
instance stPay_storable (d : Dev nD) (c : Fin τ.nSC) (f : Buf (Elt F) (v1Loc d)) : BI.Storable (upEmb : UEmb _ 𝕄) (stPay m d c f) := by
  unfold stPay; infer_instance

/-- The one call: each SparseCore its part (stPay) at the launch contents, back at the final ones; each task goPay,
    back tdPay; each task's proof consumes its barrier kit; each tile of both SparseCores owes its arrivals. -/
def P : (K (F := F)).Pay (nD := nD) (Val := Elt F) (Name := ℕ) (U := UU) where
  st := fun q d c => match q with | 0 => stPay m d (coreOf c) (m (v1Loc d))
  dn := fun q d c => match q with | 0 => stPay m d (coreOf c) (gOut m d)
  go := fun q d c i => match q with | 0 => goPay m d (coreOf c) ((K (F := F)).sub 0 i)
  td := fun q d c i => match q with | 0 => tdPay m d (coreOf c) ((K (F := F)).sub 0 i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with | 0 => (inferInstance : BI.Storable (upEmb : UEmb _ 𝕄) (stPay m d (coreOf c) (m (v1Loc d))))
  dn q d c := match q with | 0 => (inferInstance : BI.Storable (upEmb : UEmb _ 𝕄) (stPay m d (coreOf c) (gOut m d)))
  go q d c i := match q with | 0 => (inferInstance : BI.Storable (upEmb : UEmb _ 𝕄) (goPay m d (coreOf c) ((K (F := F)).sub 0 i)))
  td q d c i := match q with | 0 => (inferInstance : BI.Storable (upEmb : UEmb _ 𝕄) (tdPay m d (coreOf c) ((K (F := F)).sub 0 i)))

/-! ## One tile's task: the statement -/

abbrev cV (L : grid0.Coords) : Fin τ.nSC := (L 0).castLE hcore0
abbrev jV (L : grid0.Coords) : Fin τ.nSub := (L 1).castLE hsub0

/-- The task on vector subcore (L 0, L 1) of device d, the indices all naming rows of the table: from the barrier kit,
    what the task is handed and the subcore's scoped storage, owing its arrivals beside O, the kernel function runs to
    what the task hands back and the scoped storage, owing O still and having recorded waits at index none or the call's
    only. -/
def TileBody (d : Dev nD) (L : grid0.Coords) : Prop :=
  ∀ (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hchi : ∀ x, (idxV m d x).toNat < 3),
    iprop(levAts (K (F := F)).L (K (F := F)).lev ∗ bkit m d (cV L) (jV L) ∗ goPay m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L (Memref.whole main_arg1_scv) (Memref.isWhole_whole _) (Memref.whole main_v0_scv) (Memref.isWhole_whole _)
            (Memref.whole main_v1_scv) (Memref.isWhole_whole _) (Memref.whole cc0_scratch0) (Memref.isWhole_whole _) cc0_scoped0
            (Memref.whole cc0_scoped1) (Memref.isWhole_whole _) cc0_scoped2 (Memref.whole cc0_scoped3) (Memref.isWhole_whole _)
            cc0_scoped4 cc0_scoped5 cc0_scoped6)
          fun _ => iprop(tdPay m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.KernelIdeal.Lk

end
-- ==== Proof.Bridge.lean ====
/-
  The bridge between the lookup kernel's result and the reference's. The kernel leaves at entry (r, q) of the output
  the table's entry (row named by index word r, q), the word read unsigned; the reference leaves there, under the
  precondition, the table's entry (chi r read unsigned, q): the in-range mask is 1, the normalising select keeps a
  nonnegative index and the gather's clamp into [0, 2] is the identity. Under the precondition every index word is
  below 3, so the row a word names is the word itself and the two arrays are equal entry by entry. The same
  precondition gives the kernel's side condition: every entry of the index vector in windows is below 3.
-/
import proofs.«207302_g55387898250011_cont_9to1_m_42_19_alg».proof.Proof.Common
import proofs.«207302_g55387898250011_cont_9to1_m_42_19_alg».proof.Proof.RefRun

noncomputable section

namespace Cert.KernelIdeal.Bridge

open Cert.KernelIdeal Cert.KernelIdeal.Gen
open Idealize.ShloMosaic Idealize.SL.Sem
open Idealize.ShloMosaic.ValueIdx (ix1 ix2 eq_ix2)
open Cert.ReferenceIdeal.RefValue (refVal refVal_apply chi_lt chi_toNat_lt)

variable {F : FTy → Type} [FloatOps F]

/-- Where the precondition holds of the two argument arrays of device d, every entry of the index vector in windows
    is below 3. -/
theorem idxV_lt_of_pre [Cert.Pre_input_domain.Facts] (m : (ℓ : Loc nD τ sig) → Buf (Elt F) ℓ) (d : Dev nD)
    (h : Cert.Pre_input_domain.fn (F := F) (m (Lk.a0Loc d)) (m (Lk.a1Loc d)) = fun _ => 1#1) :
    ∀ x, (Lk.idxV m d x).toNat < 3 :=
  Lk.idxV_lt m d fun i => chi_toNat_lt (m (Lk.a0Loc d)) (m (Lk.a1Loc d)) h i

/-- Where the precondition holds of the two argument arrays of device d, the kernel's final output is the reference's
    value of them. -/
theorem gOut_eq_refVal_of_pre [Cert.Pre_input_domain.Facts] (m : (ℓ : Loc nD τ sig) → Buf (Elt F) ℓ) (d : Dev nD)
    (h : Cert.Pre_input_domain.fn (F := F) (m (Lk.a0Loc d)) (m (Lk.a1Loc d)) = fun _ => 1#1) :
    Lk.gOut m d = refVal (m (Lk.a0Loc d)) (m (Lk.a1Loc d)) := by
  funext i
  obtain ⟨r, q, rfl⟩ : ∃ (r : Fin 100000) (q : Fin 128), i = ix2 r q := ⟨i 0, i 1, eq_ix2 i⟩
  rw [Lk.gOut_apply, refVal_apply (m (Lk.a0Loc d)) (m (Lk.a1Loc d)) h r q]
  exact congrArg (fun k : Fin 3 => m (Lk.a1Loc d) (ix2 k q))
    (Fin.ext (Lk.rowOf_val (chi_toNat_lt (m (Lk.a0Loc d)) (m (Lk.a1Loc d)) h (ix1 r))))

/-- The reference's value of any two arrays equal to the kernel's arguments is the kernel's final output. -/
theorem refVal_eq_gOut_of_pre [Cert.Pre_input_domain.Facts] (m : (ℓ : Loc nD τ sig) → Buf (Elt F) ℓ) (d : Dev nD)
    (h : Cert.Pre_input_domain.fn (F := F) (m (Lk.a0Loc d)) (m (Lk.a1Loc d)) = fun _ => 1#1)
    (chi : IVec Cert.ReferenceIdeal.S100000 32) (tab : FVec F Cert.ReferenceIdeal.S3x128 .f32)
    (h0 : chi = m (Lk.a0Loc d)) (h1 : tab = m (Lk.a1Loc d)) : refVal chi tab = Lk.gOut m d := by
  subst h0 h1; exact (gOut_eq_refVal_of_pre m d h).symm

/-! ## At the claim's precondition -/

/-- Under the kernel's precondition every entry of the index vector in windows is below 3, on every device. -/
theorem pre_chi (m : (ℓ : Loc nD τ sig) → Buf (Elt Ideal) ℓ) (hpre : Cert.Pre_KernelIdeal m) :
    ∀ d x, (Lk.idxV m d x).toNat < 3 :=
  fun d => idxV_lt_of_pre m d (hpre d)

/-- Under the kernel's precondition its final output is the reference's value of its two arguments, on every device. -/
theorem gOut_eq_refVal (m : (ℓ : Loc nD τ sig) → Buf (Elt Ideal) ℓ) (hpre : Cert.Pre_KernelIdeal m) (c : Dev nD) :
    Lk.gOut m c = refVal (F := Ideal) (m ((c.tc : Thread nD τ).loc main_arg0)) (m ((c.tc : Thread nD τ).loc main_arg1)) :=
  gOut_eq_refVal_of_pre m c (hpre c)

end Cert.KernelIdeal.Bridge

end
-- ==== Proof.Launch.lean ====
/-
  The launch side of the lookup kernel's run, part two: from one tile's task (the statement TileBody) to the run of
  the whole program. The task's obligation for the launch theorem; how a SparseCore's part splits among its sixteen
  tiles (tile 0 also takes the shared scratch, and the seventeen shares of it rejoin at the end); the launch element
  (the barrier cells' rounds funded, their invariants allocated, every tile dealt its kit); @main on the TensorCore (the
  reshape, then the call: the table's two read tokens, the windowed indices' thirty-two, the output's thirty-two pieces
  out and back); and the final memory read: the output at the table's rows named by the indices, the arguments as they
  were.
-/
import proofs.«207302_g55387898250011_cont_9to1_m_42_19_alg».proof.Proof.Common

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg1_scv) (Memref.isWhole_whole _) (Memref.whole main_v0_scv) (Memref.isWhole_whole _)
          (Memref.whole main_v1_scv) (Memref.isWhole_whole _) (Memref.whole cc0_scratch0) (Memref.isWhole_whole _) cc0_scoped0
          (Memref.whole cc0_scoped1) (Memref.isWhole_whole _) cc0_scoped2 (Memref.whole cc0_scoped3) (Memref.isWhole_whole _)
          cc0_scoped4 cc0_scoped5 cc0_scoped6) ⟨⟩ c s := rfl

set_option maxRecDepth 16384 in
/-- The task's obligation, from the task's statement at every place and the indices' range. -/
theorem tileObl (hF : (K (F := F)).Facts) (hchi : ∀ d x, (idxV m d x).toNat < 3) (hbody : ∀ d L, TileBody m d L) :
    (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) hF O W hO hOlev (hchi d)

/-! ## A SparseCore's part among its tiles -/

theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)

/-- What only tile 0 carries, out of the sixteen tiles' conjunction and into it. -/
theorem tile0_elim (X : sProp 𝕄) : (bigSep Finset.univ fun s : Fin τ.nSub => if s.val = 0 then X else iprop(emp)) ⊢ X := by
  rw [SparseCore.bigSep_erase' (Finset.mem_univ (⟨0, by decide⟩ : Fin τ.nSub)), if_pos rfl]
  iintro ⟨H, -⟩
  iexact H
theorem tile0_intro (X : sProp 𝕄) : X ⊢ (bigSep Finset.univ fun s : Fin τ.nSub => if s.val = 0 then X else iprop(emp)) := by
  rw [SparseCore.bigSep_erase' (Finset.mem_univ (⟨0, by decide⟩ : Fin τ.nSub)),
    show (bigSep (Finset.univ.erase (⟨0, by decide⟩ : Fin τ.nSub)) fun s : Fin τ.nSub => if s.val = 0 then X else iprop(emp))
      = bigSep (Finset.univ.erase (⟨0, by decide⟩ : Fin τ.nSub)) fun _ => (iprop(emp) : sProp 𝕄) from
      bigSep_congr fun s hs => if_neg fun h => (Finset.mem_erase.mp hs).1 (Fin.ext h), bigSep_emp', if_pos rfl]
  iintro H
  isplitl [H]
  · iexact H
  · iempintro

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The sixteen read tokens of the filled scratch and what tile 0 kept are the scratch whole. -/
theorem sh_join (d : Dev nD) (c : Fin τ.nSC) :
    iprop(shKeep m d c ∗ bigSep Finset.univ fun s : Fin τ.nSub => shTok m d c s.val) ⊢ (iprop(∃ f, shLoc d c ↦{fullShare} f) : sProp 𝕄) := by
  iintro H
  iexists (tblSh m d c)
  iapply (pointsTo_toks_join (ℓ := shLoc d c) (S := Finset.univ) (f := tblSh m d c) fullShare 16)
  iexact H

theorem vecSplit : (K (F := F)).VecSplit (P m) 0 := by
  intro d c
  show iprop(stPay m d (coreOf c) (m (v1Loc d)) ∗ ownBufs (S d (coreOf c))) ⊢ |={Set.univ}=> iprop(
      (bigSep Finset.univ fun i : Fin ((K (F := F)).nSub 0) => goPay m d (coreOf c) ((K (F := F)).sub 0 i))
      ∗ ((bigSep Finset.univ fun i : Fin ((K (F := F)).nSub 0) => tdPay m d (coreOf c) ((K (F := F)).sub 0 i))
          -∗ iprop(stPay m d (coreOf c) (gOut m d) ∗ ownBufs (S d (coreOf c)))))
  rw [bigSep_tasks (F := F) (fun s => goPay m d (coreOf c) s), bigSep_tasks (F := F) (fun s => tdPay m d (coreOf c) s)]
  unfold goPay tdPay stPay
  rw [bigSep_sep', bigSep_sep', bigSep_sep', bigSep_sep', bigSep_sep', ownBufs_S]
  iintro ⟨⟨Ha1, Hidx, Hout⟩, ⟨%fsh, Hsh⟩, Hrest⟩; imodintro
  isplitl [Ha1 Hidx Hout Hsh]
  · isplitl [Hidx]; · iexact Hidx
    isplitl [Hout]; · iexact Hout
    iapply (tile0_intro (F := F) _)
    isplitl [Ha1]; · iexact Ha1
    iexists fsh; iexact Hsh
  iintro ⟨Hidx, Hout, Htoks, H0⟩
  ihave H0' := (tile0_elim (F := F) _) $$ H0
  icases H0' with ⟨Ha1, Hkeep⟩
  isplitl [Ha1 Hidx Hout]
  · isplitl [Ha1]; · iexact Ha1
    isplitl [Hidx]; · iexact Hidx
    iexact Hout
  isplitl [Htoks Hkeep]
  · iapply (sh_join m d (coreOf c))
    isplitl [Hkeep]; · iexact Hkeep
    iexact Htoks
  iexact Hrest

/-! ## The launch element of the certificate's ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile of both SparseCores the sixteen units of its own cell. -/
theorem creds_b : ((P (F := F) m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev opR : HloOp τ sig (Elt F) := StableHlo.reshape main_arg0 main_v0 rfl shapeCasts_S100000_S250x1x400

/-- The TensorCore's arrays, all unscoped: the two arguments, the windowed indices, the output. -/
abbrev S4 : Finset (DevRef τ sig) := {a0', a1', v0', v1'}

theorem held_S4 (d : Dev nD) (W : Valuation τ sig (Elt F)) :
    (held (T d) S4 W : sProp 𝕄)
      = iprop((a0Loc d ↦{fullShare} W a0') ∗ (a1Loc d ↦{fullShare} W a1') ∗ (v0Loc d ↦{fullShare} W v0') ∗ v1Loc d ↦{fullShare} W v1') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (v0Loc d ↦{fullShare} W main_v0) ∗ v1Loc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a0', v0'} : Finset (DevRef τ sig)) ⊆ S4 by decide

/-- After the reshape: the windowed indices at idxV, the rest as launched. -/
theorem V1_v0 (d : Dev nD) : (opR (F := F)).result (V0 m d) v0' = idxV m d := by
  rw [StableHlo.reshape_result']; rfl
theorem V1_a0 (d : Dev nD) : (opR (F := F)).result (V0 m d) a0' = m (a0Loc d) := by
  rw [(opR (F := F)).result_of_not_mem _ (show a0' ∉ ({v0'} : Finset (DevRef τ sig)) by decide)]; rfl
theorem V1_a1 (d : Dev nD) : (opR (F := F)).result (V0 m d) a1' = m (a1Loc d) := by
  rw [(opR (F := F)).result_of_not_mem _ (show a1' ∉ ({v0'} : Finset (DevRef τ sig)) by decide)]; rfl
theorem V1_v1 (d : Dev nD) : (opR (F := F)).result (V0 m d) v1' = m (v1Loc d) := by
  rw [(opR (F := F)).result_of_not_mem _ (show v1' ∉ ({v0'} : Finset (DevRef τ sig)) by decide)]; rfl

theorem held_V1 (d : Dev nD) :
    (held (T d) S4 ((opR (F := F)).result (V0 m d)) : sProp 𝕄)
      = iprop((a0Loc d ↦{fullShare} m (a0Loc d)) ∗ (a1Loc d ↦{fullShare} m (a1Loc d)) ∗ (v0Loc d ↦{fullShare} idxV m d) ∗ v1Loc d ↦{fullShare} m (v1Loc d)) := by
  rw [held_S4, V1_a0, V1_a1, V1_v0, V1_v1]

/-- The 32 workers are the sixteen tiles of the two SparseCores: worker s + 16 c is tile s of SparseCore c. -/
theorem bigSep_workers (Φ : ℕ → sProp 𝕄) :
    (bigSep Finset.univ fun w : Fin 32 => Φ w.val) = bigSep Finset.univ fun c : Fin τ.nSC => bigSep Finset.univ fun s : Fin τ.nSub => Φ (wid c.val s.val) := by
  rw [bigSep_univ_equiv (finProdFinEquiv : Fin 2 × Fin 16 ≃ Fin 32) (fun w : Fin 32 => Φ w.val), bigSep_univ_prod]
  rfl

/-- The table whole is one read token per SparseCore and the rest; -/
theorem a1_split (d : Dev nD) (f : Buf (Elt F) (a1Loc d)) :
    (a1Loc d ↦{fullShare} f : sProp 𝕄) ⊣⊢ iprop((a1Loc d ↦{shareDrop fullShare 2} f) ∗ bigSep Finset.univ fun c : Fin τ.nSC => a1Loc d ↦{shareTokN fullShare c.val} f) :=
  pointsTo_toks (ℓ := a1Loc d) (S := Finset.univ) (f := f) fullShare 2

/-- the windowed indices whole, one read token per worker and the rest; -/
theorem v0_split (d : Dev nD) (f : Buf (Elt F) (v0Loc d)) :
    (v0Loc d ↦{fullShare} f : sProp 𝕄) ⊣⊢ iprop((v0Loc d ↦{shareDrop fullShare 32} f)
      ∗ bigSep Finset.univ fun c : Fin τ.nSC => bigSep Finset.univ fun s : Fin τ.nSub => v0Loc d ↦{shareTokN fullShare (wid c.val s.val)} f) := by
  rw [← bigSep_workers (F := F) (fun w => v0Loc d ↦{shareTokN fullShare w} f)]
  exact pointsTo_toks (ℓ := v0Loc d) (S := Finset.univ) (f := f) fullShare 32

/-- the output whole, the workers' elements. -/
theorem v1_split (d : Dev nD) (f : Buf (Elt F) (v1Loc d)) :
    (v1Loc d ↦{fullShare} f : sProp 𝕄)
      = bigSep Finset.univ fun c : Fin τ.nSC => bigSep Finset.univ fun s : Fin τ.nSub => v1Loc d ↦[outSet (wid c.val s.val)]{fullShare} f := by
  rw [← bigSep_workers (F := F) (fun w => v1Loc d ↦[outSet w]{fullShare} f),
    ← pointsTo_biUnion Finset.univ (ℓ := v1Loc d) (fun w : Fin 32 => outSet w.val)
      (fun w _ w' _ h => outSet_disjoint w.isLt w'.isLt fun e => h (Fin.ext e)), outSet_cover]
  try rfl

/-- What the call takes and gives back, over both SparseCores: the table's tokens, the indices' tokens, the output's
    pieces at contents f. -/
theorem sts_eq (d : Dev nD) (f : Buf (Elt F) (v1Loc d)) :
    (bigSep Finset.univ fun c : Fin ((K (F := F)).nCore 0) => stPay m d (coreOf c) f)
      = iprop((bigSep Finset.univ fun c : Fin τ.nSC => a1Loc d ↦{shareTokN fullShare c.val} m (a1Loc d))
          ∗ (bigSep Finset.univ fun c : Fin τ.nSC => bigSep Finset.univ fun s : Fin τ.nSub => v0Loc d ↦{shareTokN fullShare (wid c.val s.val)} idxV m d)
          ∗ bigSep Finset.univ fun c : Fin τ.nSC => bigSep Finset.univ fun s : Fin τ.nSub => v1Loc d ↦[outSet (wid c.val s.val)]{fullShare} f) := by
  rw [bigSep_cores (F := F) (fun c => stPay m d c f)]
  unfold stPay
  rw [bigSep_sep', bigSep_sep']

theorem dn0_eq (d : Dev nD) :
    (bigSep Finset.univ fun c : Fin ((K (F := F)).nCore 0) => (P m).dn 0 d c)
      = iprop((bigSep Finset.univ fun c : Fin τ.nSC => a1Loc d ↦{shareTokN fullShare c.val} m (a1Loc d))
          ∗ (bigSep Finset.univ fun c : Fin τ.nSC => bigSep Finset.univ fun s : Fin τ.nSub => v0Loc d ↦{shareTokN fullShare (wid c.val s.val)} idxV m d)
          ∗ bigSep Finset.univ fun c : Fin τ.nSC => bigSep Finset.univ fun s : Fin τ.nSub => v1Loc d ↦[outSet (wid c.val s.val)]{fullShare} gOut m d) :=
  sts_eq m d (gOut m d)
theorem st0_eq (d : Dev nD) :
    (bigSep Finset.univ fun c : Fin ((K (F := F)).nCore 0) => (P m).st 0 d c)
      = iprop((bigSep Finset.univ fun c : Fin τ.nSC => a1Loc d ↦{shareTokN fullShare c.val} m (a1Loc d))
          ∗ (bigSep Finset.univ fun c : Fin τ.nSC => bigSep Finset.univ fun s : Fin τ.nSub => v0Loc d ↦{shareTokN fullShare (wid c.val s.val)} idxV m d)
          ∗ bigSep Finset.univ fun c : Fin τ.nSC => bigSep Finset.univ fun s : Fin τ.nSub => v1Loc d ↦[outSet (wid c.val s.val)]{fullShare} m (v1Loc d)) :=
  sts_eq m d (m (v1Loc d))

/-- What @main leaves the claim: the arguments at their launch contents, the output at its final ones. -/
abbrev FIN (d : Dev nD) : sProp 𝕄 :=
  iprop((a0Loc d ↦{fullShare} m (a0Loc d)) ∗ (a1Loc d ↦{fullShare} m (a1Loc d)) ∗ v1Loc d ↦{fullShare} gOut m d)

/-- @main on device d's TensorCore: the reshape (over the four arrays held whole), then the call: each SparseCore its
    read token of the table, its workers' read tokens of the windowed indices and elements of the output; back, the
    tokens rejoin and the elements are the output whole at its final contents. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha0, Ha1, Hv0, Hv1⟩
  ihave Ha1' := (a1_split (F := F) d _).1 $$ Ha1
  icases Ha1' with ⟨Ha1k, Ha1t⟩
  ihave Hv0' := (v0_split (F := F) d _).1 $$ Hv0
  icases Hv0' with ⟨Hv0k, Hv0t⟩
  ihave Hv1' := (Entails.of_eq (v1_split (F := F) d _)) $$ Hv1
  iapply ((K (F := F)).wp_run (D (F := F)) 𝒱 (EH := EH) (P := P m) κ d 0) $$ [Hst Ha1t Hv0t Hv1' Ha0 Ha1k Hv0k Hb]
  isplitr; · iexact Hctx
  isplitl [Hst]; · iexact Hst
  isplitl [Ha1t Hv0t Hv1']
  · rw [st0_eq]
    isplitl [Ha1t]; · iexact Ha1t
    isplitl [Hv0t]; · iexact Hv0t
    iexact Hv1'
  iintro ⟨Hst, Hdn⟩
  ihave Hdn' := (Entails.of_eq (dn0_eq (F := F) m d)) $$ Hdn
  icases Hdn' with ⟨Ha1t, Hv0t, Hv1⟩
  imodintro
  isplitl [Hst]; · iexact Hst
  isplitl [Ha0]; · iexact Ha0
  isplitl [Ha1k Ha1t]
  · iapply (a1_split (F := F) d _).2
    isplitl [Ha1k]; · iexact Ha1k
    iexact Ha1t
  iapply (Entails.of_eq (v1_split (F := F) d _).symm)
  iexact Hv1

def fq (d : Dev nD) (s' : Phys nD τ sig (Elt F)) : Prop :=
  s'.mem.mem (v1Loc d) = gOut m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hv1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := v1Loc d) (I := Finset.univ) (q := fullShare) (f := gOut m d)) $$ [HSI Hv1]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

/-- From any memory with zero counters whose indices all name rows of the table, given one tile's task at every place:
    every weakly fair execution of the program terminates, nothing faulting, with the output at the table's rows named
    by the indices and the two arguments unchanged. -/
theorem run_of [∀ e, Nonempty (Elt F e)] (hpre : ∀ d x, (idxV m d x).toNat < 3) (hbody : ∀ d L, TileBody m d L) :
    θ_run (Cert.KernelIdeal.defs (F := F)) (Cert.KernelIdeal.threads (F := F)) ⟨m, fun _ => 0, ρ⟩ (fun r => ∀ c : Dev Cert.KernelIdeal.nD,
      r.2.mem ((c.tc : Thread Cert.KernelIdeal.nD Cert.KernelIdeal.τ).loc Cert.KernelIdeal.main_v1) = gOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre hbody)
    (fun q _ => match q with | 0 => vecSplit m)
    m ρ main (fun _ => iprop(emp)) (FIN m) (u₀ (F := F)) (hu₀ m) (hmain m ρ) (fq m) (hfin m) _ (fun _ h => h)

end Cert.KernelIdeal.Lk

end
-- ==== Proof.CommonK.lean ====
/-
  The launch side of the lookup kernel's run, part one: the vocabulary shared by the tile's task and the launch.
  @main reshapes the index vector (100000 words) to 250 windows of 400 and starts one vector-subcore kernel on
  SparseCores [0, 2) x tiles [0, 16). Tile 0 of each SparseCore fills the SparseCore's shared scratch with the table
  (3 rows of 128) and all sixteen meet at the subcore barrier; worker w = s + 16 c then serves nwin w consecutive
  windows from window w0 w on: rows [400 j, 400 j + 400) of the output are the table's rows at window j's indices.
  Here: the configuration and ghost state, the arrays' locations, the workers' windows and the elements of the output
  they cover (pairwise disjoint, together everything), the contents the arrays end at as pure terms of the launch
  memory, the barrier cells' schedule (tile 0's duty in every tile's round hands over a read share of the filled
  scratch), what the handshakes carry, and the statement of one tile's task.
-/
import proofs.«207302_g55387898250011_cont_9to1_m_42_19_alg».proof.Kernel
import proofs.«207302_g55387898250011_cont_9to1_m_42_19_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.ValueIdx
import Idealize.ShloMosaic.Lib.Tactic

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the arrays -/

variable (m : (ℓ : Loc nD τ sig) → Buf (Elt F) ℓ) (ρ : Dev nD → PrngReg)

/-- The index vector, the table, the index vector in windows, the output. -/
abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1

theorem nSub_eq : τ.nSub = 16 := rfl
theorem nSC_eq : τ.nSC = 2 := rfl

/-- SparseCore c's shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## The workers and their windows -/

/-- Tile s of SparseCore c is worker s + 16 c; -/
def wid (c s : ℕ) : ℕ := s + 16 * c
/-- the first 26 workers serve eight windows each, the last six seven: 26 * 8 + 6 * 7 = 250; -/
def nwin (w : ℕ) : ℕ := if w < 26 then 8 else 7
/-- worker w's first window. -/
def w0 (w : ℕ) : ℕ := if w < 26 then 8 * w else 7 * w + 26

theorem wid_lt {c s : ℕ} (hc : c < 2) (hs : s < 16) : wid c s < 32 := by unfold wid; omega

theorem hdivW : 250 ∣ S100000x128.size 0 := ⟨400, rfl⟩
/-- Window j of the output: rows [400 j, 400 j + 400), all 128 columns. -/
abbrev win (j : Fin 250) : Rect S100000x128 := Rect.part (s := S100000x128) (a₀ := 0) hdivW j
abbrev winSet (j : Fin 250) : Finset S100000x128.Idx := (win j).set

/-- The windows worker w serves, -/
def wins (w : ℕ) : Finset (Fin 250) := Finset.univ.filter fun j => w0 w ≤ j.val ∧ j.val < w0 w + nwin w
/-- and the elements of the output they cover: rows [400 (w0 w), 400 (w0 w + nwin w)). -/
def outSet (w : ℕ) : Finset S100000x128.Idx := (wins w).biUnion winSet

theorem mem_wins {w : ℕ} {j : Fin 250} : j ∈ wins w ↔ w0 w ≤ j.val ∧ j.val < w0 w + nwin w := by
  unfold wins; simp

/-- A window's elements, as the slice of the whole output at that rectangle has them. -/
theorem winSet_eq_slice (j : Fin 250) : ((View.whole (main_v1_scv : Ref sig .scVector)).slice (win j)).set = winSet j := by
  rw [View.set_slice]; exact Finset.map_refl

theorem winSet_disjoint {j j' : Fin 250} (h : j ≠ j') : Disjoint (winSet j) (winSet j') := Rect.part_disjoint hdivW h

theorem wins_disjoint {w w' : ℕ} (hw : w < 32) (hw' : w' < 32) (h : w ≠ w') : Disjoint (wins w) (wins w') := by
  rw [Finset.disjoint_left]
  intro j h1 h2
  rw [mem_wins] at h1 h2
  unfold w0 nwin at h1 h2
  split_ifs at h1 h2 <;> omega

/-- Different workers' elements are disjoint, -/
theorem outSet_disjoint {w w' : ℕ} (hw : w < 32) (hw' : w' < 32) (h : w ≠ w') : Disjoint (outSet w) (outSet w') := by
  unfold outSet
  rw [Finset.disjoint_biUnion_left]
  intro j hj
  rw [Finset.disjoint_biUnion_right]
  intro j' hj'
  refine winSet_disjoint fun e => ?_
  subst e
  exact Finset.disjoint_left.mp (wins_disjoint hw hw' h) hj hj'

theorem wins_cover : (Finset.univ : Finset (Fin 32)).biUnion (fun w => wins w.val) = Finset.univ := by
  ext j
  simp only [Finset.mem_biUnion, Finset.mem_univ, true_and, iff_true]
  have hj := j.isLt
  by_cases h : j.val < 208
  · refine ⟨⟨j.val / 8, by omega⟩, mem_wins.mpr ?_⟩
    unfold w0 nwin
    have : j.val / 8 < 26 := by omega
    simp only [this, ↓reduceIte]
    omega
  · refine ⟨⟨(j.val - 26) / 7, by omega⟩, mem_wins.mpr ?_⟩
    unfold w0 nwin
    have : ¬ (j.val - 26) / 7 < 26 := by omega
    simp only [this, ↓reduceIte]
    omega

/-- and the 32 workers' elements are the whole output. -/
theorem outSet_cover : (Finset.univ : Finset (Fin 32)).biUnion (fun w => outSet w.val) = Finset.univ := by
  unfold outSet
  rw [← Finset.biUnion_biUnion, wins_cover]
  exact Rect.biUnion_part hdivW

/-! ## The contents: pure terms of the launch memory -/

/-- The index vector in windows: what the reshape leaves in main_v0. -/
def idxV (d : Dev nD) : Buf (Elt F) (v0Loc d) :=
  fun i => shapeCast S250x1x400 (m (a0Loc d)) shapeCasts_S100000_S250x1x400 i

/-- Every entry of the windows is an entry of the index vector: a bound on all of those is one on all of these. -/
theorem idxV_lt (d : Dev nD) (h : ∀ i, (m (a0Loc d) i).toNat < 3) : ∀ x, (idxV m d x).toNat < 3 := by
  intro x; unfold idxV shapeCast; exact h _

/-- The table row an index word names (the word read unsigned; below 3 under the precondition). -/
def rowOf (b : BitVec 32) : Fin 3 := ⟨b.toNat % 3, Nat.mod_lt _ (by decide)⟩

theorem rowOf_val {b : BitVec 32} (h : b.toNat < 3) : (rowOf b).val = b.toNat := Nat.mod_eq_of_lt h

/-- The output's final contents: entry (r, q) is the table at (the row index word r names, q). -/
def gOut (d : Dev nD) : Buf (Elt F) (v1Loc d) :=
  fun i => m (a1Loc d) (ix2 (rowOf (m (a0Loc d) (ix1 (i 0 : Fin 100000)))) (i 1 : Fin 128))

theorem gOut_apply (d : Dev nD) (i : S100000x128.Idx) :
    gOut m d i = m (a1Loc d) (ix2 (rowOf (m (a0Loc d) (ix1 (i 0 : Fin 100000)))) (i 1 : Fin 128)) := rfl

/-- The table's contents, as contents of SparseCore c's shared scratch (the two arrays have one type). -/
def tblSh (d : Dev nD) (c : Fin τ.nSC) : Buf (Elt F) (shLoc d c) := m (a1Loc d)

theorem tblSh_apply (d : Dev nD) (c : Fin τ.nSC) (i : S3x128.Idx) : tblSh m d c i = m (a1Loc d) i := rfl

variable [FloatOps F]

/-! ## The barrier cells -/

/-- Tile (c, j)'s barrier semaphore of device d. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- Read token j of the shared scratch at the table's contents, and what is left of the full share after sixteen. -/
abbrev shTok (d : Dev nD) (c : Fin τ.nSC) (j : ℕ) : sProp 𝕄 := shLoc d c ↦{shareTokN fullShare j} tblSh m d c
abbrev shKeep (d : Dev nD) (c : Fin τ.nSC) : sProp 𝕄 := shLoc d c ↦{shareDrop fullShare 16} tblSh m d c

/-- What a duty in tile j's round hands over: tile 0's, read token j of the filled scratch; the others', nothing. -/
def bPay (g : GSem nD τ sig) (n : ℕ) : sProp 𝕄 :=
  match g with
  | ((d, .scVector c j), _) => if n = 0 then shTok m d c j.val else iprop(emp)
  | _ => iprop(emp)

/-- The barrier cells' schedule: one round on each, of one unit duty per tile of the SparseCore (named by its number),
    tile 0's handing over a read share of the scratch it filled. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile (c, i) owe for the barrier: a unit on every tile's cell of its SparseCore, at the call's
    index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile (c, i)'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Read token c of the table (one per SparseCore), read token w of the windowed indices (one per worker), worker w's
    elements of the output at contents f. -/
abbrev a1Tok (d : Dev nD) (c : ℕ) : sProp 𝕄 := a1Loc d ↦{shareTokN fullShare c} m (a1Loc d)
abbrev idxTok (d : Dev nD) (w : ℕ) : sProp 𝕄 := v0Loc d ↦{shareTokN fullShare w} idxV m d
abbrev outPts (d : Dev nD) (w : ℕ) (f : Buf (Elt F) (v1Loc d)) : sProp 𝕄 := v1Loc d ↦[outSet w]{fullShare} f

/-- What tile (c, s) is handed with its task: its read token of the indices, its elements of the output at the launch
    contents, and, tile 0, the SparseCore's read token of the table and the shared scratch whole. -/
def goPay (d : Dev nD) (c : Fin τ.nSC) (s : Fin τ.nSub) : sProp 𝕄 :=
  iprop(idxTok m d (wid c.val s.val) ∗ outPts d (wid c.val s.val) (m (v1Loc d))
    ∗ if s.val = 0 then iprop(a1Tok m d c.val ∗ ∃ f, shLoc d c ↦{fullShare} f) else iprop(emp))

/-- What it hands back: the token, its elements of the output at the final contents, the read token of the filled
    scratch it received at the barrier, and, tile 0, the table's token and what it kept of the scratch. -/
def tdPay (d : Dev nD) (c : Fin τ.nSC) (s : Fin τ.nSub) : sProp 𝕄 :=
  iprop(idxTok m d (wid c.val s.val) ∗ outPts d (wid c.val s.val) (gOut m d) ∗ shTok m d c s.val
    ∗ if s.val = 0 then iprop(a1Tok m d c.val ∗ shKeep m d c) else iprop(emp))

/-- What the TensorCore hands SparseCore c's sequencer, and (at f the final contents) gets back: the SparseCore's read
    token of the table, its sixteen workers' tokens of the indices and elements of the output. -/
def stPay (d : Dev nD) (c : Fin τ.nSC) (f : Buf (Elt F) (v1Loc d)) : sProp 𝕄 :=
  iprop(a1Tok m d c.val ∗ (bigSep Finset.univ fun s : Fin τ.nSub => idxTok m d (wid c.val s.val))
    ∗ bigSep Finset.univ fun s : Fin τ.nSub => outPts d (wid c.val s.val) f)

instance goPay_storable (d : Dev nD) (c : Fin τ.nSC) (s : Fin τ.nSub) : BI.Storable (upEmb : UEmb _ 𝕄) (goPay m d c s) := by
  unfold goPay; split <;> infer_instance
instance tdPay_storable (d : Dev nD) (c : Fin τ.nSC) (s : Fin τ.nSub) : BI.Storable (upEmb : UEmb _ 𝕄) (tdPay m d c s) := by
  unfold tdPay; split <;> infer_instance
instance stPay_storable (d : Dev nD) (c : Fin τ.nSC) (f : Buf (Elt F) (v1Loc d)) : BI.Storable (upEmb : UEmb _ 𝕄) (stPay m d c f) := by
  unfold stPay; infer_instance

/-- The one call: each SparseCore its part (stPay) at the launch contents, back at the final ones; each task goPay,
    back tdPay; each task's proof consumes its barrier kit; each tile of both SparseCores owes its arrivals. -/
def P : (K (F := F)).Pay (nD := nD) (Val := Elt F) (Name := ℕ) (U := UU) where
  st := fun q d c => match q with | 0 => stPay m d (coreOf c) (m (v1Loc d))
  dn := fun q d c => match q with | 0 => stPay m d (coreOf c) (gOut m d)
  go := fun q d c i => match q with | 0 => goPay m d (coreOf c) ((K (F := F)).sub 0 i)
  td := fun q d c i => match q with | 0 => tdPay m d (coreOf c) ((K (F := F)).sub 0 i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with | 0 => (inferInstance : BI.Storable (upEmb : UEmb _ 𝕄) (stPay m d (coreOf c) (m (v1Loc d))))
  dn q d c := match q with | 0 => (inferInstance : BI.Storable (upEmb : UEmb _ 𝕄) (stPay m d (coreOf c) (gOut m d)))
  go q d c i := match q with | 0 => (inferInstance : BI.Storable (upEmb : UEmb _ 𝕄) (goPay m d (coreOf c) ((K (F := F)).sub 0 i)))
  td q d c i := match q with | 0 => (inferInstance : BI.Storable (upEmb : UEmb _ 𝕄) (tdPay m d (coreOf c) ((K (F := F)).sub 0 i)))

/-! ## One tile's task: the statement -/

abbrev cV (L : grid0.Coords) : Fin τ.nSC := (L 0).castLE hcore0
abbrev jV (L : grid0.Coords) : Fin τ.nSub := (L 1).castLE hsub0

/-- The task on vector subcore (L 0, L 1) of device d, the indices all naming rows of the table: from the barrier kit,
    what the task is handed and the subcore's scoped storage, owing its arrivals beside O, the kernel function runs to
    what the task hands back and the scoped storage, owing O still and having recorded waits at index none or the call's
    only. -/
def TileBody (d : Dev nD) (L : grid0.Coords) : Prop :=
  ∀ (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hchi : ∀ x, (idxV m d x).toNat < 3),
    iprop(levAts (K (F := F)).L (K (F := F)).lev ∗ bkit m d (cV L) (jV L) ∗ goPay m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L (Memref.whole main_arg1_scv) (Memref.isWhole_whole _) (Memref.whole main_v0_scv) (Memref.isWhole_whole _)
            (Memref.whole main_v1_scv) (Memref.isWhole_whole _) (Memref.whole cc0_scratch0) (Memref.isWhole_whole _) cc0_scoped0
            (Memref.whole cc0_scoped1) (Memref.isWhole_whole _) cc0_scoped2 (Memref.whole cc0_scoped3) (Memref.isWhole_whole _)
            cc0_scoped4 cc0_scoped5 cc0_scoped6)
          fun _ => iprop(tdPay m d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Kernel.Lk

end
-- ==== Proof.LaunchK.lean ====
/-
  The launch side of the lookup kernel's run, part two: from one tile's task (the statement TileBody) to the run of
  the whole program. The task's obligation for the launch theorem; how a SparseCore's part splits among its sixteen
  tiles (tile 0 also takes the shared scratch, and the seventeen shares of it rejoin at the end); the launch element
  (the barrier cells' rounds funded, their invariants allocated, every tile dealt its kit); @main on the TensorCore (the
  reshape, then the call: the table's two read tokens, the windowed indices' thirty-two, the output's thirty-two pieces
  out and back); and the final memory read: the output at the table's rows named by the indices, the arguments as they
  were.
-/
import proofs.«207302_g55387898250011_cont_9to1_m_42_19_alg».proof.Proof.CommonK

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg1_scv) (Memref.isWhole_whole _) (Memref.whole main_v0_scv) (Memref.isWhole_whole _)
          (Memref.whole main_v1_scv) (Memref.isWhole_whole _) (Memref.whole cc0_scratch0) (Memref.isWhole_whole _) cc0_scoped0
          (Memref.whole cc0_scoped1) (Memref.isWhole_whole _) cc0_scoped2 (Memref.whole cc0_scoped3) (Memref.isWhole_whole _)
          cc0_scoped4 cc0_scoped5 cc0_scoped6) ⟨⟩ c s := rfl

set_option maxRecDepth 16384 in
/-- The task's obligation, from the task's statement at every place and the indices' range. -/
theorem tileObl (hF : (K (F := F)).Facts) (hchi : ∀ d x, (idxV m d x).toNat < 3) (hbody : ∀ d L, TileBody m d L) :
    (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) hF O W hO hOlev (hchi d)

/-! ## A SparseCore's part among its tiles -/

theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)

/-- What only tile 0 carries, out of the sixteen tiles' conjunction and into it. -/
theorem tile0_elim (X : sProp 𝕄) : (bigSep Finset.univ fun s : Fin τ.nSub => if s.val = 0 then X else iprop(emp)) ⊢ X := by
  rw [SparseCore.bigSep_erase' (Finset.mem_univ (⟨0, by decide⟩ : Fin τ.nSub)), if_pos rfl]
  iintro ⟨H, -⟩
  iexact H
theorem tile0_intro (X : sProp 𝕄) : X ⊢ (bigSep Finset.univ fun s : Fin τ.nSub => if s.val = 0 then X else iprop(emp)) := by
  rw [SparseCore.bigSep_erase' (Finset.mem_univ (⟨0, by decide⟩ : Fin τ.nSub)),
    show (bigSep (Finset.univ.erase (⟨0, by decide⟩ : Fin τ.nSub)) fun s : Fin τ.nSub => if s.val = 0 then X else iprop(emp))
      = bigSep (Finset.univ.erase (⟨0, by decide⟩ : Fin τ.nSub)) fun _ => (iprop(emp) : sProp 𝕄) from
      bigSep_congr fun s hs => if_neg fun h => (Finset.mem_erase.mp hs).1 (Fin.ext h), bigSep_emp', if_pos rfl]
  iintro H
  isplitl [H]
  · iexact H
  · iempintro

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The sixteen read tokens of the filled scratch and what tile 0 kept are the scratch whole. -/
theorem sh_join (d : Dev nD) (c : Fin τ.nSC) :
    iprop(shKeep m d c ∗ bigSep Finset.univ fun s : Fin τ.nSub => shTok m d c s.val) ⊢ (iprop(∃ f, shLoc d c ↦{fullShare} f) : sProp 𝕄) := by
  iintro H
  iexists (tblSh m d c)
  iapply (pointsTo_toks_join (ℓ := shLoc d c) (S := Finset.univ) (f := tblSh m d c) fullShare 16)
  iexact H

theorem vecSplit : (K (F := F)).VecSplit (P m) 0 := by
  intro d c
  show iprop(stPay m d (coreOf c) (m (v1Loc d)) ∗ ownBufs (S d (coreOf c))) ⊢ |={Set.univ}=> iprop(
      (bigSep Finset.univ fun i : Fin ((K (F := F)).nSub 0) => goPay m d (coreOf c) ((K (F := F)).sub 0 i))
      ∗ ((bigSep Finset.univ fun i : Fin ((K (F := F)).nSub 0) => tdPay m d (coreOf c) ((K (F := F)).sub 0 i))
          -∗ iprop(stPay m d (coreOf c) (gOut m d) ∗ ownBufs (S d (coreOf c)))))
  rw [bigSep_tasks (F := F) (fun s => goPay m d (coreOf c) s), bigSep_tasks (F := F) (fun s => tdPay m d (coreOf c) s)]
  unfold goPay tdPay stPay
  rw [bigSep_sep', bigSep_sep', bigSep_sep', bigSep_sep', bigSep_sep', ownBufs_S]
  iintro ⟨⟨Ha1, Hidx, Hout⟩, ⟨%fsh, Hsh⟩, Hrest⟩; imodintro
  isplitl [Ha1 Hidx Hout Hsh]
  · isplitl [Hidx]; · iexact Hidx
    isplitl [Hout]; · iexact Hout
    iapply (tile0_intro (F := F) _)
    isplitl [Ha1]; · iexact Ha1
    iexists fsh; iexact Hsh
  iintro ⟨Hidx, Hout, Htoks, H0⟩
  ihave H0' := (tile0_elim (F := F) _) $$ H0
  icases H0' with ⟨Ha1, Hkeep⟩
  isplitl [Ha1 Hidx Hout]
  · isplitl [Ha1]; · iexact Ha1
    isplitl [Hidx]; · iexact Hidx
    iexact Hout
  isplitl [Htoks Hkeep]
  · iapply (sh_join m d (coreOf c))
    isplitl [Hkeep]; · iexact Hkeep
    iexact Htoks
  iexact Hrest

/-! ## The launch element of the certificate's ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile of both SparseCores the sixteen units of its own cell. -/
theorem creds_b : ((P (F := F) m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev opR : HloOp τ sig (Elt F) := StableHlo.reshape main_arg0 main_v0 rfl shapeCasts_S100000_S250x1x400

/-- The TensorCore's arrays, all unscoped: the two arguments, the windowed indices, the output. -/
abbrev S4 : Finset (DevRef τ sig) := {a0', a1', v0', v1'}

theorem held_S4 (d : Dev nD) (W : Valuation τ sig (Elt F)) :
    (held (T d) S4 W : sProp 𝕄)
      = iprop((a0Loc d ↦{fullShare} W a0') ∗ (a1Loc d ↦{fullShare} W a1') ∗ (v0Loc d ↦{fullShare} W v0') ∗ v1Loc d ↦{fullShare} W v1') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (v0Loc d ↦{fullShare} W main_v0) ∗ v1Loc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a0', v0'} : Finset (DevRef τ sig)) ⊆ S4 by decide

/-- After the reshape: the windowed indices at idxV, the rest as launched. -/
theorem V1_v0 (d : Dev nD) : (opR (F := F)).result (V0 m d) v0' = idxV m d := by
  rw [StableHlo.reshape_result']; rfl
theorem V1_a0 (d : Dev nD) : (opR (F := F)).result (V0 m d) a0' = m (a0Loc d) := by
  rw [(opR (F := F)).result_of_not_mem _ (show a0' ∉ ({v0'} : Finset (DevRef τ sig)) by decide)]; rfl
theorem V1_a1 (d : Dev nD) : (opR (F := F)).result (V0 m d) a1' = m (a1Loc d) := by
  rw [(opR (F := F)).result_of_not_mem _ (show a1' ∉ ({v0'} : Finset (DevRef τ sig)) by decide)]; rfl
theorem V1_v1 (d : Dev nD) : (opR (F := F)).result (V0 m d) v1' = m (v1Loc d) := by
  rw [(opR (F := F)).result_of_not_mem _ (show v1' ∉ ({v0'} : Finset (DevRef τ sig)) by decide)]; rfl

theorem held_V1 (d : Dev nD) :
    (held (T d) S4 ((opR (F := F)).result (V0 m d)) : sProp 𝕄)
      = iprop((a0Loc d ↦{fullShare} m (a0Loc d)) ∗ (a1Loc d ↦{fullShare} m (a1Loc d)) ∗ (v0Loc d ↦{fullShare} idxV m d) ∗ v1Loc d ↦{fullShare} m (v1Loc d)) := by
  rw [held_S4, V1_a0, V1_a1, V1_v0, V1_v1]

/-- The 32 workers are the sixteen tiles of the two SparseCores: worker s + 16 c is tile s of SparseCore c. -/
theorem bigSep_workers (Φ : ℕ → sProp 𝕄) :
    (bigSep Finset.univ fun w : Fin 32 => Φ w.val) = bigSep Finset.univ fun c : Fin τ.nSC => bigSep Finset.univ fun s : Fin τ.nSub => Φ (wid c.val s.val) := by
  rw [bigSep_univ_equiv (finProdFinEquiv : Fin 2 × Fin 16 ≃ Fin 32) (fun w : Fin 32 => Φ w.val), bigSep_univ_prod]
  rfl

/-- The table whole is one read token per SparseCore and the rest; -/
theorem a1_split (d : Dev nD) (f : Buf (Elt F) (a1Loc d)) :
    (a1Loc d ↦{fullShare} f : sProp 𝕄) ⊣⊢ iprop((a1Loc d ↦{shareDrop fullShare 2} f) ∗ bigSep Finset.univ fun c : Fin τ.nSC => a1Loc d ↦{shareTokN fullShare c.val} f) :=
  pointsTo_toks (ℓ := a1Loc d) (S := Finset.univ) (f := f) fullShare 2

/-- the windowed indices whole, one read token per worker and the rest; -/
theorem v0_split (d : Dev nD) (f : Buf (Elt F) (v0Loc d)) :
    (v0Loc d ↦{fullShare} f : sProp 𝕄) ⊣⊢ iprop((v0Loc d ↦{shareDrop fullShare 32} f)
      ∗ bigSep Finset.univ fun c : Fin τ.nSC => bigSep Finset.univ fun s : Fin τ.nSub => v0Loc d ↦{shareTokN fullShare (wid c.val s.val)} f) := by
  rw [← bigSep_workers (F := F) (fun w => v0Loc d ↦{shareTokN fullShare w} f)]
  exact pointsTo_toks (ℓ := v0Loc d) (S := Finset.univ) (f := f) fullShare 32

/-- the output whole, the workers' elements. -/
theorem v1_split (d : Dev nD) (f : Buf (Elt F) (v1Loc d)) :
    (v1Loc d ↦{fullShare} f : sProp 𝕄)
      = bigSep Finset.univ fun c : Fin τ.nSC => bigSep Finset.univ fun s : Fin τ.nSub => v1Loc d ↦[outSet (wid c.val s.val)]{fullShare} f := by
  rw [← bigSep_workers (F := F) (fun w => v1Loc d ↦[outSet w]{fullShare} f),
    ← pointsTo_biUnion Finset.univ (ℓ := v1Loc d) (fun w : Fin 32 => outSet w.val)
      (fun w _ w' _ h => outSet_disjoint w.isLt w'.isLt fun e => h (Fin.ext e)), outSet_cover]
  try rfl

/-- What the call takes and gives back, over both SparseCores: the table's tokens, the indices' tokens, the output's
    pieces at contents f. -/
theorem sts_eq (d : Dev nD) (f : Buf (Elt F) (v1Loc d)) :
    (bigSep Finset.univ fun c : Fin ((K (F := F)).nCore 0) => stPay m d (coreOf c) f)
      = iprop((bigSep Finset.univ fun c : Fin τ.nSC => a1Loc d ↦{shareTokN fullShare c.val} m (a1Loc d))
          ∗ (bigSep Finset.univ fun c : Fin τ.nSC => bigSep Finset.univ fun s : Fin τ.nSub => v0Loc d ↦{shareTokN fullShare (wid c.val s.val)} idxV m d)
          ∗ bigSep Finset.univ fun c : Fin τ.nSC => bigSep Finset.univ fun s : Fin τ.nSub => v1Loc d ↦[outSet (wid c.val s.val)]{fullShare} f) := by
  rw [bigSep_cores (F := F) (fun c => stPay m d c f)]
  unfold stPay
  rw [bigSep_sep', bigSep_sep']

theorem dn0_eq (d : Dev nD) :
    (bigSep Finset.univ fun c : Fin ((K (F := F)).nCore 0) => (P m).dn 0 d c)
      = iprop((bigSep Finset.univ fun c : Fin τ.nSC => a1Loc d ↦{shareTokN fullShare c.val} m (a1Loc d))
          ∗ (bigSep Finset.univ fun c : Fin τ.nSC => bigSep Finset.univ fun s : Fin τ.nSub => v0Loc d ↦{shareTokN fullShare (wid c.val s.val)} idxV m d)
          ∗ bigSep Finset.univ fun c : Fin τ.nSC => bigSep Finset.univ fun s : Fin τ.nSub => v1Loc d ↦[outSet (wid c.val s.val)]{fullShare} gOut m d) :=
  sts_eq m d (gOut m d)
theorem st0_eq (d : Dev nD) :
    (bigSep Finset.univ fun c : Fin ((K (F := F)).nCore 0) => (P m).st 0 d c)
      = iprop((bigSep Finset.univ fun c : Fin τ.nSC => a1Loc d ↦{shareTokN fullShare c.val} m (a1Loc d))
          ∗ (bigSep Finset.univ fun c : Fin τ.nSC => bigSep Finset.univ fun s : Fin τ.nSub => v0Loc d ↦{shareTokN fullShare (wid c.val s.val)} idxV m d)
          ∗ bigSep Finset.univ fun c : Fin τ.nSC => bigSep Finset.univ fun s : Fin τ.nSub => v1Loc d ↦[outSet (wid c.val s.val)]{fullShare} m (v1Loc d)) :=
  sts_eq m d (m (v1Loc d))

/-- What @main leaves the claim: the arguments at their launch contents, the output at its final ones. -/
abbrev FIN (d : Dev nD) : sProp 𝕄 :=
  iprop((a0Loc d ↦{fullShare} m (a0Loc d)) ∗ (a1Loc d ↦{fullShare} m (a1Loc d)) ∗ v1Loc d ↦{fullShare} gOut m d)

/-- @main on device d's TensorCore: the reshape (over the four arrays held whole), then the call: each SparseCore its
    read token of the table, its workers' read tokens of the windowed indices and elements of the output; back, the
    tokens rejoin and the elements are the output whole at its final contents. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha0, Ha1, Hv0, Hv1⟩
  ihave Ha1' := (a1_split (F := F) d _).1 $$ Ha1
  icases Ha1' with ⟨Ha1k, Ha1t⟩
  ihave Hv0' := (v0_split (F := F) d _).1 $$ Hv0
  icases Hv0' with ⟨Hv0k, Hv0t⟩
  ihave Hv1' := (Entails.of_eq (v1_split (F := F) d _)) $$ Hv1
  iapply ((K (F := F)).wp_run (D (F := F)) 𝒱 (EH := EH) (P := P m) κ d 0) $$ [Hst Ha1t Hv0t Hv1' Ha0 Ha1k Hv0k Hb]
  isplitr; · iexact Hctx
  isplitl [Hst]; · iexact Hst
  isplitl [Ha1t Hv0t Hv1']
  · rw [st0_eq]
    isplitl [Ha1t]; · iexact Ha1t
    isplitl [Hv0t]; · iexact Hv0t
    iexact Hv1'
  iintro ⟨Hst, Hdn⟩
  ihave Hdn' := (Entails.of_eq (dn0_eq (F := F) m d)) $$ Hdn
  icases Hdn' with ⟨Ha1t, Hv0t, Hv1⟩
  imodintro
  isplitl [Hst]; · iexact Hst
  isplitl [Ha0]; · iexact Ha0
  isplitl [Ha1k Ha1t]
  · iapply (a1_split (F := F) d _).2
    isplitl [Ha1k]; · iexact Ha1k
    iexact Ha1t
  iapply (Entails.of_eq (v1_split (F := F) d _).symm)
  iexact Hv1

def fq (d : Dev nD) (s' : Phys nD τ sig (Elt F)) : Prop :=
  s'.mem.mem (v1Loc d) = gOut m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hv1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := v1Loc d) (I := Finset.univ) (q := fullShare) (f := gOut m d)) $$ [HSI Hv1]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

/-- From any memory with zero counters whose indices all name rows of the table, given one tile's task at every place:
    every weakly fair execution of the program terminates, nothing faulting, with the output at the table's rows named
    by the indices and the two arguments unchanged. -/
theorem run_of [∀ e, Nonempty (Elt F e)] (hpre : ∀ d x, (idxV m d x).toNat < 3) (hbody : ∀ d L, TileBody m d L) :
    θ_run (Cert.Kernel.defs (F := F)) (Cert.Kernel.threads (F := F)) ⟨m, fun _ => 0, ρ⟩ (fun r => ∀ c : Dev Cert.Kernel.nD,
      r.2.mem ((c.tc : Thread Cert.Kernel.nD Cert.Kernel.τ).loc Cert.Kernel.main_v1) = gOut m c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre hbody)
    (fun q _ => match q with | 0 => vecSplit m)
    m ρ main (fun _ => iprop(emp)) (FIN m) (u₀ (F := F)) (hu₀ m) (hmain m ρ) (fq m) (hfin m) _ (fun _ h => h)

end Cert.Kernel.Lk

end
-- ==== Proof.IdxRead.lean ====
/-
  The windowed indices and the output's final contents read at a window's coordinates: entry (j, 0, p) of the
  windows is entry 400 j + p of the index vector (one row-major position), so row 400 j + p of the output's final
  contents is the table's row named by entry (j, 0, p) of the windows.
-/
import proofs.«207302_g55387898250011_cont_9to1_m_42_19_alg».proof.Proof.Common
import Idealize.ShloMosaic.Lib.Pipeline.Value

noncomputable section

namespace Cert.KernelIdeal.Lk

open Cert.KernelIdeal Cert.KernelIdeal.Gen

open Idealize.ShloMosaic
open Idealize.ShloMosaic.ValueIdx (ix1 ix2 ix3)

variable {F : FTy → Type}

variable (m : (ℓ : Loc nD τ sig) → Buf (Elt F) ℓ)

theorem row_lt (j : Fin 250) (p : Fin 400) : 400 * j.val + p.val < 100000 := by
  have := j.isLt; have := p.isLt; omega

/-- Entry (j, 0, p) of the windowed indices is entry 400 j + p of the index vector. -/
theorem idxV_apply (d : Dev nD) (j : Fin 250) (p : Fin 400) :
    idxV m d (ix3 j (0 : Fin 1) p) = m (a0Loc d) (ix1 (⟨400 * j.val + p.val, row_lt j p⟩ : Fin 100000)) := by
  unfold idxV
  refine shapeCast_apply _ _ _ _ ?_
  show (S100000.rowMajor (ix1 (⟨400 * j.val + p.val, row_lt j p⟩ : Fin 100000))).val = (S250x1x400.rowMajor (ix3 j (0 : Fin 1) p)).val
  rw [Shape.rowMajor_val_one, Shape.rowMajor_val_three]
  show 400 * j.val + p.val = (j.val * 1 + 0) * 400 + p.val
  omega

/-- Row 400 j + p of the output's final contents is the table's row named by entry (j, 0, p) of the windows. -/
theorem gOut_win (d : Dev nD) (j : Fin 250) (p : Fin 400) (q : Fin 128) :
    gOut m d (ix2 (⟨400 * j.val + p.val, row_lt j p⟩ : Fin 100000) q)
      = m (a1Loc d) (ix2 (rowOf (idxV m d (ix3 j (0 : Fin 1) p))) q) := by
  rw [idxV_apply]; rfl

/-! ## Through the program's own slices -/

/-- Window j's rectangle, as the program slices the output: offsets (400 j, 0), sizes (400, 128). -/
theorem win_unit (j : Fin 250) (h : ∀ a, (![400 * j.val, 0] : Fin 2 → ℕ) a + S400x128.size a ≤ S100000x128.size a) :
    Rect.unit (s := S100000x128) ![400 * j.val, 0] S400x128.size h = win j := by
  unfold win Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

/-- The elements that slice of the whole output covers are window j's. -/
theorem outW_set (j : Fin 250) (h : ∀ a, (![400 * j.val, 0] : Fin 2 → ℕ) a + S400x128.size a ≤ S100000x128.size a) :
    ((Memref.whole (main_v1_scv : Ref sig .scVector)).slice (Rect.unit (s := S100000x128) ![400 * j.val, 0] S400x128.size h) (fun _ => rfl)).view.set
      = winSet j := by
  show ((View.whole (main_v1_scv : Ref sig .scVector)).slice (Rect.unit (s := S100000x128) ![400 * j.val, 0] S400x128.size h)).set = winSet j
  rw [View.set_slice, win_unit j h]; exact Finset.map_refl

/-- The output's final contents read through that slice at (r, q): the table's row named by index 400 j + r, column q. -/
theorem outW_read (d : Dev nD) (j : Fin 250) (h : ∀ a, (![400 * j.val, 0] : Fin 2 → ℕ) a + S400x128.size a ≤ S100000x128.size a)
    (r : Fin 400) (q : Fin 128) :
    ((Memref.whole (main_v1_scv : Ref sig .scVector)).slice (Rect.unit (s := S100000x128) ![400 * j.val, 0] S400x128.size h) (fun _ => rfl)).view.read (Elt F)
        (gOut m d) (ix2 r q)
      = m (a1Loc d) (ix2 (rowOf (m (a0Loc d) (ix1 (⟨400 * j.val + r.val, row_lt j r⟩ : Fin 100000)))) q) := by
  show gOut m d ((Rect.unit (s := S100000x128) ![400 * j.val, 0] S400x128.size h).emb (ix2 r q)) = _
  rw [gOut_apply]
  have h0 : (((Rect.unit (s := S100000x128) ![400 * j.val, 0] S400x128.size h).emb (ix2 r q)) 0 : Fin 100000) = ⟨400 * j.val + r.val, row_lt j r⟩ :=
    Fin.ext (by show 400 * j.val + 1 * r.val = 400 * j.val + r.val; omega)
  have h1 : (((Rect.unit (s := S100000x128) ![400 * j.val, 0] S400x128.size h).emb (ix2 r q)) 1 : Fin 128) = q :=
    Fin.ext (by show 0 + 1 * q.val = q.val; omega)
  rw [h0, h1]
  rfl

/-- The windowed indices read through the program's slice of window j (offsets (j, 0, 0), sizes (1, 1, 400)) at
    (0, 0, p): entry 400 j + p of the index vector. -/
theorem idxW_read (d : Dev nD) (j : Fin 250) (h : ∀ a, (![j.val, 0, 0] : Fin 3 → ℕ) a + S1x1x400.size a ≤ S250x1x400.size a) (p : Fin 400) :
    ((Memref.whole (main_v0_scv : Ref sig .scVector)).slice (Rect.unit (s := S250x1x400) ![j.val, 0, 0] S1x1x400.size h) (fun _ => rfl)).view.read (Elt F)
        (idxV m d) (ix3 (0 : Fin 1) (0 : Fin 1) p)
      = m (a0Loc d) (ix1 (⟨400 * j.val + p.val, row_lt j p⟩ : Fin 100000)) := by
  show idxV m d ((Rect.unit (s := S250x1x400) ![j.val, 0, 0] S1x1x400.size h).emb (ix3 (0 : Fin 1) (0 : Fin 1) p)) = _
  have he : (Rect.unit (s := S250x1x400) ![j.val, 0, 0] S1x1x400.size h).emb (ix3 (0 : Fin 1) (0 : Fin 1) p) = ix3 j (0 : Fin 1) p := by
    funext a
    match a with
    | ⟨0, _⟩ => exact Fin.ext (by show j.val + 1 * 0 = j.val; omega)
    | ⟨1, _⟩ => exact Fin.ext (by show 0 + 1 * 0 = 0; omega)
    | ⟨2, _⟩ => exact Fin.ext (by show 0 + 1 * p.val = p.val; omega)
  rw [he]
  exact idxV_apply m d j p

end Cert.KernelIdeal.Lk

end
-- ==== Proof.Words.lean ====
import proofs.«207302_g55387898250011_cont_9to1_m_42_19_alg».proof.Proof.Gen.KernelIdeal
import proofs.«207302_g55387898250011_cont_9to1_m_42_19_alg».proof.Proof.Gen.KernelIdeal.Skeleton
import Idealize.ShloMosaic.Lib.Decide

/-! The integer words of one tile's task as functions of the tile and the trip.

A tile `L = (c, s)` is worker `wn L = s + 16 c`; it serves `nn L` consecutive windows of 400 indices
starting at window `w0n L` (8 windows for the first 26 workers, 7 for the others: 250 in all). Before
trip `k` of its loop the five carried counters are: copies of index windows started `min (k+1) (nn L)`,
windows consumed `k`, results produced `k`, results drained `k - 1`, and the position `k` (wrapping to 0
after the last trip). Every condition and every offset the trip computes from them is decided here for
all tiles and trips at once, by evaluation. -/

namespace Cert.KernelIdeal.Tb

open Cert.KernelIdeal Cert.KernelIdeal.Gen Idealize.ShloMosaic

def wn (L : grid0.Coords) : ℕ := (L 1).val + 16 * (L 0).val
def nn (L : grid0.Coords) : ℕ := if wn L < 26 then 8 else 7
def w0n (L : grid0.Coords) : ℕ := if wn L < 26 then 8 * wn L else 7 * wn L + 26

def a7 (L : grid0.Coords) (k : ℕ) : BitVec 32 := BitVec.ofNat 32 (min (k + 1) (nn L))
def a8 (k : ℕ) : BitVec 32 := BitVec.ofNat 32 k
def a10 (k : ℕ) : BitVec 32 := BitVec.ofNat 32 (k - 1)
def a11 (L : grid0.Coords) (k : ℕ) : BitVec 32 := BitVec.ofNat 32 (if k = nn L then 0 else k)

theorem trips1 : ∀ L : grid0.Coords, (k0_t1_loop L).trips = nn L := by decide +kernel
theorem trips2 : ∀ L : grid0.Coords, (k0_t2_loop L).trips = 0 := by decide +kernel
theorem cond2_all : ∀ L : grid0.Coords, k0_cond2 L = 1#1 := by decide +kernel
theorem cond18_all : ∀ L : grid0.Coords, k0_cond18 L = 1#1 := by decide +kernel

theorem cond3_eq : ∀ (L : grid0.Coords) (k : Fin (k0_t1_loop L).trips), k0_cond3 L k (a11 L k.val) = if k.val + 1 < nn L then 1#1 else 0#1 := by decide +kernel
theorem cond4_eq : ∀ (L : grid0.Coords) (k : Fin (k0_t1_loop L).trips), k0_cond4 L k (a11 L k.val) = 1#1 := by decide +kernel
theorem cond7_eq : ∀ (L : grid0.Coords) (k : Fin (k0_t1_loop L).trips), k0_cond7 L k (a11 L k.val) = 1#1 := by decide +kernel
theorem cond9_eq : ∀ (L : grid0.Coords) (k : Fin (k0_t1_loop L).trips), k0_cond9 L k (a11 L k.val) = if k.val = 0 then 0#1 else 1#1 := by decide +kernel

theorem chk1_all : ∀ (L : grid0.Coords) (k : Fin (k0_t1_loop L).trips), k0_chk1 L k (a7 L k.val) (a8 k.val) (a8 k.val) (a10 k.val) (a11 L k.val) := by decide +kernel
theorem chk2_all : ∀ (L : grid0.Coords) (k : Fin 8), k0_chk2 L (a8 k.val) := by decide +kernel
theorem chk3_all : ∀ (L : grid0.Coords) (k : Fin 8), k0_chk3 L (a8 k.val) := by decide +kernel

theorem off4_eq : ∀ (L : grid0.Coords) (k : Fin 8), k0_off4 (a7 L k.val) = ![(min (k.val + 1) (nn L)) % 2, 0, 0, 0] := by decide +kernel
theorem off6_eq : ∀ (L : grid0.Coords) (k : Fin 8), k0_off6 (a7 L k.val) = ![(min (k.val + 1) (nn L)) % 2] := by decide +kernel
theorem off5_eq : ∀ (L : grid0.Coords) (k : Fin 8), k.val + 1 < nn L → k0_off5 L (a11 L k.val) = ![w0n L + k.val + 1, 0, 0] := by decide +kernel
theorem off7_eq : ∀ (k : Fin 8), k0_off7 (a8 k.val) = ![k.val % 2, 0, 0, 0] := by decide +kernel
theorem off9_eq : ∀ (k : Fin 8), k0_off9 (a8 k.val) = ![k.val % 2] := by decide +kernel
theorem off11_eq : ∀ (k : Fin 8), k0_off11 (a8 k.val) = ![k.val % 2, 0, 0, 0] := by decide +kernel
theorem off8_eq : ∀ (L : grid0.Coords) (k : Fin 8), k.val < nn L → k0_off8 L (a11 L k.val) = ![w0n L + k.val, 0, 0] := by decide +kernel
theorem off10_eq : ∀ (k : Fin 8), k0_off10 (a8 k.val) = ![k.val % 2, 0, 0] := by decide +kernel
theorem off12_eq : ∀ (k : Fin 8), k0_off12 (a8 k.val) = ![k.val % 2, 0, 0] := by decide +kernel
theorem off14_eq : ∀ (k : Fin 8), k0_off14 (a8 k.val) = ![k.val % 2] := by decide +kernel
theorem off13_eq : ∀ (L : grid0.Coords) (k : Fin 8), k.val < nn L → k0_off13 L (a11 L k.val) = ![400 * (w0n L + k.val), 0] := by decide +kernel
theorem off15_eq : ∀ (k : Fin 8), k0_off15 (a10 k.val) = ![(k.val - 1) % 2, 0, 0] := by decide +kernel
theorem off17_eq : ∀ (k : Fin 8), k0_off17 (a10 k.val) = ![(k.val - 1) % 2] := by decide +kernel
theorem off16_eq : ∀ (L : grid0.Coords) (k : Fin 8), 0 < k.val → k.val < nn L → k0_off16 L (a11 L k.val) = ![400 * (w0n L + k.val - 1), 0] := by decide +kernel
theorem off2_eq : ∀ (L : grid0.Coords), k0_off2 L = ![w0n L, 0, 0] := by decide +kernel

end Cert.KernelIdeal.Tb
-- ==== Proof.Spell.lean ====
import proofs.«207302_g55387898250011_cont_9to1_m_42_19_alg».proof.Proof.Common
import proofs.«207302_g55387898250011_cont_9to1_m_42_19_alg».proof.Proof.Words
import proofs.«207302_g55387898250011_cont_9to1_m_42_19_alg».proof.Proof.Gen.KernelIdeal.Skeleton

/-! The views one tile's task moves data through, named once.

The task's two scratch buffers are rings of two slots: the index ring (2 x [1,1,400] words) and the
row ring (2 x [400,128] floats). A window of 400 indices of the index array is copied into an index
slot, the 400 table rows they name are gathered into a row slot, and the row slot is copied to the
window's 400 rows of the output. Each of these views is a slice at an offsets vector; the program
computes its vectors from loop counters, so the views are named here over an arbitrary offsets
vector, and equal vectors give equal views. -/

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

/-- The tile's thread. -/
abbrev thr (d : Dev nD) (L : grid0.Coords) : Thread nD τ := V d (cV L) (jV L)

/-- Index slot at offsets `off` (slot number first), as a copy's destination addresses it: [1,1,400]. -/
abbrev islotP (off : Fin 4 → ℕ) (hs : ∀ a, off a + S1x1x1x400.size a ≤ S2x1x1x400.size a) : Memref sig .scVector .vmem S1x1x400 .i32 :=
  ((ibV).slice (Rect.unit (s := S2x1x1x400) off S1x1x1x400.size hs) (fun _ => rfl)).squeeze S1x1x400 squeezes_S1x1x1x400_S1x1x400
/-- The same slot before its unit axis is dropped: [1,1,1,400]; -/
abbrev islot4P (off : Fin 4 → ℕ) (hs : ∀ a, off a + S1x1x1x400.size a ≤ S2x1x1x400.size a) : Memref sig .scVector .vmem S1x1x1x400 .i32 :=
  (ibV).slice (Rect.unit (s := S2x1x1x400) off S1x1x1x400.size hs) (fun _ => rfl)
/-- and as the gather reads it, a list of 400 words. -/
abbrev listP (off : Fin 4 → ℕ) (hs : ∀ a, off a + S1x1x1x400.size a ≤ S2x1x1x400.size a) : Memref sig .scVector .vmem S400 .i32 :=
  (((islot4P off hs).squeeze S1x1x400 squeezes_S1x1x1x400_S1x1x400).slice (Rect.unit (s := S1x1x400) ![0, 0, 0] S1x1x400.size inb_S1x1x400_S1x1x400_0_0_0) (fun _ => rfl)).squeeze S400 squeezes_S1x1x400_S400
/-- Row slot at offsets `off`: [400,128]. -/
abbrev oslotP (off : Fin 3 → ℕ) (hs : ∀ a, off a + S1x400x128.size a ≤ S2x400x128.size a) : Memref sig .scVector .vmem S400x128 .f32 :=
  ((obV).slice (Rect.unit (s := S2x400x128) off S1x400x128.size hs) (fun _ => rfl)).squeeze S400x128 squeezes_S1x400x128_S400x128
/-- Window of the index array at offsets `off` (window number first): [1,1,400]. -/
abbrev iwinP (off : Fin 3 → ℕ) (hj : ∀ a, off a + S1x1x400.size a ≤ S250x1x400.size a) : Memref sig .scVector .hbm S1x1x400 .i32 :=
  (ixV).slice (Rect.unit (s := S250x1x400) off S1x1x400.size hj) (fun _ => rfl)
/-- Window of the output at offsets `off` (first row first): [400,128]. -/
abbrev owinP (off : Fin 2 → ℕ) (hr : ∀ a, off a + S400x128.size a ≤ S100000x128.size a) : Memref sig .scVector .hbm S400x128 .f32 :=
  (oV).slice (Rect.unit (s := S100000x128) off S400x128.size hr) (fun _ => rfl)
/-- The index ring's and the row ring's semaphores, one per slot. -/
abbrev isemP (off : Fin 1 → ℕ) (hs : ∀ a, off a + S1.size a ≤ S2.size a) : DmaSem sig :=
  ((cc0_scoped2.slice (Rect.unit (s := S2) off S1.size hs)).squeeze S_ squeezes_S1_S_).sem
abbrev osemP (off : Fin 1 → ℕ) (hs : ∀ a, off a + S1.size a ≤ S2.size a) : DmaSem sig :=
  ((cc0_scoped4.slice (Rect.unit (s := S2) off S1.size hs)).squeeze S_ squeezes_S1_S_).sem

/-! In-range evidence for the canonical offsets. -/

theorem islot_inb (p : ℕ) (hp : p < 2) : ∀ a, (![p, 0, 0, 0] : Fin 4 → ℕ) a + S1x1x1x400.size a ≤ S2x1x1x400.size a := by
  intro a; match a with
  | 0 => show p + 1 ≤ 2; omega
  | 1 => show (0 : ℕ) + 1 ≤ 1; omega
  | 2 => show (0 : ℕ) + 1 ≤ 1; omega
  | 3 => show (0 : ℕ) + 400 ≤ 400; omega
theorem oslot_inb (p : ℕ) (hp : p < 2) : ∀ a, (![p, 0, 0] : Fin 3 → ℕ) a + S1x400x128.size a ≤ S2x400x128.size a := by
  intro a; match a with
  | 0 => show p + 1 ≤ 2; omega
  | 1 => show (0 : ℕ) + 400 ≤ 400; omega
  | 2 => show (0 : ℕ) + 128 ≤ 128; omega
theorem sem_inb (p : ℕ) (hp : p < 2) : ∀ a, (![p] : Fin 1 → ℕ) a + S1.size a ≤ S2.size a := by
  intro a; match a with
  | 0 => show p + 1 ≤ 2; omega
theorem iwin_inb (j : ℕ) (hj : j < 250) : ∀ a, (![j, 0, 0] : Fin 3 → ℕ) a + S1x1x400.size a ≤ S250x1x400.size a := by
  intro a; match a with
  | 0 => show j + 1 ≤ 250; omega
  | 1 => show (0 : ℕ) + 1 ≤ 1; omega
  | 2 => show (0 : ℕ) + 400 ≤ 400; omega
theorem owin_inb (j : ℕ) (hj : j < 250) : ∀ a, (![400 * j, 0] : Fin 2 → ℕ) a + S400x128.size a ≤ S100000x128.size a := by
  intro a; match a with
  | 0 => show 400 * j + 400 ≤ 100000; omega
  | 1 => show (0 : ℕ) + 128 ≤ 128; omega

/-- Canonical names: slot `p` of either ring, its semaphore, window `j` of the indices and of the output. -/
abbrev IS (p : ℕ) (hp : p < 2) := islotP ![p, 0, 0, 0] (islot_inb p hp)
abbrev IS4 (p : ℕ) (hp : p < 2) := islot4P ![p, 0, 0, 0] (islot_inb p hp)
abbrev IL (p : ℕ) (hp : p < 2) := listP ![p, 0, 0, 0] (islot_inb p hp)
abbrev OS (p : ℕ) (hp : p < 2) := oslotP ![p, 0, 0] (oslot_inb p hp)
abbrev isem (p : ℕ) (hp : p < 2) : DmaSem sig := isemP ![p] (sem_inb p hp)
abbrev osem (p : ℕ) (hp : p < 2) : DmaSem sig := osemP ![p] (sem_inb p hp)
abbrev IW (j : ℕ) (hj : j < 250) := iwinP ![j, 0, 0] (iwin_inb j hj)
abbrev OW (j : ℕ) (hj : j < 250) := owinP ![400 * j, 0] (owin_inb j hj)

/-! Equal offsets, equal resources: the points-to and semaphore assertions over a view named by offsets
depend only on the offsets' values. Contents are typed at the whole buffer. -/

variable (d : Dev nD) (L : grid0.Coords)

theorem islot_pts_congr {off off' : Fin 4 → ℕ} (e : off = off') (h : ∀ a, off a + S1x1x1x400.size a ≤ S2x1x1x400.size a)
    (h' : ∀ a, off' a + S1x1x1x400.size a ≤ S2x1x1x400.size a) (q : PosShare TreeShare) (g : Buf (Elt F) ((ibV).view.loc (thr d L))) :
    ((islotP off h).view.loc (thr d L) ↦[(islotP off h).view.set]{q} g : sProp 𝕄)
      = ((islotP off' h').view.loc (thr d L) ↦[(islotP off' h').view.set]{q} g) := by
  subst e; rfl
theorem islot4_pts_congr {off off' : Fin 4 → ℕ} (e : off = off') (h : ∀ a, off a + S1x1x1x400.size a ≤ S2x1x1x400.size a)
    (h' : ∀ a, off' a + S1x1x1x400.size a ≤ S2x1x1x400.size a) (q : PosShare TreeShare) (g : Buf (Elt F) ((ibV).view.loc (thr d L))) :
    ((islot4P off h).view.loc (thr d L) ↦[(islot4P off h).view.set]{q} g : sProp 𝕄)
      = ((islot4P off' h').view.loc (thr d L) ↦[(islot4P off' h').view.set]{q} g) := by
  subst e; rfl
theorem oslot_pts_congr {off off' : Fin 3 → ℕ} (e : off = off') (h : ∀ a, off a + S1x400x128.size a ≤ S2x400x128.size a)
    (h' : ∀ a, off' a + S1x400x128.size a ≤ S2x400x128.size a) (q : PosShare TreeShare) (g : Buf (Elt F) ((obV).view.loc (thr d L))) :
    ((oslotP off h).view.loc (thr d L) ↦[(oslotP off h).view.set]{q} g : sProp 𝕄)
      = ((oslotP off' h').view.loc (thr d L) ↦[(oslotP off' h').view.set]{q} g) := by
  subst e; rfl
theorem iwin_pts_congr {off off' : Fin 3 → ℕ} (e : off = off') (h : ∀ a, off a + S1x1x400.size a ≤ S250x1x400.size a)
    (h' : ∀ a, off' a + S1x1x400.size a ≤ S250x1x400.size a) (q : PosShare TreeShare) (g : Buf (Elt F) ((ixV).view.loc (thr d L))) :
    ((iwinP off h).view.loc (thr d L) ↦[(iwinP off h).view.set]{q} g : sProp 𝕄)
      = ((iwinP off' h').view.loc (thr d L) ↦[(iwinP off' h').view.set]{q} g) := by
  subst e; rfl
theorem iwin_rest_congr {off off' : Fin 3 → ℕ} (e : off = off') (h : ∀ a, off a + S1x1x400.size a ≤ S250x1x400.size a)
    (h' : ∀ a, off' a + S1x1x400.size a ≤ S250x1x400.size a) (q : PosShare TreeShare) (g : Buf (Elt F) ((ixV).view.loc (thr d L))) :
    ((iwinP off h).view.loc (thr d L) ↦[Finset.univ \ (iwinP off h).view.set]{q} g : sProp 𝕄)
      = ((iwinP off' h').view.loc (thr d L) ↦[Finset.univ \ (iwinP off' h').view.set]{q} g) := by
  subst e; rfl
theorem owin_pts_congr {off off' : Fin 2 → ℕ} (e : off = off') (h : ∀ a, off a + S400x128.size a ≤ S100000x128.size a)
    (h' : ∀ a, off' a + S400x128.size a ≤ S100000x128.size a) (q : PosShare TreeShare) (g : Buf (Elt F) ((oV).view.loc (thr d L))) :
    ((owinP off h).view.loc (thr d L) ↦[(owinP off h).view.set]{q} g : sProp 𝕄)
      = ((owinP off' h').view.loc (thr d L) ↦[(owinP off' h').view.set]{q} g) := by
  subst e; rfl
theorem isem_congr {off off' : Fin 1 → ℕ} (e : off = off') (h : ∀ a, off a + S1.size a ≤ S2.size a) (h' : ∀ a, off' a + S1.size a ≤ S2.size a) :
    isemP off h = isemP off' h' := by subst e; rfl
theorem osem_congr {off off' : Fin 1 → ℕ} (e : off = off') (h : ∀ a, off a + S1.size a ≤ S2.size a) (h' : ∀ a, off' a + S1.size a ≤ S2.size a) :
    osemP off h = osemP off' h' := by subst e; rfl

end Cert.KernelIdeal.Tb
end
-- ==== Proof.WinValue.lean ====
/-
  One window's values: what the three transfers of one trip leave, as pure facts about reads of writes through the
  task's views. A window of 400 indices is copied into an index slot; read back as a list, the slot holds the window's
  indices. The gather writes into a row slot, at (r, q), the table's entry (row named by list word r, q). The row slot
  is copied to the window's rows of the output. With the list the window's indices, each below 3, and the scratch
  the table, the output's window ends at the final contents: the table's rows at the window's indices.
-/
import proofs.«207302_g55387898250011_cont_9to1_m_42_19_alg».proof.Proof.Spell
import proofs.«207302_g55387898250011_cont_9to1_m_42_19_alg».proof.Proof.IdxRead

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type}

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

/-! ## Reads of a view written whole -/

/-- A view written whole reads back the payload, whatever the buffer held. -/
theorem read_writes_whole {κ : Kind} {sp : Space} {s : Shape} {e : EltTy} (v : View sig κ sp s e)
    (f : v.ty.Contents (Elt F)) (pay : (Rect.whole s).shape.Idx → Elt F e) (x : s.Idx) :
    v.read (Elt F) (v.writes (Elt F) f [⟨Rect.whole s, pay⟩]) x = pay x := by
  have h := View.read_writes_cons_emb v f (Rect.whole s) pay [] x
  rwa [Rect.emb_whole_apply] at h

variable (d : Dev nD) (L : grid0.Coords)

/-- (V1) The index slot written whole, read back as the list of 400 words: word x of the list is the payload's
    entry (0, 0, x). -/
theorem list_read_landed (off : Fin 4 → ℕ) (h : ∀ a, off a + S1x1x1x400.size a ≤ S2x1x1x400.size a)
    (f0 : Buf (Elt F) ((ibV).view.loc (thr d L))) (pay : S1x1x400.Idx → Elt F .i32) (x : S400.Idx) :
    View.read (Elt F) (listP off h).view ((islotP off h).view.writes (Elt F) f0 [⟨Rect.whole S1x1x400, pay⟩]) x
      = pay (ix3 (0 : Fin 1) (0 : Fin 1) (x 0 : Fin 400)) := by
  have hx : (Rect.unit (s := S1x1x400) ![0, 0, 0] S1x1x400.size inb_S1x1x400_S1x1x400_0_0_0).emb
      (Shape.reshapeEquiv squeezes_S1x1x400_S400.numel_eq x) = ix3 (0 : Fin 1) (0 : Fin 1) (x 0 : Fin 400) := by
    rw [Shape.reshapeEquiv_eq_of_rowMajor squeezes_S1x1x400_S400.numel_eq (y := ix3 (0 : Fin 1) (0 : Fin 1) (x 0 : Fin 400)) (by
      rw [Shape.rowMajor_val_three, Shape.rowMajor_val_one]; show (0 * 1 + 0) * 400 + (x 0).val = (x 0).val; omega)]
    funext a
    match a with
    | ⟨0, _⟩ => exact Fin.ext (by show 0 + 1 * 0 = 0; omega)
    | ⟨1, _⟩ => exact Fin.ext (by show 0 + 1 * 0 = 0; omega)
    | ⟨2, _⟩ => exact Fin.ext (by show 0 + 1 * (x 0).val = (x 0).val; omega)
  show View.read (Elt F) (islotP off h).view _ ((Rect.unit (s := S1x1x400) ![0, 0, 0] S1x1x400.size inb_S1x1x400_S1x1x400_0_0_0).emb
      (Shape.reshapeEquiv squeezes_S1x1x400_S400.numel_eq x)) = _
  rw [hx]
  exact read_writes_whole _ _ _ _

/-- (V1) The slot with its unit axis dropped covers the same elements as before: the two points-to assertions are
    one. -/
theorem islot_pts_eq_islot4 (off : Fin 4 → ℕ) (h : ∀ a, off a + S1x1x1x400.size a ≤ S2x1x1x400.size a)
    (q : PosShare TreeShare) (g : Buf (Elt F) ((ibV).view.loc (thr d L))) :
    ((islotP off h).view.loc (thr d L) ↦[(islotP off h).view.set]{q} g : sProp 𝕄)
      = ((islot4P off h).view.loc (thr d L) ↦[(islot4P off h).view.set]{q} g) := by
  show ((islot4P off h).view.loc (thr d L) ↦[((islot4P off h).view.reshape S1x1x400 squeezes_S1x1x1x400_S1x1x400.numel_eq).set]{q} g : sProp 𝕄) = _
  rw [View.set_reshape]

variable (m : (ℓ : Loc nD τ sig) → Buf (Elt F) ℓ)

/-- (V2) The copy-in's payload from the windowed indices, at (0, 0, p) of window j: entry (j, 0, p) of the windows, -/
theorem PI_apply_idxV (off : Fin 3 → ℕ) (ho : ∀ a, off a + S1x1x400.size a ≤ S250x1x400.size a) (j : ℕ) (hj : j < 250)
    (e : off = ![j, 0, 0]) (p : Fin 400) :
    (ReadAs.same : ReadAs (Elt F) S1x1x400 .i32 S1x1x400 .i32).apply (View.read (Elt F) (iwinP off ho).view (idxV m d))
        (ix3 (0 : Fin 1) (0 : Fin 1) p)
      = idxV m d (ix3 (⟨j, hj⟩ : Fin 250) (0 : Fin 1) p) := by
  subst e
  exact (idxW_read m d ⟨j, hj⟩ ho p).trans (idxV_apply m d ⟨j, hj⟩ p).symm

/-- that is entry 400 j + p of the index vector. -/
theorem PI_apply (off : Fin 3 → ℕ) (ho : ∀ a, off a + S1x1x400.size a ≤ S250x1x400.size a) (j : ℕ) (hj : j < 250)
    (e : off = ![j, 0, 0]) (p : Fin 400) :
    (ReadAs.same : ReadAs (Elt F) S1x1x400 .i32 S1x1x400 .i32).apply (View.read (Elt F) (iwinP off ho).view (idxV m d))
        (ix3 (0 : Fin 1) (0 : Fin 1) p)
      = m (a0Loc d) (ix1 (⟨400 * j + p.val, row_lt ⟨j, hj⟩ p⟩ : Fin 100000)) := by
  subst e
  exact idxW_read m d ⟨j, hj⟩ ho p

/-- (V1+V2) The list read off the slot the window was copied into: word x is entry (j, 0, x) of the windows, -/
theorem list_landed_idxV (off4 : Fin 4 → ℕ) (h4 : ∀ a, off4 a + S1x1x1x400.size a ≤ S2x1x1x400.size a)
    (off : Fin 3 → ℕ) (ho : ∀ a, off a + S1x1x400.size a ≤ S250x1x400.size a) (j : ℕ) (hj : j < 250) (e : off = ![j, 0, 0])
    (f0 : Buf (Elt F) ((ibV).view.loc (thr d L))) (p : Fin 400) :
    View.read (Elt F) (listP off4 h4).view ((islotP off4 h4).view.writes (Elt F) f0 [⟨Rect.whole S1x1x400,
        (ReadAs.same : ReadAs (Elt F) S1x1x400 .i32 S1x1x400 .i32).apply (View.read (Elt F) (iwinP off ho).view (idxV m d))⟩]) (ix1 p)
      = idxV m d (ix3 (⟨j, hj⟩ : Fin 250) (0 : Fin 1) p) :=
  (list_read_landed d L off4 h4 f0 _ (ix1 p)).trans (PI_apply_idxV d m off ho j hj e p)

/-- so, the windows' entries all below 3, every word of the list is below 3. -/
theorem list_landed_lt (off4 : Fin 4 → ℕ) (h4 : ∀ a, off4 a + S1x1x1x400.size a ≤ S2x1x1x400.size a)
    (off : Fin 3 → ℕ) (ho : ∀ a, off a + S1x1x400.size a ≤ S250x1x400.size a) (j : ℕ) (hj : j < 250) (e : off = ![j, 0, 0])
    (f0 : Buf (Elt F) ((ibV).view.loc (thr d L))) (hchi : ∀ x, (idxV m d x).toNat < 3) (x : S400.Idx) :
    (View.read (Elt F) (listP off4 h4).view ((islotP off4 h4).view.writes (Elt F) f0 [⟨Rect.whole S1x1x400,
        (ReadAs.same : ReadAs (Elt F) S1x1x400 .i32 S1x1x400 .i32).apply (View.read (Elt F) (iwinP off ho).view (idxV m d))⟩]) x).toNat < 3 := by
  obtain ⟨p, rfl⟩ : ∃ p : Fin 400, x = ix1 p := ⟨x 0, ValueIdx.eq_ix1 x⟩
  rw [list_landed_idxV d L m off4 h4 off ho j hj e f0 p]
  exact hchi _

/-! ## The gather and the copy-out -/

/-- (V3) The gather's payload at (r, q): the scratch's entry (row named by word r of the list, q). -/
theorem PG_apply (off11 : Fin 4 → ℕ) (h11 : ∀ a, off11 a + S1x1x1x400.size a ≤ S2x1x1x400.size a)
    (fb0 : Buf (Elt F) ((ibV).view.loc (thr d L))) (ft : Buf (Elt F) ((shV).view.loc (thr d L)))
    (hn : S400.numel = S400x128.size gathers_S3x128_S400x128.axis')
    (hin : ∀ x : S400.Idx, (View.read (Elt F) (listP off11 h11).view fb0 x).toNat < 3) (r : Fin 400) (q : Fin 128) :
    SparseCore.gatherPayload gathers_S3x128_S400x128
        (View.read (Elt F) ((Memref.whole cc0_scratch0).slice (Rect.unit (s := S3x128) ![0, 0] S3x128.size inb_S3x128_S3x128_0_0) (fun _ => rfl)).view ft)
        (SparseCore.rows (View.read (Elt F) (listP off11 h11).view fb0) hn hin) (ix2 r q)
      = ft (ix2 (⟨(View.read (Elt F) (listP off11 h11).view fb0 (ix1 r)).toNat, hin (ix1 r)⟩ : Fin 3) q) := by
  unfold SparseCore.gatherPayload
  show ft ((Rect.unit (s := S3x128) ![0, 0] S3x128.size inb_S3x128_S3x128_0_0).emb
      (gathers_S3x128_S400x128.idx (SparseCore.rows (View.read (Elt F) (listP off11 h11).view fb0) hn hin) (ix2 r q))) = _
  refine congrArg ft (funext fun a => Fin.ext ?_)
  match a with
  | ⟨0, _⟩ =>
    have hrow : S400.rowMajor.symm (((ix2 r q : S400x128.Idx) gathers_S3x128_S400x128.axis').cast hn.symm) = ix1 r := by
      rw [Equiv.symm_apply_eq]; exact Fin.ext (by rw [Shape.rowMajor_val_one]; rfl)
    show 0 + 1 * (View.read (Elt F) (listP off11 h11).view fb0
        (S400.rowMajor.symm (((ix2 r q : S400x128.Idx) gathers_S3x128_S400x128.axis').cast hn.symm))).toNat = _
    rw [hrow, Nat.zero_add, Nat.one_mul]
  | ⟨1, _⟩ =>
    show 0 + 1 * q.val = q.val
    omega

/-- (V4) The copy-out's payload: the row slot written whole and read back through the same slot (spelled through two
    chains of offsets) is what was written. -/
theorem PO_eq (off10 off12 : Fin 3 → ℕ) (h10 : ∀ a, off10 a + S1x400x128.size a ≤ S2x400x128.size a)
    (h12 : ∀ a, off12 a + S1x400x128.size a ≤ S2x400x128.size a) (e : off10 = off12)
    (g0 : Buf (Elt F) ((obV).view.loc (thr d L))) (pay : S400x128.Idx → Elt F .f32) :
    (ReadAs.same : ReadAs (Elt F) S400x128 .f32 S400x128 .f32).apply
        (View.read (Elt F) (oslotP off12 h12).view ((oslotP off10 h10).view.writes (Elt F) g0 [⟨Rect.whole S400x128, pay⟩]))
      = pay := by
  subst e
  funext x
  exact read_writes_whole _ _ _ x

/-- (V5) The output's window after the copy-out lands, on the window's elements: with the list the window's indices,
    each below 3, and the scratch the table, it is the output's final contents, the table's rows at the window's
    indices. -/
theorem win_landed (off13 : Fin 2 → ℕ) (h13 : ∀ a, off13 a + S400x128.size a ≤ S100000x128.size a) (j : ℕ) (hj : j < 250)
    (e13 : off13 = ![400 * j, 0])
    (off10 off12 : Fin 3 → ℕ) (h10 : ∀ a, off10 a + S1x400x128.size a ≤ S2x400x128.size a)
    (h12 : ∀ a, off12 a + S1x400x128.size a ≤ S2x400x128.size a) (e : off10 = off12)
    (off11 : Fin 4 → ℕ) (h11 : ∀ a, off11 a + S1x1x1x400.size a ≤ S2x1x1x400.size a)
    (fb0 : Buf (Elt F) ((ibV).view.loc (thr d L))) (ft : Buf (Elt F) ((shV).view.loc (thr d L)))
    (g0 : Buf (Elt F) ((obV).view.loc (thr d L))) (fo : Buf (Elt F) ((oV).view.loc (thr d L)))
    (hn : S400.numel = S400x128.size gathers_S3x128_S400x128.axis')
    (hin : ∀ x : S400.Idx, (View.read (Elt F) (listP off11 h11).view fb0 x).toNat < 3)
    (hl : ∀ p : Fin 400, View.read (Elt F) (listP off11 h11).view fb0 (ix1 p) = idxV m d (ix3 (⟨j, hj⟩ : Fin 250) (0 : Fin 1) p))
    (hft : ∀ i, ft i = tblSh m d (cV L) i)
    (hchi : ∀ x, (idxV m d x).toNat < 3) :
    ∀ i ∈ (owinP off13 h13).view.set,
      (owinP off13 h13).view.writes (Elt F) fo [⟨Rect.whole S400x128,
        (ReadAs.same : ReadAs (Elt F) S400x128 .f32 S400x128 .f32).apply
          (View.read (Elt F) (oslotP off12 h12).view ((oslotP off10 h10).view.writes (Elt F) g0 [⟨Rect.whole S400x128,
            SparseCore.gatherPayload gathers_S3x128_S400x128
              (View.read (Elt F) ((Memref.whole cc0_scratch0).slice (Rect.unit (s := S3x128) ![0, 0] S3x128.size inb_S3x128_S3x128_0_0) (fun _ => rfl)).view ft)
              (SparseCore.rows (View.read (Elt F) (listP off11 h11).view fb0) hn hin)⟩]))⟩] i
      = gOut m d i := by
  subst e13
  intro i hi
  obtain ⟨x, -, rfl⟩ := Finset.mem_map.mp hi
  obtain ⟨r, q, rfl⟩ : ∃ (r : Fin 400) (q : Fin 128), x = ix2 r q := ⟨x 0, x 1, ValueIdx.eq_ix2 x⟩
  show (owinP ![400 * j, 0] h13).view.read (Elt F)
        ((owinP ![400 * j, 0] h13).view.writes (Elt F) fo [⟨Rect.whole S400x128, _⟩]) (ix2 r q)
      = (owinP ![400 * j, 0] h13).view.read (Elt F) (gOut m d) (ix2 r q)
  rw [read_writes_whole, PO_eq d L off10 off12 h10 h12 e g0 _, PG_apply d L off11 h11 fb0 ft hn hin r q, hft, tblSh_apply,
    outW_read m d ⟨j, hj⟩ h13 r q, ← idxV_apply m d ⟨j, hj⟩ r]
  exact congrArg (fun k : Fin 3 => m (a1Loc d) (ix2 k q)) (Fin.ext (by
    show (View.read (Elt F) (listP off11 h11).view fb0 (ix1 r)).toNat
      = (rowOf (idxV m d (ix3 (⟨j, hj⟩ : Fin 250) (0 : Fin 1) r))).val
    rw [hl r, rowOf_val (hchi _)]))

/-- (V5) as an equality of assertions: the landed window, held on its elements, is held at the output's final
    contents. -/
theorem win_landed_pts (off13 : Fin 2 → ℕ) (h13 : ∀ a, off13 a + S400x128.size a ≤ S100000x128.size a) (j : ℕ) (hj : j < 250)
    (e13 : off13 = ![400 * j, 0])
    (off10 off12 : Fin 3 → ℕ) (h10 : ∀ a, off10 a + S1x400x128.size a ≤ S2x400x128.size a)
    (h12 : ∀ a, off12 a + S1x400x128.size a ≤ S2x400x128.size a) (e : off10 = off12)
    (off11 : Fin 4 → ℕ) (h11 : ∀ a, off11 a + S1x1x1x400.size a ≤ S2x1x1x400.size a)
    (fb0 : Buf (Elt F) ((ibV).view.loc (thr d L))) (ft : Buf (Elt F) ((shV).view.loc (thr d L)))
    (g0 : Buf (Elt F) ((obV).view.loc (thr d L))) (fo : Buf (Elt F) ((oV).view.loc (thr d L)))
    (hn : S400.numel = S400x128.size gathers_S3x128_S400x128.axis')
    (hin : ∀ x : S400.Idx, (View.read (Elt F) (listP off11 h11).view fb0 x).toNat < 3)
    (hl : ∀ p : Fin 400, View.read (Elt F) (listP off11 h11).view fb0 (ix1 p) = idxV m d (ix3 (⟨j, hj⟩ : Fin 250) (0 : Fin 1) p))
    (hft : ∀ i, ft i = tblSh m d (cV L) i)
    (hchi : ∀ x, (idxV m d x).toNat < 3) (q : PosShare TreeShare) :
    ((owinP off13 h13).view.loc (thr d L) ↦[(owinP off13 h13).view.set]{q}
        ((owinP off13 h13).view.writes (Elt F) fo [⟨Rect.whole S400x128,
          (ReadAs.same : ReadAs (Elt F) S400x128 .f32 S400x128 .f32).apply
            (View.read (Elt F) (oslotP off12 h12).view ((oslotP off10 h10).view.writes (Elt F) g0 [⟨Rect.whole S400x128,
              SparseCore.gatherPayload gathers_S3x128_S400x128
                (View.read (Elt F) ((Memref.whole cc0_scratch0).slice (Rect.unit (s := S3x128) ![0, 0] S3x128.size inb_S3x128_S3x128_0_0) (fun _ => rfl)).view ft)
                (SparseCore.rows (View.read (Elt F) (listP off11 h11).view fb0) hn hin)⟩]))⟩]) : sProp 𝕄)
      = ((owinP off13 h13).view.loc (thr d L) ↦[(owinP off13 h13).view.set]{q} gOut m d) :=
  pointsTo_congr (win_landed d L m off13 h13 j hj e13 off10 off12 h10 h12 e off11 h11 fb0 ft g0 fo hn hin hl hft hchi)

end Cert.KernelIdeal.Tb

end
-- ==== Proof.TileInv.lean ====
import proofs.«207302_g55387898250011_cont_9to1_m_42_19_alg».proof.Proof.Spell

/-! What the tile holds between two trips of its loop.

Before trip `k` (of `nn L`) the five counters have their closed values and, with `p = k mod 2`:
* unless `k = nn L`, window `w0n L + k`'s indices are in flight into index slot `p` on that slot's
  semaphore, read through index token `p`; the other index slot, its semaphore and token are idle;
* row slot `p` and its semaphore are idle; unless `k = 0`, row slot `1 - p` is in flight to window
  `w0n L + k - 1`'s rows of the output, which it delivers at their final contents;
* the windows before that one are at their final contents, those from `k` on untouched. -/

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN)

variable {F : FTy → Type}

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

variable (m : (ℓ : Loc nD τ sig) → Buf (Elt F) ℓ) (d : Dev nD) (L : grid0.Coords)

theorem mod2 (k : ℕ) : k % 2 < 2 := Nat.mod_lt k (by decide)
theorem w0n_lt : ∀ (L : grid0.Coords) (k : Fin 8), k.val < nn L → w0n L + k.val < 250 := by decide +kernel
theorem nn_le8 : ∀ (L : grid0.Coords), nn L ≤ 8 := by decide +kernel
theorem nn_ge7 : ∀ (L : grid0.Coords), 7 ≤ nn L := by decide +kernel
theorem w0n_lt' (k : ℕ) (h : k < nn L) : w0n L + k < 250 := w0n_lt L ⟨k, lt_of_lt_of_le h (nn_le8 L)⟩ h

/-- The tile's index token (the whole index array at a read share), split once more: one token per index slot. -/
abbrev tokI (p : ℕ) : PosShare TreeShare := shareTokN (shareTokN fullShare (wn L)) (1 + p)
/-- The tile's read token of the shared table. -/
abbrev tokS : PosShare TreeShare := shareTokN fullShare (jV L).val

/-- Output window `j` held at contents `f` (nothing for a number that names no window). -/
def owPts (j : ℕ) (f : Buf (Elt F) (v1Loc d)) : sProp 𝕄 :=
  if h : j < 250 then ((OW j h).view.loc (thr d L) ↦[(OW j h).view.set]{fullShare} f) else iprop(emp)

/-- Index slot `k mod 2`: window `w0n L + k` on its way in; after the last trip, idle. -/
def InCur (k : ℕ) : sProp 𝕄 :=
  if h : k < nn L then
    iprop(∃ fb : Buf (Elt F) ((ibV).view.loc (thr d L)),
      ⌜∀ x : Fin 400, View.read (Elt F) (IL (k % 2) (mod2 k)).view fb (ix1 x) = idxV m d (ix3 (⟨w0n L + k, w0n_lt' L k h⟩ : Fin 250) (0 : Fin 1) x)⌝
      ∗ Transfers.Flight countersEmb (thr d L) (SemLoc.dma (isem (k % 2) (mod2 k))) default 12800
          iprop(((IS4 (k % 2) (mod2 k)).view.loc (thr d L) ↦[(IS4 (k % 2) (mod2 k)).view.set]{fullShare} fb)
            ∗ ((IW (w0n L + k) (w0n_lt' L k h)).view.loc (thr d L) ↦[(IW (w0n L + k) (w0n_lt' L k h)).view.set]{tokI L (k % 2)} idxV m d))
      ∗ ((IW (w0n L + k) (w0n_lt' L k h)).view.loc (thr d L) ↦[Finset.univ \ (IW (w0n L + k) (w0n_lt' L k h)).view.set]{tokI L (k % 2)} idxV m d))
  else
    iprop((∃ fb : Buf (Elt F) ((ibV).view.loc (thr d L)), (IS4 (k % 2) (mod2 k)).view.loc (thr d L) ↦[(IS4 (k % 2) (mod2 k)).view.set]{fullShare} fb)
      ∗ semVal (thr d L, SemLoc.dma (isem (k % 2) (mod2 k))) 0
      ∗ ((ixV).view.loc (thr d L) ↦{tokI L (k % 2)} idxV m d))

/-- The other index slot: idle. -/
def InNext (k : ℕ) : sProp 𝕄 :=
  iprop((∃ fb : Buf (Elt F) ((ibV).view.loc (thr d L)), (IS ((k + 1) % 2) (mod2 _)).view.loc (thr d L) ↦[(IS ((k + 1) % 2) (mod2 _)).view.set]{fullShare} fb)
    ∗ semVal (thr d L, SemLoc.dma (isem ((k + 1) % 2) (mod2 _))) 0
    ∗ ((ixV).view.loc (thr d L) ↦{tokI L ((k + 1) % 2)} idxV m d))

/-- Row slot `k mod 2`: idle. -/
def OutCur (k : ℕ) : sProp 𝕄 :=
  iprop((∃ g : Buf (Elt F) ((obV).view.loc (thr d L)), (OS (k % 2) (mod2 k)).view.loc (thr d L) ↦[(OS (k % 2) (mod2 k)).view.set]{fullShare} g)
    ∗ semVal (thr d L, SemLoc.dma (osem (k % 2) (mod2 k))) 0)

/-- The other row slot: on its way out to the previous window, which it delivers at its final contents; idle before the first trip. -/
def OutPrev (k : ℕ) : sProp 𝕄 :=
  if h : 0 < k ∧ k ≤ nn L then
    iprop(∃ g : Buf (Elt F) ((obV).view.loc (thr d L)),
      Transfers.Flight countersEmb (thr d L) (SemLoc.dma (osem ((k + 1) % 2) (mod2 _))) default 1638400
        iprop(((OW (w0n L + (k - 1)) (w0n_lt' L (k - 1) (Nat.lt_of_lt_of_le (Nat.sub_lt h.1 Nat.one_pos) h.2))).view.loc (thr d L) ↦[(OW (w0n L + (k - 1)) (w0n_lt' L (k - 1) (Nat.lt_of_lt_of_le (Nat.sub_lt h.1 Nat.one_pos) h.2))).view.set]{fullShare} gOut m d)
          ∗ ((OS ((k + 1) % 2) (mod2 _)).view.loc (thr d L) ↦[(OS ((k + 1) % 2) (mod2 _)).view.set]{fullShare} g)))
  else
    iprop((∃ g : Buf (Elt F) ((obV).view.loc (thr d L)), (OS ((k + 1) % 2) (mod2 _)).view.loc (thr d L) ↦[(OS ((k + 1) % 2) (mod2 _)).view.set]{fullShare} g)
      ∗ semVal (thr d L, SemLoc.dma (osem ((k + 1) % 2) (mod2 _))) 0)

/-- The tile's windows of the output: final below `k - 1`, untouched from `k` on (window `k - 1` is in flight). -/
def Wins (k : ℕ) : sProp 𝕄 :=
  iprop((bigSep (Finset.range (k - 1)) fun j => owPts d L (w0n L + j) (gOut m d))
    ∗ bigSep (Finset.Ico k (nn L)) fun j => owPts d L (w0n L + j) (m (v1Loc d)))

/-- The invariant of the tile's loop. -/
def inv (O : CellTallies nD τ sig (HIx 1)) (W : Waits sig (HIx 1)) (k : ℕ) (acc : BitVec 32 × BitVec 32 × BitVec 32 × BitVec 32 × BitVec 32) : sProp 𝕄 :=
  iprop(⌜acc = (a7 L k, a8 k, a8 k, a10 k, a11 L k) ∧ k ≤ nn L⌝
    ∗ Transfers.MayWaits (thr d L) (none : HIx 1) O
    ∗ (∃ W', ⌜∀ p ∈ W', p ∈ W ∨ p.2 = none⌝ ∗ owes (thr d L) O W')
    ∗ ((shV).view.loc (thr d L) ↦{tokS L} tblSh m d (cV L))
    ∗ semVal (thr d L, SemLoc.dma (5 : DmaSem sig)) 0
    ∗ InCur m d L k ∗ InNext m d L k ∗ OutCur d L k ∗ OutPrev m d L k ∗ Wins m d L k)

end Cert.KernelIdeal.Tb
end
-- ==== Proof.TileGlue.lean ====
/-
  One tile's task, the pieces the shell is assembled from: the subcore's scoped storage item by item, the shared scratch
  across the barrier, the rings by slots, the tile's elements of the output by windows, its read token of the indices by cells.
-/
import proofs.«207302_g55387898250011_cont_9to1_m_42_19_alg».proof.Proof.Common
import proofs.«207302_g55387898250011_cont_9to1_m_42_19_alg».proof.Proof.IdxRead
import proofs.«207302_g55387898250011_cont_9to1_m_42_19_alg».proof.Proof.Spell
import proofs.«207302_g55387898250011_cont_9to1_m_42_19_alg».proof.Proof.WinValue
import proofs.«207302_g55387898250011_cont_9to1_m_42_19_alg».proof.Proof.TileInv

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join pointsTo_toks_range)

variable {F : FTy → Type}

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

variable (m : (ℓ : Loc nD τ sig) → Buf (Elt F) ℓ)

variable [FloatOps F]

variable (d : Dev nD) (L : grid0.Coords)

/-! ## The tile's scoped storage, item by item -/

/-- The condition of the first branch: this tile is tile 0 of its SparseCore. -/
def cond1 (L : grid0.Coords) : BitVec 1 :=
  Scalar.cmpi .ne (Scalar.extui (Scalar.cmpi .eq (BitVec.ofNat 32 (L 1).val) 0#32)) 0#32
theorem cond1_iff : ∀ L : grid0.Coords, cond1 L = 1#1 ↔ (L 1).val = 0 := by decide +kernel

/-- The subcore's seven DMA semaphores are its scoped cells. -/
theorem ownSems0_V :
    (ownSems0 (thr d L) : sProp 𝕄)
      = iprop(semVal (thr d L, SemLoc.dma (0 : DmaSem sig)) 0 ∗ semVal (thr d L, SemLoc.dma (1 : DmaSem sig)) 0
          ∗ semVal (thr d L, SemLoc.dma (2 : DmaSem sig)) 0 ∗ semVal (thr d L, SemLoc.dma (3 : DmaSem sig)) 0
          ∗ semVal (thr d L, SemLoc.dma (4 : DmaSem sig)) 0 ∗ semVal (thr d L, SemLoc.dma (5 : DmaSem sig)) 0
          ∗ semVal (thr d L, SemLoc.dma (6 : DmaSem sig)) 0) := by
  rw [SparseCore.Cfg.ownSems0_eq]
  rw [show (Finset.univ.filter fun sm : SemLoc sig => sm.isScoped (thr d L).2.kind)
      = ({SemLoc.dma 0, SemLoc.dma 1, SemLoc.dma 2, SemLoc.dma 3, SemLoc.dma 4, SemLoc.dma 5, SemLoc.dma 6} : Finset (SemLoc sig)) from
      (show (Finset.univ.filter fun sm : SemLoc sig => sm.isScoped Kind.scVector) = _ by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The two rings are among the subcore's own buffers: they are they, at some contents, and the rest. -/
theorem ownBufs_V :
    (ownBufs (thr d L) : sProp 𝕄)
      = iprop((∃ f, (thr d L).loc cc0_scoped1 ↦{fullShare} f) ∗ (∃ f, (thr d L).loc cc0_scoped3 ↦{fullShare} f)
          ∗ bigSep (((ownRefs (τ := τ) (.scVector (cV L) (jV L))).erase ((Proc.scVector (cV L) (jV L)).devRef cc0_scoped1)).erase
              ((Proc.scVector (cV L) (jV L)).devRef cc0_scoped3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scoped1) rfl),
    SparseCore.bigSep_erase' (Finset.mem_erase.mpr ⟨fun h => absurd (congrArg (fun b : DevRef τ sig => b.idx.val) h) Nat.one_ne_zero, SparseCore.Cfg.mem_ownRefs_of_owner (p := Proc.scVector (cV L) (jV L)) (b := (Proc.scVector (cV L) (jV L)).devRef cc0_scoped3) rfl⟩)]

/-! ## The shared scratch across the barrier -/

/-- The whole scratch overwritten holds what was written. -/
theorem sh_written (fsh w : Buf (Elt F) (shLoc d (cV L))) :
    ((shV).view.loc (thr d L) ↦{fullShare} View.write (Elt F) (shV).view fsh w Finset.univ : sProp 𝕄) = (shLoc d (cV L) ↦{fullShare} w) := by
  rw [View.write_whole_univ]; rfl

/-- The filled scratch: sixteen read tokens, one per tile, and the rest. -/
theorem sh_split (c : Fin τ.nSC) :
    (shLoc d c ↦{fullShare} tblSh m d c : sProp 𝕄) ⊢ iprop(shKeep m d c ∗ bigSep Finset.univ fun j : Fin (grid0.bound 1) => shTok m d c (j.castLE hsub0).val) :=
  pointsTo_toks_split (ℓ := shLoc d c) (S := Finset.univ) (f := tblSh m d c) fullShare 16

/-- Tile 0's duties hand the tokens over, one per round; -/
theorem pays_intro_zero (c : Fin τ.nSC) :
    (bigSep Finset.univ fun j : Fin (grid0.bound 1) => shTok m d c (j.castLE hsub0).val)
      ⊢ (bigSep Finset.univ fun j : Fin (grid0.bound 1) => (bRd (F := F) m).payload (bcell d c (j.castLE hsub0)) 0 0 : sProp 𝕄) :=
  bigSep_mono fun j _ => by
    show _ ⊢ bPay m (bcell d c (j.castLE hsub0)) 0
    unfold bPay; dsimp only
    rw [if_pos rfl]

/-- the other tiles' hand nothing; -/
theorem pays_intro_other (c : Fin τ.nSC) {n : ℕ} (hn : n ≠ 0) :
    (iprop(emp) : sProp 𝕄) ⊢ (bigSep Finset.univ fun j : Fin (grid0.bound 1) => (bRd (F := F) m).payload (bcell d c (j.castLE hsub0)) 0 n : sProp 𝕄) := by
  rw [show (bigSep Finset.univ fun j : Fin (grid0.bound 1) => (bRd (F := F) m).payload (bcell d c (j.castLE hsub0)) 0 n)
      = bigSep Finset.univ fun _ : Fin (grid0.bound 1) => (iprop(emp) : sProp 𝕄) from
      bigSep_congr fun j _ => by
        show bPay m (bcell d c (j.castLE hsub0)) n = _
        unfold bPay; dsimp only
        rw [if_neg hn], bigSep_emp']

/-- and what a tile's own round collected holds its token. -/
theorem pays_elim (c : Fin τ.nSC) (i : Fin τ.nSub) :
    (bigSep ((bRd (F := F) m).duties (bcell d c i) 0 \ ∅) fun n => (bRd (F := F) m).payload (bcell d c i) 0 n) ⊢ (shTok m d c i.val : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d c i) 0 ⊢ _
  unfold bPay; dsimp only
  rw [if_pos rfl]

/-! ## The rings by slots, the tile's output by windows, its index token by cells -/

/-- An element of the index ring lies in slot p exactly when its first coordinate is p; -/
theorem mem_islot (p : ℕ) (hp : p < 2) (i : S2x1x1x400.Idx) :
    i ∈ (Rect.unit (s := S2x1x1x400) ![p, 0, 0, 0] S1x1x1x400.size (islot_inb p hp)).set ↔ (i 0).val = p := by
  rw [Rect.mem_set_unit]
  have h0 : (i 0).val < 2 := (i 0).isLt
  have h1 : (i 1).val < 1 := (i 1).isLt
  have h2 : (i 2).val < 1 := (i 2).isLt
  have h3 : (i 3).val < 400 := (i 3).isLt
  constructor
  · intro h
    have := h 0
    have e : p ≤ (i 0).val ∧ (i 0).val < p + 1 := this
    omega
  · intro h a
    match a with
    | 0 => exact (show p ≤ (i 0).val ∧ (i 0).val < p + 1 from ⟨by omega, by omega⟩)
    | 1 => exact (show 0 ≤ (i 1).val ∧ (i 1).val < 0 + 1 from ⟨by omega, by omega⟩)
    | 2 => exact (show 0 ≤ (i 2).val ∧ (i 2).val < 0 + 1 from ⟨by omega, by omega⟩)
    | 3 => exact (show 0 ≤ (i 3).val ∧ (i 3).val < 0 + 400 from ⟨by omega, by omega⟩)

/-- of the row ring likewise. -/
theorem mem_oslot (p : ℕ) (hp : p < 2) (i : S2x400x128.Idx) :
    i ∈ (Rect.unit (s := S2x400x128) ![p, 0, 0] S1x400x128.size (oslot_inb p hp)).set ↔ (i 0).val = p := by
  rw [Rect.mem_set_unit]
  have h0 : (i 0).val < 2 := (i 0).isLt
  have h1 : (i 1).val < 400 := (i 1).isLt
  have h2 : (i 2).val < 128 := (i 2).isLt
  constructor
  · intro h
    have := h 0
    have e : p ≤ (i 0).val ∧ (i 0).val < p + 1 := this
    omega
  · intro h a
    match a with
    | 0 => exact (show p ≤ (i 0).val ∧ (i 0).val < p + 1 from ⟨by omega, by omega⟩)
    | 1 => exact (show 0 ≤ (i 1).val ∧ (i 1).val < 0 + 400 from ⟨by omega, by omega⟩)
    | 2 => exact (show 0 ≤ (i 2).val ∧ (i 2).val < 0 + 128 from ⟨by omega, by omega⟩)

theorem IS_set (p : ℕ) (hp : p < 2) :
    (IS p hp).view.set = (Rect.unit (s := S2x1x1x400) ![p, 0, 0, 0] S1x1x1x400.size (islot_inb p hp)).set := by
  show (((ibV).view.slice (Rect.unit (s := S2x1x1x400) ![p, 0, 0, 0] S1x1x1x400.size (islot_inb p hp))).reshape S1x1x400 squeezes_S1x1x1x400_S1x1x400.numel_eq).set = _
  rw [View.set_reshape, View.set_slice]; exact Finset.map_refl

theorem OS_set (p : ℕ) (hp : p < 2) :
    (OS p hp).view.set = (Rect.unit (s := S2x400x128) ![p, 0, 0] S1x400x128.size (oslot_inb p hp)).set := by
  show (((obV).view.slice (Rect.unit (s := S2x400x128) ![p, 0, 0] S1x400x128.size (oslot_inb p hp))).reshape S400x128 squeezes_S1x400x128_S400x128.numel_eq).set = _
  rw [View.set_reshape, View.set_slice]; exact Finset.map_refl

/-- The index ring whole is its two slots, each by its elements; -/
theorem ib_split (f : Buf (Elt F) ((ibV).view.loc (thr d L))) :
    ((ibV).view.loc (thr d L) ↦{fullShare} f : sProp 𝕄)
      = iprop(((ibV).view.loc (thr d L) ↦[(IS 0 Nat.zero_lt_two).view.set]{fullShare} f)
          ∗ ((ibV).view.loc (thr d L) ↦[(IS 1 Nat.one_lt_two).view.set]{fullShare} f)) := by
  rw [IS_set 0 Nat.zero_lt_two, IS_set 1 Nat.one_lt_two]
  have hd : Disjoint (Rect.unit (s := S2x1x1x400) ![0, 0, 0, 0] S1x1x1x400.size (islot_inb 0 Nat.zero_lt_two)).set
      (Rect.unit (s := S2x1x1x400) ![1, 0, 0, 0] S1x1x1x400.size (islot_inb 1 Nat.one_lt_two)).set :=
    Finset.disjoint_left.mpr fun i h0 h1 => by rw [mem_islot 0 Nat.zero_lt_two] at h0; rw [mem_islot 1 Nat.one_lt_two] at h1; omega
  have hc : (Rect.unit (s := S2x1x1x400) ![0, 0, 0, 0] S1x1x1x400.size (islot_inb 0 Nat.zero_lt_two)).set
      ∪ (Rect.unit (s := S2x1x1x400) ![1, 0, 0, 0] S1x1x1x400.size (islot_inb 1 Nat.one_lt_two)).set = Finset.univ := by
    ext i
    refine ⟨fun _ => Finset.mem_univ _, fun _ => ?_⟩
    rw [Finset.mem_union, mem_islot 0 Nat.zero_lt_two, mem_islot 1 Nat.one_lt_two]
    have : (i 0).val < 2 := (i 0).isLt
    omega
  have h := pointsTo_union (ℓ := (ibV).view.loc (thr d L)) (q := fullShare) (f := f) (Ix := HIx 1) (Name := ℕ) (U := UU) (Lvl := ℕ) hd
  rw [hc] at h
  exact BI.equiv_iff.mp ⟨h.1, h.2⟩

/-- the row ring likewise. -/
theorem ob_split (f : Buf (Elt F) ((obV).view.loc (thr d L))) :
    ((obV).view.loc (thr d L) ↦{fullShare} f : sProp 𝕄)
      = iprop(((obV).view.loc (thr d L) ↦[(OS 0 Nat.zero_lt_two).view.set]{fullShare} f)
          ∗ ((obV).view.loc (thr d L) ↦[(OS 1 Nat.one_lt_two).view.set]{fullShare} f)) := by
  rw [OS_set 0 Nat.zero_lt_two, OS_set 1 Nat.one_lt_two]
  have hd : Disjoint (Rect.unit (s := S2x400x128) ![0, 0, 0] S1x400x128.size (oslot_inb 0 Nat.zero_lt_two)).set
      (Rect.unit (s := S2x400x128) ![1, 0, 0] S1x400x128.size (oslot_inb 1 Nat.one_lt_two)).set :=
    Finset.disjoint_left.mpr fun i h0 h1 => by rw [mem_oslot 0 Nat.zero_lt_two] at h0; rw [mem_oslot 1 Nat.one_lt_two] at h1; omega
  have hc : (Rect.unit (s := S2x400x128) ![0, 0, 0] S1x400x128.size (oslot_inb 0 Nat.zero_lt_two)).set
      ∪ (Rect.unit (s := S2x400x128) ![1, 0, 0] S1x400x128.size (oslot_inb 1 Nat.one_lt_two)).set = Finset.univ := by
    ext i
    refine ⟨fun _ => Finset.mem_univ _, fun _ => ?_⟩
    rw [Finset.mem_union, mem_oslot 0 Nat.zero_lt_two, mem_oslot 1 Nat.one_lt_two]
    have : (i 0).val < 2 := (i 0).isLt
    omega
  have h := pointsTo_union (ℓ := (obV).view.loc (thr d L)) (q := fullShare) (f := f) (Ix := HIx 1) (Name := ℕ) (U := UU) (Lvl := ℕ) hd
  rw [hc] at h
  exact BI.equiv_iff.mp ⟨h.1, h.2⟩

/-- The same with each slot's elements held at the slot's own name. -/
theorem ib_split' (f : Buf (Elt F) ((ibV).view.loc (thr d L))) :
    ((ibV).view.loc (thr d L) ↦{fullShare} f : sProp 𝕄)
      = iprop(((IS 0 Nat.zero_lt_two).view.loc (thr d L) ↦[(IS 0 Nat.zero_lt_two).view.set]{fullShare} f)
          ∗ ((IS 1 Nat.one_lt_two).view.loc (thr d L) ↦[(IS 1 Nat.one_lt_two).view.set]{fullShare} f)) := ib_split d L f
theorem ob_split' (f : Buf (Elt F) ((obV).view.loc (thr d L))) :
    ((obV).view.loc (thr d L) ↦{fullShare} f : sProp 𝕄)
      = iprop(((OS 0 Nat.zero_lt_two).view.loc (thr d L) ↦[(OS 0 Nat.zero_lt_two).view.set]{fullShare} f)
          ∗ ((OS 1 Nat.one_lt_two).view.loc (thr d L) ↦[(OS 1 Nat.one_lt_two).view.set]{fullShare} f)) := ob_split d L f

/-- The tile's read token of the windowed indices, split once more: what is left after three, and the three. -/
theorem idx_split (w : ℕ) :
    (idxTok m d w : sProp 𝕄) ⊣⊢ iprop(((ixV).view.loc (thr d L) ↦{shareDrop (shareTokN fullShare w) 3} idxV m d)
      ∗ ((ixV).view.loc (thr d L) ↦{shareTokN (shareTokN fullShare w) 0} idxV m d)
      ∗ ((ixV).view.loc (thr d L) ↦{shareTokN (shareTokN fullShare w) 1} idxV m d)
      ∗ ((ixV).view.loc (thr d L) ↦{shareTokN (shareTokN fullShare w) 2} idxV m d)) := by
  have h : ((ixV).view.loc (thr d L) ↦{shareTokN fullShare w} idxV m d : sProp 𝕄) ⊣⊢ _ :=
    pointsTo_toks_range (ℓ := (ixV).view.loc (thr d L)) (S := Finset.univ) (f := idxV m d) (shareTokN fullShare w) 3
  rw [show Finset.range 3 = {0, 1, 2} by decide, SparseCore.bigSep_insert' (by decide), SparseCore.bigSep_insert' (by decide), bigSep_singleton] at h
  exact h

/-- The tile's elements of the output are its windows, one points-to each. -/
theorem out_wins (f : Buf (Elt F) (v1Loc d)) :
    (outPts d (wid (cV L).val (jV L).val) f : sProp 𝕄) = bigSep (Finset.Ico 0 (nn L)) fun j => owPts d L (w0n L + j) f := by
  have hw0 : w0 (wn L) = w0n L := rfl
  have hnw : nwin (wn L) = nn L := rfl
  show (v1Loc d ↦[outSet (wn L)]{fullShare} f : sProp 𝕄) = _
  unfold outSet
  rw [pointsTo_biUnion (ℓ := v1Loc d) (wins (wn L)) winSet (fun _ _ _ _ h => winSet_disjoint h)]
  have hwins : wins (wn L) = (Finset.Ico 0 (nn L)).image (fun k => if h : w0n L + k < 250 then (⟨w0n L + k, h⟩ : Fin 250) else ⟨0, by decide⟩) := by
    ext j
    simp only [mem_wins, Finset.mem_image, Finset.mem_Ico]
    constructor
    · rintro ⟨h1, h2⟩
      refine ⟨j.val - w0n L, ⟨Nat.zero_le _, by omega⟩, ?_⟩
      have hj := j.isLt
      rw [dif_pos (by omega)]
      exact Fin.ext (by show w0n L + (j.val - w0n L) = j.val; omega)
    · rintro ⟨k, ⟨-, hk⟩, rfl⟩
      have hlt := w0n_lt' L k hk
      rw [dif_pos hlt]
      constructor
      · show w0 (wn L) ≤ w0n L + k; omega
      · show w0n L + k < w0 (wn L) + nwin (wn L); omega
  rw [hwins, SparseCore.bigSep_image_of_injOn (fun a ha b hb e => by
    have h1 := w0n_lt' L a (Finset.mem_Ico.mp ha).2
    have h2 := w0n_lt' L b (Finset.mem_Ico.mp hb).2
    simp only [dif_pos h1, dif_pos h2] at e
    have := congrArg Fin.val e
    simp only at this
    omega)]
  refine bigSep_congr fun k hk => ?_
  have hlt := w0n_lt' L k (Finset.mem_Ico.mp hk).2
  unfold owPts
  rw [dif_pos hlt, dif_pos hlt, outW_set ⟨w0n L + k, hlt⟩ (owin_inb _ hlt)]

/-- What tile 0 alone carries through its task: its SparseCore's read token of the table and what it kept of the scratch. -/
abbrev tile0X (c : Fin τ.nSC) (s : Fin τ.nSub) : sProp 𝕄 := if s.val = 0 then iprop(a1Tok m d c.val ∗ shKeep m d c) else iprop(emp)

end Cert.KernelIdeal.Tb

end
-- ==== Proof.TileFin.lean ====
import proofs.«207302_g55387898250011_cont_9to1_m_42_19_alg».proof.Proof.Words

namespace Cert.KernelIdeal.Tb

open Cert.KernelIdeal Cert.KernelIdeal.Gen Idealize.ShloMosaic

/-! The words after the last trip, decided for all tiles at once: the two side conditions the program assumes of the
    carried counters, the offsets of the last wait, and the three words the loop's region reads from before it. -/

theorem chk8_fin : ∀ L : grid0.Coords, k0_chk8 L (a11 L (nn L)) := by decide +kernel
theorem chk7_fin : ∀ L : grid0.Coords, k0_chk7 L (a10 (nn L)) := by decide +kernel
theorem off34_fin : ∀ L : grid0.Coords, k0_off34 (a10 (nn L)) = ![(nn L + 1) % 2] := by decide +kernel
theorem off35_fin : ∀ L : grid0.Coords, k0_off35 (a10 (nn L)) = ![(nn L + 1) % 2, 0, 0] := by decide +kernel
theorem off33_fin : ∀ L : grid0.Coords, k0_off33 L (a11 L (nn L)) = ![400 * (w0n L + (nn L - 1)), 0] := by decide +kernel

/-- Worker number, window count and first window as the program computes them from the grid coordinates. -/
def v6w (L : grid0.Coords) : BitVec 32 :=
  Scalar.addi (Scalar.addi 0#32 (Scalar.muli (BitVec.ofNat 32 (L 1).val) 1#32)) (Scalar.muli (BitVec.ofNat 32 (L 0).val) 16#32)
def v8w (L : grid0.Coords) : BitVec 32 := Scalar.select (Scalar.cmpi .slt (v6w L) 26#32) 8#32 7#32
def v13w (L : grid0.Coords) : BitVec 32 :=
  Scalar.select (Scalar.cmpi .slt (v6w L) 26#32) (Scalar.muli (v6w L) (v8w L)) (Scalar.addi (Scalar.muli (v6w L) 7#32) 26#32)
def v14w (L : grid0.Coords) : BitVec 32 := Scalar.muli 1#32 (v8w L)
theorem v8w_eq : ∀ L : grid0.Coords, v8w L = BitVec.ofNat 32 (nn L) := by decide +kernel
theorem v13w_eq : ∀ L : grid0.Coords, v13w L = BitVec.ofNat 32 (w0n L) := by decide +kernel
theorem v14w_eq : ∀ L : grid0.Coords, v14w L = BitVec.ofNat 32 (nn L) := by decide +kernel
theorem c17_eq : ∀ L : grid0.Coords, Scalar.cmpi .ne (Scalar.extui (Scalar.cmpi .eq (Scalar.subi (v14w L) 1#32) (Scalar.subi (Scalar.muli 1#32 (v8w L)) 1#32))) 0#32 = 1#1 := by decide +kernel
theorem nn_pos : ∀ L : grid0.Coords, 0 < nn L := by decide +kernel
theorem init_eq : ∀ L : grid0.Coords, ((1#32, 0#32, 0#32, 0#32, 0#32) : BitVec 32 × BitVec 32 × BitVec 32 × BitVec 32 × BitVec 32) = (a7 L 0, a8 0, a8 0, a10 0, a11 L 0) := by decide +kernel

end Cert.KernelIdeal.Tb
-- ==== Proof.TileEnds.lean ====
/-
  One tile's task, the two ends of its loop. Entering: the first window's copy in flight, both rings idle by slots, the
  tile's windows of the output untouched, is the invariant before trip 0. Leaving: the invariant after the last trip read
  without parities: both index slots idle, so the index ring whole; one row slot idle and the other on its way out to the
  last window, which it delivers at its final contents.
-/
import proofs.«207302_g55387898250011_cont_9to1_m_42_19_alg».proof.Proof.TileGlue
import proofs.«207302_g55387898250011_cont_9to1_m_42_19_alg».proof.Proof.TileFin

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join pointsTo_toks_range)

variable {F : FTy → Type}

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

variable (m : (ℓ : Loc nD τ sig) → Buf (Elt F) ℓ)

variable [FloatOps F]

variable (d : Dev nD) (L : grid0.Coords)

/-! ## Entering the loop -/

/-- What lands in index slot 0, read as a list of 400 words, whatever offsets vector names the slot. -/
theorem list_read_landed0 (off : Fin 4 → ℕ) (h : ∀ a, off a + S1x1x1x400.size a ≤ S2x1x1x400.size a) (e : off = ![0, 0, 0, 0])
    (fib : Buf (Elt F) ((ibV).view.loc (thr d L))) (pay : S1x1x400.Idx → Elt F .i32) (x : Fin 400) :
    View.read (Elt F) (IL 0 Nat.zero_lt_two).view ((islotP off h).view.writes (Elt F) fib [⟨Rect.whole S1x1x400, pay⟩]) (ix1 x)
      = pay (ix3 (0 : Fin 1) (0 : Fin 1) x) := by
  subst e
  exact list_read_landed (F := F) d L _ _ fib pay (ix1 x)

/-- The first window's copy, as the program spelled it, is the copy the invariant speaks of: the slot under its
    canonical name, what lands in it read as a list of 400 words. -/
theorem prologue_landed (h2 : k0_cond2 L = 1#1) (fib : Buf (Elt F) ((ibV).view.loc (thr d L))) (pay : S1x1x400.Idx → Elt F .i32) (q : PosShare TreeShare) :
    (Transfers.Flight countersEmb (thr d L) (SemLoc.dma (⟨1, by decide⟩ : DmaSem sig)) (default : HIx 1) 12800
        iprop(((islotP k0_off1 (k0_off1_inb L h2)).view.loc (thr d L) ↦[(islotP k0_off1 (k0_off1_inb L h2)).view.set]{fullShare}
              (islotP k0_off1 (k0_off1_inb L h2)).view.writes (Elt F) fib [⟨Rect.whole S1x1x400, pay⟩])
          ∗ ((ixV).view.loc (thr d L) ↦[(iwinP (k0_off2 L) (k0_off2_inb L h2)).view.set]{q} idxV m d)) : sProp 𝕄)
      ⊢ iprop(∃ fb : Buf (Elt F) ((ibV).view.loc (thr d L)),
          ⌜∀ x : Fin 400, View.read (Elt F) (IL 0 Nat.zero_lt_two).view fb (ix1 x) = pay (ix3 (0 : Fin 1) (0 : Fin 1) x)⌝
          ∗ Transfers.Flight countersEmb (thr d L) (SemLoc.dma (isem 0 Nat.zero_lt_two)) (default : HIx 1) 12800
              iprop(((IS4 0 Nat.zero_lt_two).view.loc (thr d L) ↦[(IS4 0 Nat.zero_lt_two).view.set]{fullShare} fb)
                ∗ ((IW (w0n L + 0) (w0n_lt' L 0 (nn_pos L))).view.loc (thr d L) ↦[(IW (w0n L + 0) (w0n_lt' L 0 (nn_pos L))).view.set]{q} idxV m d))) := by
  iintro H
  iexists ((islotP k0_off1 (k0_off1_inb L h2)).view.writes (Elt F) fib [⟨Rect.whole S1x1x400, pay⟩])
  isplitr
  · ipureintro
    intro x
    exact list_read_landed0 (F := F) d L k0_off1 (k0_off1_inb L h2) k0_off1_eq fib pay x
  · have hcell : (⟨1, by decide⟩ : DmaSem sig) = isem 0 Nat.zero_lt_two := by decide
    rw [← hcell]
    iapply (Transfers.Flight_mono (D' := iprop(((IS4 0 Nat.zero_lt_two).view.loc (thr d L) ↦[(IS4 0 Nat.zero_lt_two).view.set]{fullShare}
              (islotP k0_off1 (k0_off1_inb L h2)).view.writes (Elt F) fib [⟨Rect.whole S1x1x400, pay⟩])
          ∗ ((IW (w0n L + 0) (w0n_lt' L 0 (nn_pos L))).view.loc (thr d L) ↦[(IW (w0n L + 0) (w0n_lt' L 0 (nn_pos L))).view.set]{q} idxV m d))) ?_) $$ H
    rw [islot_pts_eq_islot4 (F := F) d L k0_off1 (k0_off1_inb L h2) fullShare _,
      islot4_pts_congr (F := F) d L k0_off1_eq (k0_off1_inb L h2) (islot_inb 0 Nat.zero_lt_two) fullShare _]
    have ew : ((ixV).view.loc (thr d L) ↦[(iwinP (k0_off2 L) (k0_off2_inb L h2)).view.set]{q} idxV m d : sProp 𝕄)
        = ((IW (w0n L + 0) (w0n_lt' L 0 (nn_pos L))).view.loc (thr d L) ↦[(IW (w0n L + 0) (w0n_lt' L 0 (nn_pos L))).view.set]{q} idxV m d) :=
      iwin_pts_congr (F := F) d L (off2_eq L) (k0_off2_inb L h2) (iwin_inb (w0n L + 0) (w0n_lt' L 0 (nn_pos L))) q (idxV m d)
    rw [ew]

/-- The invariant before trip 0: the first window on its way into index slot 0, everything else idle, the tile's
    windows of the output untouched. -/
theorem inv0_intro (h2 : k0_cond2 L = 1#1) (O : CellTallies nD τ sig (HIx 1)) (W : Waits sig (HIx 1))
    (fb fib' : Buf (Elt F) ((ibV).view.loc (thr d L))) (fob fob' : Buf (Elt F) ((obV).view.loc (thr d L)))
    (hfb : ∀ x : Fin 400, View.read (Elt F) (IL 0 Nat.zero_lt_two).view fb (ix1 x)
      = idxV m d (ix3 (⟨w0n L + 0, w0n_lt' L 0 (nn_pos L)⟩ : Fin 250) (0 : Fin 1) x)) :
    iprop(Transfers.MayWaits (thr d L) (default : HIx 1) O ∗ owes (thr d L) O W
      ∗ ((shV).view.loc (thr d L) ↦{tokS L} tblSh m d (cV L)) ∗ semVal (thr d L, SemLoc.dma (5 : DmaSem sig)) 0
      ∗ Transfers.Flight countersEmb (thr d L) (SemLoc.dma (isem 0 Nat.zero_lt_two)) (default : HIx 1) 12800
          iprop(((IS4 0 Nat.zero_lt_two).view.loc (thr d L) ↦[(IS4 0 Nat.zero_lt_two).view.set]{fullShare} fb)
            ∗ ((IW (w0n L + 0) (w0n_lt' L 0 (nn_pos L))).view.loc (thr d L) ↦[(IW (w0n L + 0) (w0n_lt' L 0 (nn_pos L))).view.set]{shareTokN (shareTokN fullShare (wid (cV L).val (jV L).val)) 1} idxV m d))
      ∗ ((ixV).view.loc (thr d L) ↦[Finset.univ \ (iwinP (k0_off2 L) (k0_off2_inb L h2)).view.set]{shareTokN (shareTokN fullShare (wid (cV L).val (jV L).val)) 1} idxV m d)
      ∗ ((IS 1 Nat.one_lt_two).view.loc (thr d L) ↦[(IS 1 Nat.one_lt_two).view.set]{fullShare} fib')
      ∗ semVal (thr d L, SemLoc.dma (2 : DmaSem sig)) 0
      ∗ ((ixV).view.loc (thr d L) ↦{shareTokN (shareTokN fullShare (wid (cV L).val (jV L).val)) 2} idxV m d)
      ∗ ((OS 0 Nat.zero_lt_two).view.loc (thr d L) ↦[(OS 0 Nat.zero_lt_two).view.set]{fullShare} fob)
      ∗ semVal (thr d L, SemLoc.dma (3 : DmaSem sig)) 0
      ∗ ((OS 1 Nat.one_lt_two).view.loc (thr d L) ↦[(OS 1 Nat.one_lt_two).view.set]{fullShare} fob')
      ∗ semVal (thr d L, SemLoc.dma (4 : DmaSem sig)) 0
      ∗ outPts d (wid (cV L).val (jV L).val) (m (v1Loc d)))
      ⊢ (inv m d L O W 0 (1#32, 0#32, 0#32, 0#32, 0#32) : sProp 𝕄) := by
  unfold inv InCur InNext OutCur OutPrev Wins
  rw [dif_pos (nn_pos L), dif_neg (show ¬(0 < 0 ∧ 0 ≤ nn L) from fun h => absurd h.1 (lt_irrefl 0))]
  have ew : ((ixV).view.loc (thr d L) ↦[Finset.univ \ (iwinP (k0_off2 L) (k0_off2_inb L h2)).view.set]{shareTokN (shareTokN fullShare (wid (cV L).val (jV L).val)) 1} idxV m d : sProp 𝕄)
      = ((IW (w0n L + 0) (w0n_lt' L 0 (nn_pos L))).view.loc (thr d L) ↦[Finset.univ \ (IW (w0n L + 0) (w0n_lt' L 0 (nn_pos L))).view.set]{tokI L (0 % 2)} idxV m d) :=
    iwin_rest_congr (F := F) d L (off2_eq L) (k0_off2_inb L h2) (iwin_inb (w0n L + 0) (w0n_lt' L 0 (nn_pos L))) _ (idxV m d)
  rw [ew, out_wins (F := F) d L]
  iintro ⟨Hmw, HO, Hsh, Hs5, Hfl, Hrest, Hi1, Hs2, Hix2, Ho0, Hs3, Ho1, Hs4, Hout⟩
  isplitr; · ipureintro; exact ⟨init_eq L, Nat.zero_le _⟩
  isplitl [Hmw]; · iexact Hmw
  isplitl [HO]
  · iexists W; isplitr
    · ipureintro; exact fun p hp => .inl hp
    · iexact HO
  isplitl [Hsh]; · iexact Hsh
  isplitl [Hs5]; · iexact Hs5
  isplitl [Hfl Hrest]
  · iexists fb; isplitr
    · ipureintro; exact hfb
    isplitl [Hfl]; · iexact Hfl
    iexact Hrest
  isplitl [Hi1 Hs2 Hix2]
  · isplitl [Hi1]; · iexists fib'; iexact Hi1
    isplitl [Hs2]; · iexact Hs2
    iexact Hix2
  isplitl [Ho0 Hs3]
  · isplitl [Ho0]; · iexists fob; iexact Ho0
    iexact Hs3
  isplitl [Ho1 Hs4]
  · isplitl [Ho1]; · iexists fob'; iexact Ho1
    iexact Hs4
  isplitr
  · rw [show Finset.range (0 - 1) = ∅ from rfl, bigSep_empty]; iempintro
  iexact Hout

/-! ## Leaving the loop -/

theorem isem0 : isem 0 Nat.zero_lt_two = (1 : DmaSem sig) := by decide
theorem isem1 : isem 1 Nat.one_lt_two = (2 : DmaSem sig) := by decide
theorem osem0 : osem 0 Nat.zero_lt_two = (3 : DmaSem sig) := by decide
theorem osem1 : osem 1 Nat.one_lt_two = (4 : DmaSem sig) := by decide

/-- Two different slots' cells of the index ring are cells 1 and 2; -/
theorem isems_pair (p p' : ℕ) (hp : p < 2) (hp' : p' < 2) (hne : p ≠ p') :
    iprop(semVal (thr d L, SemLoc.dma (isem p hp)) 0 ∗ semVal (thr d L, SemLoc.dma (isem p' hp')) 0)
      ⊢ (iprop(semVal (thr d L, SemLoc.dma (1 : DmaSem sig)) 0 ∗ semVal (thr d L, SemLoc.dma (2 : DmaSem sig)) 0) : sProp 𝕄) := by
  obtain rfl | rfl : p = 0 ∨ p = 1 := by omega
  · obtain rfl : p' = 1 := by omega
    rw [show isem 0 hp = (1 : DmaSem sig) from isem0, show isem 1 hp' = (2 : DmaSem sig) from isem1]
  · obtain rfl : p' = 0 := by omega
    rw [show isem 1 hp = (2 : DmaSem sig) from isem1, show isem 0 hp' = (1 : DmaSem sig) from isem0]
    iintro ⟨H1, H2⟩
    isplitl [H2] <;> iassumption

/-- of the row ring, cells 3 and 4. -/
theorem osems_pair (p p' : ℕ) (hp : p < 2) (hp' : p' < 2) (hne : p ≠ p') :
    iprop(semVal (thr d L, SemLoc.dma (osem p hp)) 0 ∗ semVal (thr d L, SemLoc.dma (osem p' hp')) 0)
      ⊢ (iprop(semVal (thr d L, SemLoc.dma (3 : DmaSem sig)) 0 ∗ semVal (thr d L, SemLoc.dma (4 : DmaSem sig)) 0) : sProp 𝕄) := by
  obtain rfl | rfl : p = 0 ∨ p = 1 := by omega
  · obtain rfl : p' = 1 := by omega
    rw [show osem 0 hp = (3 : DmaSem sig) from osem0, show osem 1 hp' = (4 : DmaSem sig) from osem1]
  · obtain rfl : p' = 0 := by omega
    rw [show osem 1 hp = (4 : DmaSem sig) from osem1, show osem 0 hp' = (3 : DmaSem sig) from osem0]
    iintro ⟨H1, H2⟩
    isplitl [H2] <;> iassumption

/-- Two different index slots' read tokens are tokens 1 and 2 of the tile's token. -/
theorem toks_pair (p p' : ℕ) (hp : p < 2) (hp' : p' < 2) (hne : p ≠ p') (f : Buf (Elt F) ((ixV).view.loc (thr d L))) :
    iprop(((ixV).view.loc (thr d L) ↦{tokI L p} f) ∗ ((ixV).view.loc (thr d L) ↦{tokI L p'} f))
      ⊢ (iprop(((ixV).view.loc (thr d L) ↦{shareTokN (shareTokN fullShare (wid (cV L).val (jV L).val)) 1} f)
          ∗ ((ixV).view.loc (thr d L) ↦{shareTokN (shareTokN fullShare (wid (cV L).val (jV L).val)) 2} f)) : sProp 𝕄) := by
  obtain rfl | rfl : p = 0 ∨ p = 1 := by omega
  · obtain rfl : p' = 1 := by omega
    exact BI.Entails.refl _
  · obtain rfl : p' = 0 := by omega
    iintro ⟨H1, H2⟩
    isplitl [H2]
    · iexact H2
    · iexact H1

/-- Two different slots of the index ring, each at contents of its own, are the ring whole at some contents; -/
theorem islots_join (p p' : ℕ) (hp : p < 2) (hp' : p' < 2) (hne : p ≠ p') (f g : Buf (Elt F) ((ibV).view.loc (thr d L))) :
    iprop(((IS4 p hp).view.loc (thr d L) ↦[(IS4 p hp).view.set]{fullShare} f) ∗ ((IS p' hp').view.loc (thr d L) ↦[(IS p' hp').view.set]{fullShare} g))
      ⊢ (iprop(∃ h, (thr d L).loc cc0_scoped1 ↦{fullShare} h) : sProp 𝕄) := by
  rw [show (((IS4 p hp).view.loc (thr d L) ↦[(IS4 p hp).view.set]{fullShare} f : sProp 𝕄))
      = ((IS p hp).view.loc (thr d L) ↦[(IS p hp).view.set]{fullShare} f) from (islot_pts_eq_islot4 (F := F) d L _ _ fullShare f).symm]
  show iprop(((ibV).view.loc (thr d L) ↦[(IS p hp).view.set]{fullShare} f) ∗ ((ibV).view.loc (thr d L) ↦[(IS p' hp').view.set]{fullShare} g)) ⊢ _
  rw [IS_set p hp, IS_set p' hp']
  have hd : Disjoint (Rect.unit (s := S2x1x1x400) ![p, 0, 0, 0] S1x1x1x400.size (islot_inb p hp)).set
      (Rect.unit (s := S2x1x1x400) ![p', 0, 0, 0] S1x1x1x400.size (islot_inb p' hp')).set :=
    Finset.disjoint_left.mpr fun i h0 h1 => by rw [mem_islot p hp] at h0; rw [mem_islot p' hp'] at h1; omega
  have hc : (Rect.unit (s := S2x1x1x400) ![p, 0, 0, 0] S1x1x1x400.size (islot_inb p hp)).set
      ∪ (Rect.unit (s := S2x1x1x400) ![p', 0, 0, 0] S1x1x1x400.size (islot_inb p' hp')).set = Finset.univ := by
    ext i
    refine ⟨fun _ => Finset.mem_univ _, fun _ => ?_⟩
    rw [Finset.mem_union, mem_islot p hp, mem_islot p' hp']
    have : (i 0).val < 2 := (i 0).isLt
    omega
  refine (pointsTo_join (ℓ := (ibV).view.loc (thr d L)) (q := fullShare) (Ix := HIx 1) (Name := ℕ) (U := UU) (Lvl := ℕ) hd).trans ?_
  rw [hc]
  iintro H
  iexists _
  iexact H

/-- of the row ring likewise. -/
theorem oslots_join (p p' : ℕ) (hp : p < 2) (hp' : p' < 2) (hne : p ≠ p') (f g : Buf (Elt F) ((obV).view.loc (thr d L))) :
    iprop(((OS p hp).view.loc (thr d L) ↦[(OS p hp).view.set]{fullShare} f) ∗ ((OS p' hp').view.loc (thr d L) ↦[(OS p' hp').view.set]{fullShare} g))
      ⊢ (iprop(∃ h, (thr d L).loc cc0_scoped3 ↦{fullShare} h) : sProp 𝕄) := by
  show iprop(((obV).view.loc (thr d L) ↦[(OS p hp).view.set]{fullShare} f) ∗ ((obV).view.loc (thr d L) ↦[(OS p' hp').view.set]{fullShare} g)) ⊢ _
  rw [OS_set p hp, OS_set p' hp']
  have hd : Disjoint (Rect.unit (s := S2x400x128) ![p, 0, 0] S1x400x128.size (oslot_inb p hp)).set
      (Rect.unit (s := S2x400x128) ![p', 0, 0] S1x400x128.size (oslot_inb p' hp')).set :=
    Finset.disjoint_left.mpr fun i h0 h1 => by rw [mem_oslot p hp] at h0; rw [mem_oslot p' hp'] at h1; omega
  have hc : (Rect.unit (s := S2x400x128) ![p, 0, 0] S1x400x128.size (oslot_inb p hp)).set
      ∪ (Rect.unit (s := S2x400x128) ![p', 0, 0] S1x400x128.size (oslot_inb p' hp')).set = Finset.univ := by
    ext i
    refine ⟨fun _ => Finset.mem_univ _, fun _ => ?_⟩
    rw [Finset.mem_union, mem_oslot p hp, mem_oslot p' hp']
    have : (i 0).val < 2 := (i 0).isLt
    omega
  refine (pointsTo_join (ℓ := (obV).view.loc (thr d L)) (q := fullShare) (Ix := HIx 1) (Name := ℕ) (U := UU) (Lvl := ℕ) hd).trans ?_
  rw [hc]
  iintro H
  iexists _
  iexact H

theorem h34 : ∀ a, k0_off34 (a10 (nn L)) a + S1.size a ≤ S2.size a := by
  rw [off34_fin L]; exact sem_inb _ (mod2 _)

/-- The last window's flight, its cell spelled as the last wait spells it and its delivery as a window of the tile. -/
theorem flight_respell (g : Buf (Elt F) ((obV).view.loc (thr d L))) (hj : w0n L + (nn L - 1) < 250) :
    (Transfers.Flight countersEmb (thr d L) (SemLoc.dma (osem ((nn L + 1) % 2) (mod2 _))) (default : HIx 1) 1638400
        iprop(((OW (w0n L + (nn L - 1)) hj).view.loc (thr d L) ↦[(OW (w0n L + (nn L - 1)) hj).view.set]{fullShare} gOut m d)
          ∗ ((OS ((nn L + 1) % 2) (mod2 _)).view.loc (thr d L) ↦[(OS ((nn L + 1) % 2) (mod2 _)).view.set]{fullShare} g)) : sProp 𝕄)
      ⊢ Transfers.Flight countersEmb (thr d L) (SemLoc.dma (osemP (k0_off34 (a10 (nn L))) (h34 L))) (default : HIx 1) 1638400
          iprop(owPts d L (w0n L + (nn L - 1)) (gOut m d)
            ∗ ((OS ((nn L + 1) % 2) (mod2 _)).view.loc (thr d L) ↦[(OS ((nn L + 1) % 2) (mod2 _)).view.set]{fullShare} g)) := by
  rw [osem_congr (off34_fin L) (h34 L) (sem_inb _ (mod2 _))]
  iintro H
  iapply (Transfers.Flight_mono (D' := iprop(owPts d L (w0n L + (nn L - 1)) (gOut m d)
            ∗ ((OS ((nn L + 1) % 2) (mod2 _)).view.loc (thr d L) ↦[(OS ((nn L + 1) % 2) (mod2 _)).view.set]{fullShare} g))) ?_) $$ H
  unfold owPts
  rw [dif_pos hj]

/-- The invariant after the last trip, read without parities. -/
theorem inv_exit (O : CellTallies nD τ sig (HIx 1)) (W : Waits sig (HIx 1)) (acc : BitVec 32 × BitVec 32 × BitVec 32 × BitVec 32 × BitVec 32) :
    (inv m d L O W (nn L) acc : sProp 𝕄) ⊢ iprop(⌜acc = (a7 L (nn L), a8 (nn L), a8 (nn L), a10 (nn L), a11 L (nn L))⌝
      ∗ Transfers.MayWaits (thr d L) (none : HIx 1) O
      ∗ (∃ W', ⌜∀ p ∈ W', p ∈ W ∨ p.2 = none⌝ ∗ owes (thr d L) O W')
      ∗ ((shV).view.loc (thr d L) ↦{tokS L} tblSh m d (cV L))
      ∗ semVal (thr d L, SemLoc.dma (5 : DmaSem sig)) 0
      ∗ (∃ f, (thr d L).loc cc0_scoped1 ↦{fullShare} f)
      ∗ (semVal (thr d L, SemLoc.dma (1 : DmaSem sig)) 0 ∗ semVal (thr d L, SemLoc.dma (2 : DmaSem sig)) 0)
      ∗ (((ixV).view.loc (thr d L) ↦{shareTokN (shareTokN fullShare (wid (cV L).val (jV L).val)) 1} idxV m d)
          ∗ ((ixV).view.loc (thr d L) ↦{shareTokN (shareTokN fullShare (wid (cV L).val (jV L).val)) 2} idxV m d))
      ∗ (∃ g, (OS (nn L % 2) (mod2 _)).view.loc (thr d L) ↦[(OS (nn L % 2) (mod2 _)).view.set]{fullShare} g)
      ∗ semVal (thr d L, SemLoc.dma (osem (nn L % 2) (mod2 _))) 0
      ∗ (∃ g, Transfers.Flight countersEmb (thr d L) (SemLoc.dma (osemP (k0_off34 (a10 (nn L))) (h34 L))) (default : HIx 1) 1638400
          iprop(owPts d L (w0n L + (nn L - 1)) (gOut m d)
            ∗ ((OS ((nn L + 1) % 2) (mod2 _)).view.loc (thr d L) ↦[(OS ((nn L + 1) % 2) (mod2 _)).view.set]{fullShare} g)))
      ∗ bigSep (Finset.range (nn L - 1)) fun j => owPts d L (w0n L + j) (gOut m d)) := by
  unfold inv InCur InNext OutCur OutPrev Wins
  rw [dif_neg (lt_irrefl (nn L)), dif_pos (⟨nn_pos L, le_rfl⟩ : 0 < nn L ∧ nn L ≤ nn L)]
  have hne : nn L % 2 ≠ (nn L + 1) % 2 := by omega
  iintro ⟨%hacc, Hmw, HO, Hsh, Hs5, ⟨⟨%fbc, Hic⟩, Hsic, Htc⟩, ⟨⟨%fbn, Hin⟩, Hsin, Htn⟩, ⟨⟨%gc, Hoc⟩, Hsoc⟩, ⟨%gp, Hfl⟩, Hw1, -⟩
  isplitr; · ipureintro; exact hacc.1
  isplitl [Hmw]; · iexact Hmw
  isplitl [HO]; · iexact HO
  isplitl [Hsh]; · iexact Hsh
  isplitl [Hs5]; · iexact Hs5
  isplitl [Hic Hin]
  · iapply (islots_join (F := F) d L _ _ (mod2 _) (mod2 _) hne _ _)
    isplitl [Hic]; · iexact Hic
    iexact Hin
  isplitl [Hsic Hsin]
  · iapply (isems_pair (F := F) d L _ _ (mod2 _) (mod2 _) hne)
    isplitl [Hsic]; · iexact Hsic
    iexact Hsin
  isplitl [Htc Htn]
  · iapply (toks_pair (F := F) d L _ _ (mod2 _) (mod2 _) hne _)
    isplitl [Htc]; · iexact Htc
    iexact Htn
  isplitl [Hoc]; · iexists gc; iexact Hoc
  isplitl [Hsoc]; · iexact Hsoc
  isplitl [Hfl]
  · iexists gp
    iapply (flight_respell (F := F) m d L gp _)
    iexact Hfl
  iexact Hw1

/-- After the last wait: the two row slots are the row ring whole, their cells cells 3 and 4. -/
theorem exit_close (g gc : Buf (Elt F) ((obV).view.loc (thr d L))) :
    iprop(semVal (thr d L, SemLoc.dma (osemP (k0_off34 (a10 (nn L))) (h34 L))) 0
        ∗ ((OS ((nn L + 1) % 2) (mod2 _)).view.loc (thr d L) ↦[(OS ((nn L + 1) % 2) (mod2 _)).view.set]{fullShare} g)
        ∗ ((OS (nn L % 2) (mod2 _)).view.loc (thr d L) ↦[(OS (nn L % 2) (mod2 _)).view.set]{fullShare} gc)
        ∗ semVal (thr d L, SemLoc.dma (osem (nn L % 2) (mod2 _))) 0)
      ⊢ (iprop((∃ h, (thr d L).loc cc0_scoped3 ↦{fullShare} h)
          ∗ (semVal (thr d L, SemLoc.dma (3 : DmaSem sig)) 0 ∗ semVal (thr d L, SemLoc.dma (4 : DmaSem sig)) 0)) : sProp 𝕄) := by
  have hne : nn L % 2 ≠ (nn L + 1) % 2 := by omega
  rw [osem_congr (off34_fin L) (h34 L) (sem_inb _ (mod2 _))]
  iintro ⟨Hsp, Hp, Hc, Hsc⟩
  isplitl [Hp Hc]
  · iapply (oslots_join (F := F) d L _ _ (mod2 _) (mod2 _) hne _ _)
    isplitl [Hc]; · iexact Hc
    iexact Hp
  · iapply (osems_pair (F := F) d L _ _ (mod2 _) (mod2 _) hne)
    isplitl [Hsc]; · iexact Hsc
    iexact Hsp

/-- The tile's windows, all at their final contents, are its elements of the output at the final contents. -/
theorem wins_close :
    iprop((bigSep (Finset.range (nn L - 1)) fun j => owPts d L (w0n L + j) (gOut m d)) ∗ owPts d L (w0n L + (nn L - 1)) (gOut m d))
      ⊢ (outPts d (wid (cV L).val (jV L).val) (gOut m d) : sProp 𝕄) := by
  rw [out_wins (F := F) d L, ← Finset.range_eq_Ico]
  have h : Finset.range (nn L) = insert (nn L - 1) (Finset.range (nn L - 1)) := by
    have := nn_pos L
    conv_lhs => rw [show nn L = (nn L - 1) + 1 by omega]
    exact Finset.range_add_one
  rw [h, SparseCore.bigSep_insert' Finset.notMem_range_self]
  iintro ⟨H1, H2⟩
  isplitl [H2] <;> iassumption

end Cert.KernelIdeal.Tb

end
-- ==== Proof.TileTrip.lean ====
import proofs.«207302_g55387898250011_cont_9to1_m_42_19_alg».proof.Proof.Spell

/-! One trip of the tile's loop, run at a symbolic trip number.

Trip `k` serves window `w0n L + k`: (unless it is the last) it starts the copy of the next window's
indices into the other index slot; it waits for this window's indices, gathers the table rows they
name into row slot `k mod 2` and waits for them, starts the copy of that slot to the window's rows
of the output, and (unless it is the first) waits for the previous window's copy-out. Every resource
is stated through the view the program itself computes at that operation. -/

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

variable (d : Dev nD) (L : grid0.Coords)

/-- The trip's program, at the counters' values before trip `k`. -/
abbrev tripProg (h2 : k0_cond2 L = 1#1) (k : Fin (k0_t1_loop L).trips) :=
  k0_t1_body (F := F) L tbV (Memref.isWhole_whole _) ixV (Memref.isWhole_whole _) oV (Memref.isWhole_whole _) shV (Memref.isWhole_whole _) cc0_scoped0 ibV (Memref.isWhole_whole _) cc0_scoped2 obV (Memref.isWhole_whole _) cc0_scoped4 cc0_scoped5 cc0_scoped6 (BitVec.ofNat 32 (nn L)) (BitVec.ofNat 32 (w0n L)) (BitVec.ofNat 32 (nn L)) h2 0#32 1#32 k
    (a7 L k.val, a8 k.val, a8 k.val, a10 k.val, a11 L k.val)

theorem trips_lt8 (k : Fin (k0_t1_loop L).trips) : k.val < 8 := by
  have := trips1 L; have := k.isLt; unfold nn at *; split_ifs at * <;> omega

set_option maxHeartbeats 8000000 in
/-- A trip that is neither the first nor the last. -/
theorem tripM (h2 : k0_cond2 L = 1#1) (qa qb qs : PosShare TreeShare)
    (k : Fin (k0_t1_loop L).trips) (hk1 : 0 < k.val) (hk2 : k.val + 1 < nn L)
    (h4 : ∀ a, k0_off4 (a7 L k.val) a + S1x1x1x400.size a ≤ S2x1x1x400.size a)
    (h5 : ∀ a, k0_off5 L (a11 L k.val) a + S1x1x400.size a ≤ S250x1x400.size a)
    (h6 : ∀ a, k0_off6 (a7 L k.val) a + S1.size a ≤ S2.size a)
    (h9 : ∀ a, k0_off9 (a8 k.val) a + S1.size a ≤ S2.size a)
    (h11 : ∀ a, k0_off11 (a8 k.val) a + S1x1x1x400.size a ≤ S2x1x1x400.size a)
    (h10 : ∀ a, k0_off10 (a8 k.val) a + S1x400x128.size a ≤ S2x400x128.size a)
    (h8 : ∀ a, k0_off8 L (a11 L k.val) a + S1x1x400.size a ≤ S250x1x400.size a)
    (h13 : ∀ a, k0_off13 L (a11 L k.val) a + S400x128.size a ≤ S100000x128.size a)
    (h14 : ∀ a, k0_off14 (a8 k.val) a + S1.size a ≤ S2.size a)
    (h12 : ∀ a, k0_off12 (a8 k.val) a + S1x400x128.size a ≤ S2x400x128.size a)
    (h17 : ∀ a, k0_off17 (a10 k.val) a + S1.size a ≤ S2.size a)
    (h15 : ∀ a, k0_off15 (a10 k.val) a + S1x400x128.size a ≤ S2x400x128.size a)
    (h16 : ∀ a, k0_off16 L (a11 L k.val) a + S400x128.size a ≤ S100000x128.size a)
    (fi : Buf (Elt F) ((ixV).view.loc (thr d L)))
    (fb0 : Buf (Elt F) ((ibV).view.loc (thr d L))) (hin : ∀ x, ((listP _ h11).view.read (Elt F) fb0 x).toNat < 3)
    (fb1 : Buf (Elt F) ((ibV).view.loc (thr d L)))
    (g0 : Buf (Elt F) ((obV).view.loc (thr d L)))
    (fo : Buf (Elt F) ((oV).view.loc (thr d L)))
    (ft : Buf (Elt F) ((shV).view.loc (thr d L)))
    (fwp : Buf (Elt F) ((oV).view.loc (thr d L))) (gp : Buf (Elt F) ((obV).view.loc (thr d L)))
    (O : CellTallies nD τ sig (HIx 1)) (W : Waits sig (HIx 1)) :
    iprop(Transfers.MayWaits (thr d L) (none : HIx 1) O
        ∗ ((iwinP _ h8).view.loc (thr d L) ↦[Finset.univ \ (iwinP _ h8).view.set]{qa} fi)
        ∗ ((ixV).view.loc (thr d L) ↦{qb} fi)
        ∗ Transfers.Flight countersEmb (thr d L) (SemLoc.dma (isemP _ h9)) default 12800
            iprop(((islot4P _ h11).view.loc (thr d L) ↦[(islot4P _ h11).view.set]{fullShare} fb0)
              ∗ ((iwinP _ h8).view.loc (thr d L) ↦[(iwinP _ h8).view.set]{qa} fi))
        ∗ ((islotP _ h4).view.loc (thr d L) ↦[(islotP _ h4).view.set]{fullShare} fb1)
        ∗ ((oslotP _ h10).view.loc (thr d L) ↦[(oslotP _ h10).view.set]{fullShare} g0)
        ∗ ((owinP _ h13).view.loc (thr d L) ↦[(owinP _ h13).view.set]{fullShare} fo)
        ∗ ((shV).view.loc (thr d L) ↦{qs} ft)
        ∗ semVal ((thr d L), SemLoc.dma (isemP _ h6)) 0
        ∗ semVal ((thr d L), SemLoc.dma (osemP _ h14)) 0
        ∗ semVal ((thr d L), SemLoc.dma (5 : DmaSem sig)) 0
        ∗ Transfers.Flight countersEmb (thr d L) (SemLoc.dma (osemP _ h17)) default 1638400
            iprop(((owinP _ h16).view.loc (thr d L) ↦[(owinP _ h16).view.set]{fullShare} fwp)
              ∗ ((oslotP _ h15).view.loc (thr d L) ↦[(oslotP _ h15).view.set]{fullShare} gp))
        ∗ owes (thr d L) O W)
      ⊢ wp frame (wpE (defs₀ (F := F)) 𝒱₀ (thr d L) none) Set.univ (tripProg (F := F) L h2 k) fun y =>
          (iprop(⌜y = (a7 L (k.val + 1), a8 (k.val + 1), a8 (k.val + 1), a10 (k.val + 1), a11 L (k.val + 1))⌝
            ∗ Transfers.MayWaits (thr d L) (none : HIx 1) O
            ∗ ((iwinP _ h8).view.loc (thr d L) ↦{qa} fi)
            ∗ semVal ((thr d L), SemLoc.dma (isemP _ h9)) 0
            ∗ ((islot4P _ h11).view.loc (thr d L) ↦[(islot4P _ h11).view.set]{fullShare} fb0)
            ∗ Transfers.Flight countersEmb (thr d L) (SemLoc.dma (isemP _ h6)) default 12800
                iprop(((islotP _ h4).view.loc (thr d L) ↦[(islotP _ h4).view.set]{fullShare}
                      (islotP _ h4).view.writes (Elt F) fb1 [⟨Rect.whole S1x1x400, ReadAs.same.apply (View.read (Elt F) (iwinP _ h5).view fi)⟩])
                  ∗ ((ixV).view.loc (thr d L) ↦[(iwinP _ h5).view.set]{qb} fi))
            ∗ ((ixV).view.loc (thr d L) ↦[Finset.univ \ (iwinP _ h5).view.set]{qb} fi)
            ∗ Transfers.Flight countersEmb (thr d L) (SemLoc.dma (osemP _ h14)) default 1638400
                iprop(((owinP _ h13).view.loc (thr d L) ↦[(owinP _ h13).view.set]{fullShare}
                      (owinP _ h13).view.writes (Elt F) fo [⟨Rect.whole S400x128,
                        ReadAs.same.apply (View.read (Elt F) (oslotP _ h12).view ((oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))⟩])
                  ∗ ((oslotP _ h12).view.loc (thr d L) ↦[(oslotP _ h12).view.set]{fullShare}
                      (oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))
            ∗ ((owinP _ h16).view.loc (thr d L) ↦[(owinP _ h16).view.set]{fullShare} fwp)
            ∗ ((oslotP _ h15).view.loc (thr d L) ↦[(oslotP _ h15).view.set]{fullShare} gp)
            ∗ semVal ((thr d L), SemLoc.dma (osemP _ h17)) 0
            ∗ ((shV).view.loc (thr d L) ↦{qs} ft)
            ∗ semVal ((thr d L), SemLoc.dma (5 : DmaSem sig)) 0
            ∗ ∃ W', ⌜∀ p ∈ W', p ∈ W ∨ p.2 = none⌝ ∗ owes (thr d L) O W') : sProp 𝕄) := by
  have hc3 : k0_cond3 L k (a11 L k.val) = 1#1 := by rw [cond3_eq L k, if_pos hk2]
  have hc4 : k0_cond4 L k (a11 L k.val) = 1#1 := cond4_eq L k
  have hc7 : k0_cond7 L k (a11 L k.val) = 1#1 := cond7_eq L k
  have hc9 : k0_cond9 L k (a11 L k.val) = 1#1 := by rw [cond9_eq L k, if_neg (by omega)]
  have hw1 : k0_chk1 L k (a7 L k.val) (a8 k.val) (a8 k.val) (a10 k.val) (a11 L k.val) := chk1_all L k
  have hk8 : k.val < 8 := trips_lt8 L k
  have hw2 : k0_chk2 L (a8 k.val) := chk2_all L ⟨k.val, hk8⟩
  have hw3 : k0_chk3 L (a8 k.val) := chk3_all L ⟨k.val, hk8⟩
  unfold tripProg k0_t1_body
  rw [k0_part3_eq_skeleton]; unfold k0_part3_skel
  rw [k0_part1_eq_skeleton, k0_part2_eq_skeleton]; unfold k0_part1_skel k0_part2_skel
  iintro ⟨Hmw, Ht1, Ht2, Hf1, Hb1, Hg0, Ho, Hsh, Hs2, Hs3, Hs5, Hfo, HO⟩
  set_option sl_exec.stopBefore "k0_cond7" in sl_exec
  ihave Hg0' := (Entails.of_eq (oslot_pts_congr (F := F) d L (show k0_off10 (a8 k.val) = k0_off12 (a8 k.val) from rfl) h10 h12 fullShare _)) $$ Hg0
  sl_exec
  sl_step
  isplitr
  · ipureintro; clear * -; revert k; revert L; decide +kernel
  isplitl [Hmw]; · iexact Hmw
  isplitl [Ht1]; · iexact Ht1
  isplitl [Hf1]; · iexact Hf1
  isplitl [Hf1_dst]; · iexact Hf1_dst
  isplitl [Hs2]; · iexact Hs2
  isplitl [Ht2]; · iexact Ht2
  isplitl [Hs3]; · iexact Hs3
  isplitl [Hfo_dst]; · iexact Hfo_dst
  isplitl [Hfo_src]; · iexact Hfo_src
  isplitl [Hfo]; · iexact Hfo
  isplitl [Hsh]; · iexact Hsh
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxHeartbeats 8000000 in
/-- The first trip: no copy-out is in flight yet. -/
theorem tripF (h2 : k0_cond2 L = 1#1) (qa qb qs : PosShare TreeShare)
    (k : Fin (k0_t1_loop L).trips) (hk0 : k.val = 0) (hk2 : k.val + 1 < nn L)
    (h4 : ∀ a, k0_off4 (a7 L k.val) a + S1x1x1x400.size a ≤ S2x1x1x400.size a)
    (h5 : ∀ a, k0_off5 L (a11 L k.val) a + S1x1x400.size a ≤ S250x1x400.size a)
    (h6 : ∀ a, k0_off6 (a7 L k.val) a + S1.size a ≤ S2.size a)
    (h9 : ∀ a, k0_off9 (a8 k.val) a + S1.size a ≤ S2.size a)
    (h11 : ∀ a, k0_off11 (a8 k.val) a + S1x1x1x400.size a ≤ S2x1x1x400.size a)
    (h10 : ∀ a, k0_off10 (a8 k.val) a + S1x400x128.size a ≤ S2x400x128.size a)
    (h8 : ∀ a, k0_off8 L (a11 L k.val) a + S1x1x400.size a ≤ S250x1x400.size a)
    (h13 : ∀ a, k0_off13 L (a11 L k.val) a + S400x128.size a ≤ S100000x128.size a)
    (h14 : ∀ a, k0_off14 (a8 k.val) a + S1.size a ≤ S2.size a)
    (h12 : ∀ a, k0_off12 (a8 k.val) a + S1x400x128.size a ≤ S2x400x128.size a)
    (fi : Buf (Elt F) ((ixV).view.loc (thr d L)))
    (fb0 : Buf (Elt F) ((ibV).view.loc (thr d L))) (hin : ∀ x, ((listP _ h11).view.read (Elt F) fb0 x).toNat < 3)
    (fb1 : Buf (Elt F) ((ibV).view.loc (thr d L)))
    (g0 : Buf (Elt F) ((obV).view.loc (thr d L)))
    (fo : Buf (Elt F) ((oV).view.loc (thr d L)))
    (ft : Buf (Elt F) ((shV).view.loc (thr d L)))
    (O : CellTallies nD τ sig (HIx 1)) (W : Waits sig (HIx 1)) :
    iprop(Transfers.MayWaits (thr d L) (none : HIx 1) O
        ∗ ((iwinP _ h8).view.loc (thr d L) ↦[Finset.univ \ (iwinP _ h8).view.set]{qa} fi)
        ∗ ((ixV).view.loc (thr d L) ↦{qb} fi)
        ∗ Transfers.Flight countersEmb (thr d L) (SemLoc.dma (isemP _ h9)) default 12800
            iprop(((islot4P _ h11).view.loc (thr d L) ↦[(islot4P _ h11).view.set]{fullShare} fb0)
              ∗ ((iwinP _ h8).view.loc (thr d L) ↦[(iwinP _ h8).view.set]{qa} fi))
        ∗ ((islotP _ h4).view.loc (thr d L) ↦[(islotP _ h4).view.set]{fullShare} fb1)
        ∗ ((oslotP _ h10).view.loc (thr d L) ↦[(oslotP _ h10).view.set]{fullShare} g0)
        ∗ ((owinP _ h13).view.loc (thr d L) ↦[(owinP _ h13).view.set]{fullShare} fo)
        ∗ ((shV).view.loc (thr d L) ↦{qs} ft)
        ∗ semVal ((thr d L), SemLoc.dma (isemP _ h6)) 0
        ∗ semVal ((thr d L), SemLoc.dma (osemP _ h14)) 0
        ∗ semVal ((thr d L), SemLoc.dma (5 : DmaSem sig)) 0
        ∗ owes (thr d L) O W)
      ⊢ wp frame (wpE (defs₀ (F := F)) 𝒱₀ (thr d L) none) Set.univ (tripProg (F := F) L h2 k) fun y =>
          (iprop(⌜y = (a7 L (k.val + 1), a8 (k.val + 1), a8 (k.val + 1), a10 (k.val + 1), a11 L (k.val + 1))⌝
            ∗ Transfers.MayWaits (thr d L) (none : HIx 1) O
            ∗ ((iwinP _ h8).view.loc (thr d L) ↦{qa} fi)
            ∗ semVal ((thr d L), SemLoc.dma (isemP _ h9)) 0
            ∗ ((islot4P _ h11).view.loc (thr d L) ↦[(islot4P _ h11).view.set]{fullShare} fb0)
            ∗ Transfers.Flight countersEmb (thr d L) (SemLoc.dma (isemP _ h6)) default 12800
                iprop(((islotP _ h4).view.loc (thr d L) ↦[(islotP _ h4).view.set]{fullShare}
                      (islotP _ h4).view.writes (Elt F) fb1 [⟨Rect.whole S1x1x400, ReadAs.same.apply (View.read (Elt F) (iwinP _ h5).view fi)⟩])
                  ∗ ((ixV).view.loc (thr d L) ↦[(iwinP _ h5).view.set]{qb} fi))
            ∗ ((ixV).view.loc (thr d L) ↦[Finset.univ \ (iwinP _ h5).view.set]{qb} fi)
            ∗ Transfers.Flight countersEmb (thr d L) (SemLoc.dma (osemP _ h14)) default 1638400
                iprop(((owinP _ h13).view.loc (thr d L) ↦[(owinP _ h13).view.set]{fullShare}
                      (owinP _ h13).view.writes (Elt F) fo [⟨Rect.whole S400x128,
                        ReadAs.same.apply (View.read (Elt F) (oslotP _ h12).view ((oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))⟩])
                  ∗ ((oslotP _ h12).view.loc (thr d L) ↦[(oslotP _ h12).view.set]{fullShare}
                      (oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))
            ∗ ((shV).view.loc (thr d L) ↦{qs} ft)
            ∗ semVal ((thr d L), SemLoc.dma (5 : DmaSem sig)) 0
            ∗ ∃ W', ⌜∀ p ∈ W', p ∈ W ∨ p.2 = none⌝ ∗ owes (thr d L) O W') : sProp 𝕄) := by
  have hc3 : k0_cond3 L k (a11 L k.val) = 1#1 := by rw [cond3_eq L k, if_pos hk2]
  have hc4 : k0_cond4 L k (a11 L k.val) = 1#1 := cond4_eq L k
  have hc7 : k0_cond7 L k (a11 L k.val) = 1#1 := cond7_eq L k
  have hc9 : ¬ k0_cond9 L k (a11 L k.val) = 1#1 := by rw [cond9_eq L k, if_pos hk0]; decide
  have hw1 : k0_chk1 L k (a7 L k.val) (a8 k.val) (a8 k.val) (a10 k.val) (a11 L k.val) := chk1_all L k
  have hk8 : k.val < 8 := trips_lt8 L k
  have hw2 : k0_chk2 L (a8 k.val) := chk2_all L ⟨k.val, hk8⟩
  have hw3 : k0_chk3 L (a8 k.val) := chk3_all L ⟨k.val, hk8⟩
  unfold tripProg k0_t1_body
  rw [k0_part3_eq_skeleton]; unfold k0_part3_skel
  rw [k0_part1_eq_skeleton, k0_part2_eq_skeleton]; unfold k0_part1_skel k0_part2_skel
  iintro ⟨Hmw, Ht1, Ht2, Hf1, Hb1, Hg0, Ho, Hsh, Hs2, Hs3, Hs5, HO⟩
  set_option sl_exec.stopBefore "k0_cond7" in sl_exec
  ihave Hg0' := (Entails.of_eq (oslot_pts_congr (F := F) d L (show k0_off10 (a8 k.val) = k0_off12 (a8 k.val) from rfl) h10 h12 fullShare _)) $$ Hg0
  sl_exec
  sl_step
  isplitr
  · ipureintro; clear * -; revert k; revert L; decide +kernel
  isplitl [Hmw]; · iexact Hmw
  isplitl [Ht1]; · iexact Ht1
  isplitl [Hf1]; · iexact Hf1
  isplitl [Hf1_dst]; · iexact Hf1_dst
  isplitl [Hs2]; · iexact Hs2
  isplitl [Ht2]; · iexact Ht2
  isplitl [Hs3]; · iexact Hs3
  isplitl [Hsh]; · iexact Hsh
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
/-- The last trip: no further window to fetch. -/
theorem tripL (h2 : k0_cond2 L = 1#1) (qa qb qs : PosShare TreeShare)
    (k : Fin (k0_t1_loop L).trips) (hk1 : 0 < k.val) (hkL : k.val + 1 = nn L)
    (h9 : ∀ a, k0_off9 (a8 k.val) a + S1.size a ≤ S2.size a)
    (h11 : ∀ a, k0_off11 (a8 k.val) a + S1x1x1x400.size a ≤ S2x1x1x400.size a)
    (h10 : ∀ a, k0_off10 (a8 k.val) a + S1x400x128.size a ≤ S2x400x128.size a)
    (h8 : ∀ a, k0_off8 L (a11 L k.val) a + S1x1x400.size a ≤ S250x1x400.size a)
    (h13 : ∀ a, k0_off13 L (a11 L k.val) a + S400x128.size a ≤ S100000x128.size a)
    (h14 : ∀ a, k0_off14 (a8 k.val) a + S1.size a ≤ S2.size a)
    (h12 : ∀ a, k0_off12 (a8 k.val) a + S1x400x128.size a ≤ S2x400x128.size a)
    (h17 : ∀ a, k0_off17 (a10 k.val) a + S1.size a ≤ S2.size a)
    (h15 : ∀ a, k0_off15 (a10 k.val) a + S1x400x128.size a ≤ S2x400x128.size a)
    (h16 : ∀ a, k0_off16 L (a11 L k.val) a + S400x128.size a ≤ S100000x128.size a)
    (fi : Buf (Elt F) ((ixV).view.loc (thr d L)))
    (fb0 : Buf (Elt F) ((ibV).view.loc (thr d L))) (hin : ∀ x, ((listP _ h11).view.read (Elt F) fb0 x).toNat < 3)
    (g0 : Buf (Elt F) ((obV).view.loc (thr d L)))
    (fo : Buf (Elt F) ((oV).view.loc (thr d L)))
    (ft : Buf (Elt F) ((shV).view.loc (thr d L)))
    (fwp : Buf (Elt F) ((oV).view.loc (thr d L))) (gp : Buf (Elt F) ((obV).view.loc (thr d L)))
    (O : CellTallies nD τ sig (HIx 1)) (W : Waits sig (HIx 1)) :
    iprop(Transfers.MayWaits (thr d L) (none : HIx 1) O
        ∗ ((iwinP _ h8).view.loc (thr d L) ↦[Finset.univ \ (iwinP _ h8).view.set]{qa} fi)
        ∗ Transfers.Flight countersEmb (thr d L) (SemLoc.dma (isemP _ h9)) default 12800
            iprop(((islot4P _ h11).view.loc (thr d L) ↦[(islot4P _ h11).view.set]{fullShare} fb0)
              ∗ ((iwinP _ h8).view.loc (thr d L) ↦[(iwinP _ h8).view.set]{qa} fi))
        ∗ ((oslotP _ h10).view.loc (thr d L) ↦[(oslotP _ h10).view.set]{fullShare} g0)
        ∗ ((owinP _ h13).view.loc (thr d L) ↦[(owinP _ h13).view.set]{fullShare} fo)
        ∗ ((shV).view.loc (thr d L) ↦{qs} ft)
        ∗ semVal ((thr d L), SemLoc.dma (osemP _ h14)) 0
        ∗ semVal ((thr d L), SemLoc.dma (5 : DmaSem sig)) 0
        ∗ Transfers.Flight countersEmb (thr d L) (SemLoc.dma (osemP _ h17)) default 1638400
            iprop(((owinP _ h16).view.loc (thr d L) ↦[(owinP _ h16).view.set]{fullShare} fwp)
              ∗ ((oslotP _ h15).view.loc (thr d L) ↦[(oslotP _ h15).view.set]{fullShare} gp))
        ∗ owes (thr d L) O W)
      ⊢ wp frame (wpE (defs₀ (F := F)) 𝒱₀ (thr d L) none) Set.univ (tripProg (F := F) L h2 k) fun y =>
          (iprop(⌜y = (a7 L (k.val + 1), a8 (k.val + 1), a8 (k.val + 1), a10 (k.val + 1), a11 L (k.val + 1))⌝
            ∗ Transfers.MayWaits (thr d L) (none : HIx 1) O
            ∗ ((iwinP _ h8).view.loc (thr d L) ↦{qa} fi)
            ∗ semVal ((thr d L), SemLoc.dma (isemP _ h9)) 0
            ∗ ((islot4P _ h11).view.loc (thr d L) ↦[(islot4P _ h11).view.set]{fullShare} fb0)
            ∗ Transfers.Flight countersEmb (thr d L) (SemLoc.dma (osemP _ h14)) default 1638400
                iprop(((owinP _ h13).view.loc (thr d L) ↦[(owinP _ h13).view.set]{fullShare}
                      (owinP _ h13).view.writes (Elt F) fo [⟨Rect.whole S400x128,
                        ReadAs.same.apply (View.read (Elt F) (oslotP _ h12).view ((oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))⟩])
                  ∗ ((oslotP _ h12).view.loc (thr d L) ↦[(oslotP _ h12).view.set]{fullShare}
                      (oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))
            ∗ ((owinP _ h16).view.loc (thr d L) ↦[(owinP _ h16).view.set]{fullShare} fwp)
            ∗ ((oslotP _ h15).view.loc (thr d L) ↦[(oslotP _ h15).view.set]{fullShare} gp)
            ∗ semVal ((thr d L), SemLoc.dma (osemP _ h17)) 0
            ∗ ((shV).view.loc (thr d L) ↦{qs} ft)
            ∗ semVal ((thr d L), SemLoc.dma (5 : DmaSem sig)) 0
            ∗ ∃ W', ⌜∀ p ∈ W', p ∈ W ∨ p.2 = none⌝ ∗ owes (thr d L) O W') : sProp 𝕄) := by
  have hc3 : ¬ k0_cond3 L k (a11 L k.val) = 1#1 := by rw [cond3_eq L k, if_neg (by omega)]; decide
  have hc4 : k0_cond4 L k (a11 L k.val) = 1#1 := cond4_eq L k
  have hc7 : k0_cond7 L k (a11 L k.val) = 1#1 := cond7_eq L k
  have hc9 : k0_cond9 L k (a11 L k.val) = 1#1 := by rw [cond9_eq L k, if_neg (by omega)]
  have hw1 : k0_chk1 L k (a7 L k.val) (a8 k.val) (a8 k.val) (a10 k.val) (a11 L k.val) := chk1_all L k
  have hk8 : k.val < 8 := trips_lt8 L k
  have hw2 : k0_chk2 L (a8 k.val) := chk2_all L ⟨k.val, hk8⟩
  have hw3 : k0_chk3 L (a8 k.val) := chk3_all L ⟨k.val, hk8⟩
  unfold tripProg k0_t1_body
  rw [k0_part3_eq_skeleton]; unfold k0_part3_skel
  rw [k0_part1_eq_skeleton, k0_part2_eq_skeleton]; unfold k0_part1_skel k0_part2_skel
  iintro ⟨Hmw, Ht1, Hf1, Hg0, Ho, Hsh, Hs3, Hs5, Hfo, HO⟩
  set_option sl_exec.stopBefore "k0_cond7" in sl_exec
  ihave Hg0' := (Entails.of_eq (oslot_pts_congr (F := F) d L (show k0_off10 (a8 k.val) = k0_off12 (a8 k.val) from rfl) h10 h12 fullShare _)) $$ Hg0
  sl_exec
  sl_step
  isplitr
  · ipureintro; clear * -; revert k; revert L; decide +kernel
  isplitl [Hmw]; · iexact Hmw
  isplitl [Ht1]; · iexact Ht1
  isplitl [Hf1]; · iexact Hf1
  isplitl [Hf1_dst]; · iexact Hf1_dst
  isplitl [Hs3]; · iexact Hs3
  isplitl [Hfo_dst]; · iexact Hfo_dst
  isplitl [Hfo_src]; · iexact Hfo_src
  isplitl [Hfo]; · iexact Hfo
  isplitl [Hsh]; · iexact Hsh
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Tb
end
-- ==== Proof.WordsAt.lean ====
import proofs.«207302_g55387898250011_cont_9to1_m_42_19_alg».proof.Proof.Words

/-! The offsets a trip computes, through the slot's parity and the window's number: decided for all tiles and trips. -/

namespace Cert.KernelIdeal.Tb

open Cert.KernelIdeal Cert.KernelIdeal.Gen Idealize.ShloMosaic

theorem off4_at : ∀ (L : grid0.Coords) (k : Fin 8), k.val + 1 ≤ nn L → k0_off4 (a7 L k.val) = ![(k.val + 1) % 2, 0, 0, 0] := by decide +kernel
theorem off6_at : ∀ (L : grid0.Coords) (k : Fin 8), k.val + 1 ≤ nn L → k0_off6 (a7 L k.val) = ![(k.val + 1) % 2] := by decide +kernel
theorem off5_at : ∀ (L : grid0.Coords) (k : Fin 8), k.val + 1 < nn L → k0_off5 L (a11 L k.val) = ![w0n L + (k.val + 1), 0, 0] := by decide +kernel
theorem off7_at : ∀ (k : Fin 8), k0_off7 (a8 k.val) = ![k.val % 2, 0, 0, 0] := by decide +kernel
theorem off9_at : ∀ (k : Fin 8), k0_off9 (a8 k.val) = ![k.val % 2] := by decide +kernel
theorem off11_at : ∀ (k : Fin 8), k0_off11 (a8 k.val) = ![k.val % 2, 0, 0, 0] := by decide +kernel
theorem off8_at : ∀ (L : grid0.Coords) (k : Fin 8), k.val < nn L → k0_off8 L (a11 L k.val) = ![w0n L + k.val, 0, 0] := by decide +kernel
theorem off10_at : ∀ (k : Fin 8), k0_off10 (a8 k.val) = ![k.val % 2, 0, 0] := by decide +kernel
theorem off12_at : ∀ (k : Fin 8), k0_off12 (a8 k.val) = ![k.val % 2, 0, 0] := by decide +kernel
theorem off14_at : ∀ (k : Fin 8), k0_off14 (a8 k.val) = ![k.val % 2] := by decide +kernel
theorem off13_at : ∀ (L : grid0.Coords) (k : Fin 8), k.val < nn L → k0_off13 L (a11 L k.val) = ![400 * (w0n L + k.val), 0] := by decide +kernel
theorem off15_at : ∀ (k : Fin 8), 0 < k.val → k0_off15 (a10 k.val) = ![(k.val + 1) % 2, 0, 0] := by decide +kernel
theorem off17_at : ∀ (k : Fin 8), 0 < k.val → k0_off17 (a10 k.val) = ![(k.val + 1) % 2] := by decide +kernel
theorem off16_at : ∀ (L : grid0.Coords) (k : Fin 8), 0 < k.val → k.val < nn L → k0_off16 L (a11 L k.val) = ![400 * (w0n L + (k.val - 1)), 0] := by decide +kernel

end Cert.KernelIdeal.Tb
-- ==== Proof.TileRegion.lean ====
import proofs.«207302_g55387898250011_cont_9to1_m_42_19_alg».proof.Proof.TileInv
import proofs.«207302_g55387898250011_cont_9to1_m_42_19_alg».proof.Proof.TileTrip
import proofs.«207302_g55387898250011_cont_9to1_m_42_19_alg».proof.Proof.WinValue
import proofs.«207302_g55387898250011_cont_9to1_m_42_19_alg».proof.Proof.WordsAt

/-! One trip of the loop carries the invariant from `k` to `k + 1`.

The invariant names every view by slot parity and window number; a trip's program names them by its
own offset chains. The two agree by the decided closed forms, so each resource is carried across by
an equation of offsets. What the trip changes: the window just fetched is consumed, the next one is
on its way in; the rows gathered for window `k` are on their way out, and they are the output's
final contents there because the fetched words are the index array's and the gathered rows the
table's; the previous window has landed. -/

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN)

variable {F : FTy → Type} [FloatOps F]

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

variable (m : (ℓ : Loc nD τ sig) → Buf (Elt F) ℓ) (d : Dev nD) (L : grid0.Coords)

theorem Ico_insert (k n : ℕ) (h : k < n) : Finset.Ico k n = insert k (Finset.Ico (k + 1) n) := by
  ext x; simp only [Finset.mem_Ico, Finset.mem_insert]; omega
theorem range_insert (k : ℕ) (h : 0 < k) : Finset.range k = insert (k - 1) (Finset.range (k - 1)) := by
  ext x; simp only [Finset.mem_range, Finset.mem_insert]; omega

/-! Equal offsets, equal transfers in flight. -/

theorem flightIn_congr {o9 o9' : Fin 1 → ℕ} {o11 o11' : Fin 4 → ℕ} {o8 o8' : Fin 3 → ℕ} (e9 : o9 = o9') (e11 : o11 = o11') (e8 : o8 = o8')
    (h9 : ∀ a, o9 a + S1.size a ≤ S2.size a) (h9' : ∀ a, o9' a + S1.size a ≤ S2.size a)
    (h11 : ∀ a, o11 a + S1x1x1x400.size a ≤ S2x1x1x400.size a) (h11' : ∀ a, o11' a + S1x1x1x400.size a ≤ S2x1x1x400.size a)
    (h8 : ∀ a, o8 a + S1x1x400.size a ≤ S250x1x400.size a) (h8' : ∀ a, o8' a + S1x1x400.size a ≤ S250x1x400.size a)
    (q : PosShare TreeShare) (fb : Buf (Elt F) ((ibV).view.loc (thr d L))) (fi : Buf (Elt F) ((ixV).view.loc (thr d L))) :
    (Transfers.Flight countersEmb (thr d L) (SemLoc.dma (isemP o9 h9)) default 12800
      iprop(((islot4P o11 h11).view.loc (thr d L) ↦[(islot4P o11 h11).view.set]{fullShare} fb)
        ∗ ((iwinP o8 h8).view.loc (thr d L) ↦[(iwinP o8 h8).view.set]{q} fi)) : sProp 𝕄)
    = Transfers.Flight countersEmb (thr d L) (SemLoc.dma (isemP o9' h9')) default 12800
      iprop(((islot4P o11' h11').view.loc (thr d L) ↦[(islot4P o11' h11').view.set]{fullShare} fb)
        ∗ ((iwinP o8' h8').view.loc (thr d L) ↦[(iwinP o8' h8').view.set]{q} fi)) := by
  subst e9 e11 e8; rfl

theorem flightInNew_congr {o6 o6' : Fin 1 → ℕ} {o4 o4' : Fin 4 → ℕ} {o5 o5' : Fin 3 → ℕ} (e6 : o6 = o6') (e4 : o4 = o4') (e5 : o5 = o5')
    (h6 : ∀ a, o6 a + S1.size a ≤ S2.size a) (h6' : ∀ a, o6' a + S1.size a ≤ S2.size a)
    (h4 : ∀ a, o4 a + S1x1x1x400.size a ≤ S2x1x1x400.size a) (h4' : ∀ a, o4' a + S1x1x1x400.size a ≤ S2x1x1x400.size a)
    (h5 : ∀ a, o5 a + S1x1x400.size a ≤ S250x1x400.size a) (h5' : ∀ a, o5' a + S1x1x400.size a ≤ S250x1x400.size a)
    (q : PosShare TreeShare) (fb : Buf (Elt F) ((ibV).view.loc (thr d L))) (fi : Buf (Elt F) ((ixV).view.loc (thr d L))) :
    (Transfers.Flight countersEmb (thr d L) (SemLoc.dma (isemP o6 h6)) default 12800
      iprop(((islotP o4 h4).view.loc (thr d L) ↦[(islotP o4 h4).view.set]{fullShare} fb)
        ∗ ((ixV).view.loc (thr d L) ↦[(iwinP o5 h5).view.set]{q} fi)) : sProp 𝕄)
    = Transfers.Flight countersEmb (thr d L) (SemLoc.dma (isemP o6' h6')) default 12800
      iprop(((islot4P o4' h4').view.loc (thr d L) ↦[(islot4P o4' h4').view.set]{fullShare} fb)
        ∗ ((iwinP o5' h5').view.loc (thr d L) ↦[(iwinP o5' h5').view.set]{q} fi)) := by
  subst e6 e4 e5; rw [islot_pts_eq_islot4 (F := F) d L]

theorem flightOut_congr {o14 o14' : Fin 1 → ℕ} {o13 o13' : Fin 2 → ℕ} {o12 o12' : Fin 3 → ℕ} (e14 : o14 = o14') (e13 : o13 = o13') (e12 : o12 = o12')
    (h14 : ∀ a, o14 a + S1.size a ≤ S2.size a) (h14' : ∀ a, o14' a + S1.size a ≤ S2.size a)
    (h13 : ∀ a, o13 a + S400x128.size a ≤ S100000x128.size a) (h13' : ∀ a, o13' a + S400x128.size a ≤ S100000x128.size a)
    (h12 : ∀ a, o12 a + S1x400x128.size a ≤ S2x400x128.size a) (h12' : ∀ a, o12' a + S1x400x128.size a ≤ S2x400x128.size a)
    (fw : Buf (Elt F) ((oV).view.loc (thr d L))) (g : Buf (Elt F) ((obV).view.loc (thr d L))) :
    (Transfers.Flight countersEmb (thr d L) (SemLoc.dma (osemP o14 h14)) default 1638400
      iprop(((owinP o13 h13).view.loc (thr d L) ↦[(owinP o13 h13).view.set]{fullShare} fw)
        ∗ ((oslotP o12 h12).view.loc (thr d L) ↦[(oslotP o12 h12).view.set]{fullShare} g)) : sProp 𝕄)
    = Transfers.Flight countersEmb (thr d L) (SemLoc.dma (osemP o14' h14')) default 1638400
      iprop(((owinP o13' h13').view.loc (thr d L) ↦[(owinP o13' h13').view.set]{fullShare} fw)
        ∗ ((oslotP o12' h12').view.loc (thr d L) ↦[(oslotP o12' h12').view.set]{fullShare} g)) := by
  subst e14 e13 e12; rfl

theorem isemVal_congr {o o' : Fin 1 → ℕ} (e : o = o') (h : ∀ a, o a + S1.size a ≤ S2.size a) (h' : ∀ a, o' a + S1.size a ≤ S2.size a) :
    (semVal (thr d L, SemLoc.dma (isemP o h)) 0 : sProp 𝕄) = semVal (thr d L, SemLoc.dma (isemP o' h')) 0 := by subst e; rfl
theorem osemVal_congr {o o' : Fin 1 → ℕ} (e : o = o') (h : ∀ a, o a + S1.size a ≤ S2.size a) (h' : ∀ a, o' a + S1.size a ≤ S2.size a) :
    (semVal (thr d L, SemLoc.dma (osemP o h)) 0 : sProp 𝕄) = semVal (thr d L, SemLoc.dma (osemP o' h')) 0 := by subst e; rfl

theorem iwhole_eq {o : Fin 3 → ℕ} (h : ∀ a, o a + S1x1x400.size a ≤ S250x1x400.size a) (q : PosShare TreeShare) (fi : Buf (Elt F) ((ixV).view.loc (thr d L))) :
    ((iwinP o h).view.loc (thr d L) ↦{q} fi : sProp 𝕄) = ((ixV).view.loc (thr d L) ↦{q} fi) := rfl
theorem ixrest_congr {o o' : Fin 3 → ℕ} (e : o = o') (h : ∀ a, o a + S1x1x400.size a ≤ S250x1x400.size a) (h' : ∀ a, o' a + S1x1x400.size a ≤ S250x1x400.size a)
    (q : PosShare TreeShare) (fi : Buf (Elt F) ((ixV).view.loc (thr d L))) :
    ((ixV).view.loc (thr d L) ↦[Finset.univ \ (iwinP o h).view.set]{q} fi : sProp 𝕄)
      = ((iwinP o' h').view.loc (thr d L) ↦[Finset.univ \ (iwinP o' h').view.set]{q} fi) := by subst e; rfl
theorem list_read_congr {o o' : Fin 4 → ℕ} (e : o = o') (h : ∀ a, o a + S1x1x1x400.size a ≤ S2x1x1x400.size a) (h' : ∀ a, o' a + S1x1x1x400.size a ≤ S2x1x1x400.size a)
    (fb : Buf (Elt F) ((ibV).view.loc (thr d L))) (x : S400.Idx) :
    View.read (Elt F) (listP o h).view fb x = View.read (Elt F) (listP o' h').view fb x := by subst e; rfl

omit [FloatOps F] in
theorem tok_congr {p p' : ℕ} (e : p = p') : tokI L p = tokI L p' := congrArg _ e

set_option maxHeartbeats 16000000 in
/-- Trip `k` takes the invariant at `k` to the invariant at `k + 1`. -/
theorem region (h2 : k0_cond2 L = 1#1) (hchi : ∀ x, (idxV m d x).toNat < 3) (O : CellTallies nD τ sig (HIx 1)) (W : Waits sig (HIx 1)) :
    ∀ (k : Fin (k0_t1_loop L).trips) (acc : BitVec 32 × BitVec 32 × BitVec 32 × BitVec 32 × BitVec 32),
      inv m d L O W k.val acc ⊢ wp frame (wpE (defs₀ (F := F)) 𝒱₀ (thr d L) none) Set.univ
        (k0_t1_body (F := F) L tbV (Memref.isWhole_whole _) ixV (Memref.isWhole_whole _) oV (Memref.isWhole_whole _) shV (Memref.isWhole_whole _) cc0_scoped0 ibV (Memref.isWhole_whole _) cc0_scoped2 obV (Memref.isWhole_whole _) cc0_scoped4 cc0_scoped5 cc0_scoped6 (BitVec.ofNat 32 (nn L)) (BitVec.ofNat 32 (w0n L)) (BitVec.ofNat 32 (nn L)) h2 0#32 1#32 k acc)
        (fun y => inv m d L O W (k.val + 1) y) := by
  intro k acc
  have hkn : k.val < nn L := by have := k.isLt; have e := trips1 L; omega
  have hk8 : k.val < 8 := lt_of_lt_of_le hkn (nn_le8 L)
  have hn7 := nn_ge7 L
  have hp : k.val % 2 < 2 := mod2 _
  have hp' : (k.val + 1) % 2 < 2 := mod2 _
  have hj : w0n L + k.val < 250 := w0n_lt' L k.val hkn
  -- the closed forms of this trip's offsets that every trip uses
  have e9 : k0_off9 (a8 k.val) = ![k.val % 2] := off9_at ⟨k.val, hk8⟩
  have e11 : k0_off11 (a8 k.val) = ![k.val % 2, 0, 0, 0] := off11_at ⟨k.val, hk8⟩
  have e8 : k0_off8 L (a11 L k.val) = ![w0n L + k.val, 0, 0] := off8_at L ⟨k.val, hk8⟩ hkn
  have e10 : k0_off10 (a8 k.val) = ![k.val % 2, 0, 0] := off10_at ⟨k.val, hk8⟩
  have e12 : k0_off12 (a8 k.val) = ![k.val % 2, 0, 0] := off12_at ⟨k.val, hk8⟩
  have e14 : k0_off14 (a8 k.val) = ![k.val % 2] := off14_at ⟨k.val, hk8⟩
  have e13 : k0_off13 L (a11 L k.val) = ![400 * (w0n L + k.val), 0] := off13_at L ⟨k.val, hk8⟩ hkn
  have h9 : ∀ a, k0_off9 (a8 k.val) a + S1.size a ≤ S2.size a := by rw [e9]; exact sem_inb _ hp
  have h11 : ∀ a, k0_off11 (a8 k.val) a + S1x1x1x400.size a ≤ S2x1x1x400.size a := by rw [e11]; exact islot_inb _ hp
  have h8 : ∀ a, k0_off8 L (a11 L k.val) a + S1x1x400.size a ≤ S250x1x400.size a := by rw [e8]; exact iwin_inb _ hj
  have h10 : ∀ a, k0_off10 (a8 k.val) a + S1x400x128.size a ≤ S2x400x128.size a := by rw [e10]; exact oslot_inb _ hp
  have h12 : ∀ a, k0_off12 (a8 k.val) a + S1x400x128.size a ≤ S2x400x128.size a := by rw [e12]; exact oslot_inb _ hp
  have h14 : ∀ a, k0_off14 (a8 k.val) a + S1.size a ≤ S2.size a := by rw [e14]; exact sem_inb _ hp
  have h13 : ∀ a, k0_off13 L (a11 L k.val) a + S400x128.size a ≤ S100000x128.size a := by rw [e13]; exact owin_inb _ hj
  have hpp : (k.val + 1 + 1) % 2 = k.val % 2 := by omega
  have e11' : k0_off11 (a8 k.val) = ![(k.val + 1 + 1) % 2, 0, 0, 0] := e11.trans (by rw [hpp])
  have e9' : k0_off9 (a8 k.val) = ![(k.val + 1 + 1) % 2] := e9.trans (by rw [hpp])
  have e12' : k0_off12 (a8 k.val) = ![(k.val + 1 + 1) % 2, 0, 0] := e12.trans (by rw [hpp])
  have e14' : k0_off14 (a8 k.val) = ![(k.val + 1 + 1) % 2] := e14.trans (by rw [hpp])
  have e13' : k0_off13 L (a11 L k.val) = ![400 * (w0n L + (k.val + 1 - 1)), 0] := by rw [Nat.add_sub_cancel]; exact e13
  have hjc : w0n L + (k.val + 1 - 1) < 250 := by rw [Nat.add_sub_cancel]; exact hj
  -- what the landed list says of the words the gather reads
  have hlist : ∀ (fbC : Buf (Elt F) ((ibV).view.loc (thr d L))),
      (∀ x : Fin 400, View.read (Elt F) (IL (k.val % 2) (mod2 k.val)).view fbC (ix1 x) = idxV m d (ix3 (⟨w0n L + k.val, w0n_lt' L k.val hkn⟩ : Fin 250) (0 : Fin 1) x)) →
      (∀ p : Fin 400, View.read (Elt F) (listP _ h11).view fbC (ix1 p) = idxV m d (ix3 (⟨w0n L + k.val, hj⟩ : Fin 250) (0 : Fin 1) p))
        ∧ ∀ x, ((listP _ h11).view.read (Elt F) fbC x).toNat < 3 := by
    intro fbC hl
    have hl' : ∀ p : Fin 400, View.read (Elt F) (listP _ h11).view fbC (ix1 p) = idxV m d (ix3 (⟨w0n L + k.val, hj⟩ : Fin 250) (0 : Fin 1) p) := fun p =>
      (list_read_congr (F := F) d L e11 h11 (islot_inb _ hp) fbC (ix1 p)).trans (hl p)
    refine ⟨hl', fun x => ?_⟩
    have hx : x = ix1 (n := 400) (x 0 : Fin 400) := ValueIdx.eq_ix1 (n := 400) x
    have h3 : View.read (Elt F) (listP _ h11).view fbC x = idxV m d (ix3 (⟨w0n L + k.val, hj⟩ : Fin 250) (0 : Fin 1) (x 0 : Fin 400)) :=
      (congrArg (View.read (Elt F) (listP _ h11).view fbC) hx).trans (hl' (x 0 : Fin 400))
    rw [h3]; exact hchi _
  rcases Nat.eq_zero_or_pos k.val with hk0 | hk1'
  · -- the first trip
    have hk0' : k.val = 0 := hk0
    have hk2 : k.val + 1 < nn L := by omega
    have hj1 : w0n L + (k.val + 1) < 250 := w0n_lt' L (k.val + 1) hk2
    have e4 : k0_off4 (a7 L k.val) = ![(k.val + 1) % 2, 0, 0, 0] := off4_at L ⟨k.val, hk8⟩ (show k.val + 1 ≤ nn L by omega)
    have e6 : k0_off6 (a7 L k.val) = ![(k.val + 1) % 2] := off6_at L ⟨k.val, hk8⟩ (show k.val + 1 ≤ nn L by omega)
    have e5 : k0_off5 L (a11 L k.val) = ![w0n L + (k.val + 1), 0, 0] := off5_at L ⟨k.val, hk8⟩ hk2
    have h4 : ∀ a, k0_off4 (a7 L k.val) a + S1x1x1x400.size a ≤ S2x1x1x400.size a := by rw [e4]; exact islot_inb _ hp'
    have h6 : ∀ a, k0_off6 (a7 L k.val) a + S1.size a ≤ S2.size a := by rw [e6]; exact sem_inb _ hp'
    have h5 : ∀ a, k0_off5 L (a11 L k.val) a + S1x1x400.size a ≤ S250x1x400.size a := by rw [e5]; exact iwin_inb _ hj1
    rw [inv, InCur, dif_pos hkn, InNext, OutCur, OutPrev, dif_neg (by omega), Wins, Ico_insert k.val (nn L) hkn, SparseCore.bigSep_insert' (by simp), owPts, dif_pos hj]
    iintro ⟨%hacc, Hmw, ⟨%W', %hW', HO⟩, Hsh, Hs5, ⟨%fbC, %hl, Hfin, Hrest⟩, ⟨⟨%fbN, Hbn⟩, Hsn, Htn⟩, ⟨⟨%gC, Hgc⟩, Hsc⟩, ⟨⟨%gP, Hgp⟩, Hsp⟩, ⟨Hdone, Hwk, Htodo⟩⟩
    obtain ⟨rfl, -⟩ := hacc
    obtain ⟨hl', hin⟩ := hlist fbC hl
    ihave Hrest' := (Entails.of_eq (iwin_rest_congr (F := F) d L e8.symm (iwin_inb _ hj) h8 (tokI L (k.val % 2)) (idxV m d))) $$ Hrest
    ihave Hfin' := (Entails.of_eq (flightIn_congr (F := F) d L e9.symm e11.symm e8.symm (sem_inb _ hp) h9 (islot_inb _ hp) h11 (iwin_inb _ hj) h8 (tokI L (k.val % 2)) fbC (idxV m d))) $$ Hfin
    ihave Hbn' := (Entails.of_eq (islot_pts_congr (F := F) d L e4.symm (islot_inb _ hp') h4 fullShare fbN)) $$ Hbn
    ihave Hsn' := (Entails.of_eq (isemVal_congr (F := F) d L e6.symm (sem_inb _ hp') h6)) $$ Hsn
    ihave Hgc' := (Entails.of_eq (oslot_pts_congr (F := F) d L e10.symm (oslot_inb _ hp) h10 fullShare gC)) $$ Hgc
    ihave Hsc' := (Entails.of_eq (osemVal_congr (F := F) d L e14.symm (sem_inb _ hp) h14)) $$ Hsc
    ihave Hwk' := (Entails.of_eq (owin_pts_congr (F := F) d L e13.symm (owin_inb _ hj) h13 fullShare (m (v1Loc d)))) $$ Hwk
    iapply (wp_wand_r Idealize.ShloMosaic.frame (wpE (defs₀ (F := F)) 𝒱₀ (thr d L) none) Set.univ)
    isplitl [Hmw Hrest' Htn Hfin' Hbn' Hgc' Hwk' Hsh Hsn' Hsc' Hs5 HO]
    · iapply (tripF (F := F) d L h2 (tokI L (k.val % 2)) (tokI L ((k.val + 1) % 2)) (tokS L) k hk0' hk2 h4 h5 h6 h9 h11 h10 h8 h13 h14 h12 (idxV m d) fbC hin fbN gC (m (v1Loc d)) (tblSh m d (cV L)) O W')
      isplitl [Hmw]; · iexact Hmw
      isplitl [Hrest']; · iexact Hrest'
      isplitl [Htn]; · iexact Htn
      isplitl [Hfin']; · iexact Hfin'
      isplitl [Hbn']; · iexact Hbn'
      isplitl [Hgc']; · iexact Hgc'
      isplitl [Hwk']; · iexact Hwk'
      isplitl [Hsh]; · iexact Hsh
      isplitl [Hsn']; · iexact Hsn'
      isplitl [Hsc']; · iexact Hsc'
      isplitl [Hs5]; · iexact Hs5
      iexact HO
    iintro %y ⟨%hy, Hmw, Htc, Hsc0, Hbc, Hfn, Hrn, Hfo, Hsh, Hs5, ⟨%W'', %hW'', HO⟩⟩
    subst hy
    rw [inv, InCur, dif_pos hk2, InNext, OutCur, OutPrev, dif_pos ⟨Nat.succ_pos _, le_of_lt hk2⟩, Wins, show Finset.range (k.val + 1 - 1) = Finset.range (k.val - 1) from (by rw [hk0'])]
    isplitr; · ipureintro; exact ⟨rfl, le_of_lt hk2⟩
    isplitl [Hmw]; · iexact Hmw
    isplitl [HO]
    · iexists W''; isplitr
      · ipureintro; intro p hp; rcases hW'' p hp with h | h
        · exact hW' p h
        · exact .inr h
      · iexact HO
    isplitl [Hsh]; · iexact Hsh
    isplitl [Hs5]; · iexact Hs5
    isplitl [Hfn Hrn]
    · iexists ((islotP _ h4).view.writes (Elt F) fbN [⟨Rect.whole S1x1x400, ReadAs.same.apply (View.read (Elt F) (iwinP _ h5).view (idxV m d))⟩])
      isplitr
      · ipureintro; intro x
        rw [← list_read_congr (F := F) d L e4 h4 (islot_inb _ hp') _ (ix1 x)]
        exact list_landed_idxV (F := F) d L m _ h4 _ h5 (w0n L + (k.val + 1)) hj1 e5 fbN x
      isplitl [Hfn]
      · iapply (Entails.of_eq (flightInNew_congr (F := F) d L e6 e4 e5 h6 (sem_inb _ hp') h4 (islot_inb _ hp') h5 (iwin_inb _ hj1) (tokI L ((k.val + 1) % 2)) _ (idxV m d)))
        iexact Hfn
      · iapply (Entails.of_eq (ixrest_congr (F := F) d L e5 h5 (iwin_inb _ hj1) (tokI L ((k.val + 1) % 2)) (idxV m d)))
        iexact Hrn
    isplitl [Hbc Hsc0 Htc]
    · isplitl [Hbc]
      · iexists fbC
        iapply (Entails.of_eq ((islot_pts_eq_islot4 (F := F) d L _ h11 fullShare fbC).symm.trans (islot_pts_congr (F := F) d L e11' h11 (islot_inb _ (mod2 _)) fullShare fbC)))
        iexact Hbc
      isplitl [Hsc0]
      · iapply (Entails.of_eq (isemVal_congr (F := F) d L e9' h9 (sem_inb _ (mod2 _))))
        iexact Hsc0
      · rw [tok_congr L hpp]; iexact Htc
    isplitl [Hgp Hsp]
    · isplitl [Hgp]
      · iexists gP; iexact Hgp
      · iexact Hsp
    isplitl [Hfo]
    · iexists ((oslotP _ h10).view.writes (Elt F) gC [⟨Rect.whole S400x128, SparseCore.gatherPayload gathers_S3x128_S400x128
          (View.read (Elt F) ((shV).slice (Rect.unit (s := S3x128) ![0, 0] S3x128.size inb_S3x128_S3x128_0_0) (fun _ => rfl)).view (tblSh m d (cV L)))
          (SparseCore.rows (View.read (Elt F) (listP _ h11).view fbC) rfl hin)⟩])
      iapply (Entails.of_eq (flightOut_congr (F := F) d L e14' e13' e12' h14 (sem_inb _ (mod2 _)) h13 (owin_inb _ hjc) h12 (oslot_inb _ (mod2 _)) (gOut m d) _))
      iapply (Entails.of_eq (congrArg (fun X : sProp 𝕄 => Transfers.Flight countersEmb (thr d L) (SemLoc.dma (osemP _ h14)) default 1638400
          iprop(X ∗ ((oslotP _ h12).view.loc (thr d L) ↦[(oslotP _ h12).view.set]{fullShare} _)))
        (win_landed_pts (F := F) d L m _ h13 (w0n L + k.val) hj e13 _ _ h10 h12 (e10.trans e12.symm) _ h11 fbC (tblSh m d (cV L)) gC (m (v1Loc d)) rfl hin hl' (fun _ => rfl) hchi fullShare)))
      iexact Hfo
    isplitl [Hdone]
    · iexact Hdone
    iexact Htodo
  rcases Nat.lt_or_ge (k.val + 1) (nn L) with hk2' | hk2'
  · -- a trip that is neither the first nor the last
    have hk1 : 0 < k.val := hk1'
    have hk2 : k.val + 1 < nn L := hk2'
    have hj1 : w0n L + (k.val + 1) < 250 := w0n_lt' L (k.val + 1) hk2
    have hjp : w0n L + (k.val - 1) < 250 := w0n_lt' L (k.val - 1) (by omega)
    have e4 : k0_off4 (a7 L k.val) = ![(k.val + 1) % 2, 0, 0, 0] := off4_at L ⟨k.val, hk8⟩ (show k.val + 1 ≤ nn L by omega)
    have e6 : k0_off6 (a7 L k.val) = ![(k.val + 1) % 2] := off6_at L ⟨k.val, hk8⟩ (show k.val + 1 ≤ nn L by omega)
    have e5 : k0_off5 L (a11 L k.val) = ![w0n L + (k.val + 1), 0, 0] := off5_at L ⟨k.val, hk8⟩ hk2
    have e15 : k0_off15 (a10 k.val) = ![(k.val + 1) % 2, 0, 0] := off15_at ⟨k.val, hk8⟩ hk1
    have e17 : k0_off17 (a10 k.val) = ![(k.val + 1) % 2] := off17_at ⟨k.val, hk8⟩ hk1
    have e16 : k0_off16 L (a11 L k.val) = ![400 * (w0n L + (k.val - 1)), 0] := off16_at L ⟨k.val, hk8⟩ hk1 hkn
    have h4 : ∀ a, k0_off4 (a7 L k.val) a + S1x1x1x400.size a ≤ S2x1x1x400.size a := by rw [e4]; exact islot_inb _ hp'
    have h6 : ∀ a, k0_off6 (a7 L k.val) a + S1.size a ≤ S2.size a := by rw [e6]; exact sem_inb _ hp'
    have h5 : ∀ a, k0_off5 L (a11 L k.val) a + S1x1x400.size a ≤ S250x1x400.size a := by rw [e5]; exact iwin_inb _ hj1
    have h15 : ∀ a, k0_off15 (a10 k.val) a + S1x400x128.size a ≤ S2x400x128.size a := by rw [e15]; exact oslot_inb _ hp'
    have h17 : ∀ a, k0_off17 (a10 k.val) a + S1.size a ≤ S2.size a := by rw [e17]; exact sem_inb _ hp'
    have h16 : ∀ a, k0_off16 L (a11 L k.val) a + S400x128.size a ≤ S100000x128.size a := by rw [e16]; exact owin_inb _ hjp
    rw [inv, InCur, dif_pos hkn, InNext, OutCur, OutPrev, dif_pos ⟨hk1, le_of_lt hkn⟩, Wins, Ico_insert k.val (nn L) hkn, SparseCore.bigSep_insert' (by simp), owPts, dif_pos hj]
    iintro ⟨%hacc, Hmw, ⟨%W', %hW', HO⟩, Hsh, Hs5, ⟨%fbC, %hl, Hfin, Hrest⟩, ⟨⟨%fbN, Hbn⟩, Hsn, Htn⟩, ⟨⟨%gC, Hgc⟩, Hsc⟩, ⟨%gP, Hfout⟩, ⟨Hdone, Hwk, Htodo⟩⟩
    obtain ⟨rfl, -⟩ := hacc
    obtain ⟨hl', hin⟩ := hlist fbC hl
    ihave Hrest' := (Entails.of_eq (iwin_rest_congr (F := F) d L e8.symm (iwin_inb _ hj) h8 (tokI L (k.val % 2)) (idxV m d))) $$ Hrest
    ihave Hfin' := (Entails.of_eq (flightIn_congr (F := F) d L e9.symm e11.symm e8.symm (sem_inb _ hp) h9 (islot_inb _ hp) h11 (iwin_inb _ hj) h8 (tokI L (k.val % 2)) fbC (idxV m d))) $$ Hfin
    ihave Hbn' := (Entails.of_eq (islot_pts_congr (F := F) d L e4.symm (islot_inb _ hp') h4 fullShare fbN)) $$ Hbn
    ihave Hsn' := (Entails.of_eq (isemVal_congr (F := F) d L e6.symm (sem_inb _ hp') h6)) $$ Hsn
    ihave Hgc' := (Entails.of_eq (oslot_pts_congr (F := F) d L e10.symm (oslot_inb _ hp) h10 fullShare gC)) $$ Hgc
    ihave Hsc' := (Entails.of_eq (osemVal_congr (F := F) d L e14.symm (sem_inb _ hp) h14)) $$ Hsc
    ihave Hwk' := (Entails.of_eq (owin_pts_congr (F := F) d L e13.symm (owin_inb _ hj) h13 fullShare (m (v1Loc d)))) $$ Hwk
    ihave Hfout' := (Entails.of_eq (flightOut_congr (F := F) d L e17.symm e16.symm e15.symm (sem_inb _ hp') h17 (owin_inb _ hjp) h16 (oslot_inb _ hp') h15 (gOut m d) gP)) $$ Hfout
    iapply (wp_wand_r Idealize.ShloMosaic.frame (wpE (defs₀ (F := F)) 𝒱₀ (thr d L) none) Set.univ)
    isplitl [Hmw Hrest' Htn Hfin' Hbn' Hgc' Hwk' Hsh Hsn' Hsc' Hs5 Hfout' HO]
    · iapply (tripM (F := F) d L h2 (tokI L (k.val % 2)) (tokI L ((k.val + 1) % 2)) (tokS L) k hk1 hk2 h4 h5 h6 h9 h11 h10 h8 h13 h14 h12 h17 h15 h16 (idxV m d) fbC hin fbN gC (m (v1Loc d)) (tblSh m d (cV L)) (gOut m d) gP O W')
      isplitl [Hmw]; · iexact Hmw
      isplitl [Hrest']; · iexact Hrest'
      isplitl [Htn]; · iexact Htn
      isplitl [Hfin']; · iexact Hfin'
      isplitl [Hbn']; · iexact Hbn'
      isplitl [Hgc']; · iexact Hgc'
      isplitl [Hwk']; · iexact Hwk'
      isplitl [Hsh]; · iexact Hsh
      isplitl [Hsn']; · iexact Hsn'
      isplitl [Hsc']; · iexact Hsc'
      isplitl [Hs5]; · iexact Hs5
      isplitl [Hfout']; · iexact Hfout'
      iexact HO
    iintro %y ⟨%hy, Hmw, Htc, Hsc0, Hbc, Hfn, Hrn, Hfo, Hwp, Hgp, Hsp, Hsh, Hs5, ⟨%W'', %hW'', HO⟩⟩
    subst hy
    rw [inv, InCur, dif_pos hk2, InNext, OutCur, OutPrev, dif_pos ⟨Nat.succ_pos _, le_of_lt hk2⟩, Wins, show Finset.range (k.val + 1 - 1) = insert (k.val - 1) (Finset.range (k.val - 1)) from (by rw [Nat.add_sub_cancel]; exact range_insert k.val hk1), SparseCore.bigSep_insert' (by simp), owPts, dif_pos hjp]
    isplitr; · ipureintro; exact ⟨rfl, le_of_lt hk2⟩
    isplitl [Hmw]; · iexact Hmw
    isplitl [HO]
    · iexists W''; isplitr
      · ipureintro; intro p hp; rcases hW'' p hp with h | h
        · exact hW' p h
        · exact .inr h
      · iexact HO
    isplitl [Hsh]; · iexact Hsh
    isplitl [Hs5]; · iexact Hs5
    isplitl [Hfn Hrn]
    · iexists ((islotP _ h4).view.writes (Elt F) fbN [⟨Rect.whole S1x1x400, ReadAs.same.apply (View.read (Elt F) (iwinP _ h5).view (idxV m d))⟩])
      isplitr
      · ipureintro; intro x
        rw [← list_read_congr (F := F) d L e4 h4 (islot_inb _ hp') _ (ix1 x)]
        exact list_landed_idxV (F := F) d L m _ h4 _ h5 (w0n L + (k.val + 1)) hj1 e5 fbN x
      isplitl [Hfn]
      · iapply (Entails.of_eq (flightInNew_congr (F := F) d L e6 e4 e5 h6 (sem_inb _ hp') h4 (islot_inb _ hp') h5 (iwin_inb _ hj1) (tokI L ((k.val + 1) % 2)) _ (idxV m d)))
        iexact Hfn
      · iapply (Entails.of_eq (ixrest_congr (F := F) d L e5 h5 (iwin_inb _ hj1) (tokI L ((k.val + 1) % 2)) (idxV m d)))
        iexact Hrn
    isplitl [Hbc Hsc0 Htc]
    · isplitl [Hbc]
      · iexists fbC
        iapply (Entails.of_eq ((islot_pts_eq_islot4 (F := F) d L _ h11 fullShare fbC).symm.trans (islot_pts_congr (F := F) d L e11' h11 (islot_inb _ (mod2 _)) fullShare fbC)))
        iexact Hbc
      isplitl [Hsc0]
      · iapply (Entails.of_eq (isemVal_congr (F := F) d L e9' h9 (sem_inb _ (mod2 _))))
        iexact Hsc0
      · rw [tok_congr L hpp]; iexact Htc
    isplitl [Hgp Hsp]
    · isplitl [Hgp]
      · iexists gP
        iapply (Entails.of_eq (oslot_pts_congr (F := F) d L e15 h15 (oslot_inb _ hp') fullShare gP))
        iexact Hgp
      · iapply (Entails.of_eq (osemVal_congr (F := F) d L e17 h17 (sem_inb _ hp')))
        iexact Hsp
    isplitl [Hfo]
    · iexists ((oslotP _ h10).view.writes (Elt F) gC [⟨Rect.whole S400x128, SparseCore.gatherPayload gathers_S3x128_S400x128
          (View.read (Elt F) ((shV).slice (Rect.unit (s := S3x128) ![0, 0] S3x128.size inb_S3x128_S3x128_0_0) (fun _ => rfl)).view (tblSh m d (cV L)))
          (SparseCore.rows (View.read (Elt F) (listP _ h11).view fbC) rfl hin)⟩])
      iapply (Entails.of_eq (flightOut_congr (F := F) d L e14' e13' e12' h14 (sem_inb _ (mod2 _)) h13 (owin_inb _ hjc) h12 (oslot_inb _ (mod2 _)) (gOut m d) _))
      iapply (Entails.of_eq (congrArg (fun X : sProp 𝕄 => Transfers.Flight countersEmb (thr d L) (SemLoc.dma (osemP _ h14)) default 1638400
          iprop(X ∗ ((oslotP _ h12).view.loc (thr d L) ↦[(oslotP _ h12).view.set]{fullShare} _)))
        (win_landed_pts (F := F) d L m _ h13 (w0n L + k.val) hj e13 _ _ h10 h12 (e10.trans e12.symm) _ h11 fbC (tblSh m d (cV L)) gC (m (v1Loc d)) rfl hin hl' (fun _ => rfl) hchi fullShare)))
      iexact Hfo
    isplitl [Hwp Hdone]
    · isplitl [Hwp]
      · iapply (Entails.of_eq (owin_pts_congr (F := F) d L e16 h16 (owin_inb _ hjp) fullShare (gOut m d)))
        iexact Hwp
      · iexact Hdone
    iexact Htodo
  · -- the last trip
    have hk1 : 0 < k.val := hk1'
    have hkL : k.val + 1 = nn L := by omega
    have hjp : w0n L + (k.val - 1) < 250 := w0n_lt' L (k.val - 1) (by omega)
    have e15 : k0_off15 (a10 k.val) = ![(k.val + 1) % 2, 0, 0] := off15_at ⟨k.val, hk8⟩ hk1
    have e17 : k0_off17 (a10 k.val) = ![(k.val + 1) % 2] := off17_at ⟨k.val, hk8⟩ hk1
    have e16 : k0_off16 L (a11 L k.val) = ![400 * (w0n L + (k.val - 1)), 0] := off16_at L ⟨k.val, hk8⟩ hk1 hkn
    have h15 : ∀ a, k0_off15 (a10 k.val) a + S1x400x128.size a ≤ S2x400x128.size a := by rw [e15]; exact oslot_inb _ hp'
    have h17 : ∀ a, k0_off17 (a10 k.val) a + S1.size a ≤ S2.size a := by rw [e17]; exact sem_inb _ hp'
    have h16 : ∀ a, k0_off16 L (a11 L k.val) a + S400x128.size a ≤ S100000x128.size a := by rw [e16]; exact owin_inb _ hjp
    rw [inv, InCur, dif_pos hkn, InNext, OutCur, OutPrev, dif_pos ⟨hk1, le_of_lt hkn⟩, Wins, Ico_insert k.val (nn L) hkn, SparseCore.bigSep_insert' (by simp), owPts, dif_pos hj]
    iintro ⟨%hacc, Hmw, ⟨%W', %hW', HO⟩, Hsh, Hs5, ⟨%fbC, %hl, Hfin, Hrest⟩, ⟨⟨%fbN, Hbn⟩, Hsn, Htn⟩, ⟨⟨%gC, Hgc⟩, Hsc⟩, ⟨%gP, Hfout⟩, ⟨Hdone, Hwk, Htodo⟩⟩
    obtain ⟨rfl, -⟩ := hacc
    obtain ⟨hl', hin⟩ := hlist fbC hl
    ihave Hrest' := (Entails.of_eq (iwin_rest_congr (F := F) d L e8.symm (iwin_inb _ hj) h8 (tokI L (k.val % 2)) (idxV m d))) $$ Hrest
    ihave Hfin' := (Entails.of_eq (flightIn_congr (F := F) d L e9.symm e11.symm e8.symm (sem_inb _ hp) h9 (islot_inb _ hp) h11 (iwin_inb _ hj) h8 (tokI L (k.val % 2)) fbC (idxV m d))) $$ Hfin
    ihave Hgc' := (Entails.of_eq (oslot_pts_congr (F := F) d L e10.symm (oslot_inb _ hp) h10 fullShare gC)) $$ Hgc
    ihave Hsc' := (Entails.of_eq (osemVal_congr (F := F) d L e14.symm (sem_inb _ hp) h14)) $$ Hsc
    ihave Hwk' := (Entails.of_eq (owin_pts_congr (F := F) d L e13.symm (owin_inb _ hj) h13 fullShare (m (v1Loc d)))) $$ Hwk
    ihave Hfout' := (Entails.of_eq (flightOut_congr (F := F) d L e17.symm e16.symm e15.symm (sem_inb _ hp') h17 (owin_inb _ hjp) h16 (oslot_inb _ hp') h15 (gOut m d) gP)) $$ Hfout
    iapply (wp_wand_r Idealize.ShloMosaic.frame (wpE (defs₀ (F := F)) 𝒱₀ (thr d L) none) Set.univ)
    isplitl [Hmw Hrest' Hfin' Hgc' Hwk' Hsh Hsc' Hs5 Hfout' HO]
    · iapply (tripL (F := F) d L h2 (tokI L (k.val % 2)) (tokI L ((k.val + 1) % 2)) (tokS L) k hk1 hkL h9 h11 h10 h8 h13 h14 h12 h17 h15 h16 (idxV m d) fbC hin gC (m (v1Loc d)) (tblSh m d (cV L)) (gOut m d) gP O W')
      isplitl [Hmw]; · iexact Hmw
      isplitl [Hrest']; · iexact Hrest'
      isplitl [Hfin']; · iexact Hfin'
      isplitl [Hgc']; · iexact Hgc'
      isplitl [Hwk']; · iexact Hwk'
      isplitl [Hsh]; · iexact Hsh
      isplitl [Hsc']; · iexact Hsc'
      isplitl [Hs5]; · iexact Hs5
      isplitl [Hfout']; · iexact Hfout'
      iexact HO
    iintro %y ⟨%hy, Hmw, Htc, Hsc0, Hbc, Hfo, Hwp, Hgp, Hsp, Hsh, Hs5, ⟨%W'', %hW'', HO⟩⟩
    subst hy
    rw [inv, InCur, dif_neg (by omega), InNext, OutCur, OutPrev, dif_pos ⟨Nat.succ_pos _, le_of_eq hkL⟩, Wins, show Finset.range (k.val + 1 - 1) = insert (k.val - 1) (Finset.range (k.val - 1)) from (by rw [Nat.add_sub_cancel]; exact range_insert k.val hk1), SparseCore.bigSep_insert' (by simp), owPts, dif_pos hjp]
    isplitr; · ipureintro; exact ⟨rfl, le_of_eq hkL⟩
    isplitl [Hmw]; · iexact Hmw
    isplitl [HO]
    · iexists W''; isplitr
      · ipureintro; intro p hp; rcases hW'' p hp with h | h
        · exact hW' p h
        · exact .inr h
      · iexact HO
    isplitl [Hsh]; · iexact Hsh
    isplitl [Hs5]; · iexact Hs5
    isplitl [Hbn Hsn Htn]
    · isplitl [Hbn]
      · iexists fbN
        iapply (Entails.of_eq (islot_pts_eq_islot4 (F := F) d L _ (islot_inb _ hp') fullShare fbN))
        iexact Hbn
      isplitl [Hsn]; · iexact Hsn
      iexact Htn
    isplitl [Hbc Hsc0 Htc]
    · isplitl [Hbc]
      · iexists fbC
        iapply (Entails.of_eq ((islot_pts_eq_islot4 (F := F) d L _ h11 fullShare fbC).symm.trans (islot_pts_congr (F := F) d L e11' h11 (islot_inb _ (mod2 _)) fullShare fbC)))
        iexact Hbc
      isplitl [Hsc0]
      · iapply (Entails.of_eq (isemVal_congr (F := F) d L e9' h9 (sem_inb _ (mod2 _))))
        iexact Hsc0
      · rw [tok_congr L hpp]; iexact Htc
    isplitl [Hgp Hsp]
    · isplitl [Hgp]
      · iexists gP
        iapply (Entails.of_eq (oslot_pts_congr (F := F) d L e15 h15 (oslot_inb _ hp') fullShare gP))
        iexact Hgp
      · iapply (Entails.of_eq (osemVal_congr (F := F) d L e17 h17 (sem_inb _ hp')))
        iexact Hsp
    isplitl [Hfo]
    · iexists ((oslotP _ h10).view.writes (Elt F) gC [⟨Rect.whole S400x128, SparseCore.gatherPayload gathers_S3x128_S400x128
          (View.read (Elt F) ((shV).slice (Rect.unit (s := S3x128) ![0, 0] S3x128.size inb_S3x128_S3x128_0_0) (fun _ => rfl)).view (tblSh m d (cV L)))
          (SparseCore.rows (View.read (Elt F) (listP _ h11).view fbC) rfl hin)⟩])
      iapply (Entails.of_eq (flightOut_congr (F := F) d L e14' e13' e12' h14 (sem_inb _ (mod2 _)) h13 (owin_inb _ hjc) h12 (oslot_inb _ (mod2 _)) (gOut m d) _))
      iapply (Entails.of_eq (congrArg (fun X : sProp 𝕄 => Transfers.Flight countersEmb (thr d L) (SemLoc.dma (osemP _ h14)) default 1638400
          iprop(X ∗ ((oslotP _ h12).view.loc (thr d L) ↦[(oslotP _ h12).view.set]{fullShare} _)))
        (win_landed_pts (F := F) d L m _ h13 (w0n L + k.val) hj e13 _ _ h10 h12 (e10.trans e12.symm) _ h11 fbC (tblSh m d (cV L)) gC (m (v1Loc d)) rfl hin hl' (fun _ => rfl) hchi fullShare)))
      iexact Hfo
    isplitl [Hwp Hdone]
    · isplitl [Hwp]
      · iapply (Entails.of_eq (owin_pts_congr (F := F) d L e16 h16 (owin_inb _ hjp) fullShare (gOut m d)))
        iexact Hwp
      · iexact Hdone
    iexact Htodo

end Cert.KernelIdeal.Tb
end
-- ==== Proof.TileBody.lean ====
/-
  One tile's task, whole. The subcore's scoped storage is unpacked item by item. Tile 0 copies the table into its
  SparseCore's shared scratch and waits for it; at the barrier it hands every tile (itself included) a read token of the
  filled scratch and keeps the rest, the other tiles hand over nothing, and each tile receives its token from its own
  round. Then, the same for every tile: the tile's read token of the windowed indices is split once more (one token per
  index slot), the two rings are held by slots, the first window's copy is started, and the loop runs by its invariant
  (one trip: the region obligation); after it the second loop has no trips, the two side conditions the program assumes
  of the carried counters hold for every tile, the last window's copy out is waited for, and everything is joined
  back: the tokens, the tile's windows of the output at their final contents, the rings whole, the seven semaphores
  at zero.
-/
import proofs.«207302_g55387898250011_cont_9to1_m_42_19_alg».proof.Proof.TileEnds
import proofs.«207302_g55387898250011_cont_9to1_m_42_19_alg».proof.Proof.TileRegion

noncomputable section

namespace Cert.KernelIdeal.Tb

open Cert.KernelIdeal Cert.KernelIdeal.Gen Cert.KernelIdeal.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join pointsTo_toks_range)

variable {F : FTy → Type}

local notation "𝕄" => MT nD τ sig (HIx 1) (Elt F) ℕ UU ℕ

local notation "tbV" => (Memref.whole Cert.KernelIdeal.main_arg1_scv : Memref Cert.KernelIdeal.sig Kind.scVector Space.hbm Cert.KernelIdeal.S3x128 EltTy.f32)
local notation "ixV" => (Memref.whole Cert.KernelIdeal.main_v0_scv : Memref Cert.KernelIdeal.sig Kind.scVector Space.hbm Cert.KernelIdeal.S250x1x400 EltTy.i32)
local notation "oV" => (Memref.whole Cert.KernelIdeal.main_v1_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S3x128 EltTy.f32)
local notation "ibV" => (Memref.whole Cert.KernelIdeal.cc0_scoped1 : Memref Cert.KernelIdeal.sig Kind.scVector Space.vmem Cert.KernelIdeal.S2x1x1x400 EltTy.i32)
local notation "obV" => (Memref.whole Cert.KernelIdeal.cc0_scoped3 : Memref Cert.KernelIdeal.sig Kind.scVector Space.vmem Cert.KernelIdeal.S2x400x128 EltTy.f32)

variable (m : (ℓ : Loc nD τ sig) → Buf (Elt F) ℓ)

variable [FloatOps F]

variable (d : Dev nD) (L : grid0.Coords)

/-- The region obligation at the program's own words for the window count and the first window. -/
theorem region' (h2 : k0_cond2 L = 1#1) (hchi : ∀ x, (idxV m d x).toNat < 3) (O : CellTallies nD τ sig (HIx 1)) (W : Waits sig (HIx 1))
    (v8 v13 v14 : BitVec 32) (e8 : v8 = BitVec.ofNat 32 (nn L)) (e13 : v13 = BitVec.ofNat 32 (w0n L)) (e14 : v14 = BitVec.ofNat 32 (nn L)) :
    ∀ (k : Fin (k0_t1_loop L).trips) (acc : BitVec 32 × BitVec 32 × BitVec 32 × BitVec 32 × BitVec 32),
      inv m d L O W k.val acc ⊢ wp frame (wpE (defs₀ (F := F)) 𝒱₀ (thr d L) none) Set.univ
        (k0_t1_body (F := F) L tbV (Memref.isWhole_whole _) ixV (Memref.isWhole_whole _) oV (Memref.isWhole_whole _) shV (Memref.isWhole_whole _) cc0_scoped0 ibV (Memref.isWhole_whole _) cc0_scoped2 obV (Memref.isWhole_whole _) cc0_scoped4 cc0_scoped5 cc0_scoped6 v8 v13 v14 h2 0#32 1#32 k acc)
        (fun y => inv m d L O W (k.val + 1) y) := by
  subst e8 e13 e14
  exact region m d L h2 hchi O W

set_option hygiene false in
/-- The task after the barrier, the same text for tile 0 and for the others. -/
local macro "tb_tail" W1:term : tactic => `(tactic| (
    ihave Hsh := (show (shTok m d (cV L) (jV L).val : sProp 𝕄) ⊢ ((shV).view.loc (thr d L) ↦{tokS L} tblSh m d (cV L) : sProp 𝕄) from BI.Entails.refl _) $$ Hmine
    ihave Hix := (idx_split m d L (wid (cV L).val (jV L).val)).1 $$ Hidx
    icases Hix with ⟨Hixd, Hix0, Hix1, Hix2⟩
    ihave Hib2 := (Entails.of_eq (ib_split' (F := F) d L _)) $$ Hib
    icases Hib2 with ⟨Hi0, Hi1⟩
    ihave Hob2 := (Entails.of_eq (ob_split' (F := F) d L _)) $$ Hob
    icases Hob2 with ⟨Ho0, Ho1⟩
    ihave Hi0' := (Entails.of_eq (islot_pts_congr (F := F) d L (k0_off1_eq.symm) (islot_inb 0 Nat.zero_lt_two) (k0_off1_inb L h2) fullShare _)) $$ Hi0
    sl_exec
    ihave Hpl := (prologue_landed (F := F) m d L h2 _ _ _) $$ Hs1
    icases Hpl with ⟨%fb, %hfb, Hfl⟩
    have hfb' : ∀ x : Fin 400, View.read (Elt F) (IL 0 Nat.zero_lt_two).view fb (ix1 x)
        = idxV m d (ix3 (⟨w0n L + 0, w0n_lt' L 0 (nn_pos L)⟩ : Fin 250) (0 : Fin 1) x) :=
      fun x => (hfb x).trans (PI_apply_idxV (F := F) (m := m) (d := d) (k0_off2 L) (k0_off2_inb L h2) (w0n L + 0) (w0n_lt' L 0 (nn_pos L)) (off2_eq L) x)
    rw [wp_bind]
    sl_for (fun k acc => inv m d L O $W1 k acc) $$ [Hmw2 HO Hsh Hs5 Hfl Hix1 Hi1 Hs2 Hix2 Ho0 Hs3 Ho1 Hs4 Hout]
    case region => exact region' m d L h2 hchi O $W1 _ _ _ (v8w_eq L) (v13w_eq L) (v14w_eq L)
    · iapply (inv0_intro (F := F) m d L h2 O $W1 fb _ _ _ hfb')
      isplitl [Hmw2]; · iexact Hmw2
      isplitl [HO]; · iexact HO
      isplitl [Hsh]; · iexact Hsh
      isplitl [Hs5]; · iexact Hs5
      isplitl [Hfl]; · iexact Hfl
      isplitl [Hix1]; · iexact Hix1
      isplitl [Hi1]; · iexact Hi1
      isplitl [Hs2]; · iexact Hs2
      isplitl [Hix2]; · iexact Hix2
      isplitl [Ho0]; · iexact Ho0
      isplitl [Hs3]; · iexact Hs3
      isplitl [Ho1]; · iexact Ho1
      isplitl [Hs4]; · iexact Hs4
      iexact Hout
    iintro %acc HI
    have ht1 : Scf.trips (k0_t1_loop L).lb (k0_t1_loop L).ub (k0_t1_loop L).st = nn L := trips1 L
    ihave HI1 := (Entails.of_eq (congrArg (fun n => inv m d L O $W1 n acc) ht1)) $$ HI
    ihave HI2 := (inv_exit (F := F) m d L O $W1 acc) $$ HI1
    icases HI2 with ⟨%hacc, Hmw, ⟨%W', %hW', HO⟩, Hsh, Hs5, ⟨%fi, Hib⟩, ⟨Hs1, Hs2⟩, ⟨Hix1, Hix2⟩, ⟨%gc, Hoc⟩, Hsoc, ⟨%gp, Hfl⟩, Hwins⟩
    subst hacc
    sl_exec
    sl_for (fun (_ : ℕ) acc => (iprop(⌜acc = (a7 L (nn L), a8 (nn L), a8 (nn L), a10 (nn L), a11 L (nn L))⌝) : sProp 𝕄)) $$ []
    case region => exact fun k => absurd (lt_of_lt_of_eq k.isLt (show Scf.trips (k0_t2_loop L).lb (k0_t2_loop L).ub (k0_t2_loop L).st = 0 from trips2 L)) (Nat.not_lt_zero _)
    · ipureintro; rfl
    iintro %acc2 %hacc2
    subst hacc2
    have hw8 := chk8_fin L
    have hw7 := chk7_fin L
    have h18 := cond18_all L
    sl_exec
    sl_step
    ihave Hc := (exit_close (F := F) d L _ _) $$ [Hfl Hfl_src Hoc Hsoc]
    · isplitl [Hfl]; · iexact Hfl
      isplitl [Hfl_src]; · iexact Hfl_src
      isplitl [Hoc]; · iexact Hoc
      iexact Hsoc
    icases Hc with ⟨⟨%fo2, Hob⟩, Hs3, Hs4⟩
    ihave Hidx := (idx_split m d L (wid (cV L).val (jV L).val)).2 $$ [Hixd Hix0 Hix1 Hix2]
    · isplitl [Hixd]; · iexact Hixd
      isplitl [Hix0]; · iexact Hix0
      isplitl [Hix1]; · iexact Hix1
      iexact Hix2
    ihave Hout := (wins_close (F := F) m d L) $$ [Hwins Hfl_dst]
    · isplitl [Hwins]; · iexact Hwins
      iexact Hfl_dst
    isplitl [Hidx Hout Hsh HX]
    · isplitl [Hidx]; · iexact Hidx
      isplitl [Hout]; · iexact Hout
      isplitl [Hsh]; · iexact Hsh
      iexact HX
    isplitl [Hib Hob Hbufs]
    · isplitl [Hib]; · iexists fi; iexact Hib
      isplitl [Hob]; · iexists fo2; iexact Hob
      iexact Hbufs
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexists _; isplitr
    swap; · iexact HO
    ipureintro; intro p hp
    rcases Finset.mem_insert.mp hp with hp | hp
    · exact .inr (.inl (hp ▸ rfl))
    · rcases hW' p hp with h | h
      · exact hW1 p h
      · exact .inr (.inl h)))

set_option maxHeartbeats 4000000 in
theorem tile_body : Lk.TileBody m d L := by
  unfold Lk.TileBody
  intro hF O W hO hOlev hchi
  rw [cc0_k_eq_skeleton]; unfold cc0_k_skel
  rw [k0_part7_eq_skeleton, k0_part8_eq_skeleton]; unfold k0_part7_skel k0_part8_skel
  rw [(K (F := F)).scopedBufs_V hF d (cV L) (jV L), SparseCore.Cfg.scopedSems0_V (Val := Elt F) d (cV L) (jV L), ownSems0_V, ownBufs_V]
  unfold bkit goPay tdPay
  have hO' : ∀ g, (O + oxV d (cV L)) g none = 0 := fun g => by rw [Pi.add_apply, Finsupp.add_apply, hO g, oxV_none]
  have h2 : k0_cond2 L = 1#1 := cond2_all L
  by_cases hs : (jV L).val = 0
  · have hc1 : cond1 L = 1#1 := (cond1_iff L).mpr hs
    rw [if_pos hs]
    iintro ⟨#Hlv, ⟨⟨%κ, #Hinv⟩, Htoks, #Hrch, Hat, Hcred⟩, ⟨Hidx, Hout, Ha1, ⟨%fsh, Hsh⟩⟩, ⟨⟨%fib, Hib⟩, ⟨%fob, Hob⟩, Hbufs⟩, ⟨Hs0, Hs1, Hs2, Hs3, Hs4, Hs5, Hs6⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    ihave Ha1' := (show a1Tok m d (cV L).val ⊢ ((tbV).view.loc (thr d L) ↦{shareTokN fullShare (cV L).val} m (a1Loc d) : sProp 𝕄) from BI.Entails.refl _) $$ Ha1
    ihave Hsh' := (show (shLoc d (cV L) ↦{fullShare} fsh : sProp 𝕄) ⊢ ((shV).view.loc (thr d L) ↦{fullShare} fsh : sProp 𝕄) from BI.Entails.refl _) $$ Hsh
    sl_exec
    ihave Hsh2 := (Entails.of_eq (sh_written (F := F) d L _ _)) $$ Hsh'
    have e0 : tile_body.sl.dma0 m d = tblSh m d (cV L) := rfl
    ihave Hsh3 := (Entails.of_eq (congrArg (fun w => (shLoc d (cV L) ↦{fullShare} w : sProp 𝕄)) e0)) $$ Hsh2
    ihave Hsp := (sh_split m d (cV L)) $$ Hsh3
    icases Hsp with ⟨Hkeep, Hshtoks⟩
    ihave Hpays := (pays_intro_zero m d (cV L)) $$ Hshtoks
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · rw [hs]; iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim m d (cV L) (jV L)) $$ Hgot
    ihave HX := (show iprop(((tbV).view.loc (thr d L) ↦{shareTokN fullShare (cV L).val} m (a1Loc d)) ∗ shKeep m d (cV L)) ⊢ (tile0X m d (cV L) (jV L) : sProp 𝕄) from
      Entails.of_eq (if_pos hs).symm) $$ [Ha1' Hkeep]
    · isplitl [Ha1'] <;> iassumption
    have hW1 : ∀ p ∈ (insert (SemLoc.reg sc_bar0, some (0 : Fin 1)) (insert (SemLoc.dma (0 : DmaSem sig), (default : HIx 1)) W) : Waits sig (HIx 1)),
        p ∈ W ∨ p.2 = none ∨ p.2 = some (0 : Fin 1) := fun p hp => by
      rcases Finset.mem_insert.mp hp with h | h
      · exact .inr (.inr (h ▸ rfl))
      rcases Finset.mem_insert.mp h with h | h
      · exact .inr (.inl (h ▸ rfl))
      exact .inl h
    tb_tail (insert (SemLoc.reg sc_bar0, some (0 : Fin 1)) (insert (SemLoc.dma (0 : DmaSem sig), (default : HIx 1)) W))
  · have hc1 : ¬ cond1 L = 1#1 := fun h => hs ((cond1_iff L).mp h)
    rw [if_neg hs]
    iintro ⟨#Hlv, ⟨⟨%κ, #Hinv⟩, Htoks, #Hrch, Hat, Hcred⟩, ⟨Hidx, Hout, -⟩, ⟨⟨%fib, Hib⟩, ⟨%fob, Hob⟩, Hbufs⟩, ⟨Hs0, Hs1, Hs2, Hs3, Hs4, Hs5, Hs6⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    sl_exec
    ihave Hpays := (pays_intro_other m d (cV L) hs) $$ []
    · iempintro
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim m d (cV L) (jV L)) $$ Hgot
    ihave HX := (show (iprop(emp) : sProp 𝕄) ⊢ (tile0X m d (cV L) (jV L) : sProp 𝕄) from Entails.of_eq (if_neg hs).symm) $$ []
    · iempintro
    have hW1 : ∀ p ∈ (insert (SemLoc.reg sc_bar0, some (0 : Fin 1)) W : Waits sig (HIx 1)),
        p ∈ W ∨ p.2 = none ∨ p.2 = some (0 : Fin 1) := fun p hp => by
      rcases Finset.mem_insert.mp hp with h | h
      · exact .inr (.inr (h ▸ rfl))
      exact .inl h
    tb_tail (insert (SemLoc.reg sc_bar0, some (0 : Fin 1)) W)

end Cert.KernelIdeal.Tb

end
-- ==== Proof.IdxReadK.lean ====
/-
  The windowed indices and the output's final contents read at a window's coordinates: entry (j, 0, p) of the
  windows is entry 400 j + p of the index vector (one row-major position), so row 400 j + p of the output's final
  contents is the table's row named by entry (j, 0, p) of the windows.
-/
import proofs.«207302_g55387898250011_cont_9to1_m_42_19_alg».proof.Proof.CommonK
import Idealize.ShloMosaic.Lib.Pipeline.Value

noncomputable section

namespace Cert.Kernel.Lk

open Cert.Kernel Cert.Kernel.Gen

open Idealize.ShloMosaic
open Idealize.ShloMosaic.ValueIdx (ix1 ix2 ix3)

variable {F : FTy → Type}

variable (m : (ℓ : Loc nD τ sig) → Buf (Elt F) ℓ)

theorem row_lt (j : Fin 250) (p : Fin 400) : 400 * j.val + p.val < 100000 := by
  have := j.isLt; have := p.isLt; omega

/-- Entry (j, 0, p) of the windowed indices is entry 400 j + p of the index vector. -/
theorem idxV_apply (d : Dev nD) (j : Fin 250) (p : Fin 400) :
    idxV m d (ix3 j (0 : Fin 1) p) = m (a0Loc d) (ix1 (⟨400 * j.val + p.val, row_lt j p⟩ : Fin 100000)) := by
  unfold idxV
  refine shapeCast_apply _ _ _ _ ?_
  show (S100000.rowMajor (ix1 (⟨400 * j.val + p.val, row_lt j p⟩ : Fin 100000))).val = (S250x1x400.rowMajor (ix3 j (0 : Fin 1) p)).val
  rw [Shape.rowMajor_val_one, Shape.rowMajor_val_three]
  show 400 * j.val + p.val = (j.val * 1 + 0) * 400 + p.val
  omega

/-- Row 400 j + p of the output's final contents is the table's row named by entry (j, 0, p) of the windows. -/
theorem gOut_win (d : Dev nD) (j : Fin 250) (p : Fin 400) (q : Fin 128) :
    gOut m d (ix2 (⟨400 * j.val + p.val, row_lt j p⟩ : Fin 100000) q)
      = m (a1Loc d) (ix2 (rowOf (idxV m d (ix3 j (0 : Fin 1) p))) q) := by
  rw [idxV_apply]; rfl

/-! ## Through the program's own slices -/

/-- Window j's rectangle, as the program slices the output: offsets (400 j, 0), sizes (400, 128). -/
theorem win_unit (j : Fin 250) (h : ∀ a, (![400 * j.val, 0] : Fin 2 → ℕ) a + S400x128.size a ≤ S100000x128.size a) :
    Rect.unit (s := S100000x128) ![400 * j.val, 0] S400x128.size h = win j := by
  unfold win Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

/-- The elements that slice of the whole output covers are window j's. -/
theorem outW_set (j : Fin 250) (h : ∀ a, (![400 * j.val, 0] : Fin 2 → ℕ) a + S400x128.size a ≤ S100000x128.size a) :
    ((Memref.whole (main_v1_scv : Ref sig .scVector)).slice (Rect.unit (s := S100000x128) ![400 * j.val, 0] S400x128.size h) (fun _ => rfl)).view.set
      = winSet j := by
  show ((View.whole (main_v1_scv : Ref sig .scVector)).slice (Rect.unit (s := S100000x128) ![400 * j.val, 0] S400x128.size h)).set = winSet j
  rw [View.set_slice, win_unit j h]; exact Finset.map_refl

/-- The output's final contents read through that slice at (r, q): the table's row named by index 400 j + r, column q. -/
theorem outW_read (d : Dev nD) (j : Fin 250) (h : ∀ a, (![400 * j.val, 0] : Fin 2 → ℕ) a + S400x128.size a ≤ S100000x128.size a)
    (r : Fin 400) (q : Fin 128) :
    ((Memref.whole (main_v1_scv : Ref sig .scVector)).slice (Rect.unit (s := S100000x128) ![400 * j.val, 0] S400x128.size h) (fun _ => rfl)).view.read (Elt F)
        (gOut m d) (ix2 r q)
      = m (a1Loc d) (ix2 (rowOf (m (a0Loc d) (ix1 (⟨400 * j.val + r.val, row_lt j r⟩ : Fin 100000)))) q) := by
  show gOut m d ((Rect.unit (s := S100000x128) ![400 * j.val, 0] S400x128.size h).emb (ix2 r q)) = _
  rw [gOut_apply]
  have h0 : (((Rect.unit (s := S100000x128) ![400 * j.val, 0] S400x128.size h).emb (ix2 r q)) 0 : Fin 100000) = ⟨400 * j.val + r.val, row_lt j r⟩ :=
    Fin.ext (by show 400 * j.val + 1 * r.val = 400 * j.val + r.val; omega)
  have h1 : (((Rect.unit (s := S100000x128) ![400 * j.val, 0] S400x128.size h).emb (ix2 r q)) 1 : Fin 128) = q :=
    Fin.ext (by show 0 + 1 * q.val = q.val; omega)
  rw [h0, h1]
  rfl

/-- The windowed indices read through the program's slice of window j (offsets (j, 0, 0), sizes (1, 1, 400)) at
    (0, 0, p): entry 400 j + p of the index vector. -/
theorem idxW_read (d : Dev nD) (j : Fin 250) (h : ∀ a, (![j.val, 0, 0] : Fin 3 → ℕ) a + S1x1x400.size a ≤ S250x1x400.size a) (p : Fin 400) :
    ((Memref.whole (main_v0_scv : Ref sig .scVector)).slice (Rect.unit (s := S250x1x400) ![j.val, 0, 0] S1x1x400.size h) (fun _ => rfl)).view.read (Elt F)
        (idxV m d) (ix3 (0 : Fin 1) (0 : Fin 1) p)
      = m (a0Loc d) (ix1 (⟨400 * j.val + p.val, row_lt j p⟩ : Fin 100000)) := by
  show idxV m d ((Rect.unit (s := S250x1x400) ![j.val, 0, 0] S1x1x400.size h).emb (ix3 (0 : Fin 1) (0 : Fin 1) p)) = _
  have he : (Rect.unit (s := S250x1x400) ![j.val, 0, 0] S1x1x400.size h).emb (ix3 (0 : Fin 1) (0 : Fin 1) p) = ix3 j (0 : Fin 1) p := by
    funext a
    match a with
    | ⟨0, _⟩ => exact Fin.ext (by show j.val + 1 * 0 = j.val; omega)
    | ⟨1, _⟩ => exact Fin.ext (by show 0 + 1 * 0 = 0; omega)
    | ⟨2, _⟩ => exact Fin.ext (by show 0 + 1 * p.val = p.val; omega)
  rw [he]
  exact idxV_apply m d j p

end Cert.Kernel.Lk

end
-- ==== Proof.WordsK.lean ====
import proofs.«207302_g55387898250011_cont_9to1_m_42_19_alg».proof.Proof.Gen.Kernel
import proofs.«207302_g55387898250011_cont_9to1_m_42_19_alg».proof.Proof.Gen.Kernel.Skeleton
import Idealize.ShloMosaic.Lib.Decide

/-! The integer words of one tile's task as functions of the tile and the trip.

A tile `L = (c, s)` is worker `wn L = s + 16 c`; it serves `nn L` consecutive windows of 400 indices
starting at window `w0n L` (8 windows for the first 26 workers, 7 for the others: 250 in all). Before
trip `k` of its loop the five carried counters are: copies of index windows started `min (k+1) (nn L)`,
windows consumed `k`, results produced `k`, results drained `k - 1`, and the position `k` (wrapping to 0
after the last trip). Every condition and every offset the trip computes from them is decided here for
all tiles and trips at once, by evaluation. -/

namespace Cert.Kernel.Tb

open Cert.Kernel Cert.Kernel.Gen Idealize.ShloMosaic

def wn (L : grid0.Coords) : ℕ := (L 1).val + 16 * (L 0).val
def nn (L : grid0.Coords) : ℕ := if wn L < 26 then 8 else 7
def w0n (L : grid0.Coords) : ℕ := if wn L < 26 then 8 * wn L else 7 * wn L + 26

def a7 (L : grid0.Coords) (k : ℕ) : BitVec 32 := BitVec.ofNat 32 (min (k + 1) (nn L))
def a8 (k : ℕ) : BitVec 32 := BitVec.ofNat 32 k
def a10 (k : ℕ) : BitVec 32 := BitVec.ofNat 32 (k - 1)
def a11 (L : grid0.Coords) (k : ℕ) : BitVec 32 := BitVec.ofNat 32 (if k = nn L then 0 else k)

theorem trips1 : ∀ L : grid0.Coords, (k0_t1_loop L).trips = nn L := by decide +kernel
theorem trips2 : ∀ L : grid0.Coords, (k0_t2_loop L).trips = 0 := by decide +kernel
theorem cond2_all : ∀ L : grid0.Coords, k0_cond2 L = 1#1 := by decide +kernel
theorem cond18_all : ∀ L : grid0.Coords, k0_cond18 L = 1#1 := by decide +kernel

theorem cond3_eq : ∀ (L : grid0.Coords) (k : Fin (k0_t1_loop L).trips), k0_cond3 L k (a11 L k.val) = if k.val + 1 < nn L then 1#1 else 0#1 := by decide +kernel
theorem cond4_eq : ∀ (L : grid0.Coords) (k : Fin (k0_t1_loop L).trips), k0_cond4 L k (a11 L k.val) = 1#1 := by decide +kernel
theorem cond7_eq : ∀ (L : grid0.Coords) (k : Fin (k0_t1_loop L).trips), k0_cond7 L k (a11 L k.val) = 1#1 := by decide +kernel
theorem cond9_eq : ∀ (L : grid0.Coords) (k : Fin (k0_t1_loop L).trips), k0_cond9 L k (a11 L k.val) = if k.val = 0 then 0#1 else 1#1 := by decide +kernel

theorem chk1_all : ∀ (L : grid0.Coords) (k : Fin (k0_t1_loop L).trips), k0_chk1 L k (a7 L k.val) (a8 k.val) (a8 k.val) (a10 k.val) (a11 L k.val) := by decide +kernel
theorem chk2_all : ∀ (L : grid0.Coords) (k : Fin 8), k0_chk2 L (a8 k.val) := by decide +kernel
theorem chk3_all : ∀ (L : grid0.Coords) (k : Fin 8), k0_chk3 L (a8 k.val) := by decide +kernel

theorem off4_eq : ∀ (L : grid0.Coords) (k : Fin 8), k0_off4 (a7 L k.val) = ![(min (k.val + 1) (nn L)) % 2, 0, 0, 0] := by decide +kernel
theorem off6_eq : ∀ (L : grid0.Coords) (k : Fin 8), k0_off6 (a7 L k.val) = ![(min (k.val + 1) (nn L)) % 2] := by decide +kernel
theorem off5_eq : ∀ (L : grid0.Coords) (k : Fin 8), k.val + 1 < nn L → k0_off5 L (a11 L k.val) = ![w0n L + k.val + 1, 0, 0] := by decide +kernel
theorem off7_eq : ∀ (k : Fin 8), k0_off7 (a8 k.val) = ![k.val % 2, 0, 0, 0] := by decide +kernel
theorem off9_eq : ∀ (k : Fin 8), k0_off9 (a8 k.val) = ![k.val % 2] := by decide +kernel
theorem off11_eq : ∀ (k : Fin 8), k0_off11 (a8 k.val) = ![k.val % 2, 0, 0, 0] := by decide +kernel
theorem off8_eq : ∀ (L : grid0.Coords) (k : Fin 8), k.val < nn L → k0_off8 L (a11 L k.val) = ![w0n L + k.val, 0, 0] := by decide +kernel
theorem off10_eq : ∀ (k : Fin 8), k0_off10 (a8 k.val) = ![k.val % 2, 0, 0] := by decide +kernel
theorem off12_eq : ∀ (k : Fin 8), k0_off12 (a8 k.val) = ![k.val % 2, 0, 0] := by decide +kernel
theorem off14_eq : ∀ (k : Fin 8), k0_off14 (a8 k.val) = ![k.val % 2] := by decide +kernel
theorem off13_eq : ∀ (L : grid0.Coords) (k : Fin 8), k.val < nn L → k0_off13 L (a11 L k.val) = ![400 * (w0n L + k.val), 0] := by decide +kernel
theorem off15_eq : ∀ (k : Fin 8), k0_off15 (a10 k.val) = ![(k.val - 1) % 2, 0, 0] := by decide +kernel
theorem off17_eq : ∀ (k : Fin 8), k0_off17 (a10 k.val) = ![(k.val - 1) % 2] := by decide +kernel
theorem off16_eq : ∀ (L : grid0.Coords) (k : Fin 8), 0 < k.val → k.val < nn L → k0_off16 L (a11 L k.val) = ![400 * (w0n L + k.val - 1), 0] := by decide +kernel
theorem off2_eq : ∀ (L : grid0.Coords), k0_off2 L = ![w0n L, 0, 0] := by decide +kernel

end Cert.Kernel.Tb
-- ==== Proof.SpellK.lean ====
import proofs.«207302_g55387898250011_cont_9to1_m_42_19_alg».proof.Proof.CommonK
import proofs.«207302_g55387898250011_cont_9to1_m_42_19_alg».proof.Proof.WordsK
import proofs.«207302_g55387898250011_cont_9to1_m_42_19_alg».proof.Proof.Gen.Kernel.Skeleton

/-! The views one tile's task moves data through, named once.

The task's two scratch buffers are rings of two slots: the index ring (2 x [1,1,400] words) and the
row ring (2 x [400,128] floats). A window of 400 indices of the index array is copied into an index
slot, the 400 table rows they name are gathered into a row slot, and the row slot is copied to the
window's 400 rows of the output. Each of these views is a slice at an offsets vector; the program
computes its vectors from loop counters, so the views are named here over an arbitrary offsets
vector, and equal vectors give equal views. -/

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

/-- The tile's thread. -/
abbrev thr (d : Dev nD) (L : grid0.Coords) : Thread nD τ := V d (cV L) (jV L)

/-- Index slot at offsets `off` (slot number first), as a copy's destination addresses it: [1,1,400]. -/
abbrev islotP (off : Fin 4 → ℕ) (hs : ∀ a, off a + S1x1x1x400.size a ≤ S2x1x1x400.size a) : Memref sig .scVector .vmem S1x1x400 .i32 :=
  ((ibV).slice (Rect.unit (s := S2x1x1x400) off S1x1x1x400.size hs) (fun _ => rfl)).squeeze S1x1x400 squeezes_S1x1x1x400_S1x1x400
/-- The same slot before its unit axis is dropped: [1,1,1,400]; -/
abbrev islot4P (off : Fin 4 → ℕ) (hs : ∀ a, off a + S1x1x1x400.size a ≤ S2x1x1x400.size a) : Memref sig .scVector .vmem S1x1x1x400 .i32 :=
  (ibV).slice (Rect.unit (s := S2x1x1x400) off S1x1x1x400.size hs) (fun _ => rfl)
/-- and as the gather reads it, a list of 400 words. -/
abbrev listP (off : Fin 4 → ℕ) (hs : ∀ a, off a + S1x1x1x400.size a ≤ S2x1x1x400.size a) : Memref sig .scVector .vmem S400 .i32 :=
  (((islot4P off hs).squeeze S1x1x400 squeezes_S1x1x1x400_S1x1x400).slice (Rect.unit (s := S1x1x400) ![0, 0, 0] S1x1x400.size inb_S1x1x400_S1x1x400_0_0_0) (fun _ => rfl)).squeeze S400 squeezes_S1x1x400_S400
/-- Row slot at offsets `off`: [400,128]. -/
abbrev oslotP (off : Fin 3 → ℕ) (hs : ∀ a, off a + S1x400x128.size a ≤ S2x400x128.size a) : Memref sig .scVector .vmem S400x128 .f32 :=
  ((obV).slice (Rect.unit (s := S2x400x128) off S1x400x128.size hs) (fun _ => rfl)).squeeze S400x128 squeezes_S1x400x128_S400x128
/-- Window of the index array at offsets `off` (window number first): [1,1,400]. -/
abbrev iwinP (off : Fin 3 → ℕ) (hj : ∀ a, off a + S1x1x400.size a ≤ S250x1x400.size a) : Memref sig .scVector .hbm S1x1x400 .i32 :=
  (ixV).slice (Rect.unit (s := S250x1x400) off S1x1x400.size hj) (fun _ => rfl)
/-- Window of the output at offsets `off` (first row first): [400,128]. -/
abbrev owinP (off : Fin 2 → ℕ) (hr : ∀ a, off a + S400x128.size a ≤ S100000x128.size a) : Memref sig .scVector .hbm S400x128 .f32 :=
  (oV).slice (Rect.unit (s := S100000x128) off S400x128.size hr) (fun _ => rfl)
/-- The index ring's and the row ring's semaphores, one per slot. -/
abbrev isemP (off : Fin 1 → ℕ) (hs : ∀ a, off a + S1.size a ≤ S2.size a) : DmaSem sig :=
  ((cc0_scoped2.slice (Rect.unit (s := S2) off S1.size hs)).squeeze S_ squeezes_S1_S_).sem
abbrev osemP (off : Fin 1 → ℕ) (hs : ∀ a, off a + S1.size a ≤ S2.size a) : DmaSem sig :=
  ((cc0_scoped4.slice (Rect.unit (s := S2) off S1.size hs)).squeeze S_ squeezes_S1_S_).sem

/-! In-range evidence for the canonical offsets. -/

theorem islot_inb (p : ℕ) (hp : p < 2) : ∀ a, (![p, 0, 0, 0] : Fin 4 → ℕ) a + S1x1x1x400.size a ≤ S2x1x1x400.size a := by
  intro a; match a with
  | 0 => show p + 1 ≤ 2; omega
  | 1 => show (0 : ℕ) + 1 ≤ 1; omega
  | 2 => show (0 : ℕ) + 1 ≤ 1; omega
  | 3 => show (0 : ℕ) + 400 ≤ 400; omega
theorem oslot_inb (p : ℕ) (hp : p < 2) : ∀ a, (![p, 0, 0] : Fin 3 → ℕ) a + S1x400x128.size a ≤ S2x400x128.size a := by
  intro a; match a with
  | 0 => show p + 1 ≤ 2; omega
  | 1 => show (0 : ℕ) + 400 ≤ 400; omega
  | 2 => show (0 : ℕ) + 128 ≤ 128; omega
theorem sem_inb (p : ℕ) (hp : p < 2) : ∀ a, (![p] : Fin 1 → ℕ) a + S1.size a ≤ S2.size a := by
  intro a; match a with
  | 0 => show p + 1 ≤ 2; omega
theorem iwin_inb (j : ℕ) (hj : j < 250) : ∀ a, (![j, 0, 0] : Fin 3 → ℕ) a + S1x1x400.size a ≤ S250x1x400.size a := by
  intro a; match a with
  | 0 => show j + 1 ≤ 250; omega
  | 1 => show (0 : ℕ) + 1 ≤ 1; omega
  | 2 => show (0 : ℕ) + 400 ≤ 400; omega
theorem owin_inb (j : ℕ) (hj : j < 250) : ∀ a, (![400 * j, 0] : Fin 2 → ℕ) a + S400x128.size a ≤ S100000x128.size a := by
  intro a; match a with
  | 0 => show 400 * j + 400 ≤ 100000; omega
  | 1 => show (0 : ℕ) + 128 ≤ 128; omega

/-- Canonical names: slot `p` of either ring, its semaphore, window `j` of the indices and of the output. -/
abbrev IS (p : ℕ) (hp : p < 2) := islotP ![p, 0, 0, 0] (islot_inb p hp)
abbrev IS4 (p : ℕ) (hp : p < 2) := islot4P ![p, 0, 0, 0] (islot_inb p hp)
abbrev IL (p : ℕ) (hp : p < 2) := listP ![p, 0, 0, 0] (islot_inb p hp)
abbrev OS (p : ℕ) (hp : p < 2) := oslotP ![p, 0, 0] (oslot_inb p hp)
abbrev isem (p : ℕ) (hp : p < 2) : DmaSem sig := isemP ![p] (sem_inb p hp)
abbrev osem (p : ℕ) (hp : p < 2) : DmaSem sig := osemP ![p] (sem_inb p hp)
abbrev IW (j : ℕ) (hj : j < 250) := iwinP ![j, 0, 0] (iwin_inb j hj)
abbrev OW (j : ℕ) (hj : j < 250) := owinP ![400 * j, 0] (owin_inb j hj)

/-! Equal offsets, equal resources: the points-to and semaphore assertions over a view named by offsets
depend only on the offsets' values. Contents are typed at the whole buffer. -/

variable (d : Dev nD) (L : grid0.Coords)

theorem islot_pts_congr {off off' : Fin 4 → ℕ} (e : off = off') (h : ∀ a, off a + S1x1x1x400.size a ≤ S2x1x1x400.size a)
    (h' : ∀ a, off' a + S1x1x1x400.size a ≤ S2x1x1x400.size a) (q : PosShare TreeShare) (g : Buf (Elt F) ((ibV).view.loc (thr d L))) :
    ((islotP off h).view.loc (thr d L) ↦[(islotP off h).view.set]{q} g : sProp 𝕄)
      = ((islotP off' h').view.loc (thr d L) ↦[(islotP off' h').view.set]{q} g) := by
  subst e; rfl
theorem islot4_pts_congr {off off' : Fin 4 → ℕ} (e : off = off') (h : ∀ a, off a + S1x1x1x400.size a ≤ S2x1x1x400.size a)
    (h' : ∀ a, off' a + S1x1x1x400.size a ≤ S2x1x1x400.size a) (q : PosShare TreeShare) (g : Buf (Elt F) ((ibV).view.loc (thr d L))) :
    ((islot4P off h).view.loc (thr d L) ↦[(islot4P off h).view.set]{q} g : sProp 𝕄)
      = ((islot4P off' h').view.loc (thr d L) ↦[(islot4P off' h').view.set]{q} g) := by
  subst e; rfl
theorem oslot_pts_congr {off off' : Fin 3 → ℕ} (e : off = off') (h : ∀ a, off a + S1x400x128.size a ≤ S2x400x128.size a)
    (h' : ∀ a, off' a + S1x400x128.size a ≤ S2x400x128.size a) (q : PosShare TreeShare) (g : Buf (Elt F) ((obV).view.loc (thr d L))) :
    ((oslotP off h).view.loc (thr d L) ↦[(oslotP off h).view.set]{q} g : sProp 𝕄)
      = ((oslotP off' h').view.loc (thr d L) ↦[(oslotP off' h').view.set]{q} g) := by
  subst e; rfl
theorem iwin_pts_congr {off off' : Fin 3 → ℕ} (e : off = off') (h : ∀ a, off a + S1x1x400.size a ≤ S250x1x400.size a)
    (h' : ∀ a, off' a + S1x1x400.size a ≤ S250x1x400.size a) (q : PosShare TreeShare) (g : Buf (Elt F) ((ixV).view.loc (thr d L))) :
    ((iwinP off h).view.loc (thr d L) ↦[(iwinP off h).view.set]{q} g : sProp 𝕄)
      = ((iwinP off' h').view.loc (thr d L) ↦[(iwinP off' h').view.set]{q} g) := by
  subst e; rfl
theorem iwin_rest_congr {off off' : Fin 3 → ℕ} (e : off = off') (h : ∀ a, off a + S1x1x400.size a ≤ S250x1x400.size a)
    (h' : ∀ a, off' a + S1x1x400.size a ≤ S250x1x400.size a) (q : PosShare TreeShare) (g : Buf (Elt F) ((ixV).view.loc (thr d L))) :
    ((iwinP off h).view.loc (thr d L) ↦[Finset.univ \ (iwinP off h).view.set]{q} g : sProp 𝕄)
      = ((iwinP off' h').view.loc (thr d L) ↦[Finset.univ \ (iwinP off' h').view.set]{q} g) := by
  subst e; rfl
theorem owin_pts_congr {off off' : Fin 2 → ℕ} (e : off = off') (h : ∀ a, off a + S400x128.size a ≤ S100000x128.size a)
    (h' : ∀ a, off' a + S400x128.size a ≤ S100000x128.size a) (q : PosShare TreeShare) (g : Buf (Elt F) ((oV).view.loc (thr d L))) :
    ((owinP off h).view.loc (thr d L) ↦[(owinP off h).view.set]{q} g : sProp 𝕄)
      = ((owinP off' h').view.loc (thr d L) ↦[(owinP off' h').view.set]{q} g) := by
  subst e; rfl
theorem isem_congr {off off' : Fin 1 → ℕ} (e : off = off') (h : ∀ a, off a + S1.size a ≤ S2.size a) (h' : ∀ a, off' a + S1.size a ≤ S2.size a) :
    isemP off h = isemP off' h' := by subst e; rfl
theorem osem_congr {off off' : Fin 1 → ℕ} (e : off = off') (h : ∀ a, off a + S1.size a ≤ S2.size a) (h' : ∀ a, off' a + S1.size a ≤ S2.size a) :
    osemP off h = osemP off' h' := by subst e; rfl

end Cert.Kernel.Tb
end
-- ==== Proof.WinValueK.lean ====
/-
  One window's values: what the three transfers of one trip leave, as pure facts about reads of writes through the
  task's views. A window of 400 indices is copied into an index slot; read back as a list, the slot holds the window's
  indices. The gather writes into a row slot, at (r, q), the table's entry (row named by list word r, q). The row slot
  is copied to the window's rows of the output. With the list the window's indices, each below 3, and the scratch
  the table, the output's window ends at the final contents: the table's rows at the window's indices.
-/
import proofs.«207302_g55387898250011_cont_9to1_m_42_19_alg».proof.Proof.SpellK
import proofs.«207302_g55387898250011_cont_9to1_m_42_19_alg».proof.Proof.IdxReadK

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type}

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

/-! ## Reads of a view written whole -/

/-- A view written whole reads back the payload, whatever the buffer held. -/
theorem read_writes_whole {κ : Kind} {sp : Space} {s : Shape} {e : EltTy} (v : View sig κ sp s e)
    (f : v.ty.Contents (Elt F)) (pay : (Rect.whole s).shape.Idx → Elt F e) (x : s.Idx) :
    v.read (Elt F) (v.writes (Elt F) f [⟨Rect.whole s, pay⟩]) x = pay x := by
  have h := View.read_writes_cons_emb v f (Rect.whole s) pay [] x
  rwa [Rect.emb_whole_apply] at h

variable (d : Dev nD) (L : grid0.Coords)

/-- (V1) The index slot written whole, read back as the list of 400 words: word x of the list is the payload's
    entry (0, 0, x). -/
theorem list_read_landed (off : Fin 4 → ℕ) (h : ∀ a, off a + S1x1x1x400.size a ≤ S2x1x1x400.size a)
    (f0 : Buf (Elt F) ((ibV).view.loc (thr d L))) (pay : S1x1x400.Idx → Elt F .i32) (x : S400.Idx) :
    View.read (Elt F) (listP off h).view ((islotP off h).view.writes (Elt F) f0 [⟨Rect.whole S1x1x400, pay⟩]) x
      = pay (ix3 (0 : Fin 1) (0 : Fin 1) (x 0 : Fin 400)) := by
  have hx : (Rect.unit (s := S1x1x400) ![0, 0, 0] S1x1x400.size inb_S1x1x400_S1x1x400_0_0_0).emb
      (Shape.reshapeEquiv squeezes_S1x1x400_S400.numel_eq x) = ix3 (0 : Fin 1) (0 : Fin 1) (x 0 : Fin 400) := by
    rw [Shape.reshapeEquiv_eq_of_rowMajor squeezes_S1x1x400_S400.numel_eq (y := ix3 (0 : Fin 1) (0 : Fin 1) (x 0 : Fin 400)) (by
      rw [Shape.rowMajor_val_three, Shape.rowMajor_val_one]; show (0 * 1 + 0) * 400 + (x 0).val = (x 0).val; omega)]
    funext a
    match a with
    | ⟨0, _⟩ => exact Fin.ext (by show 0 + 1 * 0 = 0; omega)
    | ⟨1, _⟩ => exact Fin.ext (by show 0 + 1 * 0 = 0; omega)
    | ⟨2, _⟩ => exact Fin.ext (by show 0 + 1 * (x 0).val = (x 0).val; omega)
  show View.read (Elt F) (islotP off h).view _ ((Rect.unit (s := S1x1x400) ![0, 0, 0] S1x1x400.size inb_S1x1x400_S1x1x400_0_0_0).emb
      (Shape.reshapeEquiv squeezes_S1x1x400_S400.numel_eq x)) = _
  rw [hx]
  exact read_writes_whole _ _ _ _

/-- (V1) The slot with its unit axis dropped covers the same elements as before: the two points-to assertions are
    one. -/
theorem islot_pts_eq_islot4 (off : Fin 4 → ℕ) (h : ∀ a, off a + S1x1x1x400.size a ≤ S2x1x1x400.size a)
    (q : PosShare TreeShare) (g : Buf (Elt F) ((ibV).view.loc (thr d L))) :
    ((islotP off h).view.loc (thr d L) ↦[(islotP off h).view.set]{q} g : sProp 𝕄)
      = ((islot4P off h).view.loc (thr d L) ↦[(islot4P off h).view.set]{q} g) := by
  show ((islot4P off h).view.loc (thr d L) ↦[((islot4P off h).view.reshape S1x1x400 squeezes_S1x1x1x400_S1x1x400.numel_eq).set]{q} g : sProp 𝕄) = _
  rw [View.set_reshape]

variable (m : (ℓ : Loc nD τ sig) → Buf (Elt F) ℓ)

/-- (V2) The copy-in's payload from the windowed indices, at (0, 0, p) of window j: entry (j, 0, p) of the windows, -/
theorem PI_apply_idxV (off : Fin 3 → ℕ) (ho : ∀ a, off a + S1x1x400.size a ≤ S250x1x400.size a) (j : ℕ) (hj : j < 250)
    (e : off = ![j, 0, 0]) (p : Fin 400) :
    (ReadAs.same : ReadAs (Elt F) S1x1x400 .i32 S1x1x400 .i32).apply (View.read (Elt F) (iwinP off ho).view (idxV m d))
        (ix3 (0 : Fin 1) (0 : Fin 1) p)
      = idxV m d (ix3 (⟨j, hj⟩ : Fin 250) (0 : Fin 1) p) := by
  subst e
  exact (idxW_read m d ⟨j, hj⟩ ho p).trans (idxV_apply m d ⟨j, hj⟩ p).symm

/-- that is entry 400 j + p of the index vector. -/
theorem PI_apply (off : Fin 3 → ℕ) (ho : ∀ a, off a + S1x1x400.size a ≤ S250x1x400.size a) (j : ℕ) (hj : j < 250)
    (e : off = ![j, 0, 0]) (p : Fin 400) :
    (ReadAs.same : ReadAs (Elt F) S1x1x400 .i32 S1x1x400 .i32).apply (View.read (Elt F) (iwinP off ho).view (idxV m d))
        (ix3 (0 : Fin 1) (0 : Fin 1) p)
      = m (a0Loc d) (ix1 (⟨400 * j + p.val, row_lt ⟨j, hj⟩ p⟩ : Fin 100000)) := by
  subst e
  exact idxW_read m d ⟨j, hj⟩ ho p

/-- (V1+V2) The list read off the slot the window was copied into: word x is entry (j, 0, x) of the windows, -/
theorem list_landed_idxV (off4 : Fin 4 → ℕ) (h4 : ∀ a, off4 a + S1x1x1x400.size a ≤ S2x1x1x400.size a)
    (off : Fin 3 → ℕ) (ho : ∀ a, off a + S1x1x400.size a ≤ S250x1x400.size a) (j : ℕ) (hj : j < 250) (e : off = ![j, 0, 0])
    (f0 : Buf (Elt F) ((ibV).view.loc (thr d L))) (p : Fin 400) :
    View.read (Elt F) (listP off4 h4).view ((islotP off4 h4).view.writes (Elt F) f0 [⟨Rect.whole S1x1x400,
        (ReadAs.same : ReadAs (Elt F) S1x1x400 .i32 S1x1x400 .i32).apply (View.read (Elt F) (iwinP off ho).view (idxV m d))⟩]) (ix1 p)
      = idxV m d (ix3 (⟨j, hj⟩ : Fin 250) (0 : Fin 1) p) :=
  (list_read_landed d L off4 h4 f0 _ (ix1 p)).trans (PI_apply_idxV d m off ho j hj e p)

/-- so, the windows' entries all below 3, every word of the list is below 3. -/
theorem list_landed_lt (off4 : Fin 4 → ℕ) (h4 : ∀ a, off4 a + S1x1x1x400.size a ≤ S2x1x1x400.size a)
    (off : Fin 3 → ℕ) (ho : ∀ a, off a + S1x1x400.size a ≤ S250x1x400.size a) (j : ℕ) (hj : j < 250) (e : off = ![j, 0, 0])
    (f0 : Buf (Elt F) ((ibV).view.loc (thr d L))) (hchi : ∀ x, (idxV m d x).toNat < 3) (x : S400.Idx) :
    (View.read (Elt F) (listP off4 h4).view ((islotP off4 h4).view.writes (Elt F) f0 [⟨Rect.whole S1x1x400,
        (ReadAs.same : ReadAs (Elt F) S1x1x400 .i32 S1x1x400 .i32).apply (View.read (Elt F) (iwinP off ho).view (idxV m d))⟩]) x).toNat < 3 := by
  obtain ⟨p, rfl⟩ : ∃ p : Fin 400, x = ix1 p := ⟨x 0, ValueIdx.eq_ix1 x⟩
  rw [list_landed_idxV d L m off4 h4 off ho j hj e f0 p]
  exact hchi _

/-! ## The gather and the copy-out -/

/-- (V3) The gather's payload at (r, q): the scratch's entry (row named by word r of the list, q). -/
theorem PG_apply (off11 : Fin 4 → ℕ) (h11 : ∀ a, off11 a + S1x1x1x400.size a ≤ S2x1x1x400.size a)
    (fb0 : Buf (Elt F) ((ibV).view.loc (thr d L))) (ft : Buf (Elt F) ((shV).view.loc (thr d L)))
    (hn : S400.numel = S400x128.size gathers_S3x128_S400x128.axis')
    (hin : ∀ x : S400.Idx, (View.read (Elt F) (listP off11 h11).view fb0 x).toNat < 3) (r : Fin 400) (q : Fin 128) :
    SparseCore.gatherPayload gathers_S3x128_S400x128
        (View.read (Elt F) ((Memref.whole cc0_scratch0).slice (Rect.unit (s := S3x128) ![0, 0] S3x128.size inb_S3x128_S3x128_0_0) (fun _ => rfl)).view ft)
        (SparseCore.rows (View.read (Elt F) (listP off11 h11).view fb0) hn hin) (ix2 r q)
      = ft (ix2 (⟨(View.read (Elt F) (listP off11 h11).view fb0 (ix1 r)).toNat, hin (ix1 r)⟩ : Fin 3) q) := by
  unfold SparseCore.gatherPayload
  show ft ((Rect.unit (s := S3x128) ![0, 0] S3x128.size inb_S3x128_S3x128_0_0).emb
      (gathers_S3x128_S400x128.idx (SparseCore.rows (View.read (Elt F) (listP off11 h11).view fb0) hn hin) (ix2 r q))) = _
  refine congrArg ft (funext fun a => Fin.ext ?_)
  match a with
  | ⟨0, _⟩ =>
    have hrow : S400.rowMajor.symm (((ix2 r q : S400x128.Idx) gathers_S3x128_S400x128.axis').cast hn.symm) = ix1 r := by
      rw [Equiv.symm_apply_eq]; exact Fin.ext (by rw [Shape.rowMajor_val_one]; rfl)
    show 0 + 1 * (View.read (Elt F) (listP off11 h11).view fb0
        (S400.rowMajor.symm (((ix2 r q : S400x128.Idx) gathers_S3x128_S400x128.axis').cast hn.symm))).toNat = _
    rw [hrow, Nat.zero_add, Nat.one_mul]
  | ⟨1, _⟩ =>
    show 0 + 1 * q.val = q.val
    omega

/-- (V4) The copy-out's payload: the row slot written whole and read back through the same slot (spelled through two
    chains of offsets) is what was written. -/
theorem PO_eq (off10 off12 : Fin 3 → ℕ) (h10 : ∀ a, off10 a + S1x400x128.size a ≤ S2x400x128.size a)
    (h12 : ∀ a, off12 a + S1x400x128.size a ≤ S2x400x128.size a) (e : off10 = off12)
    (g0 : Buf (Elt F) ((obV).view.loc (thr d L))) (pay : S400x128.Idx → Elt F .f32) :
    (ReadAs.same : ReadAs (Elt F) S400x128 .f32 S400x128 .f32).apply
        (View.read (Elt F) (oslotP off12 h12).view ((oslotP off10 h10).view.writes (Elt F) g0 [⟨Rect.whole S400x128, pay⟩]))
      = pay := by
  subst e
  funext x
  exact read_writes_whole _ _ _ x

/-- (V5) The output's window after the copy-out lands, on the window's elements: with the list the window's indices,
    each below 3, and the scratch the table, it is the output's final contents, the table's rows at the window's
    indices. -/
theorem win_landed (off13 : Fin 2 → ℕ) (h13 : ∀ a, off13 a + S400x128.size a ≤ S100000x128.size a) (j : ℕ) (hj : j < 250)
    (e13 : off13 = ![400 * j, 0])
    (off10 off12 : Fin 3 → ℕ) (h10 : ∀ a, off10 a + S1x400x128.size a ≤ S2x400x128.size a)
    (h12 : ∀ a, off12 a + S1x400x128.size a ≤ S2x400x128.size a) (e : off10 = off12)
    (off11 : Fin 4 → ℕ) (h11 : ∀ a, off11 a + S1x1x1x400.size a ≤ S2x1x1x400.size a)
    (fb0 : Buf (Elt F) ((ibV).view.loc (thr d L))) (ft : Buf (Elt F) ((shV).view.loc (thr d L)))
    (g0 : Buf (Elt F) ((obV).view.loc (thr d L))) (fo : Buf (Elt F) ((oV).view.loc (thr d L)))
    (hn : S400.numel = S400x128.size gathers_S3x128_S400x128.axis')
    (hin : ∀ x : S400.Idx, (View.read (Elt F) (listP off11 h11).view fb0 x).toNat < 3)
    (hl : ∀ p : Fin 400, View.read (Elt F) (listP off11 h11).view fb0 (ix1 p) = idxV m d (ix3 (⟨j, hj⟩ : Fin 250) (0 : Fin 1) p))
    (hft : ∀ i, ft i = tblSh m d (cV L) i)
    (hchi : ∀ x, (idxV m d x).toNat < 3) :
    ∀ i ∈ (owinP off13 h13).view.set,
      (owinP off13 h13).view.writes (Elt F) fo [⟨Rect.whole S400x128,
        (ReadAs.same : ReadAs (Elt F) S400x128 .f32 S400x128 .f32).apply
          (View.read (Elt F) (oslotP off12 h12).view ((oslotP off10 h10).view.writes (Elt F) g0 [⟨Rect.whole S400x128,
            SparseCore.gatherPayload gathers_S3x128_S400x128
              (View.read (Elt F) ((Memref.whole cc0_scratch0).slice (Rect.unit (s := S3x128) ![0, 0] S3x128.size inb_S3x128_S3x128_0_0) (fun _ => rfl)).view ft)
              (SparseCore.rows (View.read (Elt F) (listP off11 h11).view fb0) hn hin)⟩]))⟩] i
      = gOut m d i := by
  subst e13
  intro i hi
  obtain ⟨x, -, rfl⟩ := Finset.mem_map.mp hi
  obtain ⟨r, q, rfl⟩ : ∃ (r : Fin 400) (q : Fin 128), x = ix2 r q := ⟨x 0, x 1, ValueIdx.eq_ix2 x⟩
  show (owinP ![400 * j, 0] h13).view.read (Elt F)
        ((owinP ![400 * j, 0] h13).view.writes (Elt F) fo [⟨Rect.whole S400x128, _⟩]) (ix2 r q)
      = (owinP ![400 * j, 0] h13).view.read (Elt F) (gOut m d) (ix2 r q)
  rw [read_writes_whole, PO_eq d L off10 off12 h10 h12 e g0 _, PG_apply d L off11 h11 fb0 ft hn hin r q, hft, tblSh_apply,
    outW_read m d ⟨j, hj⟩ h13 r q, ← idxV_apply m d ⟨j, hj⟩ r]
  exact congrArg (fun k : Fin 3 => m (a1Loc d) (ix2 k q)) (Fin.ext (by
    show (View.read (Elt F) (listP off11 h11).view fb0 (ix1 r)).toNat
      = (rowOf (idxV m d (ix3 (⟨j, hj⟩ : Fin 250) (0 : Fin 1) r))).val
    rw [hl r, rowOf_val (hchi _)]))

/-- (V5) as an equality of assertions: the landed window, held on its elements, is held at the output's final
    contents. -/
theorem win_landed_pts (off13 : Fin 2 → ℕ) (h13 : ∀ a, off13 a + S400x128.size a ≤ S100000x128.size a) (j : ℕ) (hj : j < 250)
    (e13 : off13 = ![400 * j, 0])
    (off10 off12 : Fin 3 → ℕ) (h10 : ∀ a, off10 a + S1x400x128.size a ≤ S2x400x128.size a)
    (h12 : ∀ a, off12 a + S1x400x128.size a ≤ S2x400x128.size a) (e : off10 = off12)
    (off11 : Fin 4 → ℕ) (h11 : ∀ a, off11 a + S1x1x1x400.size a ≤ S2x1x1x400.size a)
    (fb0 : Buf (Elt F) ((ibV).view.loc (thr d L))) (ft : Buf (Elt F) ((shV).view.loc (thr d L)))
    (g0 : Buf (Elt F) ((obV).view.loc (thr d L))) (fo : Buf (Elt F) ((oV).view.loc (thr d L)))
    (hn : S400.numel = S400x128.size gathers_S3x128_S400x128.axis')
    (hin : ∀ x : S400.Idx, (View.read (Elt F) (listP off11 h11).view fb0 x).toNat < 3)
    (hl : ∀ p : Fin 400, View.read (Elt F) (listP off11 h11).view fb0 (ix1 p) = idxV m d (ix3 (⟨j, hj⟩ : Fin 250) (0 : Fin 1) p))
    (hft : ∀ i, ft i = tblSh m d (cV L) i)
    (hchi : ∀ x, (idxV m d x).toNat < 3) (q : PosShare TreeShare) :
    ((owinP off13 h13).view.loc (thr d L) ↦[(owinP off13 h13).view.set]{q}
        ((owinP off13 h13).view.writes (Elt F) fo [⟨Rect.whole S400x128,
          (ReadAs.same : ReadAs (Elt F) S400x128 .f32 S400x128 .f32).apply
            (View.read (Elt F) (oslotP off12 h12).view ((oslotP off10 h10).view.writes (Elt F) g0 [⟨Rect.whole S400x128,
              SparseCore.gatherPayload gathers_S3x128_S400x128
                (View.read (Elt F) ((Memref.whole cc0_scratch0).slice (Rect.unit (s := S3x128) ![0, 0] S3x128.size inb_S3x128_S3x128_0_0) (fun _ => rfl)).view ft)
                (SparseCore.rows (View.read (Elt F) (listP off11 h11).view fb0) hn hin)⟩]))⟩]) : sProp 𝕄)
      = ((owinP off13 h13).view.loc (thr d L) ↦[(owinP off13 h13).view.set]{q} gOut m d) :=
  pointsTo_congr (win_landed d L m off13 h13 j hj e13 off10 off12 h10 h12 e off11 h11 fb0 ft g0 fo hn hin hl hft hchi)

end Cert.Kernel.Tb

end
-- ==== Proof.TileInvK.lean ====
import proofs.«207302_g55387898250011_cont_9to1_m_42_19_alg».proof.Proof.SpellK

/-! What the tile holds between two trips of its loop.

Before trip `k` (of `nn L`) the five counters have their closed values and, with `p = k mod 2`:
* unless `k = nn L`, window `w0n L + k`'s indices are in flight into index slot `p` on that slot's
  semaphore, read through index token `p`; the other index slot, its semaphore and token are idle;
* row slot `p` and its semaphore are idle; unless `k = 0`, row slot `1 - p` is in flight to window
  `w0n L + k - 1`'s rows of the output, which it delivers at their final contents;
* the windows before that one are at their final contents, those from `k` on untouched. -/

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN)

variable {F : FTy → Type}

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

variable (m : (ℓ : Loc nD τ sig) → Buf (Elt F) ℓ) (d : Dev nD) (L : grid0.Coords)

theorem mod2 (k : ℕ) : k % 2 < 2 := Nat.mod_lt k (by decide)
theorem w0n_lt : ∀ (L : grid0.Coords) (k : Fin 8), k.val < nn L → w0n L + k.val < 250 := by decide +kernel
theorem nn_le8 : ∀ (L : grid0.Coords), nn L ≤ 8 := by decide +kernel
theorem nn_ge7 : ∀ (L : grid0.Coords), 7 ≤ nn L := by decide +kernel
theorem w0n_lt' (k : ℕ) (h : k < nn L) : w0n L + k < 250 := w0n_lt L ⟨k, lt_of_lt_of_le h (nn_le8 L)⟩ h

/-- The tile's index token (the whole index array at a read share), split once more: one token per index slot. -/
abbrev tokI (p : ℕ) : PosShare TreeShare := shareTokN (shareTokN fullShare (wn L)) (1 + p)
/-- The tile's read token of the shared table. -/
abbrev tokS : PosShare TreeShare := shareTokN fullShare (jV L).val

/-- Output window `j` held at contents `f` (nothing for a number that names no window). -/
def owPts (j : ℕ) (f : Buf (Elt F) (v1Loc d)) : sProp 𝕄 :=
  if h : j < 250 then ((OW j h).view.loc (thr d L) ↦[(OW j h).view.set]{fullShare} f) else iprop(emp)

/-- Index slot `k mod 2`: window `w0n L + k` on its way in; after the last trip, idle. -/
def InCur (k : ℕ) : sProp 𝕄 :=
  if h : k < nn L then
    iprop(∃ fb : Buf (Elt F) ((ibV).view.loc (thr d L)),
      ⌜∀ x : Fin 400, View.read (Elt F) (IL (k % 2) (mod2 k)).view fb (ix1 x) = idxV m d (ix3 (⟨w0n L + k, w0n_lt' L k h⟩ : Fin 250) (0 : Fin 1) x)⌝
      ∗ Transfers.Flight countersEmb (thr d L) (SemLoc.dma (isem (k % 2) (mod2 k))) default 12800
          iprop(((IS4 (k % 2) (mod2 k)).view.loc (thr d L) ↦[(IS4 (k % 2) (mod2 k)).view.set]{fullShare} fb)
            ∗ ((IW (w0n L + k) (w0n_lt' L k h)).view.loc (thr d L) ↦[(IW (w0n L + k) (w0n_lt' L k h)).view.set]{tokI L (k % 2)} idxV m d))
      ∗ ((IW (w0n L + k) (w0n_lt' L k h)).view.loc (thr d L) ↦[Finset.univ \ (IW (w0n L + k) (w0n_lt' L k h)).view.set]{tokI L (k % 2)} idxV m d))
  else
    iprop((∃ fb : Buf (Elt F) ((ibV).view.loc (thr d L)), (IS4 (k % 2) (mod2 k)).view.loc (thr d L) ↦[(IS4 (k % 2) (mod2 k)).view.set]{fullShare} fb)
      ∗ semVal (thr d L, SemLoc.dma (isem (k % 2) (mod2 k))) 0
      ∗ ((ixV).view.loc (thr d L) ↦{tokI L (k % 2)} idxV m d))

/-- The other index slot: idle. -/
def InNext (k : ℕ) : sProp 𝕄 :=
  iprop((∃ fb : Buf (Elt F) ((ibV).view.loc (thr d L)), (IS ((k + 1) % 2) (mod2 _)).view.loc (thr d L) ↦[(IS ((k + 1) % 2) (mod2 _)).view.set]{fullShare} fb)
    ∗ semVal (thr d L, SemLoc.dma (isem ((k + 1) % 2) (mod2 _))) 0
    ∗ ((ixV).view.loc (thr d L) ↦{tokI L ((k + 1) % 2)} idxV m d))

/-- Row slot `k mod 2`: idle. -/
def OutCur (k : ℕ) : sProp 𝕄 :=
  iprop((∃ g : Buf (Elt F) ((obV).view.loc (thr d L)), (OS (k % 2) (mod2 k)).view.loc (thr d L) ↦[(OS (k % 2) (mod2 k)).view.set]{fullShare} g)
    ∗ semVal (thr d L, SemLoc.dma (osem (k % 2) (mod2 k))) 0)

/-- The other row slot: on its way out to the previous window, which it delivers at its final contents; idle before the first trip. -/
def OutPrev (k : ℕ) : sProp 𝕄 :=
  if h : 0 < k ∧ k ≤ nn L then
    iprop(∃ g : Buf (Elt F) ((obV).view.loc (thr d L)),
      Transfers.Flight countersEmb (thr d L) (SemLoc.dma (osem ((k + 1) % 2) (mod2 _))) default 1638400
        iprop(((OW (w0n L + (k - 1)) (w0n_lt' L (k - 1) (Nat.lt_of_lt_of_le (Nat.sub_lt h.1 Nat.one_pos) h.2))).view.loc (thr d L) ↦[(OW (w0n L + (k - 1)) (w0n_lt' L (k - 1) (Nat.lt_of_lt_of_le (Nat.sub_lt h.1 Nat.one_pos) h.2))).view.set]{fullShare} gOut m d)
          ∗ ((OS ((k + 1) % 2) (mod2 _)).view.loc (thr d L) ↦[(OS ((k + 1) % 2) (mod2 _)).view.set]{fullShare} g)))
  else
    iprop((∃ g : Buf (Elt F) ((obV).view.loc (thr d L)), (OS ((k + 1) % 2) (mod2 _)).view.loc (thr d L) ↦[(OS ((k + 1) % 2) (mod2 _)).view.set]{fullShare} g)
      ∗ semVal (thr d L, SemLoc.dma (osem ((k + 1) % 2) (mod2 _))) 0)

/-- The tile's windows of the output: final below `k - 1`, untouched from `k` on (window `k - 1` is in flight). -/
def Wins (k : ℕ) : sProp 𝕄 :=
  iprop((bigSep (Finset.range (k - 1)) fun j => owPts d L (w0n L + j) (gOut m d))
    ∗ bigSep (Finset.Ico k (nn L)) fun j => owPts d L (w0n L + j) (m (v1Loc d)))

/-- The invariant of the tile's loop. -/
def inv (O : CellTallies nD τ sig (HIx 1)) (W : Waits sig (HIx 1)) (k : ℕ) (acc : BitVec 32 × BitVec 32 × BitVec 32 × BitVec 32 × BitVec 32) : sProp 𝕄 :=
  iprop(⌜acc = (a7 L k, a8 k, a8 k, a10 k, a11 L k) ∧ k ≤ nn L⌝
    ∗ Transfers.MayWaits (thr d L) (none : HIx 1) O
    ∗ (∃ W', ⌜∀ p ∈ W', p ∈ W ∨ p.2 = none⌝ ∗ owes (thr d L) O W')
    ∗ ((shV).view.loc (thr d L) ↦{tokS L} tblSh m d (cV L))
    ∗ semVal (thr d L, SemLoc.dma (5 : DmaSem sig)) 0
    ∗ InCur m d L k ∗ InNext m d L k ∗ OutCur d L k ∗ OutPrev m d L k ∗ Wins m d L k)

end Cert.Kernel.Tb
end
-- ==== Proof.TileGlueK.lean ====
/-
  One tile's task, the pieces the shell is assembled from: the subcore's scoped storage item by item, the shared scratch
  across the barrier, the rings by slots, the tile's elements of the output by windows, its read token of the indices by cells.
-/
import proofs.«207302_g55387898250011_cont_9to1_m_42_19_alg».proof.Proof.CommonK
import proofs.«207302_g55387898250011_cont_9to1_m_42_19_alg».proof.Proof.IdxReadK
import proofs.«207302_g55387898250011_cont_9to1_m_42_19_alg».proof.Proof.SpellK
import proofs.«207302_g55387898250011_cont_9to1_m_42_19_alg».proof.Proof.WinValueK
import proofs.«207302_g55387898250011_cont_9to1_m_42_19_alg».proof.Proof.TileInvK

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join pointsTo_toks_range)

variable {F : FTy → Type}

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

variable (m : (ℓ : Loc nD τ sig) → Buf (Elt F) ℓ)

variable [FloatOps F]

variable (d : Dev nD) (L : grid0.Coords)

/-! ## The tile's scoped storage, item by item -/

/-- The condition of the first branch: this tile is tile 0 of its SparseCore. -/
def cond1 (L : grid0.Coords) : BitVec 1 :=
  Scalar.cmpi .ne (Scalar.extui (Scalar.cmpi .eq (BitVec.ofNat 32 (L 1).val) 0#32)) 0#32
theorem cond1_iff : ∀ L : grid0.Coords, cond1 L = 1#1 ↔ (L 1).val = 0 := by decide +kernel

/-- The subcore's seven DMA semaphores are its scoped cells. -/
theorem ownSems0_V :
    (ownSems0 (thr d L) : sProp 𝕄)
      = iprop(semVal (thr d L, SemLoc.dma (0 : DmaSem sig)) 0 ∗ semVal (thr d L, SemLoc.dma (1 : DmaSem sig)) 0
          ∗ semVal (thr d L, SemLoc.dma (2 : DmaSem sig)) 0 ∗ semVal (thr d L, SemLoc.dma (3 : DmaSem sig)) 0
          ∗ semVal (thr d L, SemLoc.dma (4 : DmaSem sig)) 0 ∗ semVal (thr d L, SemLoc.dma (5 : DmaSem sig)) 0
          ∗ semVal (thr d L, SemLoc.dma (6 : DmaSem sig)) 0) := by
  rw [SparseCore.Cfg.ownSems0_eq]
  rw [show (Finset.univ.filter fun sm : SemLoc sig => sm.isScoped (thr d L).2.kind)
      = ({SemLoc.dma 0, SemLoc.dma 1, SemLoc.dma 2, SemLoc.dma 3, SemLoc.dma 4, SemLoc.dma 5, SemLoc.dma 6} : Finset (SemLoc sig)) from
      (show (Finset.univ.filter fun sm : SemLoc sig => sm.isScoped Kind.scVector) = _ by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The two rings are among the subcore's own buffers: they are they, at some contents, and the rest. -/
theorem ownBufs_V :
    (ownBufs (thr d L) : sProp 𝕄)
      = iprop((∃ f, (thr d L).loc cc0_scoped1 ↦{fullShare} f) ∗ (∃ f, (thr d L).loc cc0_scoped3 ↦{fullShare} f)
          ∗ bigSep (((ownRefs (τ := τ) (.scVector (cV L) (jV L))).erase ((Proc.scVector (cV L) (jV L)).devRef cc0_scoped1)).erase
              ((Proc.scVector (cV L) (jV L)).devRef cc0_scoped3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scoped1) rfl),
    SparseCore.bigSep_erase' (Finset.mem_erase.mpr ⟨fun h => absurd (congrArg (fun b : DevRef τ sig => b.idx.val) h) Nat.one_ne_zero, SparseCore.Cfg.mem_ownRefs_of_owner (p := Proc.scVector (cV L) (jV L)) (b := (Proc.scVector (cV L) (jV L)).devRef cc0_scoped3) rfl⟩)]

/-! ## The shared scratch across the barrier -/

/-- The whole scratch overwritten holds what was written. -/
theorem sh_written (fsh w : Buf (Elt F) (shLoc d (cV L))) :
    ((shV).view.loc (thr d L) ↦{fullShare} View.write (Elt F) (shV).view fsh w Finset.univ : sProp 𝕄) = (shLoc d (cV L) ↦{fullShare} w) := by
  rw [View.write_whole_univ]; rfl

/-- The filled scratch: sixteen read tokens, one per tile, and the rest. -/
theorem sh_split (c : Fin τ.nSC) :
    (shLoc d c ↦{fullShare} tblSh m d c : sProp 𝕄) ⊢ iprop(shKeep m d c ∗ bigSep Finset.univ fun j : Fin (grid0.bound 1) => shTok m d c (j.castLE hsub0).val) :=
  pointsTo_toks_split (ℓ := shLoc d c) (S := Finset.univ) (f := tblSh m d c) fullShare 16

/-- Tile 0's duties hand the tokens over, one per round; -/
theorem pays_intro_zero (c : Fin τ.nSC) :
    (bigSep Finset.univ fun j : Fin (grid0.bound 1) => shTok m d c (j.castLE hsub0).val)
      ⊢ (bigSep Finset.univ fun j : Fin (grid0.bound 1) => (bRd (F := F) m).payload (bcell d c (j.castLE hsub0)) 0 0 : sProp 𝕄) :=
  bigSep_mono fun j _ => by
    show _ ⊢ bPay m (bcell d c (j.castLE hsub0)) 0
    unfold bPay; dsimp only
    rw [if_pos rfl]

/-- the other tiles' hand nothing; -/
theorem pays_intro_other (c : Fin τ.nSC) {n : ℕ} (hn : n ≠ 0) :
    (iprop(emp) : sProp 𝕄) ⊢ (bigSep Finset.univ fun j : Fin (grid0.bound 1) => (bRd (F := F) m).payload (bcell d c (j.castLE hsub0)) 0 n : sProp 𝕄) := by
  rw [show (bigSep Finset.univ fun j : Fin (grid0.bound 1) => (bRd (F := F) m).payload (bcell d c (j.castLE hsub0)) 0 n)
      = bigSep Finset.univ fun _ : Fin (grid0.bound 1) => (iprop(emp) : sProp 𝕄) from
      bigSep_congr fun j _ => by
        show bPay m (bcell d c (j.castLE hsub0)) n = _
        unfold bPay; dsimp only
        rw [if_neg hn], bigSep_emp']

/-- and what a tile's own round collected holds its token. -/
theorem pays_elim (c : Fin τ.nSC) (i : Fin τ.nSub) :
    (bigSep ((bRd (F := F) m).duties (bcell d c i) 0 \ ∅) fun n => (bRd (F := F) m).payload (bcell d c i) 0 n) ⊢ (shTok m d c i.val : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d c i) 0 ⊢ _
  unfold bPay; dsimp only
  rw [if_pos rfl]

/-! ## The rings by slots, the tile's output by windows, its index token by cells -/

/-- An element of the index ring lies in slot p exactly when its first coordinate is p; -/
theorem mem_islot (p : ℕ) (hp : p < 2) (i : S2x1x1x400.Idx) :
    i ∈ (Rect.unit (s := S2x1x1x400) ![p, 0, 0, 0] S1x1x1x400.size (islot_inb p hp)).set ↔ (i 0).val = p := by
  rw [Rect.mem_set_unit]
  have h0 : (i 0).val < 2 := (i 0).isLt
  have h1 : (i 1).val < 1 := (i 1).isLt
  have h2 : (i 2).val < 1 := (i 2).isLt
  have h3 : (i 3).val < 400 := (i 3).isLt
  constructor
  · intro h
    have := h 0
    have e : p ≤ (i 0).val ∧ (i 0).val < p + 1 := this
    omega
  · intro h a
    match a with
    | 0 => exact (show p ≤ (i 0).val ∧ (i 0).val < p + 1 from ⟨by omega, by omega⟩)
    | 1 => exact (show 0 ≤ (i 1).val ∧ (i 1).val < 0 + 1 from ⟨by omega, by omega⟩)
    | 2 => exact (show 0 ≤ (i 2).val ∧ (i 2).val < 0 + 1 from ⟨by omega, by omega⟩)
    | 3 => exact (show 0 ≤ (i 3).val ∧ (i 3).val < 0 + 400 from ⟨by omega, by omega⟩)

/-- of the row ring likewise. -/
theorem mem_oslot (p : ℕ) (hp : p < 2) (i : S2x400x128.Idx) :
    i ∈ (Rect.unit (s := S2x400x128) ![p, 0, 0] S1x400x128.size (oslot_inb p hp)).set ↔ (i 0).val = p := by
  rw [Rect.mem_set_unit]
  have h0 : (i 0).val < 2 := (i 0).isLt
  have h1 : (i 1).val < 400 := (i 1).isLt
  have h2 : (i 2).val < 128 := (i 2).isLt
  constructor
  · intro h
    have := h 0
    have e : p ≤ (i 0).val ∧ (i 0).val < p + 1 := this
    omega
  · intro h a
    match a with
    | 0 => exact (show p ≤ (i 0).val ∧ (i 0).val < p + 1 from ⟨by omega, by omega⟩)
    | 1 => exact (show 0 ≤ (i 1).val ∧ (i 1).val < 0 + 400 from ⟨by omega, by omega⟩)
    | 2 => exact (show 0 ≤ (i 2).val ∧ (i 2).val < 0 + 128 from ⟨by omega, by omega⟩)

theorem IS_set (p : ℕ) (hp : p < 2) :
    (IS p hp).view.set = (Rect.unit (s := S2x1x1x400) ![p, 0, 0, 0] S1x1x1x400.size (islot_inb p hp)).set := by
  show (((ibV).view.slice (Rect.unit (s := S2x1x1x400) ![p, 0, 0, 0] S1x1x1x400.size (islot_inb p hp))).reshape S1x1x400 squeezes_S1x1x1x400_S1x1x400.numel_eq).set = _
  rw [View.set_reshape, View.set_slice]; exact Finset.map_refl

theorem OS_set (p : ℕ) (hp : p < 2) :
    (OS p hp).view.set = (Rect.unit (s := S2x400x128) ![p, 0, 0] S1x400x128.size (oslot_inb p hp)).set := by
  show (((obV).view.slice (Rect.unit (s := S2x400x128) ![p, 0, 0] S1x400x128.size (oslot_inb p hp))).reshape S400x128 squeezes_S1x400x128_S400x128.numel_eq).set = _
  rw [View.set_reshape, View.set_slice]; exact Finset.map_refl

/-- The index ring whole is its two slots, each by its elements; -/
theorem ib_split (f : Buf (Elt F) ((ibV).view.loc (thr d L))) :
    ((ibV).view.loc (thr d L) ↦{fullShare} f : sProp 𝕄)
      = iprop(((ibV).view.loc (thr d L) ↦[(IS 0 Nat.zero_lt_two).view.set]{fullShare} f)
          ∗ ((ibV).view.loc (thr d L) ↦[(IS 1 Nat.one_lt_two).view.set]{fullShare} f)) := by
  rw [IS_set 0 Nat.zero_lt_two, IS_set 1 Nat.one_lt_two]
  have hd : Disjoint (Rect.unit (s := S2x1x1x400) ![0, 0, 0, 0] S1x1x1x400.size (islot_inb 0 Nat.zero_lt_two)).set
      (Rect.unit (s := S2x1x1x400) ![1, 0, 0, 0] S1x1x1x400.size (islot_inb 1 Nat.one_lt_two)).set :=
    Finset.disjoint_left.mpr fun i h0 h1 => by rw [mem_islot 0 Nat.zero_lt_two] at h0; rw [mem_islot 1 Nat.one_lt_two] at h1; omega
  have hc : (Rect.unit (s := S2x1x1x400) ![0, 0, 0, 0] S1x1x1x400.size (islot_inb 0 Nat.zero_lt_two)).set
      ∪ (Rect.unit (s := S2x1x1x400) ![1, 0, 0, 0] S1x1x1x400.size (islot_inb 1 Nat.one_lt_two)).set = Finset.univ := by
    ext i
    refine ⟨fun _ => Finset.mem_univ _, fun _ => ?_⟩
    rw [Finset.mem_union, mem_islot 0 Nat.zero_lt_two, mem_islot 1 Nat.one_lt_two]
    have : (i 0).val < 2 := (i 0).isLt
    omega
  have h := pointsTo_union (ℓ := (ibV).view.loc (thr d L)) (q := fullShare) (f := f) (Ix := HIx 1) (Name := ℕ) (U := UU) (Lvl := ℕ) hd
  rw [hc] at h
  exact BI.equiv_iff.mp ⟨h.1, h.2⟩

/-- the row ring likewise. -/
theorem ob_split (f : Buf (Elt F) ((obV).view.loc (thr d L))) :
    ((obV).view.loc (thr d L) ↦{fullShare} f : sProp 𝕄)
      = iprop(((obV).view.loc (thr d L) ↦[(OS 0 Nat.zero_lt_two).view.set]{fullShare} f)
          ∗ ((obV).view.loc (thr d L) ↦[(OS 1 Nat.one_lt_two).view.set]{fullShare} f)) := by
  rw [OS_set 0 Nat.zero_lt_two, OS_set 1 Nat.one_lt_two]
  have hd : Disjoint (Rect.unit (s := S2x400x128) ![0, 0, 0] S1x400x128.size (oslot_inb 0 Nat.zero_lt_two)).set
      (Rect.unit (s := S2x400x128) ![1, 0, 0] S1x400x128.size (oslot_inb 1 Nat.one_lt_two)).set :=
    Finset.disjoint_left.mpr fun i h0 h1 => by rw [mem_oslot 0 Nat.zero_lt_two] at h0; rw [mem_oslot 1 Nat.one_lt_two] at h1; omega
  have hc : (Rect.unit (s := S2x400x128) ![0, 0, 0] S1x400x128.size (oslot_inb 0 Nat.zero_lt_two)).set
      ∪ (Rect.unit (s := S2x400x128) ![1, 0, 0] S1x400x128.size (oslot_inb 1 Nat.one_lt_two)).set = Finset.univ := by
    ext i
    refine ⟨fun _ => Finset.mem_univ _, fun _ => ?_⟩
    rw [Finset.mem_union, mem_oslot 0 Nat.zero_lt_two, mem_oslot 1 Nat.one_lt_two]
    have : (i 0).val < 2 := (i 0).isLt
    omega
  have h := pointsTo_union (ℓ := (obV).view.loc (thr d L)) (q := fullShare) (f := f) (Ix := HIx 1) (Name := ℕ) (U := UU) (Lvl := ℕ) hd
  rw [hc] at h
  exact BI.equiv_iff.mp ⟨h.1, h.2⟩

/-- The same with each slot's elements held at the slot's own name. -/
theorem ib_split' (f : Buf (Elt F) ((ibV).view.loc (thr d L))) :
    ((ibV).view.loc (thr d L) ↦{fullShare} f : sProp 𝕄)
      = iprop(((IS 0 Nat.zero_lt_two).view.loc (thr d L) ↦[(IS 0 Nat.zero_lt_two).view.set]{fullShare} f)
          ∗ ((IS 1 Nat.one_lt_two).view.loc (thr d L) ↦[(IS 1 Nat.one_lt_two).view.set]{fullShare} f)) := ib_split d L f
theorem ob_split' (f : Buf (Elt F) ((obV).view.loc (thr d L))) :
    ((obV).view.loc (thr d L) ↦{fullShare} f : sProp 𝕄)
      = iprop(((OS 0 Nat.zero_lt_two).view.loc (thr d L) ↦[(OS 0 Nat.zero_lt_two).view.set]{fullShare} f)
          ∗ ((OS 1 Nat.one_lt_two).view.loc (thr d L) ↦[(OS 1 Nat.one_lt_two).view.set]{fullShare} f)) := ob_split d L f

/-- The tile's read token of the windowed indices, split once more: what is left after three, and the three. -/
theorem idx_split (w : ℕ) :
    (idxTok m d w : sProp 𝕄) ⊣⊢ iprop(((ixV).view.loc (thr d L) ↦{shareDrop (shareTokN fullShare w) 3} idxV m d)
      ∗ ((ixV).view.loc (thr d L) ↦{shareTokN (shareTokN fullShare w) 0} idxV m d)
      ∗ ((ixV).view.loc (thr d L) ↦{shareTokN (shareTokN fullShare w) 1} idxV m d)
      ∗ ((ixV).view.loc (thr d L) ↦{shareTokN (shareTokN fullShare w) 2} idxV m d)) := by
  have h : ((ixV).view.loc (thr d L) ↦{shareTokN fullShare w} idxV m d : sProp 𝕄) ⊣⊢ _ :=
    pointsTo_toks_range (ℓ := (ixV).view.loc (thr d L)) (S := Finset.univ) (f := idxV m d) (shareTokN fullShare w) 3
  rw [show Finset.range 3 = {0, 1, 2} by decide, SparseCore.bigSep_insert' (by decide), SparseCore.bigSep_insert' (by decide), bigSep_singleton] at h
  exact h

/-- The tile's elements of the output are its windows, one points-to each. -/
theorem out_wins (f : Buf (Elt F) (v1Loc d)) :
    (outPts d (wid (cV L).val (jV L).val) f : sProp 𝕄) = bigSep (Finset.Ico 0 (nn L)) fun j => owPts d L (w0n L + j) f := by
  have hw0 : w0 (wn L) = w0n L := rfl
  have hnw : nwin (wn L) = nn L := rfl
  show (v1Loc d ↦[outSet (wn L)]{fullShare} f : sProp 𝕄) = _
  unfold outSet
  rw [pointsTo_biUnion (ℓ := v1Loc d) (wins (wn L)) winSet (fun _ _ _ _ h => winSet_disjoint h)]
  have hwins : wins (wn L) = (Finset.Ico 0 (nn L)).image (fun k => if h : w0n L + k < 250 then (⟨w0n L + k, h⟩ : Fin 250) else ⟨0, by decide⟩) := by
    ext j
    simp only [mem_wins, Finset.mem_image, Finset.mem_Ico]
    constructor
    · rintro ⟨h1, h2⟩
      refine ⟨j.val - w0n L, ⟨Nat.zero_le _, by omega⟩, ?_⟩
      have hj := j.isLt
      rw [dif_pos (by omega)]
      exact Fin.ext (by show w0n L + (j.val - w0n L) = j.val; omega)
    · rintro ⟨k, ⟨-, hk⟩, rfl⟩
      have hlt := w0n_lt' L k hk
      rw [dif_pos hlt]
      constructor
      · show w0 (wn L) ≤ w0n L + k; omega
      · show w0n L + k < w0 (wn L) + nwin (wn L); omega
  rw [hwins, SparseCore.bigSep_image_of_injOn (fun a ha b hb e => by
    have h1 := w0n_lt' L a (Finset.mem_Ico.mp ha).2
    have h2 := w0n_lt' L b (Finset.mem_Ico.mp hb).2
    simp only [dif_pos h1, dif_pos h2] at e
    have := congrArg Fin.val e
    simp only at this
    omega)]
  refine bigSep_congr fun k hk => ?_
  have hlt := w0n_lt' L k (Finset.mem_Ico.mp hk).2
  unfold owPts
  rw [dif_pos hlt, dif_pos hlt, outW_set ⟨w0n L + k, hlt⟩ (owin_inb _ hlt)]

/-- What tile 0 alone carries through its task: its SparseCore's read token of the table and what it kept of the scratch. -/
abbrev tile0X (c : Fin τ.nSC) (s : Fin τ.nSub) : sProp 𝕄 := if s.val = 0 then iprop(a1Tok m d c.val ∗ shKeep m d c) else iprop(emp)

end Cert.Kernel.Tb

end
-- ==== Proof.TileFinK.lean ====
import proofs.«207302_g55387898250011_cont_9to1_m_42_19_alg».proof.Proof.WordsK

namespace Cert.Kernel.Tb

open Cert.Kernel Cert.Kernel.Gen Idealize.ShloMosaic

/-! The words after the last trip, decided for all tiles at once: the two side conditions the program assumes of the
    carried counters, the offsets of the last wait, and the three words the loop's region reads from before it. -/

theorem chk8_fin : ∀ L : grid0.Coords, k0_chk8 L (a11 L (nn L)) := by decide +kernel
theorem chk7_fin : ∀ L : grid0.Coords, k0_chk7 L (a10 (nn L)) := by decide +kernel
theorem off34_fin : ∀ L : grid0.Coords, k0_off34 (a10 (nn L)) = ![(nn L + 1) % 2] := by decide +kernel
theorem off35_fin : ∀ L : grid0.Coords, k0_off35 (a10 (nn L)) = ![(nn L + 1) % 2, 0, 0] := by decide +kernel
theorem off33_fin : ∀ L : grid0.Coords, k0_off33 L (a11 L (nn L)) = ![400 * (w0n L + (nn L - 1)), 0] := by decide +kernel

/-- Worker number, window count and first window as the program computes them from the grid coordinates. -/
def v6w (L : grid0.Coords) : BitVec 32 :=
  Scalar.addi (Scalar.addi 0#32 (Scalar.muli (BitVec.ofNat 32 (L 1).val) 1#32)) (Scalar.muli (BitVec.ofNat 32 (L 0).val) 16#32)
def v8w (L : grid0.Coords) : BitVec 32 := Scalar.select (Scalar.cmpi .slt (v6w L) 26#32) 8#32 7#32
def v13w (L : grid0.Coords) : BitVec 32 :=
  Scalar.select (Scalar.cmpi .slt (v6w L) 26#32) (Scalar.muli (v6w L) (v8w L)) (Scalar.addi (Scalar.muli (v6w L) 7#32) 26#32)
def v14w (L : grid0.Coords) : BitVec 32 := Scalar.muli 1#32 (v8w L)
theorem v8w_eq : ∀ L : grid0.Coords, v8w L = BitVec.ofNat 32 (nn L) := by decide +kernel
theorem v13w_eq : ∀ L : grid0.Coords, v13w L = BitVec.ofNat 32 (w0n L) := by decide +kernel
theorem v14w_eq : ∀ L : grid0.Coords, v14w L = BitVec.ofNat 32 (nn L) := by decide +kernel
theorem c17_eq : ∀ L : grid0.Coords, Scalar.cmpi .ne (Scalar.extui (Scalar.cmpi .eq (Scalar.subi (v14w L) 1#32) (Scalar.subi (Scalar.muli 1#32 (v8w L)) 1#32))) 0#32 = 1#1 := by decide +kernel
theorem nn_pos : ∀ L : grid0.Coords, 0 < nn L := by decide +kernel
theorem init_eq : ∀ L : grid0.Coords, ((1#32, 0#32, 0#32, 0#32, 0#32) : BitVec 32 × BitVec 32 × BitVec 32 × BitVec 32 × BitVec 32) = (a7 L 0, a8 0, a8 0, a10 0, a11 L 0) := by decide +kernel

end Cert.Kernel.Tb
-- ==== Proof.TileEndsK.lean ====
/-
  One tile's task, the two ends of its loop. Entering: the first window's copy in flight, both rings idle by slots, the
  tile's windows of the output untouched, is the invariant before trip 0. Leaving: the invariant after the last trip read
  without parities: both index slots idle, so the index ring whole; one row slot idle and the other on its way out to the
  last window, which it delivers at its final contents.
-/
import proofs.«207302_g55387898250011_cont_9to1_m_42_19_alg».proof.Proof.TileGlueK
import proofs.«207302_g55387898250011_cont_9to1_m_42_19_alg».proof.Proof.TileFinK

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join pointsTo_toks_range)

variable {F : FTy → Type}

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

variable (m : (ℓ : Loc nD τ sig) → Buf (Elt F) ℓ)

variable [FloatOps F]

variable (d : Dev nD) (L : grid0.Coords)

/-! ## Entering the loop -/

/-- What lands in index slot 0, read as a list of 400 words, whatever offsets vector names the slot. -/
theorem list_read_landed0 (off : Fin 4 → ℕ) (h : ∀ a, off a + S1x1x1x400.size a ≤ S2x1x1x400.size a) (e : off = ![0, 0, 0, 0])
    (fib : Buf (Elt F) ((ibV).view.loc (thr d L))) (pay : S1x1x400.Idx → Elt F .i32) (x : Fin 400) :
    View.read (Elt F) (IL 0 Nat.zero_lt_two).view ((islotP off h).view.writes (Elt F) fib [⟨Rect.whole S1x1x400, pay⟩]) (ix1 x)
      = pay (ix3 (0 : Fin 1) (0 : Fin 1) x) := by
  subst e
  exact list_read_landed (F := F) d L _ _ fib pay (ix1 x)

/-- The first window's copy, as the program spelled it, is the copy the invariant speaks of: the slot under its
    canonical name, what lands in it read as a list of 400 words. -/
theorem prologue_landed (h2 : k0_cond2 L = 1#1) (fib : Buf (Elt F) ((ibV).view.loc (thr d L))) (pay : S1x1x400.Idx → Elt F .i32) (q : PosShare TreeShare) :
    (Transfers.Flight countersEmb (thr d L) (SemLoc.dma (⟨1, by decide⟩ : DmaSem sig)) (default : HIx 1) 12800
        iprop(((islotP k0_off1 (k0_off1_inb L h2)).view.loc (thr d L) ↦[(islotP k0_off1 (k0_off1_inb L h2)).view.set]{fullShare}
              (islotP k0_off1 (k0_off1_inb L h2)).view.writes (Elt F) fib [⟨Rect.whole S1x1x400, pay⟩])
          ∗ ((ixV).view.loc (thr d L) ↦[(iwinP (k0_off2 L) (k0_off2_inb L h2)).view.set]{q} idxV m d)) : sProp 𝕄)
      ⊢ iprop(∃ fb : Buf (Elt F) ((ibV).view.loc (thr d L)),
          ⌜∀ x : Fin 400, View.read (Elt F) (IL 0 Nat.zero_lt_two).view fb (ix1 x) = pay (ix3 (0 : Fin 1) (0 : Fin 1) x)⌝
          ∗ Transfers.Flight countersEmb (thr d L) (SemLoc.dma (isem 0 Nat.zero_lt_two)) (default : HIx 1) 12800
              iprop(((IS4 0 Nat.zero_lt_two).view.loc (thr d L) ↦[(IS4 0 Nat.zero_lt_two).view.set]{fullShare} fb)
                ∗ ((IW (w0n L + 0) (w0n_lt' L 0 (nn_pos L))).view.loc (thr d L) ↦[(IW (w0n L + 0) (w0n_lt' L 0 (nn_pos L))).view.set]{q} idxV m d))) := by
  iintro H
  iexists ((islotP k0_off1 (k0_off1_inb L h2)).view.writes (Elt F) fib [⟨Rect.whole S1x1x400, pay⟩])
  isplitr
  · ipureintro
    intro x
    exact list_read_landed0 (F := F) d L k0_off1 (k0_off1_inb L h2) k0_off1_eq fib pay x
  · have hcell : (⟨1, by decide⟩ : DmaSem sig) = isem 0 Nat.zero_lt_two := by decide
    rw [← hcell]
    iapply (Transfers.Flight_mono (D' := iprop(((IS4 0 Nat.zero_lt_two).view.loc (thr d L) ↦[(IS4 0 Nat.zero_lt_two).view.set]{fullShare}
              (islotP k0_off1 (k0_off1_inb L h2)).view.writes (Elt F) fib [⟨Rect.whole S1x1x400, pay⟩])
          ∗ ((IW (w0n L + 0) (w0n_lt' L 0 (nn_pos L))).view.loc (thr d L) ↦[(IW (w0n L + 0) (w0n_lt' L 0 (nn_pos L))).view.set]{q} idxV m d))) ?_) $$ H
    rw [islot_pts_eq_islot4 (F := F) d L k0_off1 (k0_off1_inb L h2) fullShare _,
      islot4_pts_congr (F := F) d L k0_off1_eq (k0_off1_inb L h2) (islot_inb 0 Nat.zero_lt_two) fullShare _]
    have ew : ((ixV).view.loc (thr d L) ↦[(iwinP (k0_off2 L) (k0_off2_inb L h2)).view.set]{q} idxV m d : sProp 𝕄)
        = ((IW (w0n L + 0) (w0n_lt' L 0 (nn_pos L))).view.loc (thr d L) ↦[(IW (w0n L + 0) (w0n_lt' L 0 (nn_pos L))).view.set]{q} idxV m d) :=
      iwin_pts_congr (F := F) d L (off2_eq L) (k0_off2_inb L h2) (iwin_inb (w0n L + 0) (w0n_lt' L 0 (nn_pos L))) q (idxV m d)
    rw [ew]

/-- The invariant before trip 0: the first window on its way into index slot 0, everything else idle, the tile's
    windows of the output untouched. -/
theorem inv0_intro (h2 : k0_cond2 L = 1#1) (O : CellTallies nD τ sig (HIx 1)) (W : Waits sig (HIx 1))
    (fb fib' : Buf (Elt F) ((ibV).view.loc (thr d L))) (fob fob' : Buf (Elt F) ((obV).view.loc (thr d L)))
    (hfb : ∀ x : Fin 400, View.read (Elt F) (IL 0 Nat.zero_lt_two).view fb (ix1 x)
      = idxV m d (ix3 (⟨w0n L + 0, w0n_lt' L 0 (nn_pos L)⟩ : Fin 250) (0 : Fin 1) x)) :
    iprop(Transfers.MayWaits (thr d L) (default : HIx 1) O ∗ owes (thr d L) O W
      ∗ ((shV).view.loc (thr d L) ↦{tokS L} tblSh m d (cV L)) ∗ semVal (thr d L, SemLoc.dma (5 : DmaSem sig)) 0
      ∗ Transfers.Flight countersEmb (thr d L) (SemLoc.dma (isem 0 Nat.zero_lt_two)) (default : HIx 1) 12800
          iprop(((IS4 0 Nat.zero_lt_two).view.loc (thr d L) ↦[(IS4 0 Nat.zero_lt_two).view.set]{fullShare} fb)
            ∗ ((IW (w0n L + 0) (w0n_lt' L 0 (nn_pos L))).view.loc (thr d L) ↦[(IW (w0n L + 0) (w0n_lt' L 0 (nn_pos L))).view.set]{shareTokN (shareTokN fullShare (wid (cV L).val (jV L).val)) 1} idxV m d))
      ∗ ((ixV).view.loc (thr d L) ↦[Finset.univ \ (iwinP (k0_off2 L) (k0_off2_inb L h2)).view.set]{shareTokN (shareTokN fullShare (wid (cV L).val (jV L).val)) 1} idxV m d)
      ∗ ((IS 1 Nat.one_lt_two).view.loc (thr d L) ↦[(IS 1 Nat.one_lt_two).view.set]{fullShare} fib')
      ∗ semVal (thr d L, SemLoc.dma (2 : DmaSem sig)) 0
      ∗ ((ixV).view.loc (thr d L) ↦{shareTokN (shareTokN fullShare (wid (cV L).val (jV L).val)) 2} idxV m d)
      ∗ ((OS 0 Nat.zero_lt_two).view.loc (thr d L) ↦[(OS 0 Nat.zero_lt_two).view.set]{fullShare} fob)
      ∗ semVal (thr d L, SemLoc.dma (3 : DmaSem sig)) 0
      ∗ ((OS 1 Nat.one_lt_two).view.loc (thr d L) ↦[(OS 1 Nat.one_lt_two).view.set]{fullShare} fob')
      ∗ semVal (thr d L, SemLoc.dma (4 : DmaSem sig)) 0
      ∗ outPts d (wid (cV L).val (jV L).val) (m (v1Loc d)))
      ⊢ (inv m d L O W 0 (1#32, 0#32, 0#32, 0#32, 0#32) : sProp 𝕄) := by
  unfold inv InCur InNext OutCur OutPrev Wins
  rw [dif_pos (nn_pos L), dif_neg (show ¬(0 < 0 ∧ 0 ≤ nn L) from fun h => absurd h.1 (lt_irrefl 0))]
  have ew : ((ixV).view.loc (thr d L) ↦[Finset.univ \ (iwinP (k0_off2 L) (k0_off2_inb L h2)).view.set]{shareTokN (shareTokN fullShare (wid (cV L).val (jV L).val)) 1} idxV m d : sProp 𝕄)
      = ((IW (w0n L + 0) (w0n_lt' L 0 (nn_pos L))).view.loc (thr d L) ↦[Finset.univ \ (IW (w0n L + 0) (w0n_lt' L 0 (nn_pos L))).view.set]{tokI L (0 % 2)} idxV m d) :=
    iwin_rest_congr (F := F) d L (off2_eq L) (k0_off2_inb L h2) (iwin_inb (w0n L + 0) (w0n_lt' L 0 (nn_pos L))) _ (idxV m d)
  rw [ew, out_wins (F := F) d L]
  iintro ⟨Hmw, HO, Hsh, Hs5, Hfl, Hrest, Hi1, Hs2, Hix2, Ho0, Hs3, Ho1, Hs4, Hout⟩
  isplitr; · ipureintro; exact ⟨init_eq L, Nat.zero_le _⟩
  isplitl [Hmw]; · iexact Hmw
  isplitl [HO]
  · iexists W; isplitr
    · ipureintro; exact fun p hp => .inl hp
    · iexact HO
  isplitl [Hsh]; · iexact Hsh
  isplitl [Hs5]; · iexact Hs5
  isplitl [Hfl Hrest]
  · iexists fb; isplitr
    · ipureintro; exact hfb
    isplitl [Hfl]; · iexact Hfl
    iexact Hrest
  isplitl [Hi1 Hs2 Hix2]
  · isplitl [Hi1]; · iexists fib'; iexact Hi1
    isplitl [Hs2]; · iexact Hs2
    iexact Hix2
  isplitl [Ho0 Hs3]
  · isplitl [Ho0]; · iexists fob; iexact Ho0
    iexact Hs3
  isplitl [Ho1 Hs4]
  · isplitl [Ho1]; · iexists fob'; iexact Ho1
    iexact Hs4
  isplitr
  · rw [show Finset.range (0 - 1) = ∅ from rfl, bigSep_empty]; iempintro
  iexact Hout

/-! ## Leaving the loop -/

theorem isem0 : isem 0 Nat.zero_lt_two = (1 : DmaSem sig) := by decide
theorem isem1 : isem 1 Nat.one_lt_two = (2 : DmaSem sig) := by decide
theorem osem0 : osem 0 Nat.zero_lt_two = (3 : DmaSem sig) := by decide
theorem osem1 : osem 1 Nat.one_lt_two = (4 : DmaSem sig) := by decide

/-- Two different slots' cells of the index ring are cells 1 and 2; -/
theorem isems_pair (p p' : ℕ) (hp : p < 2) (hp' : p' < 2) (hne : p ≠ p') :
    iprop(semVal (thr d L, SemLoc.dma (isem p hp)) 0 ∗ semVal (thr d L, SemLoc.dma (isem p' hp')) 0)
      ⊢ (iprop(semVal (thr d L, SemLoc.dma (1 : DmaSem sig)) 0 ∗ semVal (thr d L, SemLoc.dma (2 : DmaSem sig)) 0) : sProp 𝕄) := by
  obtain rfl | rfl : p = 0 ∨ p = 1 := by omega
  · obtain rfl : p' = 1 := by omega
    rw [show isem 0 hp = (1 : DmaSem sig) from isem0, show isem 1 hp' = (2 : DmaSem sig) from isem1]
  · obtain rfl : p' = 0 := by omega
    rw [show isem 1 hp = (2 : DmaSem sig) from isem1, show isem 0 hp' = (1 : DmaSem sig) from isem0]
    iintro ⟨H1, H2⟩
    isplitl [H2] <;> iassumption

/-- of the row ring, cells 3 and 4. -/
theorem osems_pair (p p' : ℕ) (hp : p < 2) (hp' : p' < 2) (hne : p ≠ p') :
    iprop(semVal (thr d L, SemLoc.dma (osem p hp)) 0 ∗ semVal (thr d L, SemLoc.dma (osem p' hp')) 0)
      ⊢ (iprop(semVal (thr d L, SemLoc.dma (3 : DmaSem sig)) 0 ∗ semVal (thr d L, SemLoc.dma (4 : DmaSem sig)) 0) : sProp 𝕄) := by
  obtain rfl | rfl : p = 0 ∨ p = 1 := by omega
  · obtain rfl : p' = 1 := by omega
    rw [show osem 0 hp = (3 : DmaSem sig) from osem0, show osem 1 hp' = (4 : DmaSem sig) from osem1]
  · obtain rfl : p' = 0 := by omega
    rw [show osem 1 hp = (4 : DmaSem sig) from osem1, show osem 0 hp' = (3 : DmaSem sig) from osem0]
    iintro ⟨H1, H2⟩
    isplitl [H2] <;> iassumption

/-- Two different index slots' read tokens are tokens 1 and 2 of the tile's token. -/
theorem toks_pair (p p' : ℕ) (hp : p < 2) (hp' : p' < 2) (hne : p ≠ p') (f : Buf (Elt F) ((ixV).view.loc (thr d L))) :
    iprop(((ixV).view.loc (thr d L) ↦{tokI L p} f) ∗ ((ixV).view.loc (thr d L) ↦{tokI L p'} f))
      ⊢ (iprop(((ixV).view.loc (thr d L) ↦{shareTokN (shareTokN fullShare (wid (cV L).val (jV L).val)) 1} f)
          ∗ ((ixV).view.loc (thr d L) ↦{shareTokN (shareTokN fullShare (wid (cV L).val (jV L).val)) 2} f)) : sProp 𝕄) := by
  obtain rfl | rfl : p = 0 ∨ p = 1 := by omega
  · obtain rfl : p' = 1 := by omega
    exact BI.Entails.refl _
  · obtain rfl : p' = 0 := by omega
    iintro ⟨H1, H2⟩
    isplitl [H2]
    · iexact H2
    · iexact H1

/-- Two different slots of the index ring, each at contents of its own, are the ring whole at some contents; -/
theorem islots_join (p p' : ℕ) (hp : p < 2) (hp' : p' < 2) (hne : p ≠ p') (f g : Buf (Elt F) ((ibV).view.loc (thr d L))) :
    iprop(((IS4 p hp).view.loc (thr d L) ↦[(IS4 p hp).view.set]{fullShare} f) ∗ ((IS p' hp').view.loc (thr d L) ↦[(IS p' hp').view.set]{fullShare} g))
      ⊢ (iprop(∃ h, (thr d L).loc cc0_scoped1 ↦{fullShare} h) : sProp 𝕄) := by
  rw [show (((IS4 p hp).view.loc (thr d L) ↦[(IS4 p hp).view.set]{fullShare} f : sProp 𝕄))
      = ((IS p hp).view.loc (thr d L) ↦[(IS p hp).view.set]{fullShare} f) from (islot_pts_eq_islot4 (F := F) d L _ _ fullShare f).symm]
  show iprop(((ibV).view.loc (thr d L) ↦[(IS p hp).view.set]{fullShare} f) ∗ ((ibV).view.loc (thr d L) ↦[(IS p' hp').view.set]{fullShare} g)) ⊢ _
  rw [IS_set p hp, IS_set p' hp']
  have hd : Disjoint (Rect.unit (s := S2x1x1x400) ![p, 0, 0, 0] S1x1x1x400.size (islot_inb p hp)).set
      (Rect.unit (s := S2x1x1x400) ![p', 0, 0, 0] S1x1x1x400.size (islot_inb p' hp')).set :=
    Finset.disjoint_left.mpr fun i h0 h1 => by rw [mem_islot p hp] at h0; rw [mem_islot p' hp'] at h1; omega
  have hc : (Rect.unit (s := S2x1x1x400) ![p, 0, 0, 0] S1x1x1x400.size (islot_inb p hp)).set
      ∪ (Rect.unit (s := S2x1x1x400) ![p', 0, 0, 0] S1x1x1x400.size (islot_inb p' hp')).set = Finset.univ := by
    ext i
    refine ⟨fun _ => Finset.mem_univ _, fun _ => ?_⟩
    rw [Finset.mem_union, mem_islot p hp, mem_islot p' hp']
    have : (i 0).val < 2 := (i 0).isLt
    omega
  refine (pointsTo_join (ℓ := (ibV).view.loc (thr d L)) (q := fullShare) (Ix := HIx 1) (Name := ℕ) (U := UU) (Lvl := ℕ) hd).trans ?_
  rw [hc]
  iintro H
  iexists _
  iexact H

/-- of the row ring likewise. -/
theorem oslots_join (p p' : ℕ) (hp : p < 2) (hp' : p' < 2) (hne : p ≠ p') (f g : Buf (Elt F) ((obV).view.loc (thr d L))) :
    iprop(((OS p hp).view.loc (thr d L) ↦[(OS p hp).view.set]{fullShare} f) ∗ ((OS p' hp').view.loc (thr d L) ↦[(OS p' hp').view.set]{fullShare} g))
      ⊢ (iprop(∃ h, (thr d L).loc cc0_scoped3 ↦{fullShare} h) : sProp 𝕄) := by
  show iprop(((obV).view.loc (thr d L) ↦[(OS p hp).view.set]{fullShare} f) ∗ ((obV).view.loc (thr d L) ↦[(OS p' hp').view.set]{fullShare} g)) ⊢ _
  rw [OS_set p hp, OS_set p' hp']
  have hd : Disjoint (Rect.unit (s := S2x400x128) ![p, 0, 0] S1x400x128.size (oslot_inb p hp)).set
      (Rect.unit (s := S2x400x128) ![p', 0, 0] S1x400x128.size (oslot_inb p' hp')).set :=
    Finset.disjoint_left.mpr fun i h0 h1 => by rw [mem_oslot p hp] at h0; rw [mem_oslot p' hp'] at h1; omega
  have hc : (Rect.unit (s := S2x400x128) ![p, 0, 0] S1x400x128.size (oslot_inb p hp)).set
      ∪ (Rect.unit (s := S2x400x128) ![p', 0, 0] S1x400x128.size (oslot_inb p' hp')).set = Finset.univ := by
    ext i
    refine ⟨fun _ => Finset.mem_univ _, fun _ => ?_⟩
    rw [Finset.mem_union, mem_oslot p hp, mem_oslot p' hp']
    have : (i 0).val < 2 := (i 0).isLt
    omega
  refine (pointsTo_join (ℓ := (obV).view.loc (thr d L)) (q := fullShare) (Ix := HIx 1) (Name := ℕ) (U := UU) (Lvl := ℕ) hd).trans ?_
  rw [hc]
  iintro H
  iexists _
  iexact H

theorem h34 : ∀ a, k0_off34 (a10 (nn L)) a + S1.size a ≤ S2.size a := by
  rw [off34_fin L]; exact sem_inb _ (mod2 _)

/-- The last window's flight, its cell spelled as the last wait spells it and its delivery as a window of the tile. -/
theorem flight_respell (g : Buf (Elt F) ((obV).view.loc (thr d L))) (hj : w0n L + (nn L - 1) < 250) :
    (Transfers.Flight countersEmb (thr d L) (SemLoc.dma (osem ((nn L + 1) % 2) (mod2 _))) (default : HIx 1) 1638400
        iprop(((OW (w0n L + (nn L - 1)) hj).view.loc (thr d L) ↦[(OW (w0n L + (nn L - 1)) hj).view.set]{fullShare} gOut m d)
          ∗ ((OS ((nn L + 1) % 2) (mod2 _)).view.loc (thr d L) ↦[(OS ((nn L + 1) % 2) (mod2 _)).view.set]{fullShare} g)) : sProp 𝕄)
      ⊢ Transfers.Flight countersEmb (thr d L) (SemLoc.dma (osemP (k0_off34 (a10 (nn L))) (h34 L))) (default : HIx 1) 1638400
          iprop(owPts d L (w0n L + (nn L - 1)) (gOut m d)
            ∗ ((OS ((nn L + 1) % 2) (mod2 _)).view.loc (thr d L) ↦[(OS ((nn L + 1) % 2) (mod2 _)).view.set]{fullShare} g)) := by
  rw [osem_congr (off34_fin L) (h34 L) (sem_inb _ (mod2 _))]
  iintro H
  iapply (Transfers.Flight_mono (D' := iprop(owPts d L (w0n L + (nn L - 1)) (gOut m d)
            ∗ ((OS ((nn L + 1) % 2) (mod2 _)).view.loc (thr d L) ↦[(OS ((nn L + 1) % 2) (mod2 _)).view.set]{fullShare} g))) ?_) $$ H
  unfold owPts
  rw [dif_pos hj]

/-- The invariant after the last trip, read without parities. -/
theorem inv_exit (O : CellTallies nD τ sig (HIx 1)) (W : Waits sig (HIx 1)) (acc : BitVec 32 × BitVec 32 × BitVec 32 × BitVec 32 × BitVec 32) :
    (inv m d L O W (nn L) acc : sProp 𝕄) ⊢ iprop(⌜acc = (a7 L (nn L), a8 (nn L), a8 (nn L), a10 (nn L), a11 L (nn L))⌝
      ∗ Transfers.MayWaits (thr d L) (none : HIx 1) O
      ∗ (∃ W', ⌜∀ p ∈ W', p ∈ W ∨ p.2 = none⌝ ∗ owes (thr d L) O W')
      ∗ ((shV).view.loc (thr d L) ↦{tokS L} tblSh m d (cV L))
      ∗ semVal (thr d L, SemLoc.dma (5 : DmaSem sig)) 0
      ∗ (∃ f, (thr d L).loc cc0_scoped1 ↦{fullShare} f)
      ∗ (semVal (thr d L, SemLoc.dma (1 : DmaSem sig)) 0 ∗ semVal (thr d L, SemLoc.dma (2 : DmaSem sig)) 0)
      ∗ (((ixV).view.loc (thr d L) ↦{shareTokN (shareTokN fullShare (wid (cV L).val (jV L).val)) 1} idxV m d)
          ∗ ((ixV).view.loc (thr d L) ↦{shareTokN (shareTokN fullShare (wid (cV L).val (jV L).val)) 2} idxV m d))
      ∗ (∃ g, (OS (nn L % 2) (mod2 _)).view.loc (thr d L) ↦[(OS (nn L % 2) (mod2 _)).view.set]{fullShare} g)
      ∗ semVal (thr d L, SemLoc.dma (osem (nn L % 2) (mod2 _))) 0
      ∗ (∃ g, Transfers.Flight countersEmb (thr d L) (SemLoc.dma (osemP (k0_off34 (a10 (nn L))) (h34 L))) (default : HIx 1) 1638400
          iprop(owPts d L (w0n L + (nn L - 1)) (gOut m d)
            ∗ ((OS ((nn L + 1) % 2) (mod2 _)).view.loc (thr d L) ↦[(OS ((nn L + 1) % 2) (mod2 _)).view.set]{fullShare} g)))
      ∗ bigSep (Finset.range (nn L - 1)) fun j => owPts d L (w0n L + j) (gOut m d)) := by
  unfold inv InCur InNext OutCur OutPrev Wins
  rw [dif_neg (lt_irrefl (nn L)), dif_pos (⟨nn_pos L, le_rfl⟩ : 0 < nn L ∧ nn L ≤ nn L)]
  have hne : nn L % 2 ≠ (nn L + 1) % 2 := by omega
  iintro ⟨%hacc, Hmw, HO, Hsh, Hs5, ⟨⟨%fbc, Hic⟩, Hsic, Htc⟩, ⟨⟨%fbn, Hin⟩, Hsin, Htn⟩, ⟨⟨%gc, Hoc⟩, Hsoc⟩, ⟨%gp, Hfl⟩, Hw1, -⟩
  isplitr; · ipureintro; exact hacc.1
  isplitl [Hmw]; · iexact Hmw
  isplitl [HO]; · iexact HO
  isplitl [Hsh]; · iexact Hsh
  isplitl [Hs5]; · iexact Hs5
  isplitl [Hic Hin]
  · iapply (islots_join (F := F) d L _ _ (mod2 _) (mod2 _) hne _ _)
    isplitl [Hic]; · iexact Hic
    iexact Hin
  isplitl [Hsic Hsin]
  · iapply (isems_pair (F := F) d L _ _ (mod2 _) (mod2 _) hne)
    isplitl [Hsic]; · iexact Hsic
    iexact Hsin
  isplitl [Htc Htn]
  · iapply (toks_pair (F := F) d L _ _ (mod2 _) (mod2 _) hne _)
    isplitl [Htc]; · iexact Htc
    iexact Htn
  isplitl [Hoc]; · iexists gc; iexact Hoc
  isplitl [Hsoc]; · iexact Hsoc
  isplitl [Hfl]
  · iexists gp
    iapply (flight_respell (F := F) m d L gp _)
    iexact Hfl
  iexact Hw1

/-- After the last wait: the two row slots are the row ring whole, their cells cells 3 and 4. -/
theorem exit_close (g gc : Buf (Elt F) ((obV).view.loc (thr d L))) :
    iprop(semVal (thr d L, SemLoc.dma (osemP (k0_off34 (a10 (nn L))) (h34 L))) 0
        ∗ ((OS ((nn L + 1) % 2) (mod2 _)).view.loc (thr d L) ↦[(OS ((nn L + 1) % 2) (mod2 _)).view.set]{fullShare} g)
        ∗ ((OS (nn L % 2) (mod2 _)).view.loc (thr d L) ↦[(OS (nn L % 2) (mod2 _)).view.set]{fullShare} gc)
        ∗ semVal (thr d L, SemLoc.dma (osem (nn L % 2) (mod2 _))) 0)
      ⊢ (iprop((∃ h, (thr d L).loc cc0_scoped3 ↦{fullShare} h)
          ∗ (semVal (thr d L, SemLoc.dma (3 : DmaSem sig)) 0 ∗ semVal (thr d L, SemLoc.dma (4 : DmaSem sig)) 0)) : sProp 𝕄) := by
  have hne : nn L % 2 ≠ (nn L + 1) % 2 := by omega
  rw [osem_congr (off34_fin L) (h34 L) (sem_inb _ (mod2 _))]
  iintro ⟨Hsp, Hp, Hc, Hsc⟩
  isplitl [Hp Hc]
  · iapply (oslots_join (F := F) d L _ _ (mod2 _) (mod2 _) hne _ _)
    isplitl [Hc]; · iexact Hc
    iexact Hp
  · iapply (osems_pair (F := F) d L _ _ (mod2 _) (mod2 _) hne)
    isplitl [Hsc]; · iexact Hsc
    iexact Hsp

/-- The tile's windows, all at their final contents, are its elements of the output at the final contents. -/
theorem wins_close :
    iprop((bigSep (Finset.range (nn L - 1)) fun j => owPts d L (w0n L + j) (gOut m d)) ∗ owPts d L (w0n L + (nn L - 1)) (gOut m d))
      ⊢ (outPts d (wid (cV L).val (jV L).val) (gOut m d) : sProp 𝕄) := by
  rw [out_wins (F := F) d L, ← Finset.range_eq_Ico]
  have h : Finset.range (nn L) = insert (nn L - 1) (Finset.range (nn L - 1)) := by
    have := nn_pos L
    conv_lhs => rw [show nn L = (nn L - 1) + 1 by omega]
    exact Finset.range_add_one
  rw [h, SparseCore.bigSep_insert' Finset.notMem_range_self]
  iintro ⟨H1, H2⟩
  isplitl [H2] <;> iassumption

end Cert.Kernel.Tb

end
-- ==== Proof.TileTripK.lean ====
import proofs.«207302_g55387898250011_cont_9to1_m_42_19_alg».proof.Proof.SpellK

/-! One trip of the tile's loop, run at a symbolic trip number.

Trip `k` serves window `w0n L + k`: (unless it is the last) it starts the copy of the next window's
indices into the other index slot; it waits for this window's indices, gathers the table rows they
name into row slot `k mod 2` and waits for them, starts the copy of that slot to the window's rows
of the output, and (unless it is the first) waits for the previous window's copy-out. Every resource
is stated through the view the program itself computes at that operation. -/

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

variable (d : Dev nD) (L : grid0.Coords)

/-- The trip's program, at the counters' values before trip `k`. -/
abbrev tripProg (h2 : k0_cond2 L = 1#1) (k : Fin (k0_t1_loop L).trips) :=
  k0_t1_body (F := F) L tbV (Memref.isWhole_whole _) ixV (Memref.isWhole_whole _) oV (Memref.isWhole_whole _) shV (Memref.isWhole_whole _) cc0_scoped0 ibV (Memref.isWhole_whole _) cc0_scoped2 obV (Memref.isWhole_whole _) cc0_scoped4 cc0_scoped5 cc0_scoped6 (BitVec.ofNat 32 (nn L)) (BitVec.ofNat 32 (w0n L)) (BitVec.ofNat 32 (nn L)) h2 0#32 1#32 k
    (a7 L k.val, a8 k.val, a8 k.val, a10 k.val, a11 L k.val)

theorem trips_lt8 (k : Fin (k0_t1_loop L).trips) : k.val < 8 := by
  have := trips1 L; have := k.isLt; unfold nn at *; split_ifs at * <;> omega

set_option maxHeartbeats 8000000 in
/-- A trip that is neither the first nor the last. -/
theorem tripM (h2 : k0_cond2 L = 1#1) (qa qb qs : PosShare TreeShare)
    (k : Fin (k0_t1_loop L).trips) (hk1 : 0 < k.val) (hk2 : k.val + 1 < nn L)
    (h4 : ∀ a, k0_off4 (a7 L k.val) a + S1x1x1x400.size a ≤ S2x1x1x400.size a)
    (h5 : ∀ a, k0_off5 L (a11 L k.val) a + S1x1x400.size a ≤ S250x1x400.size a)
    (h6 : ∀ a, k0_off6 (a7 L k.val) a + S1.size a ≤ S2.size a)
    (h9 : ∀ a, k0_off9 (a8 k.val) a + S1.size a ≤ S2.size a)
    (h11 : ∀ a, k0_off11 (a8 k.val) a + S1x1x1x400.size a ≤ S2x1x1x400.size a)
    (h10 : ∀ a, k0_off10 (a8 k.val) a + S1x400x128.size a ≤ S2x400x128.size a)
    (h8 : ∀ a, k0_off8 L (a11 L k.val) a + S1x1x400.size a ≤ S250x1x400.size a)
    (h13 : ∀ a, k0_off13 L (a11 L k.val) a + S400x128.size a ≤ S100000x128.size a)
    (h14 : ∀ a, k0_off14 (a8 k.val) a + S1.size a ≤ S2.size a)
    (h12 : ∀ a, k0_off12 (a8 k.val) a + S1x400x128.size a ≤ S2x400x128.size a)
    (h17 : ∀ a, k0_off17 (a10 k.val) a + S1.size a ≤ S2.size a)
    (h15 : ∀ a, k0_off15 (a10 k.val) a + S1x400x128.size a ≤ S2x400x128.size a)
    (h16 : ∀ a, k0_off16 L (a11 L k.val) a + S400x128.size a ≤ S100000x128.size a)
    (fi : Buf (Elt F) ((ixV).view.loc (thr d L)))
    (fb0 : Buf (Elt F) ((ibV).view.loc (thr d L))) (hin : ∀ x, ((listP _ h11).view.read (Elt F) fb0 x).toNat < 3)
    (fb1 : Buf (Elt F) ((ibV).view.loc (thr d L)))
    (g0 : Buf (Elt F) ((obV).view.loc (thr d L)))
    (fo : Buf (Elt F) ((oV).view.loc (thr d L)))
    (ft : Buf (Elt F) ((shV).view.loc (thr d L)))
    (fwp : Buf (Elt F) ((oV).view.loc (thr d L))) (gp : Buf (Elt F) ((obV).view.loc (thr d L)))
    (O : CellTallies nD τ sig (HIx 1)) (W : Waits sig (HIx 1)) :
    iprop(Transfers.MayWaits (thr d L) (none : HIx 1) O
        ∗ ((iwinP _ h8).view.loc (thr d L) ↦[Finset.univ \ (iwinP _ h8).view.set]{qa} fi)
        ∗ ((ixV).view.loc (thr d L) ↦{qb} fi)
        ∗ Transfers.Flight countersEmb (thr d L) (SemLoc.dma (isemP _ h9)) default 12800
            iprop(((islot4P _ h11).view.loc (thr d L) ↦[(islot4P _ h11).view.set]{fullShare} fb0)
              ∗ ((iwinP _ h8).view.loc (thr d L) ↦[(iwinP _ h8).view.set]{qa} fi))
        ∗ ((islotP _ h4).view.loc (thr d L) ↦[(islotP _ h4).view.set]{fullShare} fb1)
        ∗ ((oslotP _ h10).view.loc (thr d L) ↦[(oslotP _ h10).view.set]{fullShare} g0)
        ∗ ((owinP _ h13).view.loc (thr d L) ↦[(owinP _ h13).view.set]{fullShare} fo)
        ∗ ((shV).view.loc (thr d L) ↦{qs} ft)
        ∗ semVal ((thr d L), SemLoc.dma (isemP _ h6)) 0
        ∗ semVal ((thr d L), SemLoc.dma (osemP _ h14)) 0
        ∗ semVal ((thr d L), SemLoc.dma (5 : DmaSem sig)) 0
        ∗ Transfers.Flight countersEmb (thr d L) (SemLoc.dma (osemP _ h17)) default 1638400
            iprop(((owinP _ h16).view.loc (thr d L) ↦[(owinP _ h16).view.set]{fullShare} fwp)
              ∗ ((oslotP _ h15).view.loc (thr d L) ↦[(oslotP _ h15).view.set]{fullShare} gp))
        ∗ owes (thr d L) O W)
      ⊢ wp frame (wpE (defs₀ (F := F)) 𝒱₀ (thr d L) none) Set.univ (tripProg (F := F) L h2 k) fun y =>
          (iprop(⌜y = (a7 L (k.val + 1), a8 (k.val + 1), a8 (k.val + 1), a10 (k.val + 1), a11 L (k.val + 1))⌝
            ∗ Transfers.MayWaits (thr d L) (none : HIx 1) O
            ∗ ((iwinP _ h8).view.loc (thr d L) ↦{qa} fi)
            ∗ semVal ((thr d L), SemLoc.dma (isemP _ h9)) 0
            ∗ ((islot4P _ h11).view.loc (thr d L) ↦[(islot4P _ h11).view.set]{fullShare} fb0)
            ∗ Transfers.Flight countersEmb (thr d L) (SemLoc.dma (isemP _ h6)) default 12800
                iprop(((islotP _ h4).view.loc (thr d L) ↦[(islotP _ h4).view.set]{fullShare}
                      (islotP _ h4).view.writes (Elt F) fb1 [⟨Rect.whole S1x1x400, ReadAs.same.apply (View.read (Elt F) (iwinP _ h5).view fi)⟩])
                  ∗ ((ixV).view.loc (thr d L) ↦[(iwinP _ h5).view.set]{qb} fi))
            ∗ ((ixV).view.loc (thr d L) ↦[Finset.univ \ (iwinP _ h5).view.set]{qb} fi)
            ∗ Transfers.Flight countersEmb (thr d L) (SemLoc.dma (osemP _ h14)) default 1638400
                iprop(((owinP _ h13).view.loc (thr d L) ↦[(owinP _ h13).view.set]{fullShare}
                      (owinP _ h13).view.writes (Elt F) fo [⟨Rect.whole S400x128,
                        ReadAs.same.apply (View.read (Elt F) (oslotP _ h12).view ((oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))⟩])
                  ∗ ((oslotP _ h12).view.loc (thr d L) ↦[(oslotP _ h12).view.set]{fullShare}
                      (oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))
            ∗ ((owinP _ h16).view.loc (thr d L) ↦[(owinP _ h16).view.set]{fullShare} fwp)
            ∗ ((oslotP _ h15).view.loc (thr d L) ↦[(oslotP _ h15).view.set]{fullShare} gp)
            ∗ semVal ((thr d L), SemLoc.dma (osemP _ h17)) 0
            ∗ ((shV).view.loc (thr d L) ↦{qs} ft)
            ∗ semVal ((thr d L), SemLoc.dma (5 : DmaSem sig)) 0
            ∗ ∃ W', ⌜∀ p ∈ W', p ∈ W ∨ p.2 = none⌝ ∗ owes (thr d L) O W') : sProp 𝕄) := by
  have hc3 : k0_cond3 L k (a11 L k.val) = 1#1 := by rw [cond3_eq L k, if_pos hk2]
  have hc4 : k0_cond4 L k (a11 L k.val) = 1#1 := cond4_eq L k
  have hc7 : k0_cond7 L k (a11 L k.val) = 1#1 := cond7_eq L k
  have hc9 : k0_cond9 L k (a11 L k.val) = 1#1 := by rw [cond9_eq L k, if_neg (by omega)]
  have hw1 : k0_chk1 L k (a7 L k.val) (a8 k.val) (a8 k.val) (a10 k.val) (a11 L k.val) := chk1_all L k
  have hk8 : k.val < 8 := trips_lt8 L k
  have hw2 : k0_chk2 L (a8 k.val) := chk2_all L ⟨k.val, hk8⟩
  have hw3 : k0_chk3 L (a8 k.val) := chk3_all L ⟨k.val, hk8⟩
  unfold tripProg k0_t1_body
  rw [k0_part3_eq_skeleton]; unfold k0_part3_skel
  rw [k0_part1_eq_skeleton, k0_part2_eq_skeleton]; unfold k0_part1_skel k0_part2_skel
  iintro ⟨Hmw, Ht1, Ht2, Hf1, Hb1, Hg0, Ho, Hsh, Hs2, Hs3, Hs5, Hfo, HO⟩
  set_option sl_exec.stopBefore "k0_cond7" in sl_exec
  ihave Hg0' := (Entails.of_eq (oslot_pts_congr (F := F) d L (show k0_off10 (a8 k.val) = k0_off12 (a8 k.val) from rfl) h10 h12 fullShare _)) $$ Hg0
  sl_exec
  sl_step
  isplitr
  · ipureintro; clear * -; revert k; revert L; decide +kernel
  isplitl [Hmw]; · iexact Hmw
  isplitl [Ht1]; · iexact Ht1
  isplitl [Hf1]; · iexact Hf1
  isplitl [Hf1_dst]; · iexact Hf1_dst
  isplitl [Hs2]; · iexact Hs2
  isplitl [Ht2]; · iexact Ht2
  isplitl [Hs3]; · iexact Hs3
  isplitl [Hfo_dst]; · iexact Hfo_dst
  isplitl [Hfo_src]; · iexact Hfo_src
  isplitl [Hfo]; · iexact Hfo
  isplitl [Hsh]; · iexact Hsh
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxHeartbeats 8000000 in
/-- The first trip: no copy-out is in flight yet. -/
theorem tripF (h2 : k0_cond2 L = 1#1) (qa qb qs : PosShare TreeShare)
    (k : Fin (k0_t1_loop L).trips) (hk0 : k.val = 0) (hk2 : k.val + 1 < nn L)
    (h4 : ∀ a, k0_off4 (a7 L k.val) a + S1x1x1x400.size a ≤ S2x1x1x400.size a)
    (h5 : ∀ a, k0_off5 L (a11 L k.val) a + S1x1x400.size a ≤ S250x1x400.size a)
    (h6 : ∀ a, k0_off6 (a7 L k.val) a + S1.size a ≤ S2.size a)
    (h9 : ∀ a, k0_off9 (a8 k.val) a + S1.size a ≤ S2.size a)
    (h11 : ∀ a, k0_off11 (a8 k.val) a + S1x1x1x400.size a ≤ S2x1x1x400.size a)
    (h10 : ∀ a, k0_off10 (a8 k.val) a + S1x400x128.size a ≤ S2x400x128.size a)
    (h8 : ∀ a, k0_off8 L (a11 L k.val) a + S1x1x400.size a ≤ S250x1x400.size a)
    (h13 : ∀ a, k0_off13 L (a11 L k.val) a + S400x128.size a ≤ S100000x128.size a)
    (h14 : ∀ a, k0_off14 (a8 k.val) a + S1.size a ≤ S2.size a)
    (h12 : ∀ a, k0_off12 (a8 k.val) a + S1x400x128.size a ≤ S2x400x128.size a)
    (fi : Buf (Elt F) ((ixV).view.loc (thr d L)))
    (fb0 : Buf (Elt F) ((ibV).view.loc (thr d L))) (hin : ∀ x, ((listP _ h11).view.read (Elt F) fb0 x).toNat < 3)
    (fb1 : Buf (Elt F) ((ibV).view.loc (thr d L)))
    (g0 : Buf (Elt F) ((obV).view.loc (thr d L)))
    (fo : Buf (Elt F) ((oV).view.loc (thr d L)))
    (ft : Buf (Elt F) ((shV).view.loc (thr d L)))
    (O : CellTallies nD τ sig (HIx 1)) (W : Waits sig (HIx 1)) :
    iprop(Transfers.MayWaits (thr d L) (none : HIx 1) O
        ∗ ((iwinP _ h8).view.loc (thr d L) ↦[Finset.univ \ (iwinP _ h8).view.set]{qa} fi)
        ∗ ((ixV).view.loc (thr d L) ↦{qb} fi)
        ∗ Transfers.Flight countersEmb (thr d L) (SemLoc.dma (isemP _ h9)) default 12800
            iprop(((islot4P _ h11).view.loc (thr d L) ↦[(islot4P _ h11).view.set]{fullShare} fb0)
              ∗ ((iwinP _ h8).view.loc (thr d L) ↦[(iwinP _ h8).view.set]{qa} fi))
        ∗ ((islotP _ h4).view.loc (thr d L) ↦[(islotP _ h4).view.set]{fullShare} fb1)
        ∗ ((oslotP _ h10).view.loc (thr d L) ↦[(oslotP _ h10).view.set]{fullShare} g0)
        ∗ ((owinP _ h13).view.loc (thr d L) ↦[(owinP _ h13).view.set]{fullShare} fo)
        ∗ ((shV).view.loc (thr d L) ↦{qs} ft)
        ∗ semVal ((thr d L), SemLoc.dma (isemP _ h6)) 0
        ∗ semVal ((thr d L), SemLoc.dma (osemP _ h14)) 0
        ∗ semVal ((thr d L), SemLoc.dma (5 : DmaSem sig)) 0
        ∗ owes (thr d L) O W)
      ⊢ wp frame (wpE (defs₀ (F := F)) 𝒱₀ (thr d L) none) Set.univ (tripProg (F := F) L h2 k) fun y =>
          (iprop(⌜y = (a7 L (k.val + 1), a8 (k.val + 1), a8 (k.val + 1), a10 (k.val + 1), a11 L (k.val + 1))⌝
            ∗ Transfers.MayWaits (thr d L) (none : HIx 1) O
            ∗ ((iwinP _ h8).view.loc (thr d L) ↦{qa} fi)
            ∗ semVal ((thr d L), SemLoc.dma (isemP _ h9)) 0
            ∗ ((islot4P _ h11).view.loc (thr d L) ↦[(islot4P _ h11).view.set]{fullShare} fb0)
            ∗ Transfers.Flight countersEmb (thr d L) (SemLoc.dma (isemP _ h6)) default 12800
                iprop(((islotP _ h4).view.loc (thr d L) ↦[(islotP _ h4).view.set]{fullShare}
                      (islotP _ h4).view.writes (Elt F) fb1 [⟨Rect.whole S1x1x400, ReadAs.same.apply (View.read (Elt F) (iwinP _ h5).view fi)⟩])
                  ∗ ((ixV).view.loc (thr d L) ↦[(iwinP _ h5).view.set]{qb} fi))
            ∗ ((ixV).view.loc (thr d L) ↦[Finset.univ \ (iwinP _ h5).view.set]{qb} fi)
            ∗ Transfers.Flight countersEmb (thr d L) (SemLoc.dma (osemP _ h14)) default 1638400
                iprop(((owinP _ h13).view.loc (thr d L) ↦[(owinP _ h13).view.set]{fullShare}
                      (owinP _ h13).view.writes (Elt F) fo [⟨Rect.whole S400x128,
                        ReadAs.same.apply (View.read (Elt F) (oslotP _ h12).view ((oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))⟩])
                  ∗ ((oslotP _ h12).view.loc (thr d L) ↦[(oslotP _ h12).view.set]{fullShare}
                      (oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))
            ∗ ((shV).view.loc (thr d L) ↦{qs} ft)
            ∗ semVal ((thr d L), SemLoc.dma (5 : DmaSem sig)) 0
            ∗ ∃ W', ⌜∀ p ∈ W', p ∈ W ∨ p.2 = none⌝ ∗ owes (thr d L) O W') : sProp 𝕄) := by
  have hc3 : k0_cond3 L k (a11 L k.val) = 1#1 := by rw [cond3_eq L k, if_pos hk2]
  have hc4 : k0_cond4 L k (a11 L k.val) = 1#1 := cond4_eq L k
  have hc7 : k0_cond7 L k (a11 L k.val) = 1#1 := cond7_eq L k
  have hc9 : ¬ k0_cond9 L k (a11 L k.val) = 1#1 := by rw [cond9_eq L k, if_pos hk0]; decide
  have hw1 : k0_chk1 L k (a7 L k.val) (a8 k.val) (a8 k.val) (a10 k.val) (a11 L k.val) := chk1_all L k
  have hk8 : k.val < 8 := trips_lt8 L k
  have hw2 : k0_chk2 L (a8 k.val) := chk2_all L ⟨k.val, hk8⟩
  have hw3 : k0_chk3 L (a8 k.val) := chk3_all L ⟨k.val, hk8⟩
  unfold tripProg k0_t1_body
  rw [k0_part3_eq_skeleton]; unfold k0_part3_skel
  rw [k0_part1_eq_skeleton, k0_part2_eq_skeleton]; unfold k0_part1_skel k0_part2_skel
  iintro ⟨Hmw, Ht1, Ht2, Hf1, Hb1, Hg0, Ho, Hsh, Hs2, Hs3, Hs5, HO⟩
  set_option sl_exec.stopBefore "k0_cond7" in sl_exec
  ihave Hg0' := (Entails.of_eq (oslot_pts_congr (F := F) d L (show k0_off10 (a8 k.val) = k0_off12 (a8 k.val) from rfl) h10 h12 fullShare _)) $$ Hg0
  sl_exec
  sl_step
  isplitr
  · ipureintro; clear * -; revert k; revert L; decide +kernel
  isplitl [Hmw]; · iexact Hmw
  isplitl [Ht1]; · iexact Ht1
  isplitl [Hf1]; · iexact Hf1
  isplitl [Hf1_dst]; · iexact Hf1_dst
  isplitl [Hs2]; · iexact Hs2
  isplitl [Ht2]; · iexact Ht2
  isplitl [Hs3]; · iexact Hs3
  isplitl [Hsh]; · iexact Hsh
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
/-- The last trip: no further window to fetch. -/
theorem tripL (h2 : k0_cond2 L = 1#1) (qa qb qs : PosShare TreeShare)
    (k : Fin (k0_t1_loop L).trips) (hk1 : 0 < k.val) (hkL : k.val + 1 = nn L)
    (h9 : ∀ a, k0_off9 (a8 k.val) a + S1.size a ≤ S2.size a)
    (h11 : ∀ a, k0_off11 (a8 k.val) a + S1x1x1x400.size a ≤ S2x1x1x400.size a)
    (h10 : ∀ a, k0_off10 (a8 k.val) a + S1x400x128.size a ≤ S2x400x128.size a)
    (h8 : ∀ a, k0_off8 L (a11 L k.val) a + S1x1x400.size a ≤ S250x1x400.size a)
    (h13 : ∀ a, k0_off13 L (a11 L k.val) a + S400x128.size a ≤ S100000x128.size a)
    (h14 : ∀ a, k0_off14 (a8 k.val) a + S1.size a ≤ S2.size a)
    (h12 : ∀ a, k0_off12 (a8 k.val) a + S1x400x128.size a ≤ S2x400x128.size a)
    (h17 : ∀ a, k0_off17 (a10 k.val) a + S1.size a ≤ S2.size a)
    (h15 : ∀ a, k0_off15 (a10 k.val) a + S1x400x128.size a ≤ S2x400x128.size a)
    (h16 : ∀ a, k0_off16 L (a11 L k.val) a + S400x128.size a ≤ S100000x128.size a)
    (fi : Buf (Elt F) ((ixV).view.loc (thr d L)))
    (fb0 : Buf (Elt F) ((ibV).view.loc (thr d L))) (hin : ∀ x, ((listP _ h11).view.read (Elt F) fb0 x).toNat < 3)
    (g0 : Buf (Elt F) ((obV).view.loc (thr d L)))
    (fo : Buf (Elt F) ((oV).view.loc (thr d L)))
    (ft : Buf (Elt F) ((shV).view.loc (thr d L)))
    (fwp : Buf (Elt F) ((oV).view.loc (thr d L))) (gp : Buf (Elt F) ((obV).view.loc (thr d L)))
    (O : CellTallies nD τ sig (HIx 1)) (W : Waits sig (HIx 1)) :
    iprop(Transfers.MayWaits (thr d L) (none : HIx 1) O
        ∗ ((iwinP _ h8).view.loc (thr d L) ↦[Finset.univ \ (iwinP _ h8).view.set]{qa} fi)
        ∗ Transfers.Flight countersEmb (thr d L) (SemLoc.dma (isemP _ h9)) default 12800
            iprop(((islot4P _ h11).view.loc (thr d L) ↦[(islot4P _ h11).view.set]{fullShare} fb0)
              ∗ ((iwinP _ h8).view.loc (thr d L) ↦[(iwinP _ h8).view.set]{qa} fi))
        ∗ ((oslotP _ h10).view.loc (thr d L) ↦[(oslotP _ h10).view.set]{fullShare} g0)
        ∗ ((owinP _ h13).view.loc (thr d L) ↦[(owinP _ h13).view.set]{fullShare} fo)
        ∗ ((shV).view.loc (thr d L) ↦{qs} ft)
        ∗ semVal ((thr d L), SemLoc.dma (osemP _ h14)) 0
        ∗ semVal ((thr d L), SemLoc.dma (5 : DmaSem sig)) 0
        ∗ Transfers.Flight countersEmb (thr d L) (SemLoc.dma (osemP _ h17)) default 1638400
            iprop(((owinP _ h16).view.loc (thr d L) ↦[(owinP _ h16).view.set]{fullShare} fwp)
              ∗ ((oslotP _ h15).view.loc (thr d L) ↦[(oslotP _ h15).view.set]{fullShare} gp))
        ∗ owes (thr d L) O W)
      ⊢ wp frame (wpE (defs₀ (F := F)) 𝒱₀ (thr d L) none) Set.univ (tripProg (F := F) L h2 k) fun y =>
          (iprop(⌜y = (a7 L (k.val + 1), a8 (k.val + 1), a8 (k.val + 1), a10 (k.val + 1), a11 L (k.val + 1))⌝
            ∗ Transfers.MayWaits (thr d L) (none : HIx 1) O
            ∗ ((iwinP _ h8).view.loc (thr d L) ↦{qa} fi)
            ∗ semVal ((thr d L), SemLoc.dma (isemP _ h9)) 0
            ∗ ((islot4P _ h11).view.loc (thr d L) ↦[(islot4P _ h11).view.set]{fullShare} fb0)
            ∗ Transfers.Flight countersEmb (thr d L) (SemLoc.dma (osemP _ h14)) default 1638400
                iprop(((owinP _ h13).view.loc (thr d L) ↦[(owinP _ h13).view.set]{fullShare}
                      (owinP _ h13).view.writes (Elt F) fo [⟨Rect.whole S400x128,
                        ReadAs.same.apply (View.read (Elt F) (oslotP _ h12).view ((oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))⟩])
                  ∗ ((oslotP _ h12).view.loc (thr d L) ↦[(oslotP _ h12).view.set]{fullShare}
                      (oslotP _ h10).view.writes (Elt F) g0
                          [⟨Rect.whole S400x128, SparseCore.gatherPayload gathers_S3x128_S400x128
                            (View.read (Elt F) ((shV).slice (Rect.unit (s := S3x128) ![0, 0] S3x128.size inb_S3x128_S3x128_0_0) (fun _ => rfl)).view ft)
                            (SparseCore.rows (View.read (Elt F) (listP _ h11).view fb0) rfl hin)⟩]))
            ∗ ((owinP _ h16).view.loc (thr d L) ↦[(owinP _ h16).view.set]{fullShare} fwp)
            ∗ ((oslotP _ h15).view.loc (thr d L) ↦[(oslotP _ h15).view.set]{fullShare} gp)
            ∗ semVal ((thr d L), SemLoc.dma (osemP _ h17)) 0
            ∗ ((shV).view.loc (thr d L) ↦{qs} ft)
            ∗ semVal ((thr d L), SemLoc.dma (5 : DmaSem sig)) 0
            ∗ ∃ W', ⌜∀ p ∈ W', p ∈ W ∨ p.2 = none⌝ ∗ owes (thr d L) O W') : sProp 𝕄) := by
  have hc3 : ¬ k0_cond3 L k (a11 L k.val) = 1#1 := by rw [cond3_eq L k, if_neg (by omega)]; decide
  have hc4 : k0_cond4 L k (a11 L k.val) = 1#1 := cond4_eq L k
  have hc7 : k0_cond7 L k (a11 L k.val) = 1#1 := cond7_eq L k
  have hc9 : k0_cond9 L k (a11 L k.val) = 1#1 := by rw [cond9_eq L k, if_neg (by omega)]
  have hw1 : k0_chk1 L k (a7 L k.val) (a8 k.val) (a8 k.val) (a10 k.val) (a11 L k.val) := chk1_all L k
  have hk8 : k.val < 8 := trips_lt8 L k
  have hw2 : k0_chk2 L (a8 k.val) := chk2_all L ⟨k.val, hk8⟩
  have hw3 : k0_chk3 L (a8 k.val) := chk3_all L ⟨k.val, hk8⟩
  unfold tripProg k0_t1_body
  rw [k0_part3_eq_skeleton]; unfold k0_part3_skel
  rw [k0_part1_eq_skeleton, k0_part2_eq_skeleton]; unfold k0_part1_skel k0_part2_skel
  iintro ⟨Hmw, Ht1, Hf1, Hg0, Ho, Hsh, Hs3, Hs5, Hfo, HO⟩
  set_option sl_exec.stopBefore "k0_cond7" in sl_exec
  ihave Hg0' := (Entails.of_eq (oslot_pts_congr (F := F) d L (show k0_off10 (a8 k.val) = k0_off12 (a8 k.val) from rfl) h10 h12 fullShare _)) $$ Hg0
  sl_exec
  sl_step
  isplitr
  · ipureintro; clear * -; revert k; revert L; decide +kernel
  isplitl [Hmw]; · iexact Hmw
  isplitl [Ht1]; · iexact Ht1
  isplitl [Hf1]; · iexact Hf1
  isplitl [Hf1_dst]; · iexact Hf1_dst
  isplitl [Hs3]; · iexact Hs3
  isplitl [Hfo_dst]; · iexact Hfo_dst
  isplitl [Hfo_src]; · iexact Hfo_src
  isplitl [Hfo]; · iexact Hfo
  isplitl [Hsh]; · iexact Hsh
  isplitl [Hs5]; · iexact Hs5
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.Tb
end
-- ==== Proof.WordsAtK.lean ====
import proofs.«207302_g55387898250011_cont_9to1_m_42_19_alg».proof.Proof.WordsK

/-! The offsets a trip computes, through the slot's parity and the window's number: decided for all tiles and trips. -/

namespace Cert.Kernel.Tb

open Cert.Kernel Cert.Kernel.Gen Idealize.ShloMosaic

theorem off4_at : ∀ (L : grid0.Coords) (k : Fin 8), k.val + 1 ≤ nn L → k0_off4 (a7 L k.val) = ![(k.val + 1) % 2, 0, 0, 0] := by decide +kernel
theorem off6_at : ∀ (L : grid0.Coords) (k : Fin 8), k.val + 1 ≤ nn L → k0_off6 (a7 L k.val) = ![(k.val + 1) % 2] := by decide +kernel
theorem off5_at : ∀ (L : grid0.Coords) (k : Fin 8), k.val + 1 < nn L → k0_off5 L (a11 L k.val) = ![w0n L + (k.val + 1), 0, 0] := by decide +kernel
theorem off7_at : ∀ (k : Fin 8), k0_off7 (a8 k.val) = ![k.val % 2, 0, 0, 0] := by decide +kernel
theorem off9_at : ∀ (k : Fin 8), k0_off9 (a8 k.val) = ![k.val % 2] := by decide +kernel
theorem off11_at : ∀ (k : Fin 8), k0_off11 (a8 k.val) = ![k.val % 2, 0, 0, 0] := by decide +kernel
theorem off8_at : ∀ (L : grid0.Coords) (k : Fin 8), k.val < nn L → k0_off8 L (a11 L k.val) = ![w0n L + k.val, 0, 0] := by decide +kernel
theorem off10_at : ∀ (k : Fin 8), k0_off10 (a8 k.val) = ![k.val % 2, 0, 0] := by decide +kernel
theorem off12_at : ∀ (k : Fin 8), k0_off12 (a8 k.val) = ![k.val % 2, 0, 0] := by decide +kernel
theorem off14_at : ∀ (k : Fin 8), k0_off14 (a8 k.val) = ![k.val % 2] := by decide +kernel
theorem off13_at : ∀ (L : grid0.Coords) (k : Fin 8), k.val < nn L → k0_off13 L (a11 L k.val) = ![400 * (w0n L + k.val), 0] := by decide +kernel
theorem off15_at : ∀ (k : Fin 8), 0 < k.val → k0_off15 (a10 k.val) = ![(k.val + 1) % 2, 0, 0] := by decide +kernel
theorem off17_at : ∀ (k : Fin 8), 0 < k.val → k0_off17 (a10 k.val) = ![(k.val + 1) % 2] := by decide +kernel
theorem off16_at : ∀ (L : grid0.Coords) (k : Fin 8), 0 < k.val → k.val < nn L → k0_off16 L (a11 L k.val) = ![400 * (w0n L + (k.val - 1)), 0] := by decide +kernel

end Cert.Kernel.Tb
-- ==== Proof.TileRegionK.lean ====
import proofs.«207302_g55387898250011_cont_9to1_m_42_19_alg».proof.Proof.TileInvK
import proofs.«207302_g55387898250011_cont_9to1_m_42_19_alg».proof.Proof.TileTripK
import proofs.«207302_g55387898250011_cont_9to1_m_42_19_alg».proof.Proof.WinValueK
import proofs.«207302_g55387898250011_cont_9to1_m_42_19_alg».proof.Proof.WordsAtK

/-! One trip of the loop carries the invariant from `k` to `k + 1`.

The invariant names every view by slot parity and window number; a trip's program names them by its
own offset chains. The two agree by the decided closed forms, so each resource is carried across by
an equation of offsets. What the trip changes: the window just fetched is consumed, the next one is
on its way in; the rows gathered for window `k` are on their way out, and they are the output's
final contents there because the fetched words are the index array's and the gathered rows the
table's; the previous window has landed. -/

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN)

variable {F : FTy → Type} [FloatOps F]

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

variable (m : (ℓ : Loc nD τ sig) → Buf (Elt F) ℓ) (d : Dev nD) (L : grid0.Coords)

theorem Ico_insert (k n : ℕ) (h : k < n) : Finset.Ico k n = insert k (Finset.Ico (k + 1) n) := by
  ext x; simp only [Finset.mem_Ico, Finset.mem_insert]; omega
theorem range_insert (k : ℕ) (h : 0 < k) : Finset.range k = insert (k - 1) (Finset.range (k - 1)) := by
  ext x; simp only [Finset.mem_range, Finset.mem_insert]; omega

/-! Equal offsets, equal transfers in flight. -/

theorem flightIn_congr {o9 o9' : Fin 1 → ℕ} {o11 o11' : Fin 4 → ℕ} {o8 o8' : Fin 3 → ℕ} (e9 : o9 = o9') (e11 : o11 = o11') (e8 : o8 = o8')
    (h9 : ∀ a, o9 a + S1.size a ≤ S2.size a) (h9' : ∀ a, o9' a + S1.size a ≤ S2.size a)
    (h11 : ∀ a, o11 a + S1x1x1x400.size a ≤ S2x1x1x400.size a) (h11' : ∀ a, o11' a + S1x1x1x400.size a ≤ S2x1x1x400.size a)
    (h8 : ∀ a, o8 a + S1x1x400.size a ≤ S250x1x400.size a) (h8' : ∀ a, o8' a + S1x1x400.size a ≤ S250x1x400.size a)
    (q : PosShare TreeShare) (fb : Buf (Elt F) ((ibV).view.loc (thr d L))) (fi : Buf (Elt F) ((ixV).view.loc (thr d L))) :
    (Transfers.Flight countersEmb (thr d L) (SemLoc.dma (isemP o9 h9)) default 12800
      iprop(((islot4P o11 h11).view.loc (thr d L) ↦[(islot4P o11 h11).view.set]{fullShare} fb)
        ∗ ((iwinP o8 h8).view.loc (thr d L) ↦[(iwinP o8 h8).view.set]{q} fi)) : sProp 𝕄)
    = Transfers.Flight countersEmb (thr d L) (SemLoc.dma (isemP o9' h9')) default 12800
      iprop(((islot4P o11' h11').view.loc (thr d L) ↦[(islot4P o11' h11').view.set]{fullShare} fb)
        ∗ ((iwinP o8' h8').view.loc (thr d L) ↦[(iwinP o8' h8').view.set]{q} fi)) := by
  subst e9 e11 e8; rfl

theorem flightInNew_congr {o6 o6' : Fin 1 → ℕ} {o4 o4' : Fin 4 → ℕ} {o5 o5' : Fin 3 → ℕ} (e6 : o6 = o6') (e4 : o4 = o4') (e5 : o5 = o5')
    (h6 : ∀ a, o6 a + S1.size a ≤ S2.size a) (h6' : ∀ a, o6' a + S1.size a ≤ S2.size a)
    (h4 : ∀ a, o4 a + S1x1x1x400.size a ≤ S2x1x1x400.size a) (h4' : ∀ a, o4' a + S1x1x1x400.size a ≤ S2x1x1x400.size a)
    (h5 : ∀ a, o5 a + S1x1x400.size a ≤ S250x1x400.size a) (h5' : ∀ a, o5' a + S1x1x400.size a ≤ S250x1x400.size a)
    (q : PosShare TreeShare) (fb : Buf (Elt F) ((ibV).view.loc (thr d L))) (fi : Buf (Elt F) ((ixV).view.loc (thr d L))) :
    (Transfers.Flight countersEmb (thr d L) (SemLoc.dma (isemP o6 h6)) default 12800
      iprop(((islotP o4 h4).view.loc (thr d L) ↦[(islotP o4 h4).view.set]{fullShare} fb)
        ∗ ((ixV).view.loc (thr d L) ↦[(iwinP o5 h5).view.set]{q} fi)) : sProp 𝕄)
    = Transfers.Flight countersEmb (thr d L) (SemLoc.dma (isemP o6' h6')) default 12800
      iprop(((islot4P o4' h4').view.loc (thr d L) ↦[(islot4P o4' h4').view.set]{fullShare} fb)
        ∗ ((iwinP o5' h5').view.loc (thr d L) ↦[(iwinP o5' h5').view.set]{q} fi)) := by
  subst e6 e4 e5; rw [islot_pts_eq_islot4 (F := F) d L]

theorem flightOut_congr {o14 o14' : Fin 1 → ℕ} {o13 o13' : Fin 2 → ℕ} {o12 o12' : Fin 3 → ℕ} (e14 : o14 = o14') (e13 : o13 = o13') (e12 : o12 = o12')
    (h14 : ∀ a, o14 a + S1.size a ≤ S2.size a) (h14' : ∀ a, o14' a + S1.size a ≤ S2.size a)
    (h13 : ∀ a, o13 a + S400x128.size a ≤ S100000x128.size a) (h13' : ∀ a, o13' a + S400x128.size a ≤ S100000x128.size a)
    (h12 : ∀ a, o12 a + S1x400x128.size a ≤ S2x400x128.size a) (h12' : ∀ a, o12' a + S1x400x128.size a ≤ S2x400x128.size a)
    (fw : Buf (Elt F) ((oV).view.loc (thr d L))) (g : Buf (Elt F) ((obV).view.loc (thr d L))) :
    (Transfers.Flight countersEmb (thr d L) (SemLoc.dma (osemP o14 h14)) default 1638400
      iprop(((owinP o13 h13).view.loc (thr d L) ↦[(owinP o13 h13).view.set]{fullShare} fw)
        ∗ ((oslotP o12 h12).view.loc (thr d L) ↦[(oslotP o12 h12).view.set]{fullShare} g)) : sProp 𝕄)
    = Transfers.Flight countersEmb (thr d L) (SemLoc.dma (osemP o14' h14')) default 1638400
      iprop(((owinP o13' h13').view.loc (thr d L) ↦[(owinP o13' h13').view.set]{fullShare} fw)
        ∗ ((oslotP o12' h12').view.loc (thr d L) ↦[(oslotP o12' h12').view.set]{fullShare} g)) := by
  subst e14 e13 e12; rfl

theorem isemVal_congr {o o' : Fin 1 → ℕ} (e : o = o') (h : ∀ a, o a + S1.size a ≤ S2.size a) (h' : ∀ a, o' a + S1.size a ≤ S2.size a) :
    (semVal (thr d L, SemLoc.dma (isemP o h)) 0 : sProp 𝕄) = semVal (thr d L, SemLoc.dma (isemP o' h')) 0 := by subst e; rfl
theorem osemVal_congr {o o' : Fin 1 → ℕ} (e : o = o') (h : ∀ a, o a + S1.size a ≤ S2.size a) (h' : ∀ a, o' a + S1.size a ≤ S2.size a) :
    (semVal (thr d L, SemLoc.dma (osemP o h)) 0 : sProp 𝕄) = semVal (thr d L, SemLoc.dma (osemP o' h')) 0 := by subst e; rfl

theorem iwhole_eq {o : Fin 3 → ℕ} (h : ∀ a, o a + S1x1x400.size a ≤ S250x1x400.size a) (q : PosShare TreeShare) (fi : Buf (Elt F) ((ixV).view.loc (thr d L))) :
    ((iwinP o h).view.loc (thr d L) ↦{q} fi : sProp 𝕄) = ((ixV).view.loc (thr d L) ↦{q} fi) := rfl
theorem ixrest_congr {o o' : Fin 3 → ℕ} (e : o = o') (h : ∀ a, o a + S1x1x400.size a ≤ S250x1x400.size a) (h' : ∀ a, o' a + S1x1x400.size a ≤ S250x1x400.size a)
    (q : PosShare TreeShare) (fi : Buf (Elt F) ((ixV).view.loc (thr d L))) :
    ((ixV).view.loc (thr d L) ↦[Finset.univ \ (iwinP o h).view.set]{q} fi : sProp 𝕄)
      = ((iwinP o' h').view.loc (thr d L) ↦[Finset.univ \ (iwinP o' h').view.set]{q} fi) := by subst e; rfl
theorem list_read_congr {o o' : Fin 4 → ℕ} (e : o = o') (h : ∀ a, o a + S1x1x1x400.size a ≤ S2x1x1x400.size a) (h' : ∀ a, o' a + S1x1x1x400.size a ≤ S2x1x1x400.size a)
    (fb : Buf (Elt F) ((ibV).view.loc (thr d L))) (x : S400.Idx) :
    View.read (Elt F) (listP o h).view fb x = View.read (Elt F) (listP o' h').view fb x := by subst e; rfl

omit [FloatOps F] in
theorem tok_congr {p p' : ℕ} (e : p = p') : tokI L p = tokI L p' := congrArg _ e

set_option maxHeartbeats 16000000 in
/-- Trip `k` takes the invariant at `k` to the invariant at `k + 1`. -/
theorem region (h2 : k0_cond2 L = 1#1) (hchi : ∀ x, (idxV m d x).toNat < 3) (O : CellTallies nD τ sig (HIx 1)) (W : Waits sig (HIx 1)) :
    ∀ (k : Fin (k0_t1_loop L).trips) (acc : BitVec 32 × BitVec 32 × BitVec 32 × BitVec 32 × BitVec 32),
      inv m d L O W k.val acc ⊢ wp frame (wpE (defs₀ (F := F)) 𝒱₀ (thr d L) none) Set.univ
        (k0_t1_body (F := F) L tbV (Memref.isWhole_whole _) ixV (Memref.isWhole_whole _) oV (Memref.isWhole_whole _) shV (Memref.isWhole_whole _) cc0_scoped0 ibV (Memref.isWhole_whole _) cc0_scoped2 obV (Memref.isWhole_whole _) cc0_scoped4 cc0_scoped5 cc0_scoped6 (BitVec.ofNat 32 (nn L)) (BitVec.ofNat 32 (w0n L)) (BitVec.ofNat 32 (nn L)) h2 0#32 1#32 k acc)
        (fun y => inv m d L O W (k.val + 1) y) := by
  intro k acc
  have hkn : k.val < nn L := by have := k.isLt; have e := trips1 L; omega
  have hk8 : k.val < 8 := lt_of_lt_of_le hkn (nn_le8 L)
  have hn7 := nn_ge7 L
  have hp : k.val % 2 < 2 := mod2 _
  have hp' : (k.val + 1) % 2 < 2 := mod2 _
  have hj : w0n L + k.val < 250 := w0n_lt' L k.val hkn
  -- the closed forms of this trip's offsets that every trip uses
  have e9 : k0_off9 (a8 k.val) = ![k.val % 2] := off9_at ⟨k.val, hk8⟩
  have e11 : k0_off11 (a8 k.val) = ![k.val % 2, 0, 0, 0] := off11_at ⟨k.val, hk8⟩
  have e8 : k0_off8 L (a11 L k.val) = ![w0n L + k.val, 0, 0] := off8_at L ⟨k.val, hk8⟩ hkn
  have e10 : k0_off10 (a8 k.val) = ![k.val % 2, 0, 0] := off10_at ⟨k.val, hk8⟩
  have e12 : k0_off12 (a8 k.val) = ![k.val % 2, 0, 0] := off12_at ⟨k.val, hk8⟩
  have e14 : k0_off14 (a8 k.val) = ![k.val % 2] := off14_at ⟨k.val, hk8⟩
  have e13 : k0_off13 L (a11 L k.val) = ![400 * (w0n L + k.val), 0] := off13_at L ⟨k.val, hk8⟩ hkn
  have h9 : ∀ a, k0_off9 (a8 k.val) a + S1.size a ≤ S2.size a := by rw [e9]; exact sem_inb _ hp
  have h11 : ∀ a, k0_off11 (a8 k.val) a + S1x1x1x400.size a ≤ S2x1x1x400.size a := by rw [e11]; exact islot_inb _ hp
  have h8 : ∀ a, k0_off8 L (a11 L k.val) a + S1x1x400.size a ≤ S250x1x400.size a := by rw [e8]; exact iwin_inb _ hj
  have h10 : ∀ a, k0_off10 (a8 k.val) a + S1x400x128.size a ≤ S2x400x128.size a := by rw [e10]; exact oslot_inb _ hp
  have h12 : ∀ a, k0_off12 (a8 k.val) a + S1x400x128.size a ≤ S2x400x128.size a := by rw [e12]; exact oslot_inb _ hp
  have h14 : ∀ a, k0_off14 (a8 k.val) a + S1.size a ≤ S2.size a := by rw [e14]; exact sem_inb _ hp
  have h13 : ∀ a, k0_off13 L (a11 L k.val) a + S400x128.size a ≤ S100000x128.size a := by rw [e13]; exact owin_inb _ hj
  have hpp : (k.val + 1 + 1) % 2 = k.val % 2 := by omega
  have e11' : k0_off11 (a8 k.val) = ![(k.val + 1 + 1) % 2, 0, 0, 0] := e11.trans (by rw [hpp])
  have e9' : k0_off9 (a8 k.val) = ![(k.val + 1 + 1) % 2] := e9.trans (by rw [hpp])
  have e12' : k0_off12 (a8 k.val) = ![(k.val + 1 + 1) % 2, 0, 0] := e12.trans (by rw [hpp])
  have e14' : k0_off14 (a8 k.val) = ![(k.val + 1 + 1) % 2] := e14.trans (by rw [hpp])
  have e13' : k0_off13 L (a11 L k.val) = ![400 * (w0n L + (k.val + 1 - 1)), 0] := by rw [Nat.add_sub_cancel]; exact e13
  have hjc : w0n L + (k.val + 1 - 1) < 250 := by rw [Nat.add_sub_cancel]; exact hj
  -- what the landed list says of the words the gather reads
  have hlist : ∀ (fbC : Buf (Elt F) ((ibV).view.loc (thr d L))),
      (∀ x : Fin 400, View.read (Elt F) (IL (k.val % 2) (mod2 k.val)).view fbC (ix1 x) = idxV m d (ix3 (⟨w0n L + k.val, w0n_lt' L k.val hkn⟩ : Fin 250) (0 : Fin 1) x)) →
      (∀ p : Fin 400, View.read (Elt F) (listP _ h11).view fbC (ix1 p) = idxV m d (ix3 (⟨w0n L + k.val, hj⟩ : Fin 250) (0 : Fin 1) p))
        ∧ ∀ x, ((listP _ h11).view.read (Elt F) fbC x).toNat < 3 := by
    intro fbC hl
    have hl' : ∀ p : Fin 400, View.read (Elt F) (listP _ h11).view fbC (ix1 p) = idxV m d (ix3 (⟨w0n L + k.val, hj⟩ : Fin 250) (0 : Fin 1) p) := fun p =>
      (list_read_congr (F := F) d L e11 h11 (islot_inb _ hp) fbC (ix1 p)).trans (hl p)
    refine ⟨hl', fun x => ?_⟩
    have hx : x = ix1 (n := 400) (x 0 : Fin 400) := ValueIdx.eq_ix1 (n := 400) x
    have h3 : View.read (Elt F) (listP _ h11).view fbC x = idxV m d (ix3 (⟨w0n L + k.val, hj⟩ : Fin 250) (0 : Fin 1) (x 0 : Fin 400)) :=
      (congrArg (View.read (Elt F) (listP _ h11).view fbC) hx).trans (hl' (x 0 : Fin 400))
    rw [h3]; exact hchi _
  rcases Nat.eq_zero_or_pos k.val with hk0 | hk1'
  · -- the first trip
    have hk0' : k.val = 0 := hk0
    have hk2 : k.val + 1 < nn L := by omega
    have hj1 : w0n L + (k.val + 1) < 250 := w0n_lt' L (k.val + 1) hk2
    have e4 : k0_off4 (a7 L k.val) = ![(k.val + 1) % 2, 0, 0, 0] := off4_at L ⟨k.val, hk8⟩ (show k.val + 1 ≤ nn L by omega)
    have e6 : k0_off6 (a7 L k.val) = ![(k.val + 1) % 2] := off6_at L ⟨k.val, hk8⟩ (show k.val + 1 ≤ nn L by omega)
    have e5 : k0_off5 L (a11 L k.val) = ![w0n L + (k.val + 1), 0, 0] := off5_at L ⟨k.val, hk8⟩ hk2
    have h4 : ∀ a, k0_off4 (a7 L k.val) a + S1x1x1x400.size a ≤ S2x1x1x400.size a := by rw [e4]; exact islot_inb _ hp'
    have h6 : ∀ a, k0_off6 (a7 L k.val) a + S1.size a ≤ S2.size a := by rw [e6]; exact sem_inb _ hp'
    have h5 : ∀ a, k0_off5 L (a11 L k.val) a + S1x1x400.size a ≤ S250x1x400.size a := by rw [e5]; exact iwin_inb _ hj1
    rw [inv, InCur, dif_pos hkn, InNext, OutCur, OutPrev, dif_neg (by omega), Wins, Ico_insert k.val (nn L) hkn, SparseCore.bigSep_insert' (by simp), owPts, dif_pos hj]
    iintro ⟨%hacc, Hmw, ⟨%W', %hW', HO⟩, Hsh, Hs5, ⟨%fbC, %hl, Hfin, Hrest⟩, ⟨⟨%fbN, Hbn⟩, Hsn, Htn⟩, ⟨⟨%gC, Hgc⟩, Hsc⟩, ⟨⟨%gP, Hgp⟩, Hsp⟩, ⟨Hdone, Hwk, Htodo⟩⟩
    obtain ⟨rfl, -⟩ := hacc
    obtain ⟨hl', hin⟩ := hlist fbC hl
    ihave Hrest' := (Entails.of_eq (iwin_rest_congr (F := F) d L e8.symm (iwin_inb _ hj) h8 (tokI L (k.val % 2)) (idxV m d))) $$ Hrest
    ihave Hfin' := (Entails.of_eq (flightIn_congr (F := F) d L e9.symm e11.symm e8.symm (sem_inb _ hp) h9 (islot_inb _ hp) h11 (iwin_inb _ hj) h8 (tokI L (k.val % 2)) fbC (idxV m d))) $$ Hfin
    ihave Hbn' := (Entails.of_eq (islot_pts_congr (F := F) d L e4.symm (islot_inb _ hp') h4 fullShare fbN)) $$ Hbn
    ihave Hsn' := (Entails.of_eq (isemVal_congr (F := F) d L e6.symm (sem_inb _ hp') h6)) $$ Hsn
    ihave Hgc' := (Entails.of_eq (oslot_pts_congr (F := F) d L e10.symm (oslot_inb _ hp) h10 fullShare gC)) $$ Hgc
    ihave Hsc' := (Entails.of_eq (osemVal_congr (F := F) d L e14.symm (sem_inb _ hp) h14)) $$ Hsc
    ihave Hwk' := (Entails.of_eq (owin_pts_congr (F := F) d L e13.symm (owin_inb _ hj) h13 fullShare (m (v1Loc d)))) $$ Hwk
    iapply (wp_wand_r Idealize.ShloMosaic.frame (wpE (defs₀ (F := F)) 𝒱₀ (thr d L) none) Set.univ)
    isplitl [Hmw Hrest' Htn Hfin' Hbn' Hgc' Hwk' Hsh Hsn' Hsc' Hs5 HO]
    · iapply (tripF (F := F) d L h2 (tokI L (k.val % 2)) (tokI L ((k.val + 1) % 2)) (tokS L) k hk0' hk2 h4 h5 h6 h9 h11 h10 h8 h13 h14 h12 (idxV m d) fbC hin fbN gC (m (v1Loc d)) (tblSh m d (cV L)) O W')
      isplitl [Hmw]; · iexact Hmw
      isplitl [Hrest']; · iexact Hrest'
      isplitl [Htn]; · iexact Htn
      isplitl [Hfin']; · iexact Hfin'
      isplitl [Hbn']; · iexact Hbn'
      isplitl [Hgc']; · iexact Hgc'
      isplitl [Hwk']; · iexact Hwk'
      isplitl [Hsh]; · iexact Hsh
      isplitl [Hsn']; · iexact Hsn'
      isplitl [Hsc']; · iexact Hsc'
      isplitl [Hs5]; · iexact Hs5
      iexact HO
    iintro %y ⟨%hy, Hmw, Htc, Hsc0, Hbc, Hfn, Hrn, Hfo, Hsh, Hs5, ⟨%W'', %hW'', HO⟩⟩
    subst hy
    rw [inv, InCur, dif_pos hk2, InNext, OutCur, OutPrev, dif_pos ⟨Nat.succ_pos _, le_of_lt hk2⟩, Wins, show Finset.range (k.val + 1 - 1) = Finset.range (k.val - 1) from (by rw [hk0'])]
    isplitr; · ipureintro; exact ⟨rfl, le_of_lt hk2⟩
    isplitl [Hmw]; · iexact Hmw
    isplitl [HO]
    · iexists W''; isplitr
      · ipureintro; intro p hp; rcases hW'' p hp with h | h
        · exact hW' p h
        · exact .inr h
      · iexact HO
    isplitl [Hsh]; · iexact Hsh
    isplitl [Hs5]; · iexact Hs5
    isplitl [Hfn Hrn]
    · iexists ((islotP _ h4).view.writes (Elt F) fbN [⟨Rect.whole S1x1x400, ReadAs.same.apply (View.read (Elt F) (iwinP _ h5).view (idxV m d))⟩])
      isplitr
      · ipureintro; intro x
        rw [← list_read_congr (F := F) d L e4 h4 (islot_inb _ hp') _ (ix1 x)]
        exact list_landed_idxV (F := F) d L m _ h4 _ h5 (w0n L + (k.val + 1)) hj1 e5 fbN x
      isplitl [Hfn]
      · iapply (Entails.of_eq (flightInNew_congr (F := F) d L e6 e4 e5 h6 (sem_inb _ hp') h4 (islot_inb _ hp') h5 (iwin_inb _ hj1) (tokI L ((k.val + 1) % 2)) _ (idxV m d)))
        iexact Hfn
      · iapply (Entails.of_eq (ixrest_congr (F := F) d L e5 h5 (iwin_inb _ hj1) (tokI L ((k.val + 1) % 2)) (idxV m d)))
        iexact Hrn
    isplitl [Hbc Hsc0 Htc]
    · isplitl [Hbc]
      · iexists fbC
        iapply (Entails.of_eq ((islot_pts_eq_islot4 (F := F) d L _ h11 fullShare fbC).symm.trans (islot_pts_congr (F := F) d L e11' h11 (islot_inb _ (mod2 _)) fullShare fbC)))
        iexact Hbc
      isplitl [Hsc0]
      · iapply (Entails.of_eq (isemVal_congr (F := F) d L e9' h9 (sem_inb _ (mod2 _))))
        iexact Hsc0
      · rw [tok_congr L hpp]; iexact Htc
    isplitl [Hgp Hsp]
    · isplitl [Hgp]
      · iexists gP; iexact Hgp
      · iexact Hsp
    isplitl [Hfo]
    · iexists ((oslotP _ h10).view.writes (Elt F) gC [⟨Rect.whole S400x128, SparseCore.gatherPayload gathers_S3x128_S400x128
          (View.read (Elt F) ((shV).slice (Rect.unit (s := S3x128) ![0, 0] S3x128.size inb_S3x128_S3x128_0_0) (fun _ => rfl)).view (tblSh m d (cV L)))
          (SparseCore.rows (View.read (Elt F) (listP _ h11).view fbC) rfl hin)⟩])
      iapply (Entails.of_eq (flightOut_congr (F := F) d L e14' e13' e12' h14 (sem_inb _ (mod2 _)) h13 (owin_inb _ hjc) h12 (oslot_inb _ (mod2 _)) (gOut m d) _))
      iapply (Entails.of_eq (congrArg (fun X : sProp 𝕄 => Transfers.Flight countersEmb (thr d L) (SemLoc.dma (osemP _ h14)) default 1638400
          iprop(X ∗ ((oslotP _ h12).view.loc (thr d L) ↦[(oslotP _ h12).view.set]{fullShare} _)))
        (win_landed_pts (F := F) d L m _ h13 (w0n L + k.val) hj e13 _ _ h10 h12 (e10.trans e12.symm) _ h11 fbC (tblSh m d (cV L)) gC (m (v1Loc d)) rfl hin hl' (fun _ => rfl) hchi fullShare)))
      iexact Hfo
    isplitl [Hdone]
    · iexact Hdone
    iexact Htodo
  rcases Nat.lt_or_ge (k.val + 1) (nn L) with hk2' | hk2'
  · -- a trip that is neither the first nor the last
    have hk1 : 0 < k.val := hk1'
    have hk2 : k.val + 1 < nn L := hk2'
    have hj1 : w0n L + (k.val + 1) < 250 := w0n_lt' L (k.val + 1) hk2
    have hjp : w0n L + (k.val - 1) < 250 := w0n_lt' L (k.val - 1) (by omega)
    have e4 : k0_off4 (a7 L k.val) = ![(k.val + 1) % 2, 0, 0, 0] := off4_at L ⟨k.val, hk8⟩ (show k.val + 1 ≤ nn L by omega)
    have e6 : k0_off6 (a7 L k.val) = ![(k.val + 1) % 2] := off6_at L ⟨k.val, hk8⟩ (show k.val + 1 ≤ nn L by omega)
    have e5 : k0_off5 L (a11 L k.val) = ![w0n L + (k.val + 1), 0, 0] := off5_at L ⟨k.val, hk8⟩ hk2
    have e15 : k0_off15 (a10 k.val) = ![(k.val + 1) % 2, 0, 0] := off15_at ⟨k.val, hk8⟩ hk1
    have e17 : k0_off17 (a10 k.val) = ![(k.val + 1) % 2] := off17_at ⟨k.val, hk8⟩ hk1
    have e16 : k0_off16 L (a11 L k.val) = ![400 * (w0n L + (k.val - 1)), 0] := off16_at L ⟨k.val, hk8⟩ hk1 hkn
    have h4 : ∀ a, k0_off4 (a7 L k.val) a + S1x1x1x400.size a ≤ S2x1x1x400.size a := by rw [e4]; exact islot_inb _ hp'
    have h6 : ∀ a, k0_off6 (a7 L k.val) a + S1.size a ≤ S2.size a := by rw [e6]; exact sem_inb _ hp'
    have h5 : ∀ a, k0_off5 L (a11 L k.val) a + S1x1x400.size a ≤ S250x1x400.size a := by rw [e5]; exact iwin_inb _ hj1
    have h15 : ∀ a, k0_off15 (a10 k.val) a + S1x400x128.size a ≤ S2x400x128.size a := by rw [e15]; exact oslot_inb _ hp'
    have h17 : ∀ a, k0_off17 (a10 k.val) a + S1.size a ≤ S2.size a := by rw [e17]; exact sem_inb _ hp'
    have h16 : ∀ a, k0_off16 L (a11 L k.val) a + S400x128.size a ≤ S100000x128.size a := by rw [e16]; exact owin_inb _ hjp
    rw [inv, InCur, dif_pos hkn, InNext, OutCur, OutPrev, dif_pos ⟨hk1, le_of_lt hkn⟩, Wins, Ico_insert k.val (nn L) hkn, SparseCore.bigSep_insert' (by simp), owPts, dif_pos hj]
    iintro ⟨%hacc, Hmw, ⟨%W', %hW', HO⟩, Hsh, Hs5, ⟨%fbC, %hl, Hfin, Hrest⟩, ⟨⟨%fbN, Hbn⟩, Hsn, Htn⟩, ⟨⟨%gC, Hgc⟩, Hsc⟩, ⟨%gP, Hfout⟩, ⟨Hdone, Hwk, Htodo⟩⟩
    obtain ⟨rfl, -⟩ := hacc
    obtain ⟨hl', hin⟩ := hlist fbC hl
    ihave Hrest' := (Entails.of_eq (iwin_rest_congr (F := F) d L e8.symm (iwin_inb _ hj) h8 (tokI L (k.val % 2)) (idxV m d))) $$ Hrest
    ihave Hfin' := (Entails.of_eq (flightIn_congr (F := F) d L e9.symm e11.symm e8.symm (sem_inb _ hp) h9 (islot_inb _ hp) h11 (iwin_inb _ hj) h8 (tokI L (k.val % 2)) fbC (idxV m d))) $$ Hfin
    ihave Hbn' := (Entails.of_eq (islot_pts_congr (F := F) d L e4.symm (islot_inb _ hp') h4 fullShare fbN)) $$ Hbn
    ihave Hsn' := (Entails.of_eq (isemVal_congr (F := F) d L e6.symm (sem_inb _ hp') h6)) $$ Hsn
    ihave Hgc' := (Entails.of_eq (oslot_pts_congr (F := F) d L e10.symm (oslot_inb _ hp) h10 fullShare gC)) $$ Hgc
    ihave Hsc' := (Entails.of_eq (osemVal_congr (F := F) d L e14.symm (sem_inb _ hp) h14)) $$ Hsc
    ihave Hwk' := (Entails.of_eq (owin_pts_congr (F := F) d L e13.symm (owin_inb _ hj) h13 fullShare (m (v1Loc d)))) $$ Hwk
    ihave Hfout' := (Entails.of_eq (flightOut_congr (F := F) d L e17.symm e16.symm e15.symm (sem_inb _ hp') h17 (owin_inb _ hjp) h16 (oslot_inb _ hp') h15 (gOut m d) gP)) $$ Hfout
    iapply (wp_wand_r Idealize.ShloMosaic.frame (wpE (defs₀ (F := F)) 𝒱₀ (thr d L) none) Set.univ)
    isplitl [Hmw Hrest' Htn Hfin' Hbn' Hgc' Hwk' Hsh Hsn' Hsc' Hs5 Hfout' HO]
    · iapply (tripM (F := F) d L h2 (tokI L (k.val % 2)) (tokI L ((k.val + 1) % 2)) (tokS L) k hk1 hk2 h4 h5 h6 h9 h11 h10 h8 h13 h14 h12 h17 h15 h16 (idxV m d) fbC hin fbN gC (m (v1Loc d)) (tblSh m d (cV L)) (gOut m d) gP O W')
      isplitl [Hmw]; · iexact Hmw
      isplitl [Hrest']; · iexact Hrest'
      isplitl [Htn]; · iexact Htn
      isplitl [Hfin']; · iexact Hfin'
      isplitl [Hbn']; · iexact Hbn'
      isplitl [Hgc']; · iexact Hgc'
      isplitl [Hwk']; · iexact Hwk'
      isplitl [Hsh]; · iexact Hsh
      isplitl [Hsn']; · iexact Hsn'
      isplitl [Hsc']; · iexact Hsc'
      isplitl [Hs5]; · iexact Hs5
      isplitl [Hfout']; · iexact Hfout'
      iexact HO
    iintro %y ⟨%hy, Hmw, Htc, Hsc0, Hbc, Hfn, Hrn, Hfo, Hwp, Hgp, Hsp, Hsh, Hs5, ⟨%W'', %hW'', HO⟩⟩
    subst hy
    rw [inv, InCur, dif_pos hk2, InNext, OutCur, OutPrev, dif_pos ⟨Nat.succ_pos _, le_of_lt hk2⟩, Wins, show Finset.range (k.val + 1 - 1) = insert (k.val - 1) (Finset.range (k.val - 1)) from (by rw [Nat.add_sub_cancel]; exact range_insert k.val hk1), SparseCore.bigSep_insert' (by simp), owPts, dif_pos hjp]
    isplitr; · ipureintro; exact ⟨rfl, le_of_lt hk2⟩
    isplitl [Hmw]; · iexact Hmw
    isplitl [HO]
    · iexists W''; isplitr
      · ipureintro; intro p hp; rcases hW'' p hp with h | h
        · exact hW' p h
        · exact .inr h
      · iexact HO
    isplitl [Hsh]; · iexact Hsh
    isplitl [Hs5]; · iexact Hs5
    isplitl [Hfn Hrn]
    · iexists ((islotP _ h4).view.writes (Elt F) fbN [⟨Rect.whole S1x1x400, ReadAs.same.apply (View.read (Elt F) (iwinP _ h5).view (idxV m d))⟩])
      isplitr
      · ipureintro; intro x
        rw [← list_read_congr (F := F) d L e4 h4 (islot_inb _ hp') _ (ix1 x)]
        exact list_landed_idxV (F := F) d L m _ h4 _ h5 (w0n L + (k.val + 1)) hj1 e5 fbN x
      isplitl [Hfn]
      · iapply (Entails.of_eq (flightInNew_congr (F := F) d L e6 e4 e5 h6 (sem_inb _ hp') h4 (islot_inb _ hp') h5 (iwin_inb _ hj1) (tokI L ((k.val + 1) % 2)) _ (idxV m d)))
        iexact Hfn
      · iapply (Entails.of_eq (ixrest_congr (F := F) d L e5 h5 (iwin_inb _ hj1) (tokI L ((k.val + 1) % 2)) (idxV m d)))
        iexact Hrn
    isplitl [Hbc Hsc0 Htc]
    · isplitl [Hbc]
      · iexists fbC
        iapply (Entails.of_eq ((islot_pts_eq_islot4 (F := F) d L _ h11 fullShare fbC).symm.trans (islot_pts_congr (F := F) d L e11' h11 (islot_inb _ (mod2 _)) fullShare fbC)))
        iexact Hbc
      isplitl [Hsc0]
      · iapply (Entails.of_eq (isemVal_congr (F := F) d L e9' h9 (sem_inb _ (mod2 _))))
        iexact Hsc0
      · rw [tok_congr L hpp]; iexact Htc
    isplitl [Hgp Hsp]
    · isplitl [Hgp]
      · iexists gP
        iapply (Entails.of_eq (oslot_pts_congr (F := F) d L e15 h15 (oslot_inb _ hp') fullShare gP))
        iexact Hgp
      · iapply (Entails.of_eq (osemVal_congr (F := F) d L e17 h17 (sem_inb _ hp')))
        iexact Hsp
    isplitl [Hfo]
    · iexists ((oslotP _ h10).view.writes (Elt F) gC [⟨Rect.whole S400x128, SparseCore.gatherPayload gathers_S3x128_S400x128
          (View.read (Elt F) ((shV).slice (Rect.unit (s := S3x128) ![0, 0] S3x128.size inb_S3x128_S3x128_0_0) (fun _ => rfl)).view (tblSh m d (cV L)))
          (SparseCore.rows (View.read (Elt F) (listP _ h11).view fbC) rfl hin)⟩])
      iapply (Entails.of_eq (flightOut_congr (F := F) d L e14' e13' e12' h14 (sem_inb _ (mod2 _)) h13 (owin_inb _ hjc) h12 (oslot_inb _ (mod2 _)) (gOut m d) _))
      iapply (Entails.of_eq (congrArg (fun X : sProp 𝕄 => Transfers.Flight countersEmb (thr d L) (SemLoc.dma (osemP _ h14)) default 1638400
          iprop(X ∗ ((oslotP _ h12).view.loc (thr d L) ↦[(oslotP _ h12).view.set]{fullShare} _)))
        (win_landed_pts (F := F) d L m _ h13 (w0n L + k.val) hj e13 _ _ h10 h12 (e10.trans e12.symm) _ h11 fbC (tblSh m d (cV L)) gC (m (v1Loc d)) rfl hin hl' (fun _ => rfl) hchi fullShare)))
      iexact Hfo
    isplitl [Hwp Hdone]
    · isplitl [Hwp]
      · iapply (Entails.of_eq (owin_pts_congr (F := F) d L e16 h16 (owin_inb _ hjp) fullShare (gOut m d)))
        iexact Hwp
      · iexact Hdone
    iexact Htodo
  · -- the last trip
    have hk1 : 0 < k.val := hk1'
    have hkL : k.val + 1 = nn L := by omega
    have hjp : w0n L + (k.val - 1) < 250 := w0n_lt' L (k.val - 1) (by omega)
    have e15 : k0_off15 (a10 k.val) = ![(k.val + 1) % 2, 0, 0] := off15_at ⟨k.val, hk8⟩ hk1
    have e17 : k0_off17 (a10 k.val) = ![(k.val + 1) % 2] := off17_at ⟨k.val, hk8⟩ hk1
    have e16 : k0_off16 L (a11 L k.val) = ![400 * (w0n L + (k.val - 1)), 0] := off16_at L ⟨k.val, hk8⟩ hk1 hkn
    have h15 : ∀ a, k0_off15 (a10 k.val) a + S1x400x128.size a ≤ S2x400x128.size a := by rw [e15]; exact oslot_inb _ hp'
    have h17 : ∀ a, k0_off17 (a10 k.val) a + S1.size a ≤ S2.size a := by rw [e17]; exact sem_inb _ hp'
    have h16 : ∀ a, k0_off16 L (a11 L k.val) a + S400x128.size a ≤ S100000x128.size a := by rw [e16]; exact owin_inb _ hjp
    rw [inv, InCur, dif_pos hkn, InNext, OutCur, OutPrev, dif_pos ⟨hk1, le_of_lt hkn⟩, Wins, Ico_insert k.val (nn L) hkn, SparseCore.bigSep_insert' (by simp), owPts, dif_pos hj]
    iintro ⟨%hacc, Hmw, ⟨%W', %hW', HO⟩, Hsh, Hs5, ⟨%fbC, %hl, Hfin, Hrest⟩, ⟨⟨%fbN, Hbn⟩, Hsn, Htn⟩, ⟨⟨%gC, Hgc⟩, Hsc⟩, ⟨%gP, Hfout⟩, ⟨Hdone, Hwk, Htodo⟩⟩
    obtain ⟨rfl, -⟩ := hacc
    obtain ⟨hl', hin⟩ := hlist fbC hl
    ihave Hrest' := (Entails.of_eq (iwin_rest_congr (F := F) d L e8.symm (iwin_inb _ hj) h8 (tokI L (k.val % 2)) (idxV m d))) $$ Hrest
    ihave Hfin' := (Entails.of_eq (flightIn_congr (F := F) d L e9.symm e11.symm e8.symm (sem_inb _ hp) h9 (islot_inb _ hp) h11 (iwin_inb _ hj) h8 (tokI L (k.val % 2)) fbC (idxV m d))) $$ Hfin
    ihave Hgc' := (Entails.of_eq (oslot_pts_congr (F := F) d L e10.symm (oslot_inb _ hp) h10 fullShare gC)) $$ Hgc
    ihave Hsc' := (Entails.of_eq (osemVal_congr (F := F) d L e14.symm (sem_inb _ hp) h14)) $$ Hsc
    ihave Hwk' := (Entails.of_eq (owin_pts_congr (F := F) d L e13.symm (owin_inb _ hj) h13 fullShare (m (v1Loc d)))) $$ Hwk
    ihave Hfout' := (Entails.of_eq (flightOut_congr (F := F) d L e17.symm e16.symm e15.symm (sem_inb _ hp') h17 (owin_inb _ hjp) h16 (oslot_inb _ hp') h15 (gOut m d) gP)) $$ Hfout
    iapply (wp_wand_r Idealize.ShloMosaic.frame (wpE (defs₀ (F := F)) 𝒱₀ (thr d L) none) Set.univ)
    isplitl [Hmw Hrest' Hfin' Hgc' Hwk' Hsh Hsc' Hs5 Hfout' HO]
    · iapply (tripL (F := F) d L h2 (tokI L (k.val % 2)) (tokI L ((k.val + 1) % 2)) (tokS L) k hk1 hkL h9 h11 h10 h8 h13 h14 h12 h17 h15 h16 (idxV m d) fbC hin gC (m (v1Loc d)) (tblSh m d (cV L)) (gOut m d) gP O W')
      isplitl [Hmw]; · iexact Hmw
      isplitl [Hrest']; · iexact Hrest'
      isplitl [Hfin']; · iexact Hfin'
      isplitl [Hgc']; · iexact Hgc'
      isplitl [Hwk']; · iexact Hwk'
      isplitl [Hsh]; · iexact Hsh
      isplitl [Hsc']; · iexact Hsc'
      isplitl [Hs5]; · iexact Hs5
      isplitl [Hfout']; · iexact Hfout'
      iexact HO
    iintro %y ⟨%hy, Hmw, Htc, Hsc0, Hbc, Hfo, Hwp, Hgp, Hsp, Hsh, Hs5, ⟨%W'', %hW'', HO⟩⟩
    subst hy
    rw [inv, InCur, dif_neg (by omega), InNext, OutCur, OutPrev, dif_pos ⟨Nat.succ_pos _, le_of_eq hkL⟩, Wins, show Finset.range (k.val + 1 - 1) = insert (k.val - 1) (Finset.range (k.val - 1)) from (by rw [Nat.add_sub_cancel]; exact range_insert k.val hk1), SparseCore.bigSep_insert' (by simp), owPts, dif_pos hjp]
    isplitr; · ipureintro; exact ⟨rfl, le_of_eq hkL⟩
    isplitl [Hmw]; · iexact Hmw
    isplitl [HO]
    · iexists W''; isplitr
      · ipureintro; intro p hp; rcases hW'' p hp with h | h
        · exact hW' p h
        · exact .inr h
      · iexact HO
    isplitl [Hsh]; · iexact Hsh
    isplitl [Hs5]; · iexact Hs5
    isplitl [Hbn Hsn Htn]
    · isplitl [Hbn]
      · iexists fbN
        iapply (Entails.of_eq (islot_pts_eq_islot4 (F := F) d L _ (islot_inb _ hp') fullShare fbN))
        iexact Hbn
      isplitl [Hsn]; · iexact Hsn
      iexact Htn
    isplitl [Hbc Hsc0 Htc]
    · isplitl [Hbc]
      · iexists fbC
        iapply (Entails.of_eq ((islot_pts_eq_islot4 (F := F) d L _ h11 fullShare fbC).symm.trans (islot_pts_congr (F := F) d L e11' h11 (islot_inb _ (mod2 _)) fullShare fbC)))
        iexact Hbc
      isplitl [Hsc0]
      · iapply (Entails.of_eq (isemVal_congr (F := F) d L e9' h9 (sem_inb _ (mod2 _))))
        iexact Hsc0
      · rw [tok_congr L hpp]; iexact Htc
    isplitl [Hgp Hsp]
    · isplitl [Hgp]
      · iexists gP
        iapply (Entails.of_eq (oslot_pts_congr (F := F) d L e15 h15 (oslot_inb _ hp') fullShare gP))
        iexact Hgp
      · iapply (Entails.of_eq (osemVal_congr (F := F) d L e17 h17 (sem_inb _ hp')))
        iexact Hsp
    isplitl [Hfo]
    · iexists ((oslotP _ h10).view.writes (Elt F) gC [⟨Rect.whole S400x128, SparseCore.gatherPayload gathers_S3x128_S400x128
          (View.read (Elt F) ((shV).slice (Rect.unit (s := S3x128) ![0, 0] S3x128.size inb_S3x128_S3x128_0_0) (fun _ => rfl)).view (tblSh m d (cV L)))
          (SparseCore.rows (View.read (Elt F) (listP _ h11).view fbC) rfl hin)⟩])
      iapply (Entails.of_eq (flightOut_congr (F := F) d L e14' e13' e12' h14 (sem_inb _ (mod2 _)) h13 (owin_inb _ hjc) h12 (oslot_inb _ (mod2 _)) (gOut m d) _))
      iapply (Entails.of_eq (congrArg (fun X : sProp 𝕄 => Transfers.Flight countersEmb (thr d L) (SemLoc.dma (osemP _ h14)) default 1638400
          iprop(X ∗ ((oslotP _ h12).view.loc (thr d L) ↦[(oslotP _ h12).view.set]{fullShare} _)))
        (win_landed_pts (F := F) d L m _ h13 (w0n L + k.val) hj e13 _ _ h10 h12 (e10.trans e12.symm) _ h11 fbC (tblSh m d (cV L)) gC (m (v1Loc d)) rfl hin hl' (fun _ => rfl) hchi fullShare)))
      iexact Hfo
    isplitl [Hwp Hdone]
    · isplitl [Hwp]
      · iapply (Entails.of_eq (owin_pts_congr (F := F) d L e16 h16 (owin_inb _ hjp) fullShare (gOut m d)))
        iexact Hwp
      · iexact Hdone
    iexact Htodo

end Cert.Kernel.Tb
end
-- ==== Proof.TileBodyK.lean ====
/-
  One tile's task, whole. The subcore's scoped storage is unpacked item by item. Tile 0 copies the table into its
  SparseCore's shared scratch and waits for it; at the barrier it hands every tile (itself included) a read token of the
  filled scratch and keeps the rest, the other tiles hand over nothing, and each tile receives its token from its own
  round. Then, the same for every tile: the tile's read token of the windowed indices is split once more (one token per
  index slot), the two rings are held by slots, the first window's copy is started, and the loop runs by its invariant
  (one trip: the region obligation); after it the second loop has no trips, the two side conditions the program assumes
  of the carried counters hold for every tile, the last window's copy out is waited for, and everything is joined
  back: the tokens, the tile's windows of the output at their final contents, the rings whole, the seven semaphores
  at zero.
-/
import proofs.«207302_g55387898250011_cont_9to1_m_42_19_alg».proof.Proof.TileEndsK
import proofs.«207302_g55387898250011_cont_9to1_m_42_19_alg».proof.Proof.TileRegionK

noncomputable section

namespace Cert.Kernel.Tb

open Cert.Kernel Cert.Kernel.Gen Cert.Kernel.Lk

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.Transfers (shareDrop shareTokN shareTok pointsTo_toks pointsTo_toks_split pointsTo_toks_join pointsTo_toks_range)

variable {F : FTy → Type}

local notation "𝕄" => MT nD τ sig (HIx 1) (Elt F) ℕ UU ℕ

local notation "tbV" => (Memref.whole Cert.Kernel.main_arg1_scv : Memref Cert.Kernel.sig Kind.scVector Space.hbm Cert.Kernel.S3x128 EltTy.f32)
local notation "ixV" => (Memref.whole Cert.Kernel.main_v0_scv : Memref Cert.Kernel.sig Kind.scVector Space.hbm Cert.Kernel.S250x1x400 EltTy.i32)
local notation "oV" => (Memref.whole Cert.Kernel.main_v1_scv : Memref Cert.Kernel.sig Kind.scVector Space.hbm Cert.Kernel.S100000x128 EltTy.f32)
local notation "shV" => (Memref.whole Cert.Kernel.cc0_scratch0 : Memref Cert.Kernel.sig Kind.scVector Space.shared Cert.Kernel.S3x128 EltTy.f32)
local notation "ibV" => (Memref.whole Cert.Kernel.cc0_scoped1 : Memref Cert.Kernel.sig Kind.scVector Space.vmem Cert.Kernel.S2x1x1x400 EltTy.i32)
local notation "obV" => (Memref.whole Cert.Kernel.cc0_scoped3 : Memref Cert.Kernel.sig Kind.scVector Space.vmem Cert.Kernel.S2x400x128 EltTy.f32)

variable (m : (ℓ : Loc nD τ sig) → Buf (Elt F) ℓ)

variable [FloatOps F]

variable (d : Dev nD) (L : grid0.Coords)

/-- The region obligation at the program's own words for the window count and the first window. -/
theorem region' (h2 : k0_cond2 L = 1#1) (hchi : ∀ x, (idxV m d x).toNat < 3) (O : CellTallies nD τ sig (HIx 1)) (W : Waits sig (HIx 1))
    (v8 v13 v14 : BitVec 32) (e8 : v8 = BitVec.ofNat 32 (nn L)) (e13 : v13 = BitVec.ofNat 32 (w0n L)) (e14 : v14 = BitVec.ofNat 32 (nn L)) :
    ∀ (k : Fin (k0_t1_loop L).trips) (acc : BitVec 32 × BitVec 32 × BitVec 32 × BitVec 32 × BitVec 32),
      inv m d L O W k.val acc ⊢ wp frame (wpE (defs₀ (F := F)) 𝒱₀ (thr d L) none) Set.univ
        (k0_t1_body (F := F) L tbV (Memref.isWhole_whole _) ixV (Memref.isWhole_whole _) oV (Memref.isWhole_whole _) shV (Memref.isWhole_whole _) cc0_scoped0 ibV (Memref.isWhole_whole _) cc0_scoped2 obV (Memref.isWhole_whole _) cc0_scoped4 cc0_scoped5 cc0_scoped6 v8 v13 v14 h2 0#32 1#32 k acc)
        (fun y => inv m d L O W (k.val + 1) y) := by
  subst e8 e13 e14
  exact region m d L h2 hchi O W

set_option hygiene false in
/-- The task after the barrier, the same text for tile 0 and for the others. -/
local macro "tb_tail" W1:term : tactic => `(tactic| (
    ihave Hsh := (show (shTok m d (cV L) (jV L).val : sProp 𝕄) ⊢ ((shV).view.loc (thr d L) ↦{tokS L} tblSh m d (cV L) : sProp 𝕄) from BI.Entails.refl _) $$ Hmine
    ihave Hix := (idx_split m d L (wid (cV L).val (jV L).val)).1 $$ Hidx
    icases Hix with ⟨Hixd, Hix0, Hix1, Hix2⟩
    ihave Hib2 := (Entails.of_eq (ib_split' (F := F) d L _)) $$ Hib
    icases Hib2 with ⟨Hi0, Hi1⟩
    ihave Hob2 := (Entails.of_eq (ob_split' (F := F) d L _)) $$ Hob
    icases Hob2 with ⟨Ho0, Ho1⟩
    ihave Hi0' := (Entails.of_eq (islot_pts_congr (F := F) d L (k0_off1_eq.symm) (islot_inb 0 Nat.zero_lt_two) (k0_off1_inb L h2) fullShare _)) $$ Hi0
    sl_exec
    ihave Hpl := (prologue_landed (F := F) m d L h2 _ _ _) $$ Hs1
    icases Hpl with ⟨%fb, %hfb, Hfl⟩
    have hfb' : ∀ x : Fin 400, View.read (Elt F) (IL 0 Nat.zero_lt_two).view fb (ix1 x)
        = idxV m d (ix3 (⟨w0n L + 0, w0n_lt' L 0 (nn_pos L)⟩ : Fin 250) (0 : Fin 1) x) :=
      fun x => (hfb x).trans (PI_apply_idxV (F := F) (m := m) (d := d) (k0_off2 L) (k0_off2_inb L h2) (w0n L + 0) (w0n_lt' L 0 (nn_pos L)) (off2_eq L) x)
    rw [wp_bind]
    sl_for (fun k acc => inv m d L O $W1 k acc) $$ [Hmw2 HO Hsh Hs5 Hfl Hix1 Hi1 Hs2 Hix2 Ho0 Hs3 Ho1 Hs4 Hout]
    case region => exact region' m d L h2 hchi O $W1 _ _ _ (v8w_eq L) (v13w_eq L) (v14w_eq L)
    · iapply (inv0_intro (F := F) m d L h2 O $W1 fb _ _ _ hfb')
      isplitl [Hmw2]; · iexact Hmw2
      isplitl [HO]; · iexact HO
      isplitl [Hsh]; · iexact Hsh
      isplitl [Hs5]; · iexact Hs5
      isplitl [Hfl]; · iexact Hfl
      isplitl [Hix1]; · iexact Hix1
      isplitl [Hi1]; · iexact Hi1
      isplitl [Hs2]; · iexact Hs2
      isplitl [Hix2]; · iexact Hix2
      isplitl [Ho0]; · iexact Ho0
      isplitl [Hs3]; · iexact Hs3
      isplitl [Ho1]; · iexact Ho1
      isplitl [Hs4]; · iexact Hs4
      iexact Hout
    iintro %acc HI
    have ht1 : Scf.trips (k0_t1_loop L).lb (k0_t1_loop L).ub (k0_t1_loop L).st = nn L := trips1 L
    ihave HI1 := (Entails.of_eq (congrArg (fun n => inv m d L O $W1 n acc) ht1)) $$ HI
    ihave HI2 := (inv_exit (F := F) m d L O $W1 acc) $$ HI1
    icases HI2 with ⟨%hacc, Hmw, ⟨%W', %hW', HO⟩, Hsh, Hs5, ⟨%fi, Hib⟩, ⟨Hs1, Hs2⟩, ⟨Hix1, Hix2⟩, ⟨%gc, Hoc⟩, Hsoc, ⟨%gp, Hfl⟩, Hwins⟩
    subst hacc
    sl_exec
    sl_for (fun (_ : ℕ) acc => (iprop(⌜acc = (a7 L (nn L), a8 (nn L), a8 (nn L), a10 (nn L), a11 L (nn L))⌝) : sProp 𝕄)) $$ []
    case region => exact fun k => absurd (lt_of_lt_of_eq k.isLt (show Scf.trips (k0_t2_loop L).lb (k0_t2_loop L).ub (k0_t2_loop L).st = 0 from trips2 L)) (Nat.not_lt_zero _)
    · ipureintro; rfl
    iintro %acc2 %hacc2
    subst hacc2
    have hw8 := chk8_fin L
    have hw7 := chk7_fin L
    have h18 := cond18_all L
    sl_exec
    sl_step
    ihave Hc := (exit_close (F := F) d L _ _) $$ [Hfl Hfl_src Hoc Hsoc]
    · isplitl [Hfl]; · iexact Hfl
      isplitl [Hfl_src]; · iexact Hfl_src
      isplitl [Hoc]; · iexact Hoc
      iexact Hsoc
    icases Hc with ⟨⟨%fo2, Hob⟩, Hs3, Hs4⟩
    ihave Hidx := (idx_split m d L (wid (cV L).val (jV L).val)).2 $$ [Hixd Hix0 Hix1 Hix2]
    · isplitl [Hixd]; · iexact Hixd
      isplitl [Hix0]; · iexact Hix0
      isplitl [Hix1]; · iexact Hix1
      iexact Hix2
    ihave Hout := (wins_close (F := F) m d L) $$ [Hwins Hfl_dst]
    · isplitl [Hwins]; · iexact Hwins
      iexact Hfl_dst
    isplitl [Hidx Hout Hsh HX]
    · isplitl [Hidx]; · iexact Hidx
      isplitl [Hout]; · iexact Hout
      isplitl [Hsh]; · iexact Hsh
      iexact HX
    isplitl [Hib Hob Hbufs]
    · isplitl [Hib]; · iexists fi; iexact Hib
      isplitl [Hob]; · iexists fo2; iexact Hob
      iexact Hbufs
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexists _; isplitr
    swap; · iexact HO
    ipureintro; intro p hp
    rcases Finset.mem_insert.mp hp with hp | hp
    · exact .inr (.inl (hp ▸ rfl))
    · rcases hW' p hp with h | h
      · exact hW1 p h
      · exact .inr (.inl h)))

set_option maxHeartbeats 4000000 in
theorem tile_body : Lk.TileBody m d L := by
  unfold Lk.TileBody
  intro hF O W hO hOlev hchi
  rw [cc0_k_eq_skeleton]; unfold cc0_k_skel
  rw [k0_part7_eq_skeleton, k0_part8_eq_skeleton]; unfold k0_part7_skel k0_part8_skel
  rw [(K (F := F)).scopedBufs_V hF d (cV L) (jV L), SparseCore.Cfg.scopedSems0_V (Val := Elt F) d (cV L) (jV L), ownSems0_V, ownBufs_V]
  unfold bkit goPay tdPay
  have hO' : ∀ g, (O + oxV d (cV L)) g none = 0 := fun g => by rw [Pi.add_apply, Finsupp.add_apply, hO g, oxV_none]
  have h2 : k0_cond2 L = 1#1 := cond2_all L
  by_cases hs : (jV L).val = 0
  · have hc1 : cond1 L = 1#1 := (cond1_iff L).mpr hs
    rw [if_pos hs]
    iintro ⟨#Hlv, ⟨⟨%κ, #Hinv⟩, Htoks, #Hrch, Hat, Hcred⟩, ⟨Hidx, Hout, Ha1, ⟨%fsh, Hsh⟩⟩, ⟨⟨%fib, Hib⟩, ⟨%fob, Hob⟩, Hbufs⟩, ⟨Hs0, Hs1, Hs2, Hs3, Hs4, Hs5, Hs6⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    ihave Ha1' := (show a1Tok m d (cV L).val ⊢ ((tbV).view.loc (thr d L) ↦{shareTokN fullShare (cV L).val} m (a1Loc d) : sProp 𝕄) from BI.Entails.refl _) $$ Ha1
    ihave Hsh' := (show (shLoc d (cV L) ↦{fullShare} fsh : sProp 𝕄) ⊢ ((shV).view.loc (thr d L) ↦{fullShare} fsh : sProp 𝕄) from BI.Entails.refl _) $$ Hsh
    sl_exec
    ihave Hsh2 := (Entails.of_eq (sh_written (F := F) d L _ _)) $$ Hsh'
    have e0 : tile_body.sl.dma0 m d = tblSh m d (cV L) := rfl
    ihave Hsh3 := (Entails.of_eq (congrArg (fun w => (shLoc d (cV L) ↦{fullShare} w : sProp 𝕄)) e0)) $$ Hsh2
    ihave Hsp := (sh_split m d (cV L)) $$ Hsh3
    icases Hsp with ⟨Hkeep, Hshtoks⟩
    ihave Hpays := (pays_intro_zero m d (cV L)) $$ Hshtoks
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · rw [hs]; iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim m d (cV L) (jV L)) $$ Hgot
    ihave HX := (show iprop(((tbV).view.loc (thr d L) ↦{shareTokN fullShare (cV L).val} m (a1Loc d)) ∗ shKeep m d (cV L)) ⊢ (tile0X m d (cV L) (jV L) : sProp 𝕄) from
      Entails.of_eq (if_pos hs).symm) $$ [Ha1' Hkeep]
    · isplitl [Ha1'] <;> iassumption
    have hW1 : ∀ p ∈ (insert (SemLoc.reg sc_bar0, some (0 : Fin 1)) (insert (SemLoc.dma (0 : DmaSem sig), (default : HIx 1)) W) : Waits sig (HIx 1)),
        p ∈ W ∨ p.2 = none ∨ p.2 = some (0 : Fin 1) := fun p hp => by
      rcases Finset.mem_insert.mp hp with h | h
      · exact .inr (.inr (h ▸ rfl))
      rcases Finset.mem_insert.mp h with h | h
      · exact .inr (.inl (h ▸ rfl))
      exact .inl h
    tb_tail (insert (SemLoc.reg sc_bar0, some (0 : Fin 1)) (insert (SemLoc.dma (0 : DmaSem sig), (default : HIx 1)) W))
  · have hc1 : ¬ cond1 L = 1#1 := fun h => hs ((cond1_iff L).mp h)
    rw [if_neg hs]
    iintro ⟨#Hlv, ⟨⟨%κ, #Hinv⟩, Htoks, #Hrch, Hat, Hcred⟩, ⟨Hidx, Hout, -⟩, ⟨⟨%fib, Hib⟩, ⟨%fob, Hob⟩, Hbufs⟩, ⟨Hs0, Hs1, Hs2, Hs3, Hs4, Hs5, Hs6⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    sl_exec
    ihave Hpays := (pays_intro_other m d (cV L) hs) $$ []
    · iempintro
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hmine := (pays_elim m d (cV L) (jV L)) $$ Hgot
    ihave HX := (show (iprop(emp) : sProp 𝕄) ⊢ (tile0X m d (cV L) (jV L) : sProp 𝕄) from Entails.of_eq (if_neg hs).symm) $$ []
    · iempintro
    have hW1 : ∀ p ∈ (insert (SemLoc.reg sc_bar0, some (0 : Fin 1)) W : Waits sig (HIx 1)),
        p ∈ W ∨ p.2 = none ∨ p.2 = some (0 : Fin 1) := fun p hp => by
      rcases Finset.mem_insert.mp hp with h | h
      · exact .inr (.inr (h ▸ rfl))
      exact .inl h
    tb_tail (insert (SemLoc.reg sc_bar0, some (0 : Fin 1)) W)

end Cert.Kernel.Tb

end
-- ==== Proof.lean ====
/-
  The claim is an embedding lookup. The arguments are an index vector chi of 100000 words and a table of 3 rows of
  128 floats; the precondition says that every entry of the table is finite and that every index, read signed, is 0,
  1 or 2.

  The kernel. @main reshapes the index vector into 250 windows of 400 indices and starts one kernel on the vector
  subcores, sixteen tiles on each of two SparseCores. On each SparseCore tile 0 copies the table into the shared
  scratch and the sixteen tiles meet at a barrier, after which every tile reads the scratch. Tile s of SparseCore c is
  worker w = s + 16 c; the first 26 workers serve eight consecutive windows each and the last six seven
  (26 * 8 + 6 * 7 = 250). For window j a worker fetches the window's 400 indices, gathers from the scratch the 400
  rows they name, and writes them to rows [400 j, 400 j + 400) of the output. The windows partition the rows of the
  output and nothing else is written, so the run ends with entry (r, q) of the output at the table's entry
  (row named by chi r, q), the index word read unsigned, and with the two arguments as they were; the only side
  condition of the run is that every index names a row of the table, which is the precondition's range.

  The reference is jnp.take along axis 0: it adds 3 to a negative index, gathers the rows at the start indices clamped
  into [0, 2], and puts a NaN constant in the rows whose normalised index is outside [0, 2]. Under the precondition no
  index is negative or above 2: the normalisation and the clamp are the identity and the mask is true everywhere, so
  entry (r, q) of its result is the table's entry (chi r, q), the index read unsigned.

  Hence both programs leave the same entry of the table at (r, q): the results are equal entry by entry (the values are
  copied and never computed on, so this holds at every float instance), each program terminates without a fault with
  its arguments unchanged, and, no operation having been rewritten by the idealization, nothing is to be preserved.
-/
import proofs.«207302_g55387898250011_cont_9to1_m_42_19_alg».proof.Defs
import proofs.«207302_g55387898250011_cont_9to1_m_42_19_alg».proof.Proof.Gen.Kernel
import proofs.«207302_g55387898250011_cont_9to1_m_42_19_alg».proof.Proof.Gen.Kernel.Skeleton
import proofs.«207302_g55387898250011_cont_9to1_m_42_19_alg».proof.Proof.Gen.KernelIdeal
import proofs.«207302_g55387898250011_cont_9to1_m_42_19_alg».proof.Proof.Gen.KernelIdeal.Skeleton
import proofs.«207302_g55387898250011_cont_9to1_m_42_19_alg».proof.Proof.Gen.ReferenceIdeal
import proofs.«207302_g55387898250011_cont_9to1_m_42_19_alg».proof.Proof.Gen.Pre_input_domain
import proofs.«207302_g55387898250011_cont_9to1_m_42_19_alg».proof.Proof.RefRun
import proofs.«207302_g55387898250011_cont_9to1_m_42_19_alg».proof.Proof.Bridge
import proofs.«207302_g55387898250011_cont_9to1_m_42_19_alg».proof.Proof.Launch
import proofs.«207302_g55387898250011_cont_9to1_m_42_19_alg».proof.Proof.LaunchK
import proofs.«207302_g55387898250011_cont_9to1_m_42_19_alg».proof.Proof.TileBody
import proofs.«207302_g55387898250011_cont_9to1_m_42_19_alg».proof.Proof.TileBodyK
import Idealize.ShloMosaic.Adequacy
import Idealize.ShloMosaic.Init

noncomputable section

namespace Cert.Proof

open Idealize.ShloMosaic Idealize.SL.Sem

/-- The kernel as printed: it runs to the end without a fault and leaves its arguments as they were. The run's side
    condition, every index below 3, is the precondition's range. -/
theorem frame_Kernel : Cert.frame_Kernel := fun m g hpre =>
  (θ_run _ _ _).mono (fun _ h c => (h c).2)
    (Cert.Kernel.Lk.run_of (F := Bits) m g
      (fun d => Cert.Kernel.Lk.idxV_lt m d fun i => Cert.ReferenceIdeal.RefValue.chi_toNat_lt _ _ (hpre d) i)
      (fun d L => Cert.Kernel.Tb.tile_body m d L))

/-- The idealized kernel likewise. -/
theorem frame_KernelIdeal : Cert.frame_KernelIdeal := fun m g hpre =>
  (θ_run _ _ _).mono (fun _ h c => (h c).2)
    (Cert.KernelIdeal.Lk.run_of (F := Ideal) m g (Cert.KernelIdeal.Bridge.pre_chi m hpre)
      (fun d L => Cert.KernelIdeal.Tb.tile_body m d L))

/-- The reference is a straight line of host operations: it runs to the end from any memory. -/
theorem frame_ReferenceIdeal : Cert.frame_ReferenceIdeal := fun m g _ =>
  (θ_run _ _ _).mono (fun _ h c => (h c).2) (Cert.ReferenceIdeal.RefValue.run (F := Ideal) m g)

/-- The idealization rewrote no operation. -/
theorem preserves : Cert.preserves_Kernel_KernelIdeal := trivial

/-- Both programs end with the table's rows at the indices: the kernel's output is that array by its run, the
    reference's result is its value of its own arguments, which are the kernel's, and under the precondition that value
    is the same array. -/
theorem algebraic : Cert.algebraic_KernelIdeal_ReferenceIdeal := fun m g m' g' hpre hagree =>
  ⟨fun c => Cert.KernelIdeal.Lk.gOut m c,
    Cert.KernelIdeal.Lk.run_of (F := Ideal) m g (Cert.KernelIdeal.Bridge.pre_chi m hpre)
      (fun d L => Cert.KernelIdeal.Tb.tile_body m d L),
    (θ_run _ _ _).mono
      (fun _ h c => ⟨(h c).1.trans
          (Cert.KernelIdeal.Bridge.refVal_eq_gOut_of_pre m c (hpre c) _ _ (hagree c).1 (hagree c).2), (h c).2⟩)
      (Cert.ReferenceIdeal.RefValue.run (F := Ideal) m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
